-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S128x2 : Shape := ⟨2, ![128, 2]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32 .f32) (main_arg5 : FVec F S1x32 .f32) (main_arg6 : FVec F S1 .f32) (main_arg7 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S1024 .f32) (main_arg1 : FVec F S128x2 .f32) (main_arg2 : FVec F S128 .f32) (main_arg3 : FVec F S32x128 .f32) (main_arg4 : FVec F S32 .f32) (main_arg5 : FVec F S1x32 .f32) (main_arg6 : FVec F S1 .f32) (main_arg7 : FVec F S1 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_v13 main_v16
-- ==== Kernel.lean ====
abbrev S1024 : Shape := ⟨1, ![1024]⟩
abbrev S128x2 : Shape := ⟨2, ![128, 2]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x1 : Shape := ⟨2, ![1, 1]⟩
abbrev S1024x1024 : Shape := ⟨2, ![1024, 1024]⟩
abbrev S128x128 : Shape := ⟨2, ![128, 128]⟩
abbrev S128x1 : Shape := ⟨2, ![128, 1]⟩
abbrev S1x128 : Shape := ⟨2, ![1, 128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S128x32 : Shape := ⟨2, ![128, 32]⟩
abbrev S16384x32 : Shape := ⟨2, ![16384, 32]⟩
abbrev S32x1 : Shape := ⟨2, ![32, 1]⟩
abbrev S16384x1 : Shape := ⟨2, ![16384, 1]⟩
abbrev S16384 : Shape := ⟨1, ![16384]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S1024, .f32⟩
  | .hbm, ⟨1, _⟩ => ⟨S128x2, .f32⟩
  | .hbm, ⟨2, _⟩ => ⟨S128, .f32⟩
  | .hbm, ⟨3, _⟩ => ⟨S32x128, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S1, .f32⟩
  | .hbm, ⟨8, _⟩ => ⟨S1x1, .f32⟩
  | .hbm, ⟨9, _⟩ => ⟨S1024x1024, .f32⟩
  | .hbm, ⟨10, _⟩ => ⟨S1024x1024, .f32⟩
  | .local _ .vmem, ⟨0, _⟩ => ⟨S128, .f32⟩
  | .local _ .vmem, ⟨1, _⟩ => ⟨S128, .f32⟩
  | .local _ .vmem, ⟨2, _⟩ => ⟨S128, .f32⟩
  | .local _ .vmem, ⟨3, _⟩ => ⟨S128, .f32⟩
  | .local _ .vmem, ⟨4, _⟩ => ⟨S128x2, .f32⟩
  | .local _ .vmem, ⟨5, _⟩ => ⟨S128, .f32⟩
  | .local _ .vmem, ⟨6, _⟩ => ⟨S32x128, .f32⟩
  | .local _ .vmem, ⟨7, _⟩ => ⟨S32, .f32⟩
  | .local _ .vmem, ⟨8, _⟩ => ⟨S1x32, .f32⟩
  | .local _ .vmem, ⟨9, _⟩ => ⟨S1, .f32⟩
  | .local _ .vmem, ⟨10, _⟩ => ⟨S1x1, .f32⟩
  | .local _ .vmem, ⟨11, _⟩ => ⟨S128x128, .f32⟩
  | .local _ .vmem, ⟨12, _⟩ => ⟨S128x128, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 2, 2], ![false, false, false]⟩

def k1_cond2 (i : grid1.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S1_S1x1 : S1.ShapeCasts S1x1
  inb_S128_S128_0 : ∀ a, (![0] : Fin 1 → Nat) a + S128.size a ≤ S128.size a
  h_S128 : 0 < S128.numel
  inb_S128x2_S128x2_0_0 : ∀ a, (![0, 0] : Fin 2 → Nat) a + S128x2.size a ≤ S128x2.size a
  h_S128x2 : 0 < S128x2.numel
  inb_S32x128_S32x128_0_0 : ∀ a, (![0, 0] : Fin 2 → Nat) a + S32x128.size a ≤ S32x128.size a
  h_S32x128 : 0 < S32x128.numel
  inb_S32_S32_0 : ∀ a, (![0] : Fin 1 → Nat) a + S32.size a ≤ S32.size a
  h_S32 : 0 < S32.numel
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128_S128x1 : S128.ShapeCasts S128x1
  slices_S128x2_o0_0_S128x1 : S128x2.Slices ![0, 0] S128x1
  shapeCasts_S128x1_S128 : S128x1.ShapeCasts S128
  shapeCasts_S128_S1x128 : S128.ShapeCasts S1x128
  broadcasts_S128x1_S128x128 : S128x1.Broadcasts S128x128
  broadcasts_S1x128_S128x128 : S1x128.Broadcasts S128x128
  slices_S128x2_o0_1_S128x1 : S128x2.Slices ![0, 1] S128x1
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  bitsLt_bf16_f32 : FTy.bits .bf16 < FTy.bits .f32
  transposes_S32x128_p1_0_S128x32 : S32x128.Transposes [1, 0] S128x32
  shapeCasts_S32_S1x32 : S32.ShapeCasts S1x32
  broadcasts_S1x32_S16384x32 : S1x32.Broadcasts S16384x32
  transposes_S1x32_p1_0_S32x1 : S1x32.Transposes [1, 0] S32x1
  broadcasts_S1x1_S16384x1 : S1x1.Broadcasts S16384x1
  shapeCasts_S16384x1_S16384 : S16384x1.ShapeCasts S16384
  shapeCasts_S16384_S128x128 : S16384.ShapeCasts S128x128
  iota_S128x128_d0_w32 : S128x128.Iotas .tc 32 [0]
  iota_S128x128_d1_w32 : S128x128.Iotas .tc 32 [1]
  inb_S128x128_S128x128_0_0 : ∀ a, (![0, 0] : Fin 2 → Nat) a + S128x128.size a ≤ S128x128.size a
  h_S128x128 : 0 < S128x128.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S16384x128_S128x32_S16384x32_1_0_0_1_n_n_wf : DotDims.WF S16384x128 S128x32 S16384x32 [1] [0] [0] [1] [] []
  dot_S16384x32_S32x1_S16384x1_1_0_0_1_n_n_wf : DotDims.WF S16384x32 S32x1 S16384x1 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S1024.size a
  hwx0_0 : ∀ i : grid0.Coords, EltTy.bits .f32 = 32 ∨ (Rect.block (s := S1024) S128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S1024.size a
  hwx0_1 : ∀ i : grid0.Coords, EltTy.bits .f32 = 32 ∨ (Rect.block (s := S1024) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S128x2.size a
  hwx0_2 : ∀ i : grid0.Coords, EltTy.bits .f32 = 32 ∨ (Rect.block (s := S128x2) S128x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S1024x1024.size a
  hwx0_9 : ∀ i : grid0.Coords, EltTy.bits .f32 = 32 ∨ (Rect.block (s := S1024x1024) S128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S1024x1024.size a
  hwx1_0 : ∀ i : grid1.Coords, EltTy.bits .f32 = 32 ∨ (Rect.block (s := S1024x1024) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S1024x1024.size a
  hwx1_1 : ∀ i : grid1.Coords, EltTy.bits .f32 = 32 ∨ (Rect.block (s := S1024x1024) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S1024x1024.size a
  hwx1_2 : ∀ i : grid1.Coords, EltTy.bits .f32 = 32 ∨ (Rect.block (s := S1024x1024) S512x512.size (cc1_transform_2 i) (hinb1_2 i)).WholeWords (EltTy.packing .f32)

variable [Facts₀]

def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1024 : Shape := ⟨1, ![1024]⟩
abbrev S128x2 : Shape := ⟨2, ![128, 2]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩
abbrev S1024x1024 : Shape := ⟨2, ![1024, 1024]⟩
abbrev S1048576 : Shape := ⟨1, ![1048576]⟩
abbrev S524800 : Shape := ⟨1, ![524800]⟩
abbrev S1048576x1 : Shape := ⟨2, ![1048576, 1]⟩
abbrev S524800x1 : Shape := ⟨2, ![524800, 1]⟩
abbrev S524800x2 : Shape := ⟨2, ![524800, 2]⟩
abbrev S2x128 : Shape := ⟨2, ![2, 128]⟩
abbrev S524800x128 : Shape := ⟨2, ![524800, 128]⟩
abbrev S1x128 : Shape := ⟨2, ![1, 128]⟩
abbrev S128x32 : Shape := ⟨2, ![128, 32]⟩
abbrev S524800x32 : Shape := ⟨2, ![524800, 32]⟩
abbrev S32x1 : Shape := ⟨2, ![32, 1]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S1024, .f32⟩
  | 1 => ⟨S128x2, .f32⟩
  | 2 => ⟨S128, .f32⟩
  | 3 => ⟨S32x128, .f32⟩
  | 4 => ⟨S32, .f32⟩
  | 5 => ⟨S1x32, .f32⟩
  | 6 => ⟨S1, .f32⟩
  | 7 => ⟨S1, .f32⟩
  | 8 => ⟨S_, .f32⟩
  | 9 => ⟨S1024x1024, .f32⟩
  | 10 => ⟨S1024x1024, .i32⟩
  | 11 => ⟨S_, .i32⟩
  | 12 => ⟨S1024x1024, .i32⟩
  | 13 => ⟨S1024x1024, .i32⟩
  | 14 => ⟨S1024x1024, .i32⟩
  | 15 => ⟨S1024x1024, .i1⟩
  | 16 => ⟨S_, .f32⟩
  | 17 => ⟨S1024x1024, .f32⟩
  | 18 => ⟨S1024x1024, .f32⟩
  | 19 => ⟨S_, .f32⟩
  | 20 => ⟨S1024x1024, .f32⟩
  | 21 => ⟨S1024x1024, .i1⟩
  | 22 => ⟨S1048576, .i1⟩
  | 23 => ⟨S1048576, .i32⟩
  | 24 => ⟨S_, .i32⟩
  | 25 => ⟨S_, .i32⟩
  | 26 => ⟨S1048576, .i32⟩
  | 27 => ⟨S_, .i32⟩
  | 28 => ⟨S524800, .i32⟩
  | 29 => ⟨S_, .i32⟩
  | 30 => ⟨S_, .i32⟩
  | 31 => ⟨S1048576, .i32⟩
  | 32 => ⟨S1048576, .i32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S1048576x1, .i32⟩
  | 41 => ⟨S_, .i32⟩
  | 42 => ⟨S1048576, .i32⟩
  | 43 => ⟨S524800, .i32⟩
  | 44 => ⟨S_, .i32⟩
  | 45 => ⟨S_, .i32⟩
  | 46 => ⟨S524800, .i32⟩
  | 47 => ⟨S_, .i32⟩
  | 48 => ⟨S524800, .i32⟩
  | 49 => ⟨S524800, .i32⟩
  | 50 => ⟨S524800, .i32⟩
  | 51 => ⟨S_, .i32⟩
  | 52 => ⟨S524800, .i32⟩
  | 53 => ⟨S524800, .i1⟩
  | 54 => ⟨S524800, .i32⟩
  | 55 => ⟨S524800, .i32⟩
  | 56 => ⟨S_, .i32⟩
  | 57 => ⟨S524800, .i32⟩
  | 58 => ⟨S524800, .i1⟩
  | 59 => ⟨S524800, .i1⟩
  | 60 => ⟨S_, .i32⟩
  | 61 => ⟨S524800, .i32⟩
  | 62 => ⟨S524800, .i32⟩
  | 63 => ⟨S524800, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S524800, .i32⟩
  | 71 => ⟨S524800, .i32⟩
  | 72 => ⟨S_, .i32⟩
  | 73 => ⟨S524800, .i32⟩
  | 74 => ⟨S524800, .i1⟩
  | 75 => ⟨S_, .i32⟩
  | 76 => ⟨S524800, .i32⟩
  | 77 => ⟨S524800, .i1⟩
  | 78 => ⟨S_, .i32⟩
  | 79 => ⟨S_, .i1⟩
  | 80 => ⟨S524800, .i1⟩
  | 81 => ⟨S524800, .i1⟩
  | 82 => ⟨S524800, .i1⟩
  | 83 => ⟨S524800, .i32⟩
  | 84 => ⟨S524800, .i32⟩
  | 85 => ⟨S524800, .i32⟩
  | 86 => ⟨S_, .i32⟩
  | 87 => ⟨S524800, .i32⟩
  | 88 => ⟨S524800, .i32⟩
  | 89 => ⟨S524800, .i32⟩
  | 90 => ⟨S_, .i32⟩
  | 91 => ⟨S524800, .i32⟩
  | 92 => ⟨S524800, .i1⟩
  | 93 => ⟨S524800, .i32⟩
  | 94 => ⟨S524800, .i32⟩
  | 95 => ⟨S_, .i32⟩
  | 96 => ⟨S524800, .i32⟩
  | 97 => ⟨S524800, .i1⟩
  | 98 => ⟨S524800, .i1⟩
  | 99 => ⟨S_, .i32⟩
  | 100 => ⟨S524800, .i32⟩
  | 101 => ⟨S524800, .i32⟩
  | 102 => ⟨S524800, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S524800, .i32⟩
  | 110 => ⟨S524800, .i32⟩
  | 111 => ⟨S_, .i32⟩
  | 112 => ⟨S524800, .i32⟩
  | 113 => ⟨S524800, .i1⟩
  | 114 => ⟨S_, .i32⟩
  | 115 => ⟨S524800, .i32⟩
  | 116 => ⟨S524800, .i1⟩
  | 117 => ⟨S_, .i32⟩
  | 118 => ⟨S_, .i1⟩
  | 119 => ⟨S524800, .i1⟩
  | 120 => ⟨S524800, .i1⟩
  | 121 => ⟨S524800, .i1⟩
  | 122 => ⟨S524800, .i32⟩
  | 123 => ⟨S524800, .i32⟩
  | 124 => ⟨S524800, .i32⟩
  | 125 => ⟨S_, .i32⟩
  | 126 => ⟨S524800, .i32⟩
  | 127 => ⟨S524800, .i1⟩
  | _ => ⟨S1024, .f32⟩

abbrev hbmTy0_1 (i : Nat) : BufTy := match i % 128 with
  | 0 => ⟨S_, .i32⟩
  | 1 => ⟨S524800, .i32⟩
  | 2 => ⟨S524800, .i32⟩
  | 3 => ⟨S524800, .i32⟩
  | 4 => ⟨S524800x1, .i32⟩
  | 5 => ⟨S524800, .f32⟩
  | 6 => ⟨S_, .i32⟩
  | 7 => ⟨S524800, .i32⟩
  | 8 => ⟨S524800, .i1⟩
  | 9 => ⟨S_, .i32⟩
  | 10 => ⟨S524800, .i32⟩
  | 11 => ⟨S524800, .i32⟩
  | 12 => ⟨S524800, .i32⟩
  | 13 => ⟨S524800x1, .i32⟩
  | 14 => ⟨S524800, .f32⟩
  | 15 => ⟨S524800x1, .f32⟩
  | 16 => ⟨S524800x1, .f32⟩
  | 17 => ⟨S524800x2, .f32⟩
  | 18 => ⟨S2x128, .f32⟩
  | 19 => ⟨S524800x128, .f32⟩
  | 20 => ⟨S1x128, .f32⟩
  | 21 => ⟨S524800x128, .f32⟩
  | 22 => ⟨S524800x128, .f32⟩
  | 23 => ⟨S524800x128, .f32⟩
  | 24 => ⟨S128x32, .f32⟩
  | 25 => ⟨S524800x32, .f32⟩
  | 26 => ⟨S1x32, .f32⟩
  | 27 => ⟨S524800x32, .f32⟩
  | 28 => ⟨S524800x32, .f32⟩
  | 29 => ⟨S_, .f32⟩
  | 30 => ⟨S524800x32, .f32⟩
  | 31 => ⟨S524800x32, .f32⟩
  | 32 => ⟨S32x1, .f32⟩
  | 33 => ⟨S524800x1, .f32⟩
  | 34 => ⟨S1x1, .f32⟩
  | 35 => ⟨S524800x1, .f32⟩
  | 36 => ⟨S524800x1, .f32⟩
  | 37 => ⟨S524800, .f32⟩
  | 38 => ⟨S1024x1024, .i32⟩
  | 39 => ⟨S1024x1024, .i32⟩
  | 40 => ⟨S_, .i32⟩
  | 41 => ⟨S1024x1024, .i32⟩
  | 42 => ⟨S1024x1024, .i32⟩
  | 43 => ⟨S1024x1024, .i1⟩
  | 44 => ⟨S1024x1024, .f32⟩
  | 45 => ⟨S524800, .i1⟩
  | 46 => ⟨S_, .f32⟩
  | 47 => ⟨S_, .f32⟩
  | 48 => ⟨S524800, .f32⟩
  | 49 => ⟨S524800, .f32⟩
  | 50 => ⟨S_, .i32⟩
  | 51 => ⟨S524800, .i32⟩
  | 52 => ⟨S524800, .i1⟩
  | 53 => ⟨S_, .i32⟩
  | 54 => ⟨S524800, .i32⟩
  | 55 => ⟨S524800, .i32⟩
  | 56 => ⟨S524800, .i32⟩
  | 57 => ⟨S_, .i32⟩
  | 58 => ⟨S524800, .i32⟩
  | 59 => ⟨S524800, .i1⟩
  | 60 => ⟨S_, .i32⟩
  | 61 => ⟨S524800, .i32⟩
  | 62 => ⟨S524800, .i32⟩
  | 63 => ⟨S524800, .i32⟩
  | 64 => ⟨S524800x1, .i32⟩
  | 65 => ⟨S524800x1, .i32⟩
  | 66 => ⟨S524800x2, .i32⟩
  | 67 => ⟨S1024x1024, .f32⟩
  | 68 => ⟨S_, .f32⟩
  | 69 => ⟨S_, .f32⟩
  | 70 => ⟨S1024x1024, .f32⟩
  | 71 => ⟨S1024x1024, .f32⟩
  | 72 => ⟨S1024x1024, .f32⟩
  | 73 => ⟨S1024x1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_call1_call0_c : Ref sig .tc := ⟨.hbm, 24, rfl⟩
abbrev main_call1_call0_v0 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_call3_call0_c : Ref sig .tc := ⟨.hbm, 44, rfl⟩
abbrev main_call3_call0_v0 : Ref sig .tc := ⟨.hbm, 45, rfl⟩
abbrev main_v15 : Ref sig .tc := ⟨.hbm, 46, rfl⟩
abbrev main_c_5 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_v6 : Ref sig .tc := ⟨.hbm, 54, rfl⟩
abbrev main_call4_v7 : Ref sig .tc := ⟨.hbm, 55, rfl⟩
abbrev main_call4_c : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_c_0 : Ref sig .tc := ⟨.hbm, 60, rfl⟩
abbrev main_call4_v11 : Ref sig .tc := ⟨.hbm, 61, rfl⟩
abbrev main_call4_v12 : Ref sig .tc := ⟨.hbm, 62, rfl⟩
abbrev main_v16 : Ref sig .tc := ⟨.hbm, 63, rfl⟩
abbrev main_c_6 : Ref sig .tc := ⟨.hbm, 64, rfl⟩
abbrev main_call5_v0 : Ref sig .tc := ⟨.hbm, 65, rfl⟩
abbrev main_call5_c : Ref sig .tc := ⟨.hbm, 66, rfl⟩
abbrev main_call5_v1 : Ref sig .tc := ⟨.hbm, 67, rfl⟩
abbrev main_call5_c_0 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_c_1 : Ref sig .tc := ⟨.hbm, 72, rfl⟩
abbrev main_call5_v5 : Ref sig .tc := ⟨.hbm, 73, rfl⟩
abbrev main_call5_v6 : Ref sig .tc := ⟨.hbm, 74, rfl⟩
abbrev main_call5_c_2 : Ref sig .tc := ⟨.hbm, 75, rfl⟩
abbrev main_call5_v7 : Ref sig .tc := ⟨.hbm, 76, rfl⟩
abbrev main_call5_v8 : Ref sig .tc := ⟨.hbm, 77, rfl⟩
abbrev main_call5_c_3 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_v12 : Ref sig .tc := ⟨.hbm, 82, rfl⟩
abbrev main_call5_v13 : Ref sig .tc := ⟨.hbm, 83, rfl⟩
abbrev main_call5_v14 : Ref sig .tc := ⟨.hbm, 84, rfl⟩
abbrev main_v17 : Ref sig .tc := ⟨.hbm, 85, rfl⟩
abbrev main_c_7 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_v6 : Ref sig .tc := ⟨.hbm, 93, rfl⟩
abbrev main_call6_v7 : Ref sig .tc := ⟨.hbm, 94, rfl⟩
abbrev main_call6_c : Ref sig .tc := ⟨.hbm, 95, rfl⟩
abbrev main_call6_v8 : Ref sig .tc := ⟨.hbm, 96, rfl⟩
abbrev main_call6_v9 : Ref sig .tc := ⟨.hbm, 97, rfl⟩
abbrev main_call6_v10 : Ref sig .tc := ⟨.hbm, 98, rfl⟩
abbrev main_call6_c_0 : Ref sig .tc := ⟨.hbm, 99, rfl⟩
abbrev main_call6_v11 : Ref sig .tc := ⟨.hbm, 100, rfl⟩
abbrev main_call6_v12 : Ref sig .tc := ⟨.hbm, 101, rfl⟩
abbrev main_v18 : Ref sig .tc := ⟨.hbm, 102, rfl⟩
abbrev main_c_8 : Ref sig .tc := ⟨.hbm, 103, rfl⟩
abbrev main_call7_v0 : Ref sig .tc := ⟨.hbm, 104, rfl⟩
abbrev main_call7_c : Ref sig .tc := ⟨.hbm, 105, rfl⟩
abbrev main_call7_v1 : Ref sig .tc := ⟨.hbm, 106, rfl⟩
abbrev main_call7_c_0 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_call7_c_1 : Ref sig .tc := ⟨.hbm, 111, rfl⟩
abbrev main_call7_v5 : Ref sig .tc := ⟨.hbm, 112, rfl⟩
abbrev main_call7_v6 : Ref sig .tc := ⟨.hbm, 113, rfl⟩
abbrev main_call7_c_2 : Ref sig .tc := ⟨.hbm, 114, rfl⟩
abbrev main_call7_v7 : Ref sig .tc := ⟨.hbm, 115, rfl⟩
abbrev main_call7_v8 : Ref sig .tc := ⟨.hbm, 116, rfl⟩
abbrev main_call7_c_3 : Ref sig .tc := ⟨.hbm, 117, rfl⟩
abbrev main_call7_v9 : Ref sig .tc := ⟨.hbm, 118, rfl⟩
abbrev main_call7_v10 : Ref sig .tc := ⟨.hbm, 119, rfl⟩
abbrev main_call7_v11 : Ref sig .tc := ⟨.hbm, 120, rfl⟩
abbrev main_call7_v12 : Ref sig .tc := ⟨.hbm, 121, rfl⟩
abbrev main_call7_v13 : Ref sig .tc := ⟨.hbm, 122, rfl⟩
abbrev main_call7_v14 : Ref sig .tc := ⟨.hbm, 123, rfl⟩
abbrev main_v19 : Ref sig .tc := ⟨.hbm, 124, rfl⟩
abbrev main_c_9 : Ref sig .tc := ⟨.hbm, 125, rfl⟩
abbrev main_v20 : Ref sig .tc := ⟨.hbm, 126, rfl⟩
abbrev main_v21 : Ref sig .tc := ⟨.hbm, 127, rfl⟩
abbrev main_c_10 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_c_11 : Ref sig .tc := ⟨.hbm, 134, rfl⟩
abbrev main_v27 : Ref sig .tc := ⟨.hbm, 135, rfl⟩
abbrev main_v28 : Ref sig .tc := ⟨.hbm, 136, rfl⟩
abbrev main_c_12 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_call8_cst : Ref sig .tc := ⟨.hbm, 157, rfl⟩
abbrev main_call8_v0 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_c_13 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_cst_14 : Ref sig .tc := ⟨.hbm, 174, rfl⟩
abbrev main_call9_v0 : Ref sig .tc := ⟨.hbm, 175, rfl⟩
abbrev main_call9_v1 : Ref sig .tc := ⟨.hbm, 176, rfl⟩
abbrev main_v62 : Ref sig .tc := ⟨.hbm, 177, rfl⟩
abbrev main_c_15 : Ref sig .tc := ⟨.hbm, 178, rfl⟩
abbrev main_v63 : Ref sig .tc := ⟨.hbm, 179, rfl⟩
abbrev main_v64 : Ref sig .tc := ⟨.hbm, 180, rfl⟩
abbrev main_c_16 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_c_17 : Ref sig .tc := ⟨.hbm, 185, rfl⟩
abbrev main_v68 : Ref sig .tc := ⟨.hbm, 186, rfl⟩
abbrev main_v69 : Ref sig .tc := ⟨.hbm, 187, rfl⟩
abbrev main_c_18 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S524800 : S_.BroadcastsInDim S524800 (![] : Fin 0 → Fin S524800.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S524800_S524800_w524800s1p524799_0 : S524800.ReduceWindows (![524800] : Fin 1 → Nat) ![1] ![524799] ![0] S524800
  bcast_S524800_S524800x1_0 : S524800.BroadcastsInDim S524800x1 (![0] : Fin 1 → Fin S524800x1.rank)
  concatenates_S524800x1_S524800x1_S524800x2_d1 : Shape.Concatenates [S524800x1, S524800x1] S524800x2 1
  transposes_S128x2_S2x128_1_0 : S128x2.Transposes [1, 0] S2x128
  bcast_S128_S1x128_1 : S128.BroadcastsInDim S1x128 (![1] : Fin 1 → Fin S1x128.rank)
  bcast_S1x128_S524800x128_0_1 : S1x128.BroadcastsInDim S524800x128 (![0, 1] : Fin 2 → Fin S524800x128.rank)
  transposes_S32x128_S128x32_1_0 : S32x128.Transposes [1, 0] S128x32
  bcast_S32_S1x32_1 : S32.BroadcastsInDim S1x32 (![1] : Fin 1 → Fin S1x32.rank)
  bcast_S1x32_S524800x32_0_1 : S1x32.BroadcastsInDim S524800x32 (![0, 1] : Fin 2 → Fin S524800x32.rank)
  bcast_S_S524800x32 : S_.BroadcastsInDim S524800x32 (![] : Fin 0 → Fin S524800x32.rank)
  transposes_S1x32_S32x1_1_0 : S1x32.Transposes [1, 0] S32x1
  bcast_S1_S1x1_1 : S1.BroadcastsInDim S1x1 (![1] : Fin 1 → Fin S1x1.rank)
  bcast_S1x1_S524800x1_0_1 : S1x1.BroadcastsInDim S524800x1 (![0, 1] : Fin 2 → Fin S524800x1.rank)
  shapeCasts_S524800x1_S524800 : S524800x1.ShapeCasts S524800
  shapeCasts_S1_S_ : S1.ShapeCasts S_
  transposes_S1024x1024_S1024x1024_1_0 : S1024x1024.Transposes [1, 0] S1024x1024
  scatter_S524800_S1048576x1_S1048576_n_0_0_1_wf : ScatterDims.WF S524800 S1048576x1 S1048576 [] [0] [0] 1
  gather_S1024_S524800x1_S524800_n_0_n_n_0_1_1_wf : GatherDims.WF S1024 S524800x1 S524800 [] [0] [] [0] [] 1 ![1]
  dot_S524800x2_S2x128_S524800x128_1_0_0_1_n_n_wf : DotDims.WF S524800x2 S2x128 S524800x128 [1] [0] [0] [1] [] []
  dot_S524800x128_S128x32_S524800x32_1_0_0_1_n_n_wf : DotDims.WF S524800x128 S128x32 S524800x32 [1] [0] [0] [1] [] []
  dot_S524800x32_S32x1_S524800x1_1_0_0_1_n_n_wf : DotDims.WF S524800x32 S32x1 S524800x1 [1] [0] [0] [1] [] []
  scatter_S1024x1024_S524800x2_S524800_n_01_01_1_wf : ScatterDims.WF S1024x1024 S524800x2 S524800 [] [0, 1] [0, 1] 1
  dot_S1024x1024_S1024x1024_S1024x1024_1_0_0_1_n_n_wf : DotDims.WF S1024x1024 S1024x1024 S1024x1024 [1] [0] [0] [1] [] []

variable [Facts₀]

def scatter_S524800_S1048576x1_S1048576_n_0_0_1 : ScatterDims S524800 S1048576x1 S1048576 where
  updateWindowDims := []
  insertedWindowDims := [0]
  scatterDimsToOperandDims := [0]
  indexVectorDim := 1
  wf := scatter_S524800_S1048576x1_S1048576_n_0_0_1_wf
def gather_S1024_S524800x1_S524800_n_0_n_n_0_1_1 : GatherDims S1024 S524800x1 S524800 where
  offsetDims := []
  collapsedSliceDims := [0]
  operandBatchingDims := []
  startIndicesBatchingDims := []
  startIndexMap := [0]
  indexVectorDim := 1
  sliceSizes := ![1]
  wf := gather_S1024_S524800x1_S524800_n_0_n_n_0_1_1_wf
def dot_S524800x2_S2x128_S524800x128_1_0_0_1_n_n : DotDims S524800x2 S2x128 S524800x128 where
  lhsContracting := [1]
  rhsContracting := [0]
  lhsNonContracting := [0]
  rhsNonContracting := [1]
  lhsBatch := []
  rhsBatch := []
  wf := dot_S524800x2_S2x128_S524800x128_1_0_0_1_n_n_wf
def dot_S524800x128_S128x32_S524800x32_1_0_0_1_n_n : DotDims S524800x128 S128x32 S524800x32 where
  lhsContracting := [1]
  rhsContracting := [0]
  lhsNonContracting := [0]
  rhsNonContracting := [1]
  lhsBatch := []
  rhsBatch := []
  wf := dot_S524800x128_S128x32_S524800x32_1_0_0_1_n_n_wf
def dot_S524800x32_S32x1_S524800x1_1_0_0_1_n_n : DotDims S524800x32 S32x1 S524800x1 where
  lhsContracting := [1]
  rhsContracting := [0]
  lhsNonContracting := [0]
  rhsNonContracting := [1]
  lhsBatch := []
  rhsBatch := []
  wf := dot_S524800x32_S32x1_S524800x1_1_0_0_1_n_n_wf
def scatter_S1024x1024_S524800x2_S524800_n_01_01_1 : ScatterDims S1024x1024 S524800x2 S524800 where
  updateWindowDims := []
  insertedWindowDims := [0, 1]
  scatterDimsToOperandDims := [0, 1]
  indexVectorDim := 1
  wf := scatter_S1024x1024_S524800x2_S524800_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.BBody0.lean ====
/-
  The first kernel's body as one step: on whole staging buffers holding the nine input blocks
  (a block of 128 row times, a block of 128 column times, the three layers' weights and biases, the scale)
  it leaves every input as found and the 128 x 128 output buffer at one covering store of the masked,
  scaled pairwise network — a pure function of the inputs' contents and of the grid point (the mask
  compares global row and column numbers, which start at 128 times the point's coordinates).
-/
import proofs.«163482_j91182155694480_1_alg».proof.Proof.Gen.Kernel.Launch
import proofs.«163482_j91182155694480_1_alg».proof.Proof.Gen.Kernel.Skeleton
import proofs.«163482_j91182155694480_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every buffer whole -/

abbrev rS128 : Rect S128 := Rect.unit (s := S128) ![0] S128.size inb_S128_S128_0
abbrev rS128x2 : Rect S128x2 := Rect.unit (s := S128x2) ![0, 0] S128x2.size inb_S128x2_S128x2_0_0
abbrev rS32x128 : Rect S32x128 := Rect.unit (s := S32x128) ![0, 0] S32x128.size inb_S32x128_S32x128_0_0
abbrev rS32 : Rect S32 := Rect.unit (s := S32) ![0] S32.size inb_S32_S32_0
abbrev rS1x32 : Rect S1x32 := Rect.unit (s := S1x32) ![0, 0] S1x32.size inb_S1x32_S1x32_0_0
abbrev rS1 : Rect S1 := Rect.unit (s := S1) ![0] S1.size inb_S1_S1_0
abbrev rS1x1 : Rect S1x1 := Rect.unit (s := S1x1) ![0, 0] S1x1.size inb_S1x1_S1x1_0_0
abbrev rS128x128 : Rect S128x128 := Rect.unit (s := S128x128) ![0, 0] S128x128.size inb_S128x128_S128x128_0_0

/-- The tile the body stores: the masked, scaled network on the loaded blocks, at grid point `i`. -/
def tile0 (i : grid0.Coords) (x0 x1 : Vec F S128 .f32) (x2 : Vec F S128x2 .f32) (x3 : Vec F S128 .f32) (x4 : Vec F S32x128 .f32)
    (x5 : Vec F S32 .f32) (x6 : Vec F S1x32 .f32) (x7 : Vec F S1 .f32) (x8 : Vec F S1x1 .f32) : FVec F S128x128 .f32 :=
  k0_pay1 (BitVec.ofNat 32 (i 0).val) (BitVec.ofNat 32 (i 1).val) (View.ld x6 rS1x32) (View.ld x7 rS1) (k0_pay2 (View.ld x8 rS1x1))
    (k0_pay3 (View.ld x0 rS128) (View.ld x1 rS128) (View.ld x2 rS128x2) (View.ld x3 rS128) (View.ld x4 rS32x128) (View.ld x5 rS32))

/-- The output buffer after the body: its one store, which covers it. -/
def out0 (i : grid0.Coords) (x0 x1 : Vec F S128 .f32) (x2 : Vec F S128x2 .f32) (x3 : Vec F S128 .f32) (x4 : Vec F S32x128 .f32)
    (x5 : Vec F S32 .f32) (x6 : Vec F S1x32 .f32) (x7 : Vec F S1 .f32) (x8 : Vec F S1x1 .f32) : Vec F S128x128 .f32 :=
  View.canon [⟨rS128x128, tile0 i x0 x1 x2 x3 x4 x5 x6 x7 x8⟩]

theorem cover0 (p0 : Vec F S128x128 .f32) (y : S128x128.Idx) :
    ∃ pc ∈ ([⟨rS128x128, p0⟩] : List (View.Piece (Elt F) S128x128 .f32)), y ∈ pc.1.set :=
  View.cover_of_tiled [⟨rS128x128, p0⟩] S128x128.size (by rfl) y

set_option maxHeartbeats 2000000 in
/-- The body's triple. -/
theorem sound_kernel0 (c : Dev nD) (E : Set ℕ) (i : grid0.Coords)
    (arg2 : Memref sig .tc .vmem S128 .f32) (harg2 : arg2.IsWhole) (arg3 : Memref sig .tc .vmem S128 .f32) (harg3 : arg3.IsWhole)
    (arg4 : Memref sig .tc .vmem S128x2 .f32) (harg4 : arg4.IsWhole) (arg5 : Memref sig .tc .vmem S128 .f32) (harg5 : arg5.IsWhole)
    (arg6 : Memref sig .tc .vmem S32x128 .f32) (harg6 : arg6.IsWhole) (arg7 : Memref sig .tc .vmem S32 .f32) (harg7 : arg7.IsWhole)
    (arg8 : Memref sig .tc .vmem S1x32 .f32) (harg8 : arg8.IsWhole) (arg9 : Memref sig .tc .vmem S1 .f32) (harg9 : arg9.IsWhole)
    (arg10 : Memref sig .tc .vmem S1x1 .f32) (harg10 : arg10.IsWhole) (arg11 : Memref sig .tc .vmem S128x128 .f32) (harg11 : arg11.IsWhole)
    (x0 x1 : Vec F S128 .f32) (x2 : Vec F S128x2 .f32) (x3 : Vec F S128 .f32) (x4 : Vec F S32x128 .f32)
    (x5 : Vec F S32 .f32) (x6 : Vec F S1x32 .f32) (x7 : Vec F S1 .f32) (x8 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (out0 i x0 x1 x2 x3 x4 x5 x6 x7 x8)) -∗ K ⟨⟩))
      ⊢ wp frame (wpE (defs₀ (F := F)) Variants.none c none) E
          (cc0_mlp_cov_kernel i arg2 harg2 arg3 harg3 arg4 harg4 arg5 harg5 arg6 harg6 arg7 harg7 arg8 harg8 arg9 harg9 arg10 harg10 arg11 harg11) K := by
  simp only [cc0_mlp_cov_kernel_eq_skeleton]; unfold cc0_mlp_cov_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0 _)

end Cert.Kernel.Hand

end
-- ==== Proof.BDat0.lean ====
/-
  The first kernel's proof data at the contents V its region is entered from: at every grid point each of
  the nine input windows' current staging buffer holds that window's block of its array (whether the block
  was fetched at this point or kept from the point before), so the body (one step, KBody0) leaves each input in
  place and the output buffer at its tile; the output is written back at every point. The time vector is
  handed to the region twice (rows and columns), so those two windows hold its buffer at half shares.
-/
import proofs.«163482_j91182155694480_1_alg».proof.Proof.BBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The output tile of point `t` from the input windows' blocks there. -/
def tileAt0 (c : Dev nD) (t : Fin cfg0.N) : Vec F S128x128 .f32 :=
  out0 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)

/-- The proof data: arrays as found; after the body each input at its block, the output at its tile; the rest untouched;
    the two windows on the time vector at half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => tileAt0 V c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = tileAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BBody1.lean ====
/-
  The second kernel's body, case by case. It multiplies a 512 x 512 block A of K by a block B of K along their
  first axes and adds the product into a resident 512 x 512 accumulator. At the first step of the reduction
  (k = 0) the accumulator is first set to zero, so the body leaves  zero + AᵀB  in it and does not touch the
  output buffer; at the last step (k = 1) it leaves  acc + AᵀB  in the accumulator and copies that sum into
  the output buffer. Each case is one step from the buffers' contents to these values.
-/
import proofs.«163482_j91182155694480_1_alg».proof.Proof.Gen.Kernel.Launch
import proofs.«163482_j91182155694480_1_alg».proof.Proof.Gen.Kernel.Skeleton
import proofs.«163482_j91182155694480_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev r512 : Rect S512x512 := Rect.unit (s := S512x512) ![0, 0] S512x512.size inb_S512x512_S512x512_0_0

theorem hz2 : (![0, 0] : Fin 2 → Nat) = fun _ => 0 := funext fun a => by fin_cases a <;> rfl

/-- A rectangle at offset zero of the buffer's own extents holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- What two stores through the whole buffer leave is the later one's payload. -/
theorem read_two_whole {sig' : RefSig} {κ : Kind} {sp : Space} {e : EltTy} (v : View sig' κ sp S512x512 e) (f : v.ty.Contents (Elt F))
    (w1 w0 : S512x512.Idx → Elt F e) :
    v.read (Elt F) (v.writes (Elt F) f [⟨r512, w1⟩, ⟨r512, w0⟩]) = w1 := by
  rw [View.read_writes_eq_canon _ _ _ (fun y => ⟨⟨r512, w1⟩, List.mem_cons_self, mem_unit_zero (S := S512x512) hz2 inb_S512x512_S512x512_0_0 y⟩)]
  exact View.canon_cons_unit_zero (S := S512x512) hz2 inb_S512x512_S512x512_0_0 w1 _

/-- What one store through the whole buffer leaves is its payload. -/
theorem read_one_whole {sig' : RefSig} {κ : Kind} {sp : Space} {e : EltTy} (v : View sig' κ sp S512x512 e) (f : v.ty.Contents (Elt F))
    (w1 : S512x512.Idx → Elt F e) :
    v.read (Elt F) (v.writes (Elt F) f [⟨r512, w1⟩]) = w1 := by
  rw [View.read_writes_eq_canon _ _ _ (fun y => ⟨⟨r512, w1⟩, List.mem_cons_self, mem_unit_zero (S := S512x512) hz2 inb_S512x512_S512x512_0_0 y⟩)]
  exact View.canon_unit_zero (S := S512x512) hz2 inb_S512x512_S512x512_0_0 w1

/-- A load of the whole buffer after one store through the whole buffer reads the payload. -/
theorem readCov_whole {sig' : RefSig} {κ : Kind} {sp : Space} {e : EltTy} (v : View sig' κ sp S512x512 e) (w : S512x512.Idx → Elt F e) :
    v.readCov [(⟨r512, w⟩ : View.Piece (Elt F) S512x512 e)] r512.toLoadRect = w :=
  View.readCov_unit_zero (S := S512x512) v hz2 inb_S512x512_S512x512_0_0 w

/-- A load of the whole buffer reads its contents. -/
theorem readAt_whole {sig' : RefSig} {κ : Kind} {sp : Space} {e : EltTy} (v : View sig' κ sp S512x512 e) (f : v.ty.Contents (Elt F)) :
    v.readAt (Elt F) r512.toLoadRect f = v.read (Elt F) f := by
  rw [View.readAt_eq_ld]; exact View.ld_unit_zero (S := S512x512) hz2 inb_S512x512_S512x512_0_0 _

/-- The first reduction step's condition (k = 0), as the body computes it. -/
abbrev condA (i : grid1.Coords) : Prop := (Scalar.cmpi .ne (Scalar.extui (Scalar.cmpi .eq (BitVec.ofNat 32 (i 2).val) 0#32)) 0#32) = 1#1
/-- The last reduction step's condition (k = 1). -/
abbrev condB (i : grid1.Coords) : Prop := k1_cond2 i = 1#1

/-- The accumulator after a step: the old contents plus the product of the two blocks along their first axes. -/
def accStep (a b acc : Vec F S512x512 .f32) : Vec F S512x512 .f32 := k1_pay2 a b acc
/-- The accumulator after the first step: from zero. -/
def accFirst (a b : Vec F S512x512 .f32) : Vec F S512x512 .f32 := accStep a b (k1_pay1 (F := F))

set_option maxHeartbeats 4000000 in
/-- First step: the accumulator ends at `accFirst`, the output buffer is handed back untouched. -/
theorem sound_kernel1_first (c : Dev nD) (E : Set ℕ) (i : grid1.Coords) (hA : condA i) (hB : ¬ condB i)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 x1 xi : Vec F S512x512 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (accFirst x0 x1)) -∗ K ⟨⟩))
      ⊢ wp frame (wpE (defs₀ (F := F)) Variants.none c none) E (cc1_matmul_ktk_kernel i arg3 harg3 arg4 harg4 arg5 harg5 arg6 harg6) K := by
  simp only [cc1_matmul_ktk_kernel_eq_skeleton]; unfold cc1_matmul_ktk_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  sl_unfold_run_names
  refine (read_two_whole _ _ _ _).trans ?_
  rw [readAt_whole, readAt_whole, readCov_whole]
  rfl

set_option maxHeartbeats 4000000 in
/-- Last step: the accumulator, found at `acc`, ends at `accStep` of it, and so does the output buffer. -/
theorem sound_kernel1_last (c : Dev nD) (E : Set ℕ) (i : grid1.Coords) (hA : ¬ condA i) (hB : condB i)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 x1 acc : Vec F S512x512 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare acc
        ∗ (iprop(owns (c : Thread nD τ) arg3 fullShare x0 ∗ owns (c : Thread nD τ) arg4 fullShare x1
            ∗ owns (c : Thread nD τ) arg5 fullShare (accStep x0 x1 acc)
            ∗ owns (c : Thread nD τ) arg6 fullShare (accStep x0 x1 acc)) -∗ K ⟨⟩))
      ⊢ wp frame (wpE (defs₀ (F := F)) Variants.none c none) E (cc1_matmul_ktk_kernel i arg3 harg3 arg4 harg4 arg5 harg5 arg6 harg6) K := by
  simp only [cc1_matmul_ktk_kernel_eq_skeleton]; unfold cc1_matmul_ktk_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    sl_unfold_run_names
    refine (read_one_whole _ _ _).trans ?_
    rw [readCov_whole, readAt_whole, readAt_whole, readAt_whole]
    rfl
  iexists _; isplitr
  swap; · iexact H3
  ipureintro
  try dsimp only
  sl_unfold_run_names
  refine (read_one_whole _ _ _).trans ?_
  rw [readAt_whole, readAt_whole, readAt_whole]
  rfl

end Cert.Kernel.Hand

end
-- ==== Proof.BDat1.lean ====
/-
  The second kernel's proof data at the contents V its region is entered from. The grid's last axis is the
  reduction: points come in pairs (k = 0, then k = 1) for each output block. At every point the two input windows'
  staging buffers hold their blocks of K; the resident accumulator holds, after an even point, the product of
  that point's blocks from zero, and after an odd point that value plus the odd point's product; the output
  window is left alone at even points (and not written back) and receives the accumulator at odd points
  (and is written back). K is handed to the region twice, so its two windows hold its buffer at half shares.
-/
import proofs.«163482_j91182155694480_1_alg».proof.Proof.BBody1
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two steps of the reduction, over the grid: k = 0 at the even points, k = 1 at the odd ones. -/
theorem hcondA : ∀ t : Fin cfg1.N, condA (grid1.coords t) ↔ t.val % 2 = 0 :=
  (by decide +kernel : ∀ t : Fin grid1.N, condA (grid1.coords t) ↔ t.val % 2 = 0)
theorem hcondB : ∀ t : Fin cfg1.N, condB (grid1.coords t) ↔ t.val % 2 = 1 :=
  (by decide +kernel : ∀ t : Fin grid1.N, condB (grid1.coords t) ↔ t.val % 2 = 1)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val % 2 = 0 → cfg1.idle 2 (grid1.coords t) = true := by decide +kernel
theorem liveAt1_2 : ∀ t : Fin cfg1.N, t.val % 2 = 1 → cfg1.idle 2 (grid1.coords t) = false := by decide +kernel
theorem noFlush1_2 (t : Fin cfg1.N) (h : t.val % 2 = 0) : (cfg1.win 2).flush t = false := by
  cases hf : (cfg1.win 2).flush t with
  | false => rfl
  | true => exact absurd ((flush1_2 t).mp hf) (by omega)

abbrev scM1 : Memref sig .tc .vmem S512x512 .f32 := Memref.whole cc1_scratch0

/-- The accumulator after point `n`. -/
def accAt1 (c : Dev nD) : (n : ℕ) → n < cfg1.N → Vec F S512x512 .f32
  | 0, hn => accFirst (iblk1 V c 0 ⟨0, hn⟩) (iblk1 V c 1 ⟨0, hn⟩)
  | n + 1, hn =>
    if (n + 1) % 2 = 0 then accFirst (iblk1 V c 0 ⟨n + 1, hn⟩) (iblk1 V c 1 ⟨n + 1, hn⟩)
    else accStep (iblk1 V c 0 ⟨n + 1, hn⟩) (iblk1 V c 1 ⟨n + 1, hn⟩) (accAt1 c n (Nat.lt_of_succ_lt hn))

theorem accAt1_even (c : Dev nD) (t : Fin cfg1.N) (h : t.val % 2 = 0) :
    accAt1 V c t.val t.isLt = accFirst (iblk1 V c 0 t) (iblk1 V c 1 t) := by
  obtain ⟨n, hn⟩ := t
  cases n with
  | zero => rfl
  | succ n => simp only [accAt1]; rw [if_pos h]

theorem accAt1_odd (c : Dev nD) (t : Fin cfg1.N) (h : t.val % 2 = 1) :
    accAt1 V c t.val t.isLt = accStep (iblk1 V c 0 t) (iblk1 V c 1 t)
      (accAt1 V c (t.val - 1) (Nat.lt_of_le_of_lt (Nat.sub_le _ _) t.isLt)) := by
  obtain ⟨n, hn⟩ := t
  cases n with
  | zero => exact absurd h (by show ¬ (0 % 2 = 1); decide)
  | succ n => simp only [accAt1]; rw [if_neg (by simp only at h; omega)]; rfl

/-- The core's scoped buffers that the region does not stage, the accumulator apart, each at some contents,
    beside `X` (what is said of the accumulator). -/
def restWith1 (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f)
    ∗ X)

theorem PhiA1_eq (c : Dev nD) :
    (Pipeline.ΦA spec1 c : sProp 𝕄) = iprop(restWith1 c iprop(∃ d, owns (c : Thread nD τ) scM1 fullShare d) ∗ (∃ r, prngReg c r)) := by
  unfold Pipeline.ΦA restWith1; rw [scopedRest1_eq]; simp only [scM1, owns_whole]; try rfl

/-- The region's invariant before position `n`: at the start every scoped buffer at anything; afterwards the
    accumulator at what the point before left. -/
def PhiS1 (c : Dev nD) : (n : ℕ) → n ≤ cfg1.N → sProp 𝕄
  | 0, _ => Pipeline.ΦA spec1 c
  | n + 1, hn => iprop(restWith1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restWith1 c (owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(restWith1 c (owns (c : Thread nD τ) scM1 fullShare (accAt1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 8 := lt_of_lt_of_eq t.isLt (show cfg1.N = 8 from N_1)
  by_cases h0 : t.val % 2 = 0
  · have hnB : ¬ condB (grid1.coords t) := fun h => by have := (hcondB t).mp h; omega
    rw [Dat.leavesExact_idle (dat1 V c) 2 t (idleAt1_2 t h0) (noFlush1_2 t h0)]
    rw [accAt1_even V c t h0]
    by_cases hz : t.val = 0
    · rw [PhiS1_castSucc V c t, PhiS1_zero V c _ _ hz, PhiA1_eq]
      unfold restWith1
      iintro ⟨⟨⟨A0, A1, A2, A3, A4, A5, A6, A7, A8, A9, A10, A11, A12, HS⟩, Hg⟩, Ho, ⟨%d0, H0⟩, ⟨%d1, H1⟩, ⟨%d2, H2⟩⟩
      iapply (sound_kernel1_first c Set.univ (grid1.coords t) ((hcondA t).mpr h0) hnB _ _ _ _ _ _ _ _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [A0 A1 A2 A3 A4 A5 A6 A7 A8 A9 A10 A11 A12 HS Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          iexact HS
        iexact Hg
      isplitl [Ho]; · iexact Ho
      isplitl [H0]; · iexact H0
      isplitl [H1]; · iexact H1
      iexists _; iexact H2
    · rw [PhiS1_castSucc V c t, PhiS1_pos V c _ _ hz]
      unfold restWith1
      iintro ⟨⟨⟨A0, A1, A2, A3, A4, A5, A6, A7, A8, A9, A10, A11, A12, HS⟩, Hg⟩, Ho, ⟨%d0, H0⟩, ⟨%d1, H1⟩, ⟨%d2, H2⟩⟩
      iapply (sound_kernel1_first c Set.univ (grid1.coords t) ((hcondA t).mpr h0) hnB _ _ _ _ _ _ _ _ (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [A0 A1 A2 A3 A4 A5 A6 A7 A8 A9 A10 A11 A12 HS Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          iexact HS
        iexact Hg
      isplitl [Ho]; · iexact Ho
      isplitl [H0]; · iexact H0
      isplitl [H1]; · iexact H1
      iexists _; iexact H2
  · have h1 : t.val % 2 = 1 := by omega
    have hnA : ¬ condA (grid1.coords t) := fun h => h0 ((hcondA t).mp h)
    have hz : t.val ≠ 0 := by omega
    rw [show (dat1 V c).leavesExact 2 t = owns (c : Thread nD τ) (st1_2 t) fullShare ((dat1 V c).after 2 t) from by
      unfold Dat.leavesExact; rw [liveAt1_2 t h1], after1_2]
    rw [accAt1_odd V c t h1]
    rw [PhiS1_castSucc V c t, PhiS1_pos V c _ _ hz]
    unfold restWith1
    iintro ⟨⟨⟨A0, A1, A2, A3, A4, A5, A6, A7, A8, A9, A10, A11, A12, HS⟩, Hg⟩, Ho, ⟨%d0, H0⟩, ⟨%d1, H1⟩, ⟨%d2, H2⟩⟩
    iapply (sound_kernel1_last c Set.univ (grid1.coords t) hnA ((hcondB t).mpr h1) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [A0 A1 A2 A3 A4 A5 A6 A7 A8 A9 A10 A11 A12 HS Hg]
    · isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        iexact HS
      iexact Hg
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold restWith1
  iintro ⟨⟨A0, A1, A2, A3, A4, A5, A6, A7, A8, A9, A10, A11, A12, HS⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexists _; iexact HS
  iexact Hg

end Region1

end Cert.Kernel.Hand

end
-- ==== Proof.BShare.lean ====
/-
  The buffers behind a region's arrays and the region's arrays, window by window. The first region reads
  the time vector through two windows and the second reads K through two windows: a buffer held whole at the
  full share is the two windows' halves of it, and two halves at one contents are the whole again. Every other
  window has a buffer of its own.
-/
import proofs.«163482_j91182155694480_1_alg».proof.Proof.BDat0
import proofs.«163482_j91182155694480_1_alg».proof.Proof.BDat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The first region -/

theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0)
        ∗ (((c : Thread nD τ).loc main_arg1) ↦{fullShare} X main_arg1)
        ∗ (((c : Thread nD τ).loc main_arg2) ↦{fullShare} X main_arg2)
        ∗ (((c : Thread nD τ).loc main_arg3) ↦{fullShare} X main_arg3)
        ∗ (((c : Thread nD τ).loc main_arg4) ↦{fullShare} X main_arg4)
        ∗ (((c : Thread nD τ).loc main_arg5) ↦{fullShare} X main_arg5)
        ∗ (((c : Thread nD τ).loc main_arg6) ↦{fullShare} X main_arg6)
        ∗ (((c : Thread nD τ).loc main_v0) ↦{fullShare} X main_v0)
        ∗ (((c : Thread nD τ).loc main_v1) ↦{fullShare} X main_v1)) := by
  unfold Pipeline.arrBufs
  exact bigSep_eq_bigSepL_of_eq [main_arg0, main_arg1, main_arg2, main_arg3, main_arg4, main_arg5, main_arg6, main_v0, main_v1] (by decide) (by decide) _

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl
theorem share0_9 (c : Dev nD) : (dat0 V c).share 9 = fullShare := rfl

/-- The region's arrays as whole buffers at the windows' shares. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{(dat0 V c).share 0} G 0)
        ∗ (((c : Thread nD τ).loc (Pipeline.arrRef spec0 1)) ↦{(dat0 V c).share 1} G 1)
        ∗ (((c : Thread nD τ).loc (Pipeline.arrRef spec0 2)) ↦{(dat0 V c).share 2} G 2)
        ∗ (((c : Thread nD τ).loc (Pipeline.arrRef spec0 3)) ↦{(dat0 V c).share 3} G 3)
        ∗ (((c : Thread nD τ).loc (Pipeline.arrRef spec0 4)) ↦{(dat0 V c).share 4} G 4)
        ∗ (((c : Thread nD τ).loc (Pipeline.arrRef spec0 5)) ↦{(dat0 V c).share 5} G 5)
        ∗ (((c : Thread nD τ).loc (Pipeline.arrRef spec0 6)) ↦{(dat0 V c).share 6} G 6)
        ∗ (((c : Thread nD τ).loc (Pipeline.arrRef spec0 7)) ↦{(dat0 V c).share 7} G 7)
        ∗ (((c : Thread nD τ).loc (Pipeline.arrRef spec0 8)) ↦{(dat0 V c).share 8} G 8)
        ∗ (((c : Thread nD τ).loc (Pipeline.arrRef spec0 9)) ↦{(dat0 V c).share 9} G 9)) := by
  unfold Dat.arrays
  rw [← bigSep_W0 (fun w : Fin 10 => (((c : Thread nD τ).loc (Pipeline.arrRef spec0 w)) ↦{(dat0 V c).share w} G w : sProp 𝕄))]
  exact bigSep_congr fun w _ => by rw [(arr_whole0 w).set_eq_univ]

/-- ENTRY: the buffers whole at `X` are the region's arrays at `X`. -/
theorem arrays0_of_bufs (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      ⊢ (dat0 V c).arrays fun w => X (Pipeline.arrRef spec0 w) := by
  rw [arrBufs0_eq, arrays0_eq]
  rw [share0_0, share0_1, share0_2, share0_3, share0_4, share0_5, share0_6, share0_7, share0_8, share0_9]
  iintro ⟨H0, H1, H2, H3, H4, H5, H6, H7, H8⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- EXIT: the region's arrays at contents that are `X'`'s are the buffers whole at `X'`. -/
theorem bufs0_of_arrays (c : Dev nD) (X' : (b : Ref sig .tc) → Buf (Elt F) ((c : Thread nD τ).loc b))
    (G : (w : Fin cfg0.W) → Buf (Elt F) ((cfg0.win w).arr.view.loc (c : Thread nD τ))) (hG : ∀ w, G w = X' (Pipeline.arrRef spec0 w)) :
    ((dat0 V c).arrays G : sProp 𝕄)
      ⊢ Pipeline.arrBufs (Ix := Unit) (Name := ℕ) (U := UR sig nD τ) (Lvl := ℕ) spec0 c X' := by
  obtain rfl : G = fun w => X' (Pipeline.arrRef spec0 w) := funext hG
  rw [arrBufs0_eq, arrays0_eq]
  rw [share0_0, share0_1, share0_2, share0_3, share0_4, share0_5, share0_6, share0_7, share0_8, share0_9]
  iintro ⟨Ha, Hb, H1, H2, H3, H4, H5, H6, H7, H8⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The second region -/

theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v1) ↦{fullShare} X main_v1) ∗ (((c : Thread nD τ).loc main_v2) ↦{fullShare} X main_v2)) := by
  unfold Pipeline.arrBufs
  exact bigSep_eq_bigSepL_of_eq [main_v1, main_v2] (by decide) (by decide) _

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem arrays1_eq (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{(dat1 V c).share 0} G 0)
        ∗ (((c : Thread nD τ).loc (Pipeline.arrRef spec1 1)) ↦{(dat1 V c).share 1} G 1)
        ∗ (((c : Thread nD τ).loc (Pipeline.arrRef spec1 2)) ↦{(dat1 V c).share 2} G 2)) := by
  unfold Dat.arrays
  rw [← bigSep_W1 (fun w : Fin 3 => (((c : Thread nD τ).loc (Pipeline.arrRef spec1 w)) ↦{(dat1 V c).share w} G w : sProp 𝕄))]
  exact bigSep_congr fun w _ => by rw [(arr_whole1 w).set_eq_univ]

theorem arrays1_of_bufs (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      ⊢ (dat1 V c).arrays fun w => X (Pipeline.arrRef spec1 w) := by
  rw [arrBufs1_eq, arrays1_eq]
  rw [share1_0, share1_1, share1_2]
  iintro ⟨H0, H1⟩
  ihave Hs := (pointsTo_share (PosShare.mem_left_op_right fullShare)).1 $$ H0
  icases Hs with ⟨Ha, Hb⟩
  isplitl [Ha]; · iexact Ha
  isplitl [Hb]; · iexact Hb
  iexact H1

theorem bufs1_of_arrays (c : Dev nD) (X' : (b : Ref sig .tc) → Buf (Elt F) ((c : Thread nD τ).loc b))
    (G : (w : Fin cfg1.W) → Buf (Elt F) ((cfg1.win w).arr.view.loc (c : Thread nD τ))) (hG : ∀ w, G w = X' (Pipeline.arrRef spec1 w)) :
    ((dat1 V c).arrays G : sProp 𝕄)
      ⊢ Pipeline.arrBufs (Ix := Unit) (Name := ℕ) (U := UR sig nD τ) (Lvl := ℕ) spec1 c X' := by
  obtain rfl : G = fun w => X' (Pipeline.arrRef spec1 w) := funext hG
  rw [arrBufs1_eq, arrays1_eq]
  rw [share1_0, share1_1, share1_2]
  iintro ⟨Ha, Hb, H1⟩
  isplitl [Ha Hb]
  · iapply (pointsTo_share (PosShare.mem_left_op_right fullShare)).2
    isplitl [Ha]; · iexact Ha
    iexact Hb
  iexact H1

end

end Cert.Kernel.Hand

end
-- ==== Proof.BRun.lean ====
/-
  The run of the whole program: the host reshape of sigma, the first region (the matrix sigma K, one 128 x 128
  tile per grid point), the second region (its Gram matrix, 512 x 512 blocks accumulated over two steps).
  Between items every unscoped buffer of the core is held at a named valuation: the launch contents, then the
  reshape's result added, then the first region's output array at what its write-backs leave, then the second
  region's. Every weakly fair execution terminates, the result array ends at what the second region's
  write-backs leave and each argument array ends as launched.
-/
import proofs.«163482_j91182155694480_1_alg».proof.Proof.BShare
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its output array at what the write-backs leave. -/
def W2 (c : Dev nD) : Valuation τ sig (Elt F) :=
  Function.update (W1 m ρ c) (Proc.devRef .tc main_v1) ((dat0 (V1 m ρ) c).arrAt 9 cfg0.N)
abbrev V2 : (c : Dev nD) → (b : Ref sig .tc) → Buf (Elt F) ((c : Thread nD τ).loc b) := fun c b => W2 m ρ c b
/-- After the second region: its output array likewise. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b

theorem W2_v1 (c : Dev nD) : W2 m ρ c (Proc.devRef .tc main_v1) = (dat0 (V1 m ρ) c).arrAt 9 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..
theorem W3_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) ..

theorem hostOps0_fresh' : (hostOps0 : List (HloOp τ sig (Elt F))).Forall fun op => op.fresh = ∅ := by
  simp only [List.Forall]; repeat' constructor

theorem W1_of_ne_v0 (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <| (W1_of_ne_v0 m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of_ne_v0 m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of_ne_v0 m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of_ne_v0 m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <| (W1_of_ne_v0 m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <| (W1_of_ne_v0 m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| (W1_of_ne_v0 m ρ c main_arg6 (by decide)).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <| (W1_of_ne_v0 m ρ c main_arg7 (by decide)).trans rfl

/-! ## What the regions leave in their arrays, against the valuations -/

/-- After the first region each array holds the next valuation's contents: the inputs as entered, the output at its write-backs. -/
theorem hF0 (c : Dev nD) (w : Fin cfg0.W) : (dat0 (V1 m ρ) c).arrAt w cfg0.N = V2 m ρ c (Pipeline.arrRef spec0 w) := by
  fin_cases w
  · exact ((dat0 (V1 m ρ) c).arrAt_in 0 rfl _).trans ((A_eq0 (V1 m ρ) c 0).trans (W2_of_ne m ρ c main_arg0 (by decide)).symm)
  · exact ((dat0 (V1 m ρ) c).arrAt_in 1 rfl _).trans ((A_eq0 (V1 m ρ) c 1).trans (W2_of_ne m ρ c main_arg0 (by decide)).symm)
  · exact ((dat0 (V1 m ρ) c).arrAt_in 2 rfl _).trans ((A_eq0 (V1 m ρ) c 2).trans (W2_of_ne m ρ c main_arg1 (by decide)).symm)
  · exact ((dat0 (V1 m ρ) c).arrAt_in 3 rfl _).trans ((A_eq0 (V1 m ρ) c 3).trans (W2_of_ne m ρ c main_arg2 (by decide)).symm)
  · exact ((dat0 (V1 m ρ) c).arrAt_in 4 rfl _).trans ((A_eq0 (V1 m ρ) c 4).trans (W2_of_ne m ρ c main_arg3 (by decide)).symm)
  · exact ((dat0 (V1 m ρ) c).arrAt_in 5 rfl _).trans ((A_eq0 (V1 m ρ) c 5).trans (W2_of_ne m ρ c main_arg4 (by decide)).symm)
  · exact ((dat0 (V1 m ρ) c).arrAt_in 6 rfl _).trans ((A_eq0 (V1 m ρ) c 6).trans (W2_of_ne m ρ c main_arg5 (by decide)).symm)
  · exact ((dat0 (V1 m ρ) c).arrAt_in 7 rfl _).trans ((A_eq0 (V1 m ρ) c 7).trans (W2_of_ne m ρ c main_arg6 (by decide)).symm)
  · exact ((dat0 (V1 m ρ) c).arrAt_in 8 rfl _).trans ((A_eq0 (V1 m ρ) c 8).trans (W2_of_ne m ρ c main_v0 (by decide)).symm)
  · exact (W2_v1 m ρ c).symm

theorem hrest0 (c : Dev nD) : ∀ b, b ∉ Finset.univ.image (Pipeline.arrRef spec0) → V2 m ρ c b = V1 m ρ c b :=
  fun b hb => W2_of_ne m ρ c b fun e => hb (Finset.mem_image.mpr ⟨9, Finset.mem_univ _, e.symm⟩)

theorem hF1 (c : Dev nD) (w : Fin cfg1.W) : (dat1 (V2 m ρ) c).arrAt w cfg1.N = V3 m ρ c (Pipeline.arrRef spec1 w) := by
  fin_cases w
  · exact ((dat1 (V2 m ρ) c).arrAt_in 0 rfl _).trans ((A_eq1 (V2 m ρ) c 0).trans (W3_of_ne m ρ c main_v1 (by decide)).symm)
  · exact ((dat1 (V2 m ρ) c).arrAt_in 1 rfl _).trans ((A_eq1 (V2 m ρ) c 1).trans (W3_of_ne m ρ c main_v1 (by decide)).symm)
  · exact (W3_v2 m ρ c).symm

theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- A core's unscoped buffers at `X` are a region's arrays at `X` and the rest (the first region). -/
theorem entry0 (c : Dev nD) (X : (b : Ref sig .tc) → Buf (Elt F) ((c : Thread nD τ).loc b)) (V) :
    (unscopedBufs c X : sProp 𝕄) ⊢ iprop((dat0 V c).arrays (fun w => X (Pipeline.arrRef spec0 w)) ∗ Pipeline.unscopedRest spec0 c X) := by
  rw [Pipeline.unscopedBufs_split₀ (cfgs) 0 winFacts₀0.arr_unscoped c X]
  exact sep_mono (arrays0_of_bufs V c X) .rfl
theorem exit0 (c : Dev nD) (X X' : (b : Ref sig .tc) → Buf (Elt F) ((c : Thread nD τ).loc b)) (V)
    (G : (w : Fin cfg0.W) → Buf (Elt F) ((cfg0.win w).arr.view.loc (c : Thread nD τ))) (hG : ∀ w, G w = X' (Pipeline.arrRef spec0 w))
    (hrest : ∀ b, b ∉ Finset.univ.image (Pipeline.arrRef spec0) → X' b = X b) :
    iprop((dat0 V c).arrays G ∗ Pipeline.unscopedRest spec0 c X) ⊢ (unscopedBufs c X' : sProp 𝕄) := by
  rw [Pipeline.unscopedBufs_split₀ (cfgs) 0 winFacts₀0.arr_unscoped c X']
  refine sep_mono (bufs0_of_arrays V c X' G hG) (Entails.of_eq ?_)
  unfold Pipeline.unscopedRest
  exact bigSep_congr fun b hb => by rw [hrest b (Finset.mem_sdiff.mp hb).2]
theorem entry1 (c : Dev nD) (X : (b : Ref sig .tc) → Buf (Elt F) ((c : Thread nD τ).loc b)) (V) :
    (unscopedBufs c X : sProp 𝕄) ⊢ iprop((dat1 V c).arrays (fun w => X (Pipeline.arrRef spec1 w)) ∗ Pipeline.unscopedRest spec1 c X) := by
  rw [Pipeline.unscopedBufs_split₀ (cfgs) 1 winFacts₀1.arr_unscoped c X]
  exact sep_mono (arrays1_of_bufs V c X) .rfl
theorem exit1 (c : Dev nD) (X X' : (b : Ref sig .tc) → Buf (Elt F) ((c : Thread nD τ).loc b)) (V)
    (G : (w : Fin cfg1.W) → Buf (Elt F) ((cfg1.win w).arr.view.loc (c : Thread nD τ))) (hG : ∀ w, G w = X' (Pipeline.arrRef spec1 w))
    (hrest : ∀ b, b ∉ Finset.univ.image (Pipeline.arrRef spec1) → X' b = X b) :
    iprop((dat1 V c).arrays G ∗ Pipeline.unscopedRest spec1 c X) ⊢ (unscopedBufs c X' : sProp 𝕄) := by
  rw [Pipeline.unscopedBufs_split₀ (cfgs) 1 winFacts₀1.arr_unscoped c X']
  refine sep_mono (bufs1_of_arrays V c X' G hG) (Entails.of_eq ?_)
  unfold Pipeline.unscopedRest
  exact bigSep_congr fun b hb => by rw [hrest b (Finset.mem_sdiff.mp hb).2]

/-! ## The regions as segments -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 c (V1 m ρ c) (V1 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 c (V1 m ρ c) (V2 m ρ c) (V1 m ρ) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 c (V2 m ρ c) (V2 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := exit1 c (V2 m ρ c) (V3 m ρ c) (V2 m ρ) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates; the result array ends at what the second region's write-backs leave and
    every argument array as launched. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.Kernel.Hand

end
-- ==== Proof.KBody0.lean ====
/-
  The first kernel's body as one step: on whole staging buffers holding the nine input blocks
  (a block of 128 row times, a block of 128 column times, the three layers' weights and biases, the scale)
  it leaves every input as found and the 128 x 128 output buffer at one covering store of the masked,
  scaled pairwise network — a pure function of the inputs' contents and of the grid point (the mask
  compares global row and column numbers, which start at 128 times the point's coordinates).
-/
import proofs.«163482_j91182155694480_1_alg».proof.Proof.Gen.KernelIdeal.Launch
import proofs.«163482_j91182155694480_1_alg».proof.Proof.Gen.KernelIdeal.Skeleton
import proofs.«163482_j91182155694480_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every buffer whole -/

abbrev rS128 : Rect S128 := Rect.unit (s := S128) ![0] S128.size inb_S128_S128_0
abbrev rS128x2 : Rect S128x2 := Rect.unit (s := S128x2) ![0, 0] S128x2.size inb_S128x2_S128x2_0_0
abbrev rS32x128 : Rect S32x128 := Rect.unit (s := S32x128) ![0, 0] S32x128.size inb_S32x128_S32x128_0_0
abbrev rS32 : Rect S32 := Rect.unit (s := S32) ![0] S32.size inb_S32_S32_0
abbrev rS1x32 : Rect S1x32 := Rect.unit (s := S1x32) ![0, 0] S1x32.size inb_S1x32_S1x32_0_0
abbrev rS1 : Rect S1 := Rect.unit (s := S1) ![0] S1.size inb_S1_S1_0
abbrev rS1x1 : Rect S1x1 := Rect.unit (s := S1x1) ![0, 0] S1x1.size inb_S1x1_S1x1_0_0
abbrev rS128x128 : Rect S128x128 := Rect.unit (s := S128x128) ![0, 0] S128x128.size inb_S128x128_S128x128_0_0

/-- The tile the body stores: the masked, scaled network on the loaded blocks, at grid point `i`. -/
def tile0 (i : grid0.Coords) (x0 x1 : Vec F S128 .f32) (x2 : Vec F S128x2 .f32) (x3 : Vec F S128 .f32) (x4 : Vec F S32x128 .f32)
    (x5 : Vec F S32 .f32) (x6 : Vec F S1x32 .f32) (x7 : Vec F S1 .f32) (x8 : Vec F S1x1 .f32) : FVec F S128x128 .f32 :=
  k0_pay1 (BitVec.ofNat 32 (i 0).val) (BitVec.ofNat 32 (i 1).val) (View.ld x6 rS1x32) (View.ld x7 rS1) (k0_pay2 (View.ld x8 rS1x1))
    (k0_pay3 (View.ld x0 rS128) (View.ld x1 rS128) (View.ld x2 rS128x2) (View.ld x3 rS128) (View.ld x4 rS32x128) (View.ld x5 rS32))

/-- The output buffer after the body: its one store, which covers it. -/
def out0 (i : grid0.Coords) (x0 x1 : Vec F S128 .f32) (x2 : Vec F S128x2 .f32) (x3 : Vec F S128 .f32) (x4 : Vec F S32x128 .f32)
    (x5 : Vec F S32 .f32) (x6 : Vec F S1x32 .f32) (x7 : Vec F S1 .f32) (x8 : Vec F S1x1 .f32) : Vec F S128x128 .f32 :=
  View.canon [⟨rS128x128, tile0 i x0 x1 x2 x3 x4 x5 x6 x7 x8⟩]

theorem cover0 (p0 : Vec F S128x128 .f32) (y : S128x128.Idx) :
    ∃ pc ∈ ([⟨rS128x128, p0⟩] : List (View.Piece (Elt F) S128x128 .f32)), y ∈ pc.1.set :=
  View.cover_of_tiled [⟨rS128x128, p0⟩] S128x128.size (by rfl) y

set_option maxHeartbeats 2000000 in
/-- The body's triple. -/
theorem sound_kernel0 (c : Dev nD) (E : Set ℕ) (i : grid0.Coords)
    (arg2 : Memref sig .tc .vmem S128 .f32) (harg2 : arg2.IsWhole) (arg3 : Memref sig .tc .vmem S128 .f32) (harg3 : arg3.IsWhole)
    (arg4 : Memref sig .tc .vmem S128x2 .f32) (harg4 : arg4.IsWhole) (arg5 : Memref sig .tc .vmem S128 .f32) (harg5 : arg5.IsWhole)
    (arg6 : Memref sig .tc .vmem S32x128 .f32) (harg6 : arg6.IsWhole) (arg7 : Memref sig .tc .vmem S32 .f32) (harg7 : arg7.IsWhole)
    (arg8 : Memref sig .tc .vmem S1x32 .f32) (harg8 : arg8.IsWhole) (arg9 : Memref sig .tc .vmem S1 .f32) (harg9 : arg9.IsWhole)
    (arg10 : Memref sig .tc .vmem S1x1 .f32) (harg10 : arg10.IsWhole) (arg11 : Memref sig .tc .vmem S128x128 .f32) (harg11 : arg11.IsWhole)
    (x0 x1 : Vec F S128 .f32) (x2 : Vec F S128x2 .f32) (x3 : Vec F S128 .f32) (x4 : Vec F S32x128 .f32)
    (x5 : Vec F S32 .f32) (x6 : Vec F S1x32 .f32) (x7 : Vec F S1 .f32) (x8 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (out0 i x0 x1 x2 x3 x4 x5 x6 x7 x8)) -∗ K ⟨⟩))
      ⊢ wp frame (wpE (defs₀ (F := F)) Variants.none c none) E
          (cc0_mlp_cov_kernel i arg2 harg2 arg3 harg3 arg4 harg4 arg5 harg5 arg6 harg6 arg7 harg7 arg8 harg8 arg9 harg9 arg10 harg10 arg11 harg11) K := by
  simp only [cc0_mlp_cov_kernel_eq_skeleton]; unfold cc0_mlp_cov_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0 _)

end Cert.KernelIdeal.Hand

end
-- ==== Proof.KDat0.lean ====
/-
  The first kernel's proof data at the contents V its region is entered from: at every grid point each of
  the nine input windows' current staging buffer holds that window's block of its array (whether the block
  was fetched at this point or kept from the point before), so the body (one step, KBody0) leaves each input in
  place and the output buffer at its tile; the output is written back at every point. The time vector is
  handed to the region twice (rows and columns), so those two windows hold its buffer at half shares.
-/
import proofs.«163482_j91182155694480_1_alg».proof.Proof.KBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The output tile of point `t` from the input windows' blocks there. -/
def tileAt0 (c : Dev nD) (t : Fin cfg0.N) : Vec F S128x128 .f32 :=
  out0 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)

/-- The proof data: arrays as found; after the body each input at its block, the output at its tile; the rest untouched;
    the two windows on the time vector at half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => tileAt0 V c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = tileAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KBody1.lean ====
/-
  The second kernel's body, case by case. It multiplies a 512 x 512 block A of K by a block B of K along their
  first axes and adds the product into a resident 512 x 512 accumulator. At the first step of the reduction
  (k = 0) the accumulator is first set to zero, so the body leaves  zero + AᵀB  in it and does not touch the
  output buffer; at the last step (k = 1) it leaves  acc + AᵀB  in the accumulator and copies that sum into
  the output buffer. Each case is one step from the buffers' contents to these values.
-/
import proofs.«163482_j91182155694480_1_alg».proof.Proof.Gen.KernelIdeal.Launch
import proofs.«163482_j91182155694480_1_alg».proof.Proof.Gen.KernelIdeal.Skeleton
import proofs.«163482_j91182155694480_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev r512 : Rect S512x512 := Rect.unit (s := S512x512) ![0, 0] S512x512.size inb_S512x512_S512x512_0_0

theorem hz2 : (![0, 0] : Fin 2 → Nat) = fun _ => 0 := funext fun a => by fin_cases a <;> rfl

/-- A rectangle at offset zero of the buffer's own extents holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- What two stores through the whole buffer leave is the later one's payload. -/
theorem read_two_whole {sig' : RefSig} {κ : Kind} {sp : Space} {e : EltTy} (v : View sig' κ sp S512x512 e) (f : v.ty.Contents (Elt F))
    (w1 w0 : S512x512.Idx → Elt F e) :
    v.read (Elt F) (v.writes (Elt F) f [⟨r512, w1⟩, ⟨r512, w0⟩]) = w1 := by
  rw [View.read_writes_eq_canon _ _ _ (fun y => ⟨⟨r512, w1⟩, List.mem_cons_self, mem_unit_zero (S := S512x512) hz2 inb_S512x512_S512x512_0_0 y⟩)]
  exact View.canon_cons_unit_zero (S := S512x512) hz2 inb_S512x512_S512x512_0_0 w1 _

/-- What one store through the whole buffer leaves is its payload. -/
theorem read_one_whole {sig' : RefSig} {κ : Kind} {sp : Space} {e : EltTy} (v : View sig' κ sp S512x512 e) (f : v.ty.Contents (Elt F))
    (w1 : S512x512.Idx → Elt F e) :
    v.read (Elt F) (v.writes (Elt F) f [⟨r512, w1⟩]) = w1 := by
  rw [View.read_writes_eq_canon _ _ _ (fun y => ⟨⟨r512, w1⟩, List.mem_cons_self, mem_unit_zero (S := S512x512) hz2 inb_S512x512_S512x512_0_0 y⟩)]
  exact View.canon_unit_zero (S := S512x512) hz2 inb_S512x512_S512x512_0_0 w1

/-- A load of the whole buffer after one store through the whole buffer reads the payload. -/
theorem readCov_whole {sig' : RefSig} {κ : Kind} {sp : Space} {e : EltTy} (v : View sig' κ sp S512x512 e) (w : S512x512.Idx → Elt F e) :
    v.readCov [(⟨r512, w⟩ : View.Piece (Elt F) S512x512 e)] r512.toLoadRect = w :=
  View.readCov_unit_zero (S := S512x512) v hz2 inb_S512x512_S512x512_0_0 w

/-- A load of the whole buffer reads its contents. -/
theorem readAt_whole {sig' : RefSig} {κ : Kind} {sp : Space} {e : EltTy} (v : View sig' κ sp S512x512 e) (f : v.ty.Contents (Elt F)) :
    v.readAt (Elt F) r512.toLoadRect f = v.read (Elt F) f := by
  rw [View.readAt_eq_ld]; exact View.ld_unit_zero (S := S512x512) hz2 inb_S512x512_S512x512_0_0 _

/-- The first reduction step's condition (k = 0), as the body computes it. -/
abbrev condA (i : grid1.Coords) : Prop := (Scalar.cmpi .ne (Scalar.extui (Scalar.cmpi .eq (BitVec.ofNat 32 (i 2).val) 0#32)) 0#32) = 1#1
/-- The last reduction step's condition (k = 1). -/
abbrev condB (i : grid1.Coords) : Prop := k1_cond2 i = 1#1

/-- The accumulator after a step: the old contents plus the product of the two blocks along their first axes. -/
def accStep (a b acc : Vec F S512x512 .f32) : Vec F S512x512 .f32 := k1_pay2 a b acc
/-- The accumulator after the first step: from zero. -/
def accFirst (a b : Vec F S512x512 .f32) : Vec F S512x512 .f32 := accStep a b (k1_pay1 (F := F))

set_option maxHeartbeats 4000000 in
/-- First step: the accumulator ends at `accFirst`, the output buffer is handed back untouched. -/
theorem sound_kernel1_first (c : Dev nD) (E : Set ℕ) (i : grid1.Coords) (hA : condA i) (hB : ¬ condB i)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 x1 xi : Vec F S512x512 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (accFirst x0 x1)) -∗ K ⟨⟩))
      ⊢ wp frame (wpE (defs₀ (F := F)) Variants.none c none) E (cc1_matmul_ktk_kernel i arg3 harg3 arg4 harg4 arg5 harg5 arg6 harg6) K := by
  simp only [cc1_matmul_ktk_kernel_eq_skeleton]; unfold cc1_matmul_ktk_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  sl_unfold_run_names
  refine (read_two_whole _ _ _ _).trans ?_
  rw [readAt_whole, readAt_whole, readCov_whole]
  rfl

set_option maxHeartbeats 4000000 in
/-- Last step: the accumulator, found at `acc`, ends at `accStep` of it, and so does the output buffer. -/
theorem sound_kernel1_last (c : Dev nD) (E : Set ℕ) (i : grid1.Coords) (hA : ¬ condA i) (hB : condB i)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 x1 acc : Vec F S512x512 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare acc
        ∗ (iprop(owns (c : Thread nD τ) arg3 fullShare x0 ∗ owns (c : Thread nD τ) arg4 fullShare x1
            ∗ owns (c : Thread nD τ) arg5 fullShare (accStep x0 x1 acc)
            ∗ owns (c : Thread nD τ) arg6 fullShare (accStep x0 x1 acc)) -∗ K ⟨⟩))
      ⊢ wp frame (wpE (defs₀ (F := F)) Variants.none c none) E (cc1_matmul_ktk_kernel i arg3 harg3 arg4 harg4 arg5 harg5 arg6 harg6) K := by
  simp only [cc1_matmul_ktk_kernel_eq_skeleton]; unfold cc1_matmul_ktk_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    sl_unfold_run_names
    refine (read_one_whole _ _ _).trans ?_
    rw [readCov_whole, readAt_whole, readAt_whole, readAt_whole]
    rfl
  iexists _; isplitr
  swap; · iexact H3
  ipureintro
  try dsimp only
  sl_unfold_run_names
  refine (read_one_whole _ _ _).trans ?_
  rw [readAt_whole, readAt_whole, readAt_whole]
  rfl

end Cert.KernelIdeal.Hand

end
-- ==== Proof.KDat1.lean ====
/-
  The second kernel's proof data at the contents V its region is entered from. The grid's last axis is the
  reduction: points come in pairs (k = 0, then k = 1) for each output block. At every point the two input windows'
  staging buffers hold their blocks of K; the resident accumulator holds, after an even point, the product of
  that point's blocks from zero, and after an odd point that value plus the odd point's product; the output
  window is left alone at even points (and not written back) and receives the accumulator at odd points
  (and is written back). K is handed to the region twice, so its two windows hold its buffer at half shares.
-/
import proofs.«163482_j91182155694480_1_alg».proof.Proof.KBody1
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two steps of the reduction, over the grid: k = 0 at the even points, k = 1 at the odd ones. -/
theorem hcondA : ∀ t : Fin cfg1.N, condA (grid1.coords t) ↔ t.val % 2 = 0 :=
  (by decide +kernel : ∀ t : Fin grid1.N, condA (grid1.coords t) ↔ t.val % 2 = 0)
theorem hcondB : ∀ t : Fin cfg1.N, condB (grid1.coords t) ↔ t.val % 2 = 1 :=
  (by decide +kernel : ∀ t : Fin grid1.N, condB (grid1.coords t) ↔ t.val % 2 = 1)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val % 2 = 0 → cfg1.idle 2 (grid1.coords t) = true := by decide +kernel
theorem liveAt1_2 : ∀ t : Fin cfg1.N, t.val % 2 = 1 → cfg1.idle 2 (grid1.coords t) = false := by decide +kernel
theorem noFlush1_2 (t : Fin cfg1.N) (h : t.val % 2 = 0) : (cfg1.win 2).flush t = false := by
  cases hf : (cfg1.win 2).flush t with
  | false => rfl
  | true => exact absurd ((flush1_2 t).mp hf) (by omega)

abbrev scM1 : Memref sig .tc .vmem S512x512 .f32 := Memref.whole cc1_scratch0

/-- The accumulator after point `n`. -/
def accAt1 (c : Dev nD) : (n : ℕ) → n < cfg1.N → Vec F S512x512 .f32
  | 0, hn => accFirst (iblk1 V c 0 ⟨0, hn⟩) (iblk1 V c 1 ⟨0, hn⟩)
  | n + 1, hn =>
    if (n + 1) % 2 = 0 then accFirst (iblk1 V c 0 ⟨n + 1, hn⟩) (iblk1 V c 1 ⟨n + 1, hn⟩)
    else accStep (iblk1 V c 0 ⟨n + 1, hn⟩) (iblk1 V c 1 ⟨n + 1, hn⟩) (accAt1 c n (Nat.lt_of_succ_lt hn))

theorem accAt1_even (c : Dev nD) (t : Fin cfg1.N) (h : t.val % 2 = 0) :
    accAt1 V c t.val t.isLt = accFirst (iblk1 V c 0 t) (iblk1 V c 1 t) := by
  obtain ⟨n, hn⟩ := t
  cases n with
  | zero => rfl
  | succ n => simp only [accAt1]; rw [if_pos h]

theorem accAt1_odd (c : Dev nD) (t : Fin cfg1.N) (h : t.val % 2 = 1) :
    accAt1 V c t.val t.isLt = accStep (iblk1 V c 0 t) (iblk1 V c 1 t)
      (accAt1 V c (t.val - 1) (Nat.lt_of_le_of_lt (Nat.sub_le _ _) t.isLt)) := by
  obtain ⟨n, hn⟩ := t
  cases n with
  | zero => exact absurd h (by show ¬ (0 % 2 = 1); decide)
  | succ n => simp only [accAt1]; rw [if_neg (by simp only at h; omega)]; rfl

/-- The core's scoped buffers that the region does not stage, the accumulator apart, each at some contents,
    beside `X` (what is said of the accumulator). -/
def restWith1 (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f)
    ∗ X)

theorem PhiA1_eq (c : Dev nD) :
    (Pipeline.ΦA spec1 c : sProp 𝕄) = iprop(restWith1 c iprop(∃ d, owns (c : Thread nD τ) scM1 fullShare d) ∗ (∃ r, prngReg c r)) := by
  unfold Pipeline.ΦA restWith1; rw [scopedRest1_eq]; simp only [scM1, owns_whole]; try rfl

/-- The region's invariant before position `n`: at the start every scoped buffer at anything; afterwards the
    accumulator at what the point before left. -/
def PhiS1 (c : Dev nD) : (n : ℕ) → n ≤ cfg1.N → sProp 𝕄
  | 0, _ => Pipeline.ΦA spec1 c
  | n + 1, hn => iprop(restWith1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restWith1 c (owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(restWith1 c (owns (c : Thread nD τ) scM1 fullShare (accAt1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 8 := lt_of_lt_of_eq t.isLt (show cfg1.N = 8 from N_1)
  by_cases h0 : t.val % 2 = 0
  · have hnB : ¬ condB (grid1.coords t) := fun h => by have := (hcondB t).mp h; omega
    rw [Dat.leavesExact_idle (dat1 V c) 2 t (idleAt1_2 t h0) (noFlush1_2 t h0)]
    rw [accAt1_even V c t h0]
    by_cases hz : t.val = 0
    · rw [PhiS1_castSucc V c t, PhiS1_zero V c _ _ hz, PhiA1_eq]
      unfold restWith1
      iintro ⟨⟨⟨A0, A1, A2, A3, A4, A5, A6, A7, A8, A9, A10, A11, A12, HS⟩, Hg⟩, Ho, ⟨%d0, H0⟩, ⟨%d1, H1⟩, ⟨%d2, H2⟩⟩
      iapply (sound_kernel1_first c Set.univ (grid1.coords t) ((hcondA t).mpr h0) hnB _ _ _ _ _ _ _ _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [A0 A1 A2 A3 A4 A5 A6 A7 A8 A9 A10 A11 A12 HS Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          iexact HS
        iexact Hg
      isplitl [Ho]; · iexact Ho
      isplitl [H0]; · iexact H0
      isplitl [H1]; · iexact H1
      iexists _; iexact H2
    · rw [PhiS1_castSucc V c t, PhiS1_pos V c _ _ hz]
      unfold restWith1
      iintro ⟨⟨⟨A0, A1, A2, A3, A4, A5, A6, A7, A8, A9, A10, A11, A12, HS⟩, Hg⟩, Ho, ⟨%d0, H0⟩, ⟨%d1, H1⟩, ⟨%d2, H2⟩⟩
      iapply (sound_kernel1_first c Set.univ (grid1.coords t) ((hcondA t).mpr h0) hnB _ _ _ _ _ _ _ _ (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [A0 A1 A2 A3 A4 A5 A6 A7 A8 A9 A10 A11 A12 HS Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          iexact HS
        iexact Hg
      isplitl [Ho]; · iexact Ho
      isplitl [H0]; · iexact H0
      isplitl [H1]; · iexact H1
      iexists _; iexact H2
  · have h1 : t.val % 2 = 1 := by omega
    have hnA : ¬ condA (grid1.coords t) := fun h => h0 ((hcondA t).mp h)
    have hz : t.val ≠ 0 := by omega
    rw [show (dat1 V c).leavesExact 2 t = owns (c : Thread nD τ) (st1_2 t) fullShare ((dat1 V c).after 2 t) from by
      unfold Dat.leavesExact; rw [liveAt1_2 t h1], after1_2]
    rw [accAt1_odd V c t h1]
    rw [PhiS1_castSucc V c t, PhiS1_pos V c _ _ hz]
    unfold restWith1
    iintro ⟨⟨⟨A0, A1, A2, A3, A4, A5, A6, A7, A8, A9, A10, A11, A12, HS⟩, Hg⟩, Ho, ⟨%d0, H0⟩, ⟨%d1, H1⟩, ⟨%d2, H2⟩⟩
    iapply (sound_kernel1_last c Set.univ (grid1.coords t) hnA ((hcondB t).mpr h1) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [A0 A1 A2 A3 A4 A5 A6 A7 A8 A9 A10 A11 A12 HS Hg]
    · isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        iexact HS
      iexact Hg
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold restWith1
  iintro ⟨⟨A0, A1, A2, A3, A4, A5, A6, A7, A8, A9, A10, A11, A12, HS⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexists _; iexact HS
  iexact Hg

end Region1

end Cert.KernelIdeal.Hand

end
-- ==== Proof.KShare.lean ====
/-
  The buffers behind a region's arrays and the region's arrays, window by window. The first region reads
  the time vector through two windows and the second reads K through two windows: a buffer held whole at the
  full share is the two windows' halves of it, and two halves at one contents are the whole again. Every other
  window has a buffer of its own.
-/
import proofs.«163482_j91182155694480_1_alg».proof.Proof.KDat0
import proofs.«163482_j91182155694480_1_alg».proof.Proof.KDat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The first region -/

theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0)
        ∗ (((c : Thread nD τ).loc main_arg1) ↦{fullShare} X main_arg1)
        ∗ (((c : Thread nD τ).loc main_arg2) ↦{fullShare} X main_arg2)
        ∗ (((c : Thread nD τ).loc main_arg3) ↦{fullShare} X main_arg3)
        ∗ (((c : Thread nD τ).loc main_arg4) ↦{fullShare} X main_arg4)
        ∗ (((c : Thread nD τ).loc main_arg5) ↦{fullShare} X main_arg5)
        ∗ (((c : Thread nD τ).loc main_arg6) ↦{fullShare} X main_arg6)
        ∗ (((c : Thread nD τ).loc main_v0) ↦{fullShare} X main_v0)
        ∗ (((c : Thread nD τ).loc main_v1) ↦{fullShare} X main_v1)) := by
  unfold Pipeline.arrBufs
  exact bigSep_eq_bigSepL_of_eq [main_arg0, main_arg1, main_arg2, main_arg3, main_arg4, main_arg5, main_arg6, main_v0, main_v1] (by decide) (by decide) _

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl
theorem share0_9 (c : Dev nD) : (dat0 V c).share 9 = fullShare := rfl

/-- The region's arrays as whole buffers at the windows' shares. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{(dat0 V c).share 0} G 0)
        ∗ (((c : Thread nD τ).loc (Pipeline.arrRef spec0 1)) ↦{(dat0 V c).share 1} G 1)
        ∗ (((c : Thread nD τ).loc (Pipeline.arrRef spec0 2)) ↦{(dat0 V c).share 2} G 2)
        ∗ (((c : Thread nD τ).loc (Pipeline.arrRef spec0 3)) ↦{(dat0 V c).share 3} G 3)
        ∗ (((c : Thread nD τ).loc (Pipeline.arrRef spec0 4)) ↦{(dat0 V c).share 4} G 4)
        ∗ (((c : Thread nD τ).loc (Pipeline.arrRef spec0 5)) ↦{(dat0 V c).share 5} G 5)
        ∗ (((c : Thread nD τ).loc (Pipeline.arrRef spec0 6)) ↦{(dat0 V c).share 6} G 6)
        ∗ (((c : Thread nD τ).loc (Pipeline.arrRef spec0 7)) ↦{(dat0 V c).share 7} G 7)
        ∗ (((c : Thread nD τ).loc (Pipeline.arrRef spec0 8)) ↦{(dat0 V c).share 8} G 8)
        ∗ (((c : Thread nD τ).loc (Pipeline.arrRef spec0 9)) ↦{(dat0 V c).share 9} G 9)) := by
  unfold Dat.arrays
  rw [← bigSep_W0 (fun w : Fin 10 => (((c : Thread nD τ).loc (Pipeline.arrRef spec0 w)) ↦{(dat0 V c).share w} G w : sProp 𝕄))]
  exact bigSep_congr fun w _ => by rw [(arr_whole0 w).set_eq_univ]

/-- ENTRY: the buffers whole at `X` are the region's arrays at `X`. -/
theorem arrays0_of_bufs (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      ⊢ (dat0 V c).arrays fun w => X (Pipeline.arrRef spec0 w) := by
  rw [arrBufs0_eq, arrays0_eq]
  rw [share0_0, share0_1, share0_2, share0_3, share0_4, share0_5, share0_6, share0_7, share0_8, share0_9]
  iintro ⟨H0, H1, H2, H3, H4, H5, H6, H7, H8⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- EXIT: the region's arrays at contents that are `X'`'s are the buffers whole at `X'`. -/
theorem bufs0_of_arrays (c : Dev nD) (X' : (b : Ref sig .tc) → Buf (Elt F) ((c : Thread nD τ).loc b))
    (G : (w : Fin cfg0.W) → Buf (Elt F) ((cfg0.win w).arr.view.loc (c : Thread nD τ))) (hG : ∀ w, G w = X' (Pipeline.arrRef spec0 w)) :
    ((dat0 V c).arrays G : sProp 𝕄)
      ⊢ Pipeline.arrBufs (Ix := Unit) (Name := ℕ) (U := UR sig nD τ) (Lvl := ℕ) spec0 c X' := by
  obtain rfl : G = fun w => X' (Pipeline.arrRef spec0 w) := funext hG
  rw [arrBufs0_eq, arrays0_eq]
  rw [share0_0, share0_1, share0_2, share0_3, share0_4, share0_5, share0_6, share0_7, share0_8, share0_9]
  iintro ⟨Ha, Hb, H1, H2, H3, H4, H5, H6, H7, H8⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The second region -/

theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v1) ↦{fullShare} X main_v1) ∗ (((c : Thread nD τ).loc main_v2) ↦{fullShare} X main_v2)) := by
  unfold Pipeline.arrBufs
  exact bigSep_eq_bigSepL_of_eq [main_v1, main_v2] (by decide) (by decide) _

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem arrays1_eq (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{(dat1 V c).share 0} G 0)
        ∗ (((c : Thread nD τ).loc (Pipeline.arrRef spec1 1)) ↦{(dat1 V c).share 1} G 1)
        ∗ (((c : Thread nD τ).loc (Pipeline.arrRef spec1 2)) ↦{(dat1 V c).share 2} G 2)) := by
  unfold Dat.arrays
  rw [← bigSep_W1 (fun w : Fin 3 => (((c : Thread nD τ).loc (Pipeline.arrRef spec1 w)) ↦{(dat1 V c).share w} G w : sProp 𝕄))]
  exact bigSep_congr fun w _ => by rw [(arr_whole1 w).set_eq_univ]

theorem arrays1_of_bufs (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      ⊢ (dat1 V c).arrays fun w => X (Pipeline.arrRef spec1 w) := by
  rw [arrBufs1_eq, arrays1_eq]
  rw [share1_0, share1_1, share1_2]
  iintro ⟨H0, H1⟩
  ihave Hs := (pointsTo_share (PosShare.mem_left_op_right fullShare)).1 $$ H0
  icases Hs with ⟨Ha, Hb⟩
  isplitl [Ha]; · iexact Ha
  isplitl [Hb]; · iexact Hb
  iexact H1

theorem bufs1_of_arrays (c : Dev nD) (X' : (b : Ref sig .tc) → Buf (Elt F) ((c : Thread nD τ).loc b))
    (G : (w : Fin cfg1.W) → Buf (Elt F) ((cfg1.win w).arr.view.loc (c : Thread nD τ))) (hG : ∀ w, G w = X' (Pipeline.arrRef spec1 w)) :
    ((dat1 V c).arrays G : sProp 𝕄)
      ⊢ Pipeline.arrBufs (Ix := Unit) (Name := ℕ) (U := UR sig nD τ) (Lvl := ℕ) spec1 c X' := by
  obtain rfl : G = fun w => X' (Pipeline.arrRef spec1 w) := funext hG
  rw [arrBufs1_eq, arrays1_eq]
  rw [share1_0, share1_1, share1_2]
  iintro ⟨Ha, Hb, H1⟩
  isplitl [Ha Hb]
  · iapply (pointsTo_share (PosShare.mem_left_op_right fullShare)).2
    isplitl [Ha]; · iexact Ha
    iexact Hb
  iexact H1

end

end Cert.KernelIdeal.Hand

end
-- ==== Proof.KRun.lean ====
/-
  The run of the whole program: the host reshape of sigma, the first region (the matrix sigma K, one 128 x 128
  tile per grid point), the second region (its Gram matrix, 512 x 512 blocks accumulated over two steps).
  Between items every unscoped buffer of the core is held at a named valuation: the launch contents, then the
  reshape's result added, then the first region's output array at what its write-backs leave, then the second
  region's. Every weakly fair execution terminates, the result array ends at what the second region's
  write-backs leave and each argument array ends as launched.
-/
import proofs.«163482_j91182155694480_1_alg».proof.Proof.KShare
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its output array at what the write-backs leave. -/
def W2 (c : Dev nD) : Valuation τ sig (Elt F) :=
  Function.update (W1 m ρ c) (Proc.devRef .tc main_v1) ((dat0 (V1 m ρ) c).arrAt 9 cfg0.N)
abbrev V2 : (c : Dev nD) → (b : Ref sig .tc) → Buf (Elt F) ((c : Thread nD τ).loc b) := fun c b => W2 m ρ c b
/-- After the second region: its output array likewise. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b

theorem W2_v1 (c : Dev nD) : W2 m ρ c (Proc.devRef .tc main_v1) = (dat0 (V1 m ρ) c).arrAt 9 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..
theorem W3_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) : W3 m ρ c (Proc.devRef .tc b) = W2 m ρ c (Proc.devRef .tc b) := by
  unfold W3; exact Function.update_of_ne (StableHlo.devRef_ne_of_ne hb) ..

theorem hostOps0_fresh' : (hostOps0 : List (HloOp τ sig (Elt F))).Forall fun op => op.fresh = ∅ := by
  simp only [List.Forall]; repeat' constructor

theorem W1_of_ne_v0 (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <| (W1_of_ne_v0 m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of_ne_v0 m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of_ne_v0 m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of_ne_v0 m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <| (W1_of_ne_v0 m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <| (W1_of_ne_v0 m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| (W1_of_ne_v0 m ρ c main_arg6 (by decide)).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <| (W1_of_ne_v0 m ρ c main_arg7 (by decide)).trans rfl

/-! ## What the regions leave in their arrays, against the valuations -/

/-- After the first region each array holds the next valuation's contents: the inputs as entered, the output at its write-backs. -/
theorem hF0 (c : Dev nD) (w : Fin cfg0.W) : (dat0 (V1 m ρ) c).arrAt w cfg0.N = V2 m ρ c (Pipeline.arrRef spec0 w) := by
  fin_cases w
  · exact ((dat0 (V1 m ρ) c).arrAt_in 0 rfl _).trans ((A_eq0 (V1 m ρ) c 0).trans (W2_of_ne m ρ c main_arg0 (by decide)).symm)
  · exact ((dat0 (V1 m ρ) c).arrAt_in 1 rfl _).trans ((A_eq0 (V1 m ρ) c 1).trans (W2_of_ne m ρ c main_arg0 (by decide)).symm)
  · exact ((dat0 (V1 m ρ) c).arrAt_in 2 rfl _).trans ((A_eq0 (V1 m ρ) c 2).trans (W2_of_ne m ρ c main_arg1 (by decide)).symm)
  · exact ((dat0 (V1 m ρ) c).arrAt_in 3 rfl _).trans ((A_eq0 (V1 m ρ) c 3).trans (W2_of_ne m ρ c main_arg2 (by decide)).symm)
  · exact ((dat0 (V1 m ρ) c).arrAt_in 4 rfl _).trans ((A_eq0 (V1 m ρ) c 4).trans (W2_of_ne m ρ c main_arg3 (by decide)).symm)
  · exact ((dat0 (V1 m ρ) c).arrAt_in 5 rfl _).trans ((A_eq0 (V1 m ρ) c 5).trans (W2_of_ne m ρ c main_arg4 (by decide)).symm)
  · exact ((dat0 (V1 m ρ) c).arrAt_in 6 rfl _).trans ((A_eq0 (V1 m ρ) c 6).trans (W2_of_ne m ρ c main_arg5 (by decide)).symm)
  · exact ((dat0 (V1 m ρ) c).arrAt_in 7 rfl _).trans ((A_eq0 (V1 m ρ) c 7).trans (W2_of_ne m ρ c main_arg6 (by decide)).symm)
  · exact ((dat0 (V1 m ρ) c).arrAt_in 8 rfl _).trans ((A_eq0 (V1 m ρ) c 8).trans (W2_of_ne m ρ c main_v0 (by decide)).symm)
  · exact (W2_v1 m ρ c).symm

theorem hrest0 (c : Dev nD) : ∀ b, b ∉ Finset.univ.image (Pipeline.arrRef spec0) → V2 m ρ c b = V1 m ρ c b :=
  fun b hb => W2_of_ne m ρ c b fun e => hb (Finset.mem_image.mpr ⟨9, Finset.mem_univ _, e.symm⟩)

theorem hF1 (c : Dev nD) (w : Fin cfg1.W) : (dat1 (V2 m ρ) c).arrAt w cfg1.N = V3 m ρ c (Pipeline.arrRef spec1 w) := by
  fin_cases w
  · exact ((dat1 (V2 m ρ) c).arrAt_in 0 rfl _).trans ((A_eq1 (V2 m ρ) c 0).trans (W3_of_ne m ρ c main_v1 (by decide)).symm)
  · exact ((dat1 (V2 m ρ) c).arrAt_in 1 rfl _).trans ((A_eq1 (V2 m ρ) c 1).trans (W3_of_ne m ρ c main_v1 (by decide)).symm)
  · exact (W3_v2 m ρ c).symm

theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- A core's unscoped buffers at `X` are a region's arrays at `X` and the rest (the first region). -/
theorem entry0 (c : Dev nD) (X : (b : Ref sig .tc) → Buf (Elt F) ((c : Thread nD τ).loc b)) (V) :
    (unscopedBufs c X : sProp 𝕄) ⊢ iprop((dat0 V c).arrays (fun w => X (Pipeline.arrRef spec0 w)) ∗ Pipeline.unscopedRest spec0 c X) := by
  rw [Pipeline.unscopedBufs_split₀ (cfgs) 0 winFacts₀0.arr_unscoped c X]
  exact sep_mono (arrays0_of_bufs V c X) .rfl
theorem exit0 (c : Dev nD) (X X' : (b : Ref sig .tc) → Buf (Elt F) ((c : Thread nD τ).loc b)) (V)
    (G : (w : Fin cfg0.W) → Buf (Elt F) ((cfg0.win w).arr.view.loc (c : Thread nD τ))) (hG : ∀ w, G w = X' (Pipeline.arrRef spec0 w))
    (hrest : ∀ b, b ∉ Finset.univ.image (Pipeline.arrRef spec0) → X' b = X b) :
    iprop((dat0 V c).arrays G ∗ Pipeline.unscopedRest spec0 c X) ⊢ (unscopedBufs c X' : sProp 𝕄) := by
  rw [Pipeline.unscopedBufs_split₀ (cfgs) 0 winFacts₀0.arr_unscoped c X']
  refine sep_mono (bufs0_of_arrays V c X' G hG) (Entails.of_eq ?_)
  unfold Pipeline.unscopedRest
  exact bigSep_congr fun b hb => by rw [hrest b (Finset.mem_sdiff.mp hb).2]
theorem entry1 (c : Dev nD) (X : (b : Ref sig .tc) → Buf (Elt F) ((c : Thread nD τ).loc b)) (V) :
    (unscopedBufs c X : sProp 𝕄) ⊢ iprop((dat1 V c).arrays (fun w => X (Pipeline.arrRef spec1 w)) ∗ Pipeline.unscopedRest spec1 c X) := by
  rw [Pipeline.unscopedBufs_split₀ (cfgs) 1 winFacts₀1.arr_unscoped c X]
  exact sep_mono (arrays1_of_bufs V c X) .rfl
theorem exit1 (c : Dev nD) (X X' : (b : Ref sig .tc) → Buf (Elt F) ((c : Thread nD τ).loc b)) (V)
    (G : (w : Fin cfg1.W) → Buf (Elt F) ((cfg1.win w).arr.view.loc (c : Thread nD τ))) (hG : ∀ w, G w = X' (Pipeline.arrRef spec1 w))
    (hrest : ∀ b, b ∉ Finset.univ.image (Pipeline.arrRef spec1) → X' b = X b) :
    iprop((dat1 V c).arrays G ∗ Pipeline.unscopedRest spec1 c X) ⊢ (unscopedBufs c X' : sProp 𝕄) := by
  rw [Pipeline.unscopedBufs_split₀ (cfgs) 1 winFacts₀1.arr_unscoped c X']
  refine sep_mono (bufs1_of_arrays V c X' G hG) (Entails.of_eq ?_)
  unfold Pipeline.unscopedRest
  exact bigSep_congr fun b hb => by rw [hrest b (Finset.mem_sdiff.mp hb).2]

/-! ## The regions as segments -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 c (V1 m ρ c) (V1 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 c (V1 m ρ c) (V2 m ρ c) (V1 m ρ) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 c (V2 m ρ c) (V2 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := exit1 c (V2 m ρ c) (V3 m ρ c) (V2 m ρ) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates; the result array ends at what the second region's write-backs leave and
    every argument array as launched. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Hand

end
-- ==== Proof.RefRun0.lean ====
/- The reference program's @main, first window (statements 1 … 60), as the list of its host operations: the calls
   unfolded, each callee's operations over the buffers that call names. -/
import proofs.«163482_j91182155694480_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The operations of statements 1 … 60 of @main, in order, each call replaced by the callee's operations over
    that call's record of buffers. -/
abbrev ops0 : List (HloOp τ sig (Elt F)) :=
  [
    StableHlo.nullary main_cst (constant S_ .f32 0x3F800000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.TRef.nullary main_call0.v0 (iotaInDim S1024x1024 32 0),
    StableHlo.TRef.nullary main_call0.c (constantI S_ 32 4294967295#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 main_call0.v5 (.of main_v0 : StableHlo.TRef sig ⟨S1024x1024, .f32⟩) main_call0.v6 select,
    StableHlo.nullary main_cst_0 (constant S_ .f32 0x00000000#32),
    StableHlo.unary main_cst_0 main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    StableHlo.TRef.reshape (.of main_v3 : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1048576] ![1] ![1048575] ![0] x v reduceWindows_S1048576_S1048576_w1048576s1p1048575_0 h_S_),
    StableHlo.nullary main_c (constantI S_ 32 0#32),
    StableHlo.unary main_c main_v5 (broadcastInDim S524800 ![] bcast_S_S524800 : (⟨S_, .i32⟩ : BufTy).Contents (Elt F) → (⟨S524800, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1048576 ![] bcast_S_S1048576),
    StableHlo.TRef.binary main_call2.v1 (.of main_v4 : StableHlo.TRef sig ⟨S1048576, .i32⟩) main_call2.v2 maxsi,
    StableHlo.nullary main_c_2 (constantI S_ 32 0#32),
    StableHlo.unary main_c_2 main_v7 (broadcastInDim S1048576 ![] bcast_S_S1048576 : (⟨S_, .i32⟩ : BufTy).Contents (Elt F) → (⟨S1048576, .i32⟩ : BufTy).Contents (Elt F)),
    StableHlo.binary main_v6 main_v7 main_v8 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 524800#32),
    StableHlo.unary main_c_3 main_v9 (broadcastInDim S1048576 ![] bcast_S_S1048576 : (⟨S_, .i32⟩ : BufTy).Contents (Elt F) → (⟨S1048576, .i32⟩ : BufTy).Contents (Elt F)),
    StableHlo.binary main_v6 main_v9 main_v10 (addi : (⟨S1048576, .i32⟩ : BufTy).Contents (Elt F) → (⟨S1048576, .i32⟩ : BufTy).Contents (Elt F) → (⟨S1048576, .i32⟩ : BufTy).Contents (Elt F)),
    StableHlo.ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v11 main_v12 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v13 (broadcastInDim S1048576 ![] bcast_S_S1048576 : (⟨S_, .i32⟩ : BufTy).Contents (Elt F) → (⟨S1048576, .i32⟩ : BufTy).Contents (Elt F)),
    StableHlo.ternary main_v5 main_v12 main_v13 main_v14 ((fun x i u => Host.scatter scatter_S524800_S1048576x1_S1048576_n_0_0_1 IntOp.addi x i u) : (⟨S524800, .i32⟩ : BufTy).Contents (Elt F) → (⟨S1048576x1, .i32⟩ : BufTy).Contents (Elt F) → (⟨S1048576, .i32⟩ : BufTy).Contents (Elt F) → (⟨S524800, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S524800, .i32⟩) main_call3.call0.v0 main_call3.call0.v1 (fun x v => Host.reduceWindow IntOp.addi ![524800] ![1] ![524799] ![0] x v reduceWindows_S524800_S524800_w524800s1p524799_0 h_S_),
    StableHlo.nullary main_c_5 (constantI S_ 32 1024#32),
    StableHlo.TRef.unary (.of main_c_5 : StableHlo.TRef sig ⟨S_, .i32⟩) main_call4.v0 (broadcastInDim S524800 ![] bcast_S_S524800),
    StableHlo.TRef.binary (.of main_v15 : StableHlo.TRef sig ⟨S524800, .i32⟩) main_call4.v0 main_call4.v1 Host.divsi,
    StableHlo.TRef.unary (.of main_v15 : StableHlo.TRef sig ⟨S524800, .i32⟩) main_call4.v2 signi,
    StableHlo.TRef.unary (.of main_c_5 : StableHlo.TRef sig ⟨S_, .i32⟩) main_call4.v3 signi,
    StableHlo.TRef.unary main_call4.v3 main_call4.v4 (broadcastInDim S524800 ![] bcast_S_S524800),
    StableHlo.TRef.binary main_call4.v2 main_call4.v4 main_call4.v5 (cmpi .ne),
    StableHlo.TRef.unary (.of main_c_5 : StableHlo.TRef sig ⟨S_, .i32⟩) main_call4.v6 (broadcastInDim S524800 ![] bcast_S_S524800),
    StableHlo.TRef.binary (.of main_v15 : StableHlo.TRef sig ⟨S524800, .i32⟩) main_call4.v6 main_call4.v7 Host.remsi,
    StableHlo.TRef.nullary main_call4.c (constantI S_ 32 0#32),
    StableHlo.TRef.unary main_call4.c main_call4.v8 (broadcastInDim S524800 ![] bcast_S_S524800),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S524800 ![] bcast_S_S524800),
    StableHlo.TRef.binary main_call4.v1 main_call4.v11 main_call4.v12 subi,
    StableHlo.TRef.ternary main_call4.v10 main_call4.v12 main_call4.v1 main_call4.call0.v0 select,
    StableHlo.nullary main_c_6 (constantI S_ 32 1024#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S524800 ![] bcast_S_S524800),
    StableHlo.TRef.binary (.of main_v16 : StableHlo.TRef sig ⟨S524800, .i32⟩) main_call5.v3 main_call5.v4 Host.remsi,
    StableHlo.TRef.nullary main_call5.c_1 (constantI S_ 32 0#32),
    StableHlo.TRef.unary main_call5.c_1 main_call5.v5 (broadcastInDim S524800 ![] bcast_S_S524800),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S524800 ![] bcast_S_S524800),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S524800 ![] bcast_S_S524800),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S524800 ![] bcast_S_S524800),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S524800 ![] bcast_S_S524800),
    StableHlo.TRef.binary (.of main_v15 : StableHlo.TRef sig ⟨S524800, .i32⟩) main_call6.v0 main_call6.v1 Host.divsi,
    StableHlo.TRef.unary (.of main_v15 : StableHlo.TRef sig ⟨S524800, .i32⟩) main_call6.v2 signi,
    StableHlo.TRef.unary (.of main_c_7 : StableHlo.TRef sig ⟨S_, .i32⟩) main_call6.v3 signi,
    StableHlo.TRef.unary main_call6.v3 main_call6.v4 (broadcastInDim S524800 ![] bcast_S_S524800),
    StableHlo.TRef.binary main_call6.v2 main_call6.v4 main_call6.v5 (cmpi .ne),
    StableHlo.TRef.unary (.of main_c_7 : StableHlo.TRef sig ⟨S_, .i32⟩) main_call6.v6 (broadcastInDim S524800 ![] bcast_S_S524800),
    StableHlo.TRef.binary (.of main_v15 : StableHlo.TRef sig ⟨S524800, .i32⟩) main_call6.v6 main_call6.v7 Host.remsi,
    StableHlo.TRef.nullary main_call6.c (constantI S_ 32 0#32),
    StableHlo.TRef.unary main_call6.c main_call6.v8 (broadcastInDim S524800 ![] bcast_S_S524800),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S524800 ![] bcast_S_S524800),
    StableHlo.TRef.binary main_call6.v1 main_call6.v11 main_call6.v12 subi,
    StableHlo.TRef.ternary main_call6.v10 main_call6.v12 main_call6.v1 main_call6.call0.v0 select,
    StableHlo.nullary main_c_8 (constantI S_ 32 1024#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S524800 ![] bcast_S_S524800),
    StableHlo.TRef.binary (.of main_v18 : StableHlo.TRef sig ⟨S524800, .i32⟩) main_call7.v3 main_call7.v4 Host.remsi,
    StableHlo.TRef.nullary main_call7.c_1 (constantI S_ 32 0#32),
    StableHlo.TRef.unary main_call7.c_1 main_call7.v5 (broadcastInDim S524800 ![] bcast_S_S524800),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S524800 ![] bcast_S_S524800),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S524800 ![] bcast_S_S524800),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S524800 ![] bcast_S_S524800),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v20 (broadcastInDim S524800 ![] bcast_S_S524800 : (⟨S_, .i32⟩ : BufTy).Contents (Elt F) → (⟨S524800, .i32⟩ : BufTy).Contents (Elt F)),
    StableHlo.binary main_v17 main_v20 main_v21 (cmpi .slt : (⟨S524800, .i32⟩ : BufTy).Contents (Elt F) → (⟨S524800, .i32⟩ : BufTy).Contents (Elt F) → (⟨S524800, .i1⟩ : BufTy).Contents (Elt F)),
    StableHlo.nullary main_c_10 (constantI S_ 32 1024#32),
    StableHlo.unary main_c_10 main_v22 (broadcastInDim S524800 ![] bcast_S_S524800 : (⟨S_, .i32⟩ : BufTy).Contents (Elt F) → (⟨S524800, .i32⟩ : BufTy).Contents (Elt F)),
    StableHlo.binary main_v17 main_v22 main_v23 (addi : (⟨S524800, .i32⟩ : BufTy).Contents (Elt F) → (⟨S524800, .i32⟩ : BufTy).Contents (Elt F) → (⟨S524800, .i32⟩ : BufTy).Contents (Elt F)),
    StableHlo.ternary main_v21 main_v23 main_v17 main_v24 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.unary main_v24 main_v25 (broadcastInDim S524800x1 ![0] bcast_S524800_S524800x1_0 : (⟨S524800, .i32⟩ : BufTy).Contents (Elt F) → (⟨S524800x1, .i32⟩ : BufTy).Contents (Elt F)),
    StableHlo.binary main_arg0 main_v25 main_v26 ((fun x i => Host.gather gather_S1024_S524800x1_S524800_n_0_n_n_0_1_1 x i) : (⟨S1024, .f32⟩ : BufTy).Contents (Elt F) → (⟨S524800x1, .i32⟩ : BufTy).Contents (Elt F) → (⟨S524800, .f32⟩ : BufTy).Contents (Elt F)),
    StableHlo.nullary main_c_11 (constantI S_ 32 0#32),
    StableHlo.unary main_c_11 main_v27 (broadcastInDim S524800 ![] bcast_S_S524800 : (⟨S_, .i32⟩ : BufTy).Contents (Elt F) → (⟨S524800, .i32⟩ : BufTy).Contents (Elt F)),
    StableHlo.binary main_v19 main_v27 main_v28 (cmpi .slt : (⟨S524800, .i32⟩ : BufTy).Contents (Elt F) → (⟨S524800, .i32⟩ : BufTy).Contents (Elt F) → (⟨S524800, .i1⟩ : BufTy).Contents (Elt F)),
    StableHlo.nullary main_c_12 (constantI S_ 32 1024#32),
    StableHlo.unary main_c_12 main_v29 (broadcastInDim S524800 ![] bcast_S_S524800 : (⟨S_, .i32⟩ : BufTy).Contents (Elt F) → (⟨S524800, .i32⟩ : BufTy).Contents (Elt F)),
    StableHlo.binary main_v19 main_v29 main_v30 (addi : (⟨S524800, .i32⟩ : BufTy).Contents (Elt F) → (⟨S524800, .i32⟩ : BufTy).Contents (Elt F) → (⟨S524800, .i32⟩ : BufTy).Contents (Elt F)),
    StableHlo.ternary main_v28 main_v30 main_v19 main_v31 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.unary main_v31 main_v32 (broadcastInDim S524800x1 ![0] bcast_S524800_S524800x1_0 : (⟨S524800, .i32⟩ : BufTy).Contents (Elt F) → (⟨S524800x1, .i32⟩ : BufTy).Contents (Elt F)),
    StableHlo.binary main_arg0 main_v32 main_v33 ((fun x i => Host.gather gather_S1024_S524800x1_S524800_n_0_n_n_0_1_1 x i) : (⟨S1024, .f32⟩ : BufTy).Contents (Elt F) → (⟨S524800x1, .i32⟩ : BufTy).Contents (Elt F) → (⟨S524800, .f32⟩ : BufTy).Contents (Elt F)),
    StableHlo.unary main_v26 main_v34 (broadcastInDim S524800x1 ![0] bcast_S524800_S524800x1_0 : (⟨S524800, .f32⟩ : BufTy).Contents (Elt F) → (⟨S524800x1, .f32⟩ : BufTy).Contents (Elt F)),
    StableHlo.unary main_v33 main_v35 (broadcastInDim S524800x1 ![0] bcast_S524800_S524800x1_0 : (⟨S524800, .f32⟩ : BufTy).Contents (Elt F) → (⟨S524800x1, .f32⟩ : BufTy).Contents (Elt F)),
    StableHlo.binary main_v34 main_v35 main_v36 ((fun a b => concatenate S524800x2 1 [⟨S524800x1, a⟩, ⟨S524800x1, b⟩] concatenates_S524800x1_S524800x1_S524800x2_d1) : (⟨S524800x1, .f32⟩ : BufTy).Contents (Elt F) → (⟨S524800x1, .f32⟩ : BufTy).Contents (Elt F) → (⟨S524800x2, .f32⟩ : BufTy).Contents (Elt F)),
    StableHlo.unary main_arg1 main_v37 ((transpose S2x128 [1, 0] · transposes_S128x2_S2x128_1_0) : (⟨S128x2, .f32⟩ : BufTy).Contents (Elt F) → (⟨S2x128, .f32⟩ : BufTy).Contents (Elt F)),
    StableHlo.binary main_v36 main_v37 main_v38 ((fun l r => Host.dotGeneral dot_S524800x2_S2x128_S524800x128_1_0_0_1_n_n none l r) : (⟨S524800x2, .f32⟩ : BufTy).Contents (Elt F) → (⟨S2x128, .f32⟩ : BufTy).Contents (Elt F) → (⟨S524800x128, .f32⟩ : BufTy).Contents (Elt F)),
    StableHlo.unary main_arg2 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S524800x128 ![0, 1] bcast_S1x128_S524800x128_0_1 : (⟨S1x128, .f32⟩ : BufTy).Contents (Elt F) → (⟨S524800x128, .f32⟩ : BufTy).Contents (Elt F)),
    StableHlo.binary main_v38 main_v40 main_v41 (addf : (⟨S524800x128, .f32⟩ : BufTy).Contents (Elt F) → (⟨S524800x128, .f32⟩ : BufTy).Contents (Elt F) → (⟨S524800x128, .f32⟩ : BufTy).Contents (Elt F)),
    StableHlo.unary main_v41 main_v42 (Host.tanh : (⟨S524800x128, .f32⟩ : BufTy).Contents (Elt F) → (⟨S524800x128, .f32⟩ : BufTy).Contents (Elt F)),
    StableHlo.unary main_arg3 main_v43 ((transpose S128x32 [1, 0] · transposes_S32x128_S128x32_1_0) : (⟨S32x128, .f32⟩ : BufTy).Contents (Elt F) → (⟨S128x32, .f32⟩ : BufTy).Contents (Elt F)),
    StableHlo.binary main_v42 main_v43 main_v44 ((fun l r => Host.dotGeneral dot_S524800x128_S128x32_S524800x32_1_0_0_1_n_n none l r) : (⟨S524800x128, .f32⟩ : BufTy).Contents (Elt F) → (⟨S128x32, .f32⟩ : BufTy).Contents (Elt F) → (⟨S524800x32, .f32⟩ : BufTy).Contents (Elt F)) ]

set_option maxRecDepth 16384 in
set_option maxHeartbeats 4000000 in
/-- That window of @main is the straight line of those operations: the callees' bodies unfolded at their calls,
    sequencing reassociated. -/
theorem part0_eq (c : Dev nD) : main_part0 (F := F) c = seq ops0 := by
  simp only [main_part0, fn_triu.body, fn_cumsum.body, fn_cumsum_0.body, fn_clip.body, fn_cumsum_1.body, fn_cumsum_2.body, fn_floor_divide.body, fn_where.body, fn_remainder.body, fn_where_3.body, seq, bind_assoc, pure_bind]
  all_goals rfl

/-- Every operation touches TensorCore references only. -/
theorem ops0_sub : (ops0 : List (HloOp τ sig (Elt F))).Forall fun op => op.bufs ⊆ tcRefs τ sig :=
  ⟨
    nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    unary_bufs_sub .., binary_bufs_sub ..⟩

/-- Every operation determines its results. -/
theorem ops0_fresh : (ops0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RefRun1.lean ====
/- The reference program's @main, second window (statements 61 … 105), as the list of its host operations: the calls
   unfolded, each callee's operations over the buffers that call names. -/
import proofs.«163482_j91182155694480_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The operations of statements 61 … 105 of @main, in order, each call replaced by the callee's operations over
    that call's record of buffers. -/
abbrev ops1 : List (HloOp τ sig (Elt F)) :=
  [
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S524800x32 ![0, 1] bcast_S1x32_S524800x32_0_1 : (⟨S1x32, .f32⟩ : BufTy).Contents (Elt F) → (⟨S524800x32, .f32⟩ : BufTy).Contents (Elt F)),
    StableHlo.binary main_v44 main_v46 main_v47 (addf : (⟨S524800x32, .f32⟩ : BufTy).Contents (Elt F) → (⟨S524800x32, .f32⟩ : BufTy).Contents (Elt F) → (⟨S524800x32, .f32⟩ : BufTy).Contents (Elt F)),
    StableHlo.TRef.nullary main_call8.cst (constant S_ .f32 0x00000000#32),
    StableHlo.TRef.unary main_call8.cst main_call8.v0 (broadcastInDim S524800x32 ![] bcast_S_S524800x32),
    StableHlo.TRef.binary (.of main_v47 : StableHlo.TRef sig ⟨S524800x32, .f32⟩) main_call8.v0 main_call8.v1 maximumf,
    StableHlo.unary main_arg5 main_v49 ((transpose S32x1 [1, 0] · transposes_S1x32_S32x1_1_0) : (⟨S1x32, .f32⟩ : BufTy).Contents (Elt F) → (⟨S32x1, .f32⟩ : BufTy).Contents (Elt F)),
    StableHlo.binary main_v48 main_v49 main_v50 ((fun l r => Host.dotGeneral dot_S524800x32_S32x1_S524800x1_1_0_0_1_n_n none l r) : (⟨S524800x32, .f32⟩ : BufTy).Contents (Elt F) → (⟨S32x1, .f32⟩ : BufTy).Contents (Elt F) → (⟨S524800x1, .f32⟩ : BufTy).Contents (Elt F)),
    StableHlo.unary main_arg6 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S524800x1 ![0, 1] bcast_S1x1_S524800x1_0_1 : (⟨S1x1, .f32⟩ : BufTy).Contents (Elt F) → (⟨S524800x1, .f32⟩ : BufTy).Contents (Elt F)),
    StableHlo.binary main_v50 main_v52 main_v53 (addf : (⟨S524800x1, .f32⟩ : BufTy).Contents (Elt F) → (⟨S524800x1, .f32⟩ : BufTy).Contents (Elt F) → (⟨S524800x1, .f32⟩ : BufTy).Contents (Elt F)),
    StableHlo.reshape main_v53 main_v54 rfl shapeCasts_S524800x1_S524800,
    StableHlo.nullary main_v55 (iotaInDim S1024x1024 32 0),
    StableHlo.nullary main_v56 (iotaInDim S1024x1024 32 1),
    StableHlo.nullary main_c_13 (constantI S_ 32 0#32),
    StableHlo.unary main_c_13 main_v57 (broadcastInDim S1024x1024 ![] bcast_S_S1024x1024 : (⟨S_, .i32⟩ : BufTy).Contents (Elt F) → (⟨S1024x1024, .i32⟩ : BufTy).Contents (Elt F)),
    StableHlo.binary main_v55 main_v57 main_v58 (addi : (⟨S1024x1024, .i32⟩ : BufTy).Contents (Elt F) → (⟨S1024x1024, .i32⟩ : BufTy).Contents (Elt F) → (⟨S1024x1024, .i32⟩ : BufTy).Contents (Elt F)),
    StableHlo.binary main_v58 main_v56 main_v59 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v59 main_v60 (uitofp .f32 : (⟨S1024x1024, .i1⟩ : BufTy).Contents (Elt F) → (⟨S1024x1024, .f32⟩ : BufTy).Contents (Elt F)),
    StableHlo.binary main_v17 main_v19 main_v61 (cmpi .eq : (⟨S524800, .i32⟩ : BufTy).Contents (Elt F) → (⟨S524800, .i32⟩ : BufTy).Contents (Elt F) → (⟨S524800, .i1⟩ : BufTy).Contents (Elt F)),
    StableHlo.nullary main_cst_14 (constant S_ .f32 0x3F800000#32),
    StableHlo.TRef.unary (.of main_cst_14 : StableHlo.TRef sig ⟨S_, .f32⟩) main_call9.v0 id,
    StableHlo.TRef.unary main_call9.v0 main_call9.v1 (broadcastInDim S524800 ![] bcast_S_S524800),
    StableHlo.TRef.ternary (.of main_v61 : StableHlo.TRef sig ⟨S524800, .i1⟩) main_call9.v1 (.of main_v54 : StableHlo.TRef sig ⟨S524800, .f32⟩) main_call9.v2 select,
    StableHlo.nullary main_c_15 (constantI S_ 32 0#32),
    StableHlo.unary main_c_15 main_v63 (broadcastInDim S524800 ![] bcast_S_S524800 : (⟨S_, .i32⟩ : BufTy).Contents (Elt F) → (⟨S524800, .i32⟩ : BufTy).Contents (Elt F)),
    StableHlo.binary main_v17 main_v63 main_v64 (cmpi .slt : (⟨S524800, .i32⟩ : BufTy).Contents (Elt F) → (⟨S524800, .i32⟩ : BufTy).Contents (Elt F) → (⟨S524800, .i1⟩ : BufTy).Contents (Elt F)),
    StableHlo.nullary main_c_16 (constantI S_ 32 1024#32),
    StableHlo.unary main_c_16 main_v65 (broadcastInDim S524800 ![] bcast_S_S524800 : (⟨S_, .i32⟩ : BufTy).Contents (Elt F) → (⟨S524800, .i32⟩ : BufTy).Contents (Elt F)),
    StableHlo.binary main_v17 main_v65 main_v66 (addi : (⟨S524800, .i32⟩ : BufTy).Contents (Elt F) → (⟨S524800, .i32⟩ : BufTy).Contents (Elt F) → (⟨S524800, .i32⟩ : BufTy).Contents (Elt F)),
    StableHlo.ternary main_v64 main_v66 main_v17 main_v67 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.nullary main_c_17 (constantI S_ 32 0#32),
    StableHlo.unary main_c_17 main_v68 (broadcastInDim S524800 ![] bcast_S_S524800 : (⟨S_, .i32⟩ : BufTy).Contents (Elt F) → (⟨S524800, .i32⟩ : BufTy).Contents (Elt F)),
    StableHlo.binary main_v19 main_v68 main_v69 (cmpi .slt : (⟨S524800, .i32⟩ : BufTy).Contents (Elt F) → (⟨S524800, .i32⟩ : BufTy).Contents (Elt F) → (⟨S524800, .i1⟩ : BufTy).Contents (Elt F)),
    StableHlo.nullary main_c_18 (constantI S_ 32 1024#32),
    StableHlo.unary main_c_18 main_v70 (broadcastInDim S524800 ![] bcast_S_S524800 : (⟨S_, .i32⟩ : BufTy).Contents (Elt F) → (⟨S524800, .i32⟩ : BufTy).Contents (Elt F)),
    StableHlo.binary main_v19 main_v70 main_v71 (addi : (⟨S524800, .i32⟩ : BufTy).Contents (Elt F) → (⟨S524800, .i32⟩ : BufTy).Contents (Elt F) → (⟨S524800, .i32⟩ : BufTy).Contents (Elt F)),
    StableHlo.ternary main_v69 main_v71 main_v19 main_v72 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.unary main_v67 main_v73 (broadcastInDim S524800x1 ![0] bcast_S524800_S524800x1_0 : (⟨S524800, .i32⟩ : BufTy).Contents (Elt F) → (⟨S524800x1, .i32⟩ : BufTy).Contents (Elt F)),
    StableHlo.unary main_v72 main_v74 (broadcastInDim S524800x1 ![0] bcast_S524800_S524800x1_0 : (⟨S524800, .i32⟩ : BufTy).Contents (Elt F) → (⟨S524800x1, .i32⟩ : BufTy).Contents (Elt F)),
    StableHlo.binary main_v73 main_v74 main_v75 ((fun a b => concatenate S524800x2 1 [⟨S524800x1, a⟩, ⟨S524800x1, b⟩] concatenates_S524800x1_S524800x1_S524800x2_d1) : (⟨S524800x1, .i32⟩ : BufTy).Contents (Elt F) → (⟨S524800x1, .i32⟩ : BufTy).Contents (Elt F) → (⟨S524800x2, .i32⟩ : BufTy).Contents (Elt F)),
    StableHlo.ternary main_v60 main_v75 main_v62 main_v76 ((fun x i u => Host.scatter scatter_S1024x1024_S524800x2_S524800_n_01_01_1 (fun _ b => b) x i u) : (⟨S1024x1024, .f32⟩ : BufTy).Contents (Elt F) → (⟨S524800x2, .i32⟩ : BufTy).Contents (Elt F) → (⟨S524800, .f32⟩ : BufTy).Contents (Elt F) → (⟨S1024x1024, .f32⟩ : BufTy).Contents (Elt F)),
    StableHlo.reshape main_arg7 main_v77 rfl shapeCasts_S1_S_,
    StableHlo.binary main_v77 main_v77 main_v78 (mulf : (⟨S_, .f32⟩ : BufTy).Contents (Elt F) → (⟨S_, .f32⟩ : BufTy).Contents (Elt F) → (⟨S_, .f32⟩ : BufTy).Contents (Elt F)),
    StableHlo.unary main_v76 main_v79 ((transpose S1024x1024 [1, 0] · transposes_S1024x1024_S1024x1024_1_0) : (⟨S1024x1024, .f32⟩ : BufTy).Contents (Elt F) → (⟨S1024x1024, .f32⟩ : BufTy).Contents (Elt F)),
    StableHlo.binary main_v79 main_v76 main_v80 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    StableHlo.unary main_v78 main_v81 (broadcastInDim S1024x1024 ![] bcast_S_S1024x1024 : (⟨S_, .f32⟩ : BufTy).Contents (Elt F) → (⟨S1024x1024, .f32⟩ : BufTy).Contents (Elt F)),
    StableHlo.binary main_v81 main_v80 main_v82 (mulf : (⟨S1024x1024, .f32⟩ : BufTy).Contents (Elt F) → (⟨S1024x1024, .f32⟩ : BufTy).Contents (Elt F) → (⟨S1024x1024, .f32⟩ : BufTy).Contents (Elt F)) ]

set_option maxRecDepth 16384 in
set_option maxHeartbeats 4000000 in
/-- That window of @main is the straight line of those operations: the callees' bodies unfolded at their calls,
    sequencing reassociated. -/
theorem part1_eq (c : Dev nD) : main_part1 (F := F) c = seq ops1 := by
  simp only [main_part1, fn_relu.body, fn_where_4.body, seq, bind_assoc, pure_bind]
  all_goals rfl

/-- Every operation touches TensorCore references only. -/
theorem ops1_sub : (ops1 : List (HloOp τ sig (Elt F))).Forall fun op => op.bufs ⊆ tcRefs τ sig :=
  ⟨
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., reshape_bufs_sub ..,
    nullary_bufs_sub .., nullary_bufs_sub .., nullary_bufs_sub .., unary_bufs_sub .., binary_bufs_sub .., binary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..,
    reshape_bufs_sub .., binary_bufs_sub .., unary_bufs_sub .., binary_bufs_sub .., unary_bufs_sub .., binary_bufs_sub ..⟩

/-- Every operation determines its results. -/
theorem ops1_fresh : (ops1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

end Cert.ReferenceIdeal.Hand

end
-- ==== Proof.RefRun.lean ====
/- The reference program's run, read back. @main is the straight line of its 194 host operations (the two windows'
   lists, one after the other): every weakly fair execution terminates, the result buffer ends at the operations'
   fold over the launch contents, and the eight argument buffers, which no operation writes, end unchanged. -/
import proofs.«163482_j91182155694480_1_alg».proof.Proof.RefRun0
import proofs.«163482_j91182155694480_1_alg».proof.Proof.RefRun1
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- @main's operations, in order: the first window's, then the second's. -/
abbrev ops : List (HloOp τ sig (Elt F)) := ops0 ++ ops1

/-- @main is that straight line. -/
theorem main_eq (c : Dev nD) : main (F := F) c = seq ops := by
  rw [seq_append, ← part0_eq c, ← part1_eq c]
  rfl

/-- The fold over the whole line is the second window's fold after the first's. -/
theorem after_ops (V : Valuation τ sig (Elt F)) : after ops V = after ops1 (after ops0 V) :=
  StableHlo.after_append ops0 ops1 V

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨ops0_sub, ops1_sub⟩

/-- Every operation determines its results. -/
theorem ops_fresh : ∀ op ∈ (ops : List (HloOp τ sig (Elt F))), op.fresh = ∅ :=
  List.forall_iff_forall_mem.mp (List.forall_append.mpr ⟨ops0_fresh, ops1_fresh⟩)

/-- The argument buffers. -/
abbrev argRefs : List (Ref sig .tc) :=
  [main_arg0, main_arg1, main_arg2, main_arg3, main_arg4, main_arg5, main_arg6, main_arg7]

/-- An operation whose one written buffer is none of a list's writes no buffer of the list. -/
theorem nw {op : HloOp τ sig (Elt F)} (y : Ref sig .tc) (hw : op.writes = {Proc.devRef .tc y})
    {r : Ref sig .tc} {A : List (Ref sig .tc)} (hr : r ∈ A) (hy : y ∉ A) :
    Proc.devRef (τ := τ) .tc r ∉ op.writes := by
  rw [hw, Finset.mem_singleton]
  exact devRef_ne_of_ne (ne_of_mem_of_not_mem hr hy)

/-- No operation of the first window writes an argument buffer. -/
theorem keep0 (V : Valuation τ sig (Elt F)) {r : Ref sig .tc} (hr : r ∈ argRefs) :
    after ops0 V (Proc.devRef .tc r) = V (Proc.devRef .tc r) :=
  after_of_forall_not_mem ops0 V (List.forall_iff_forall_mem.mp
    (show (ops0 : List (HloOp τ sig (Elt F))).Forall (fun op => Proc.devRef (τ := τ) .tc r ∉ op.writes) from ⟨
    nw main_cst rfl hr (by decide), nw main_v0 rfl hr (by decide), nw main_call0.v0.ref rfl hr (by decide),
    nw main_call0.c.ref rfl hr (by decide), nw main_call0.v1.ref rfl hr (by decide), nw main_call0.v2.ref rfl hr (by decide),
    nw main_call0.v3.ref rfl hr (by decide), nw main_call0.v4.ref rfl hr (by decide), nw main_call0.cst.ref rfl hr (by decide),
    nw main_call0.v5.ref rfl hr (by decide), nw main_call0.v6.ref rfl hr (by decide), nw main_cst_0 rfl hr (by decide),
    nw main_v2 rfl hr (by decide), nw main_v3 rfl hr (by decide), nw main_call1.v0.ref rfl hr (by decide),
    nw main_call1.v1.ref rfl hr (by decide), nw main_call1.call0.c.ref rfl hr (by decide), nw main_call1.call0.v0.ref rfl hr (by decide),
    nw main_call1.call0.v1.ref rfl hr (by decide), nw main_c rfl hr (by decide), nw main_v5 rfl hr (by decide),
    nw main_c_1 rfl hr (by decide), nw main_call2.v0.ref rfl hr (by decide), nw main_call2.v1.ref rfl hr (by decide),
    nw main_call2.v2.ref rfl hr (by decide), nw main_c_2 rfl hr (by decide), nw main_v7 rfl hr (by decide),
    nw main_v8 rfl hr (by decide), nw main_c_3 rfl hr (by decide), nw main_v9 rfl hr (by decide),
    nw main_v10 rfl hr (by decide), nw main_v11 rfl hr (by decide), nw main_v12 rfl hr (by decide),
    nw main_c_4 rfl hr (by decide), nw main_v13 rfl hr (by decide), nw main_v14 rfl hr (by decide),
    nw main_call3.call0.c.ref rfl hr (by decide), nw main_call3.call0.v0.ref rfl hr (by decide), nw main_call3.call0.v1.ref rfl hr (by decide),
    nw main_c_5 rfl hr (by decide), nw main_call4.v0.ref rfl hr (by decide), nw main_call4.v1.ref rfl hr (by decide),
    nw main_call4.v2.ref rfl hr (by decide), nw main_call4.v3.ref rfl hr (by decide), nw main_call4.v4.ref rfl hr (by decide),
    nw main_call4.v5.ref rfl hr (by decide), nw main_call4.v6.ref rfl hr (by decide), nw main_call4.v7.ref rfl hr (by decide),
    nw main_call4.c.ref rfl hr (by decide), nw main_call4.v8.ref rfl hr (by decide), nw main_call4.v9.ref rfl hr (by decide),
    nw main_call4.v10.ref rfl hr (by decide), nw main_call4.c_0.ref rfl hr (by decide), nw main_call4.v11.ref rfl hr (by decide),
    nw main_call4.v12.ref rfl hr (by decide), nw main_call4.call0.v0.ref rfl hr (by decide), nw main_c_6 rfl hr (by decide),
    nw main_call5.v0.ref rfl hr (by decide), nw main_call5.c.ref rfl hr (by decide), nw main_call5.v1.ref rfl hr (by decide),
    nw main_call5.c_0.ref rfl hr (by decide), nw main_call5.call0.v0.ref rfl hr (by decide), nw main_call5.v3.ref rfl hr (by decide),
    nw main_call5.v4.ref rfl hr (by decide), nw main_call5.c_1.ref rfl hr (by decide), nw main_call5.v5.ref rfl hr (by decide),
    nw main_call5.v6.ref rfl hr (by decide), nw main_call5.c_2.ref rfl hr (by decide), nw main_call5.v7.ref rfl hr (by decide),
    nw main_call5.v8.ref rfl hr (by decide), nw main_call5.c_3.ref rfl hr (by decide), nw main_call5.v9.ref rfl hr (by decide),
    nw main_call5.v10.ref rfl hr (by decide), nw main_call5.v11.ref rfl hr (by decide), nw main_call5.v12.ref rfl hr (by decide),
    nw main_call5.v13.ref rfl hr (by decide), nw main_call5.v14.ref rfl hr (by decide), nw main_call5.v15.ref rfl hr (by decide),
    nw main_c_7 rfl hr (by decide), nw main_call6.v0.ref rfl hr (by decide), nw main_call6.v1.ref rfl hr (by decide),
    nw main_call6.v2.ref rfl hr (by decide), nw main_call6.v3.ref rfl hr (by decide), nw main_call6.v4.ref rfl hr (by decide),
    nw main_call6.v5.ref rfl hr (by decide), nw main_call6.v6.ref rfl hr (by decide), nw main_call6.v7.ref rfl hr (by decide),
    nw main_call6.c.ref rfl hr (by decide), nw main_call6.v8.ref rfl hr (by decide), nw main_call6.v9.ref rfl hr (by decide),
    nw main_call6.v10.ref rfl hr (by decide), nw main_call6.c_0.ref rfl hr (by decide), nw main_call6.v11.ref rfl hr (by decide),
    nw main_call6.v12.ref rfl hr (by decide), nw main_call6.call0.v0.ref rfl hr (by decide), nw main_c_8 rfl hr (by decide),
    nw main_call7.v0.ref rfl hr (by decide), nw main_call7.c.ref rfl hr (by decide), nw main_call7.v1.ref rfl hr (by decide),
    nw main_call7.c_0.ref rfl hr (by decide), nw main_call7.call0.v0.ref rfl hr (by decide), nw main_call7.v3.ref rfl hr (by decide),
    nw main_call7.v4.ref rfl hr (by decide), nw main_call7.c_1.ref rfl hr (by decide), nw main_call7.v5.ref rfl hr (by decide),
    nw main_call7.v6.ref rfl hr (by decide), nw main_call7.c_2.ref rfl hr (by decide), nw main_call7.v7.ref rfl hr (by decide),
    nw main_call7.v8.ref rfl hr (by decide), nw main_call7.c_3.ref rfl hr (by decide), nw main_call7.v9.ref rfl hr (by decide),
    nw main_call7.v10.ref rfl hr (by decide), nw main_call7.v11.ref rfl hr (by decide), nw main_call7.v12.ref rfl hr (by decide),
    nw main_call7.v13.ref rfl hr (by decide), nw main_call7.v14.ref rfl hr (by decide), nw main_call7.v15.ref rfl hr (by decide),
    nw main_c_9 rfl hr (by decide), nw main_v20 rfl hr (by decide), nw main_v21 rfl hr (by decide),
    nw main_c_10 rfl hr (by decide), nw main_v22 rfl hr (by decide), nw main_v23 rfl hr (by decide),
    nw main_v24 rfl hr (by decide), nw main_v25 rfl hr (by decide), nw main_v26 rfl hr (by decide),
    nw main_c_11 rfl hr (by decide), nw main_v27 rfl hr (by decide), nw main_v28 rfl hr (by decide),
    nw main_c_12 rfl hr (by decide), nw main_v29 rfl hr (by decide), nw main_v30 rfl hr (by decide),
    nw main_v31 rfl hr (by decide), nw main_v32 rfl hr (by decide), nw main_v33 rfl hr (by decide),
    nw main_v34 rfl hr (by decide), nw main_v35 rfl hr (by decide), nw main_v36 rfl hr (by decide),
    nw main_v37 rfl hr (by decide), nw main_v38 rfl hr (by decide), nw main_v39 rfl hr (by decide),
    nw main_v40 rfl hr (by decide), nw main_v41 rfl hr (by decide), nw main_v42 rfl hr (by decide),
    nw main_v43 rfl hr (by decide), nw main_v44 rfl hr (by decide)⟩))

/-- No operation of the second window writes an argument buffer. -/
theorem keep1 (V : Valuation τ sig (Elt F)) {r : Ref sig .tc} (hr : r ∈ argRefs) :
    after ops1 V (Proc.devRef .tc r) = V (Proc.devRef .tc r) :=
  after_of_forall_not_mem ops1 V (List.forall_iff_forall_mem.mp
    (show (ops1 : List (HloOp τ sig (Elt F))).Forall (fun op => Proc.devRef (τ := τ) .tc r ∉ op.writes) from ⟨
    nw main_v45 rfl hr (by decide), nw main_v46 rfl hr (by decide), nw main_v47 rfl hr (by decide),
    nw main_call8.cst.ref rfl hr (by decide), nw main_call8.v0.ref rfl hr (by decide), nw main_call8.v1.ref rfl hr (by decide),
    nw main_v49 rfl hr (by decide), nw main_v50 rfl hr (by decide), nw main_v51 rfl hr (by decide),
    nw main_v52 rfl hr (by decide), nw main_v53 rfl hr (by decide), nw main_v54 rfl hr (by decide),
    nw main_v55 rfl hr (by decide), nw main_v56 rfl hr (by decide), nw main_c_13 rfl hr (by decide),
    nw main_v57 rfl hr (by decide), nw main_v58 rfl hr (by decide), nw main_v59 rfl hr (by decide),
    nw main_v60 rfl hr (by decide), nw main_v61 rfl hr (by decide), nw main_cst_14 rfl hr (by decide),
    nw main_call9.v0.ref rfl hr (by decide), nw main_call9.v1.ref rfl hr (by decide), nw main_call9.v2.ref rfl hr (by decide),
    nw main_c_15 rfl hr (by decide), nw main_v63 rfl hr (by decide), nw main_v64 rfl hr (by decide),
    nw main_c_16 rfl hr (by decide), nw main_v65 rfl hr (by decide), nw main_v66 rfl hr (by decide),
    nw main_v67 rfl hr (by decide), nw main_c_17 rfl hr (by decide), nw main_v68 rfl hr (by decide),
    nw main_v69 rfl hr (by decide), nw main_c_18 rfl hr (by decide), nw main_v70 rfl hr (by decide),
    nw main_v71 rfl hr (by decide), nw main_v72 rfl hr (by decide), nw main_v73 rfl hr (by decide),
    nw main_v74 rfl hr (by decide), nw main_v75 rfl hr (by decide), nw main_v76 rfl hr (by decide),
    nw main_v77 rfl hr (by decide), nw main_v78 rfl hr (by decide), nw main_v79 rfl hr (by decide),
    nw main_v80 rfl hr (by decide), nw main_v81 rfl hr (by decide), nw main_v82 rfl hr (by decide)⟩))

/-- An argument buffer holds at the end what it held at launch. -/
theorem keep (V : Valuation τ sig (Elt F)) {r : Ref sig .tc} (hr : r ∈ argRefs) :
    after ops V (Proc.devRef .tc r) = V (Proc.devRef .tc r) := by
  rw [after_ops, keep1 _ hr, keep0 _ hr]

/-- On every device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = after ops (fun b => m (c, b)) (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v82,
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide))⟩)
    (run_seq scopedRefs_eq scopedSems_eq defs main (fun _ => ops) main_eq (fun _ => ops_sub) m ρ (fun _ => ops_fresh))

end Cert.ReferenceIdeal.Hand

end
-- ==== Proof.Frames.lean ====
/-
  The three frames: each program runs to the end, faults nowhere and leaves its argument arrays as launched.
  They are the programs' runs with the result's value forgotten. The word-level kernel program is, line for
  line, the idealized one, so its run is the same proof at the other instance of the float operations.
-/
import proofs.«163482_j91182155694480_1_alg».proof.Defs
import proofs.«163482_j91182155694480_1_alg».proof.Proof.Gen.Kernel
import proofs.«163482_j91182155694480_1_alg».proof.Proof.Gen.KernelIdeal
import proofs.«163482_j91182155694480_1_alg».proof.Proof.Gen.ReferenceIdeal
import proofs.«163482_j91182155694480_1_alg».proof.Proof.Gen.Pre_finite_inputs
import proofs.«163482_j91182155694480_1_alg».proof.Proof.BRun
import proofs.«163482_j91182155694480_1_alg».proof.Proof.KRun
import proofs.«163482_j91182155694480_1_alg».proof.Proof.RefRun

noncomputable section

namespace Cert.Proof

open Idealize.ShloMosaic Idealize.SL.Sem Idealize.ShloMosaic.TcCoe

/-- The word-level kernel program runs and keeps its arguments. -/
theorem frame_k : @Cert.frame_Kernel Cert.Kernel.Gen.facts Cert.Pre_finite_inputs.Gen.facts := fun m ρ _ =>
  (θ_run (Cert.Kernel.defs (F := Bits)) _ _).mono (fun _ h c => (h c).2) (Cert.Kernel.Hand.run_named (F := Bits) m ρ)

/-- The idealized kernel program runs and keeps its arguments. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2) (Cert.KernelIdeal.Hand.run_named (F := Ideal) m ρ)

/-- The idealized reference runs and keeps its arguments. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Hand.run (F := Ideal) m ρ)

/-- The idealization rewrote nothing. -/
theorem preserves : Cert.preserves_Kernel_KernelIdeal := trivial

end Cert.Proof

end
-- ==== Proof.KFinal0Blk.lean ====
/-
  The first kernel's input blocks, read at an index (any float instance).

  At grid point t with coordinates (i0, i1): the row window holds entries 128·i0 … 128·i0 + 127 of the time
  vector, the column window entries 128·i1 … 128·i1 + 127, and each of the seven remaining windows holds the whole
  of its array (its block index is zero on every axis at every point).
-/
import proofs.«163482_j91182155694480_1_alg».proof.Proof.KDat0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-- The printed index maps, decided once over the 64 grid points: the row window follows the first coordinate, the
    column window the second, the weight windows stay at block zero, the output window follows both; and the point's
    number is 8 times its first coordinate plus its second. -/
theorem idx_facts0 : ∀ t : Fin cfg0.N,
    win0_0.index t (0 : Fin 1) = (grid0.coords t 0).val
    ∧ win0_1.index t (0 : Fin 1) = (grid0.coords t 1).val
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = (grid0.coords t 0).val ∧ win0_9.index t (1 : Fin 2) = (grid0.coords t 1).val
    ∧ t.val = 8 * (grid0.coords t 0).val + (grid0.coords t 1).val :=
  (by decide +kernel : ∀ t : Fin grid0.N, _)

theorem coords0_lt (t : Fin cfg0.N) : (grid0.coords t 0).val < 8 := (grid0.coords t 0).isLt
theorem coords1_lt (t : Fin cfg0.N) : (grid0.coords t 1).val < 8 := (grid0.coords t 1).isLt

section Region0
variable (V : (c : Dev nD) → (b : Ref sig .tc) → Buf (Elt F) ((c : Thread nD τ).loc b))

/-- The row window at point t, entry p, is entry 128·i0 + p of the time vector. -/
theorem iblk0_0_apply (c : Dev nD) (t : Fin cfg0.N) (p : Fin 128) :
    (iblk0 V c 0 t : Vec F S128 .f32) (ix1 p)
      = (V c main_arg0 : S1024.Idx → Elt F .f32)
          (ix1 ⟨128 * (grid0.coords t 0).val + p.val, by have := coords0_lt t; have := p.isLt; omega⟩) := by
  obtain ⟨e0, -⟩ := idx_facts0 t
  unfold iblk0
  rw [View.read_apply]
  show V c main_arg0 _ = V c main_arg0 _
  congr 1
  funext a
  apply Fin.ext
  match a with
  | ⟨0, _⟩ => show win0_0.index t (0 : Fin 1) * 128 + 1 * p.val = 128 * (grid0.coords t 0).val + p.val; rw [e0]; omega

/-- The column window at point t, entry q, is entry 128·i1 + q of the time vector. -/
theorem iblk0_1_apply (c : Dev nD) (t : Fin cfg0.N) (q : Fin 128) :
    (iblk0 V c 1 t : Vec F S128 .f32) (ix1 q)
      = (V c main_arg0 : S1024.Idx → Elt F .f32)
          (ix1 ⟨128 * (grid0.coords t 1).val + q.val, by have := coords1_lt t; have := q.isLt; omega⟩) := by
  obtain ⟨-, e1, -⟩ := idx_facts0 t
  unfold iblk0
  rw [View.read_apply]
  show V c main_arg0 _ = V c main_arg0 _
  congr 1
  funext a
  apply Fin.ext
  match a with
  | ⟨0, _⟩ => show win0_1.index t (0 : Fin 1) * 128 + 1 * q.val = 128 * (grid0.coords t 1).val + q.val; rw [e1]; omega

/-- The first layer's weights: the window holds the whole array. -/
theorem iblk0_2_eq (c : Dev nD) (t : Fin cfg0.N) :
    (iblk0 V c 2 t : Vec F S128x2 .f32) = (V c main_arg1 : S128x2.Idx → Elt F .f32) := by
  obtain ⟨-, -, e0, e1, -⟩ := idx_facts0 t
  funext j
  unfold iblk0
  rw [View.read_apply]
  show V c main_arg1 _ = V c main_arg1 _
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 2 + 1 * (j 1).val = (j 1).val; rw [e1]; omega

/-- The first layer's bias: the window holds the whole array. -/
theorem iblk0_3_eq (c : Dev nD) (t : Fin cfg0.N) :
    (iblk0 V c 3 t : Vec F S128 .f32) = (V c main_arg2 : S128.Idx → Elt F .f32) := by
  obtain ⟨-, -, -, -, e0, -⟩ := idx_facts0 t
  funext j
  unfold iblk0
  rw [View.read_apply]
  show V c main_arg2 _ = V c main_arg2 _
  congr 1
  funext a
  apply Fin.ext
  match a with
  | ⟨0, _⟩ => show win0_3.index t (0 : Fin 1) * 128 + 1 * (j 0).val = (j 0).val; rw [e0]; omega

/-- The second layer's weights: the window holds the whole array. -/
theorem iblk0_4_eq (c : Dev nD) (t : Fin cfg0.N) :
    (iblk0 V c 4 t : Vec F S32x128 .f32) = (V c main_arg3 : S32x128.Idx → Elt F .f32) := by
  obtain ⟨-, -, -, -, -, e0, e1, -⟩ := idx_facts0 t
  funext j
  unfold iblk0
  rw [View.read_apply]
  show V c main_arg3 _ = V c main_arg3 _
  congr 1
  funext a
  apply Fin.ext
  match a with
  | ⟨0, _⟩ => show win0_4.index t (0 : Fin 2) * 32 + 1 * (j 0).val = (j 0).val; rw [e0]; omega
  | ⟨1, _⟩ => show win0_4.index t (1 : Fin 2) * 128 + 1 * (j 1).val = (j 1).val; rw [e1]; omega

/-- The second layer's bias: the window holds the whole array. -/
theorem iblk0_5_eq (c : Dev nD) (t : Fin cfg0.N) :
    (iblk0 V c 5 t : Vec F S32 .f32) = (V c main_arg4 : S32.Idx → Elt F .f32) := by
  obtain ⟨-, -, -, -, -, -, -, e0, -⟩ := idx_facts0 t
  funext j
  unfold iblk0
  rw [View.read_apply]
  show V c main_arg4 _ = V c main_arg4 _
  congr 1
  funext a
  apply Fin.ext
  match a with
  | ⟨0, _⟩ => show win0_5.index t (0 : Fin 1) * 32 + 1 * (j 0).val = (j 0).val; rw [e0]; omega

/-- The third layer's weights: the window holds the whole array. -/
theorem iblk0_6_eq (c : Dev nD) (t : Fin cfg0.N) :
    (iblk0 V c 6 t : Vec F S1x32 .f32) = (V c main_arg5 : S1x32.Idx → Elt F .f32) := by
  obtain ⟨-, -, -, -, -, -, -, -, e0, e1, -⟩ := idx_facts0 t
  funext j
  unfold iblk0
  rw [View.read_apply]
  show V c main_arg5 _ = V c main_arg5 _
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 32 + 1 * (j 1).val = (j 1).val; rw [e1]; omega

/-- The third layer's bias: the window holds the whole array. -/
theorem iblk0_7_eq (c : Dev nD) (t : Fin cfg0.N) :
    (iblk0 V c 7 t : Vec F S1 .f32) = (V c main_arg6 : S1.Idx → Elt F .f32) := by
  obtain ⟨-, -, -, -, -, -, -, -, -, -, e0, -⟩ := idx_facts0 t
  funext j
  unfold iblk0
  rw [View.read_apply]
  show V c main_arg6 _ = V c main_arg6 _
  congr 1
  funext a
  apply Fin.ext
  match a with
  | ⟨0, _⟩ => show win0_7.index t (0 : Fin 1) * 1 + 1 * (j 0).val = (j 0).val; rw [e0]; omega

/-- The scale, as a 1 × 1 array: the window holds the whole array. -/
theorem iblk0_8_eq (c : Dev nD) (t : Fin cfg0.N) :
    (iblk0 V c 8 t : Vec F S1x1 .f32) = (V c main_v0 : S1x1.Idx → Elt F .f32) := by
  obtain ⟨-, -, -, -, -, -, -, -, -, -, -, e0, e1, -⟩ := idx_facts0 t
  funext j
  unfold iblk0
  rw [View.read_apply]
  show V c main_v0 _ = V c main_v0 _
  congr 1
  funext a
  apply Fin.ext
  match a with
  | ⟨0, _⟩ => show win0_8.index t (0 : Fin 2) * 1 + 1 * (j 0).val = (j 0).val; rw [e0]; omega
  | ⟨1, _⟩ => show win0_8.index t (1 : Fin 2) * 1 + 1 * (j 1).val = (j 1).val; rw [e1]; omega

end Region0

end Cert.KernelIdeal.Hand

end
-- ==== Proof.KFinal0Arr.lean ====
/-
  From the tiles to the whole matrix (any float instance).

  The output window's block at grid point (i0, i1) is rows 128·i0 … 128·i0 + 127 and columns 128·i1 … 128·i1 + 127 of
  the 1024 × 1024 array, and every point writes its block back. The 64 blocks tile the array, so after the last
  point entry (gi, gj) holds what the point (gi / 128, gj / 128) stored at (gi mod 128, gj mod 128) of its tile.
-/
import proofs.«163482_j91182155694480_1_alg».proof.Proof.KFinal0Blk

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

theorem hz0 : (![0, 0] : Fin 2 → Nat) = fun _ => 0 := funext fun a => by fin_cases a <;> rfl

/-- The grid point whose block holds entry (gi, gj): number 8·(gi / 128) + gj / 128. -/
def ptOf0 (gi gj : Fin 1024) : Fin cfg0.N :=
  ⟨8 * (gi.val / 128) + gj.val / 128, by
    rw [show cfg0.N = 64 from N_0]; have := gi.isLt; have := gj.isLt; omega⟩

theorem ptOf0_val (gi gj : Fin 1024) : (ptOf0 gi gj).val = 8 * (gi.val / 128) + gj.val / 128 := rfl

/-- That point's coordinates are (gi / 128, gj / 128). -/
theorem coords_ptOf0 (gi gj : Fin 1024) :
    (grid0.coords (ptOf0 gi gj) 0).val = gi.val / 128 ∧ (grid0.coords (ptOf0 gi gj) 1).val = gj.val / 128 := by
  have hf := idx_facts0 (ptOf0 gi gj)
  have e : (ptOf0 gi gj).val = 8 * (grid0.coords (ptOf0 gi gj) 0).val + (grid0.coords (ptOf0 gi gj) 1).val :=
    hf.2.2.2.2.2.2.2.2.2.2.2.2.2.2.2
  rw [ptOf0_val] at e
  have h0 := coords0_lt (ptOf0 gi gj)
  have h1 := coords1_lt (ptOf0 gi gj)
  have := gi.isLt
  have := gj.isLt
  omega

section Region0
variable (V : (c : Dev nD) → (b : Ref sig .tc) → Buf (Elt F) ((c : Thread nD τ).loc b))

/-- The tile of point t, as a function of the point alone. -/
def tileOf0 (c : Dev nD) (t : Fin cfg0.N) : FVec F S128x128 .f32 :=
  tile0 (grid0.coords t) (iblk0 V c 0 t) (iblk0 V c 1 t) (iblk0 V c 2 t) (iblk0 V c 3 t) (iblk0 V c 4 t) (iblk0 V c 5 t)
    (iblk0 V c 6 t) (iblk0 V c 7 t) (iblk0 V c 8 t)

/-- The output buffer after the body at point t is that tile: its one store covers it. -/
theorem tileAt0_eq (c : Dev nD) (t : Fin cfg0.N) : tileAt0 V c t = tileOf0 V c t := by
  unfold tileAt0 out0 tileOf0
  exact View.canon_unit_zero hz0 _ _

/-- The whole matrix, entry by entry: the tile of the point that holds the entry, at the entry's place in it. -/
def G0 (c : Dev nD) : S1024x1024.Idx → Elt F .f32 := fun i =>
  tileOf0 V c (ptOf0 (i 0) (i 1))
    (ix2 ⟨(i 0).val % 128, Nat.mod_lt _ (by decide)⟩ ⟨(i 1).val % 128, Nat.mod_lt _ (by decide)⟩)

/-- Entry y of point t's tile is the matrix's entry at the place (gi, gj) that y has in the whole array. -/
theorem tileOf0_at (c : Dev nD) (t : Fin cfg0.N) (y : S128x128.Idx) (gi gj : Fin 1024)
    (hgi : gi.val = win0_9.index t (0 : Fin 2) * 128 + 1 * (y 0).val)
    (hgj : gj.val = win0_9.index t (1 : Fin 2) * 128 + 1 * (y 1).val) :
    tileOf0 V c t y = tileOf0 V c (ptOf0 gi gj)
      (ix2 ⟨gi.val % 128, Nat.mod_lt _ (by decide)⟩ ⟨gj.val % 128, Nat.mod_lt _ (by decide)⟩) := by
  obtain ⟨-, -, -, -, -, -, -, -, -, -, -, -, -, e0, e1, et⟩ := idx_facts0 t
  have h0 := coords0_lt t
  have h1 := coords1_lt t
  have hy0 : (y 0).val < 128 := (y 0).isLt
  have hy1 : (y 1).val < 128 := (y 1).isLt
  have hpt : ptOf0 gi gj = t := by
    apply Fin.ext
    rw [ptOf0_val, hgi, hgj, e0, e1, et]
    omega
  rw [hpt]
  congr 1
  funext a
  apply Fin.ext
  match a with
  | ⟨0, _⟩ => show (y 0).val = gi.val % 128; rw [hgi, e0]; omega
  | ⟨1, _⟩ => show (y 1).val = gj.val % 128; rw [hgj, e1]; omega

/-- What point t writes back is block t of that matrix. -/
theorem flushed0_9_eq (c : Dev nD) (t : Fin cfg0.N) :
    (dat0 V c).flushed 9 t = ((cfg0.win 9).blk t).view.read (Elt F) (G0 V c) := by
  show (cfg0.win 9).cut (grid0.coords t) ((dat0 V c).after 9 t) = _
  rw [after0_9, tileAt0_eq]
  funext y
  rw [View.read_apply]
  exact tileOf0_at V c t ((cfg0.win 9).xinj (grid0.coords t) y) ((((cfg0.win 9).blk t).view.emb y) 0)
    ((((cfg0.win 9).blk t).view.emb y) 1) rfl rfl

/-- Every entry of the matrix lies in the block of the point that holds it. -/
theorem cover0_9 (i : S1024x1024.Idx) :
    ∃ t : Fin cfg0.N, (cfg0.win 9).flush t = true ∧ i ∈ ((cfg0.win 9).blk t).view.set := by
  refine ⟨ptOf0 (i 0) (i 1), flush0_9 _, ?_⟩
  obtain ⟨-, -, -, -, -, -, -, -, -, -, -, -, -, e0, e1, -⟩ := idx_facts0 (ptOf0 (i 0) (i 1))
  obtain ⟨c0, c1⟩ := coords_ptOf0 (i 0) (i 1)
  have hi0 : (i 0).val < 1024 := (i 0).isLt
  have hi1 : (i 1).val < 1024 := (i 1).isLt
  show i ∈ ((View.whole main_v1).slice (win0_9.rect (ptOf0 (i 0) (i 1)))).set
  rw [View.set_slice_whole, Rect.mem_set_unit]
  intro a
  match a with
  | ⟨0, _⟩ =>
    show win0_9.index (ptOf0 (i 0) (i 1)) (0 : Fin 2) * 128 ≤ (i 0).val
      ∧ (i 0).val < win0_9.index (ptOf0 (i 0) (i 1)) (0 : Fin 2) * 128 + 128
    rw [e0, c0]; omega
  | ⟨1, _⟩ =>
    show win0_9.index (ptOf0 (i 0) (i 1)) (1 : Fin 2) * 128 ≤ (i 1).val
      ∧ (i 1).val < win0_9.index (ptOf0 (i 0) (i 1)) (1 : Fin 2) * 128 + 128
    rw [e1, c1]; omega

/-- The array after the last point is that matrix. -/
theorem arrAt0_9_eq (c : Dev nD) : (dat0 V c).arrAt 9 cfg0.N = G0 V c :=
  (dat0 V c).arrAt_eq_of_cover 9 (G0 V c) (fun t _ => flushed0_9_eq V c t) cover0_9

/-- Entry (gi, gj) after the last point: the tile of the point (gi / 128, gj / 128) at (gi mod 128, gj mod 128). -/
theorem final0 (c : Dev nD) (gi gj : Fin 1024) :
    (dat0 V c).arrAt 9 cfg0.N (ix2 gi gj)
      = tile0 (grid0.coords (ptOf0 gi gj)) (iblk0 V c 0 (ptOf0 gi gj)) (iblk0 V c 1 (ptOf0 gi gj))
          (iblk0 V c 2 (ptOf0 gi gj)) (iblk0 V c 3 (ptOf0 gi gj)) (iblk0 V c 4 (ptOf0 gi gj)) (iblk0 V c 5 (ptOf0 gi gj))
          (iblk0 V c 6 (ptOf0 gi gj)) (iblk0 V c 7 (ptOf0 gi gj)) (iblk0 V c 8 (ptOf0 gi gj))
          (ix2 ⟨gi.val % 128, Nat.mod_lt _ (by decide)⟩ ⟨gj.val % 128, Nat.mod_lt _ (by decide)⟩) := by
  rw [arrAt0_9_eq]
  rfl

end Region0

end Cert.KernelIdeal.Hand

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«163482_j91182155694480_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«163482_j91182155694480_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.KVal0a.lean ====
/-
  The first kernel's hidden layers read at an entry, at the exact values.

  The kernel forms, for a block of 128 row times x and 128 column times y, the rank-three array of first-layer
  activations tanh(x_p W1[k,0] + b1[k] + y_q W1[k,1]), flattens its two leading axes row-major into 16384 rows
  (row 128 p + q is the pair (p, q)), multiplies by the transposed second-layer weight, adds the bias row and takes
  the positive part.  Entry (128 p + q, o) of the result is therefore
    max (Σ_k tanh(x_p W1[k,0] + b1[k] + y_q W1[k,1]) W2[o,k] + b2[o]) 0.
  The narrowings before the product are the identity on extended reals.
-/
import proofs.«163482_j91182155694480_1_alg».proof.Proof.KBody0
import proofs.«163482_j91182155694480_1_alg».proof.Proof.LibBiasDot
import proofs.«163482_j91182155694480_1_alg».proof.Proof.LibBlockOps
import proofs.«163482_j91182155694480_1_alg».proof.Proof.LibReshape
import proofs.«163482_j91182155694480_1_alg».proof.Proof.LibCube
import proofs.«163482_j91182155694480_1_alg».proof.Proof.LibSpread
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-- Column c of the 128 x 2 first-layer weight, sliced off and read back as a vector: at k, the weight at (k, c). -/
theorem w1col0_apply (v2 : FVec Ideal S128x2 .f32) (k : Fin 128) :
    shapeCast S128 (extractStridedSlice S128x1 ![0, 0] v2 slices_S128x2_o0_0_S128x1) shapeCasts_S128x1_S128 (ix1 k)
      = v2 (ix2 k 0) := by
  refine (Cert.Lib.Spread.colVec_apply _ shapeCasts_S128x1_S128 k).trans ?_
  refine extractStridedSlice_apply _ v2 slices_S128x2_o0_0_S128x1 _ (ix2 k 0) (fun a => ?_)
  match a with
  | ⟨0, _⟩ => show k.val = 0 + k.val; omega
  | ⟨1, _⟩ => rfl

theorem w1col1_apply (v2 : FVec Ideal S128x2 .f32) (k : Fin 128) :
    shapeCast S128 (extractStridedSlice S128x1 ![0, 1] v2 slices_S128x2_o0_1_S128x1) shapeCasts_S128x1_S128 (ix1 k)
      = v2 (ix2 k 1) := by
  refine (Cert.Lib.Spread.colVec_apply _ shapeCasts_S128x1_S128 k).trans ?_
  refine extractStridedSlice_apply _ v2 slices_S128x2_o0_1_S128x1 _ (ix2 k 1) (fun a => ?_)
  match a with
  | ⟨0, _⟩ => show k.val = 0 + k.val; omega
  | ⟨1, _⟩ => rfl

/-- The second layer's output at row 128 p + q, feature o: the positive part of the sum over the 128 hidden
    features of tanh(x_p W1[k,0] + b1[k] + y_q W1[k,1]) W2[o,k], plus b2[o]. -/
theorem k0_pay3_apply (v0 v1 : FVec Ideal S128 .f32) (v2 : FVec Ideal S128x2 .f32) (v3 : FVec Ideal S128 .f32)
    (v4 : FVec Ideal S32x128 .f32) (v5 : FVec Ideal S32 .f32) (p q : Fin 128) (r : Fin 16384)
    (hr : r.val = p.val * 128 + q.val) (o : Fin 32) :
    k0_pay3 (F := Ideal) v0 v1 v2 v3 v4 v5 (ix2 r o)
      = max ((∑ k : Fin 128, Ideal.tanh ((v0 (ix1 p) * v2 (ix2 k 0) + v3 (ix1 k)) + v1 (ix1 q) * v2 (ix2 k 1)) * v4 (ix2 o k))
          + v5 (ix1 o)) 0 := by
  unfold k0_pay3
  dsimp only
  rw [maximumf_apply, broadcast_apply]
  have hd : dot_S16384x128_S128x32_S16384x32_1_0_0_1_n_n = DotDims.plain 16384 128 32 := rfl
  rw [hd]
  refine congrArg₂ max ?_ Ideal.ofBits_zero_f32
  refine (Cert.Lib.BiasDot.biasDot_apply none _ _ v5 shapeCasts_S32_S1x32 broadcasts_S1x32_S16384x32 r o).trans ?_
  refine congrArg (· + v5 (ix1 o)) ?_
  refine Finset.sum_congr rfl fun k _ => ?_
  refine congrArg₂ (· * ·) ?_ ?_
  · refine (truncf_apply _ bitsLt_bf16_f32 (ix2 r k)).trans ?_
    refine (Cert.Lib.Reshape.merge_apply _ shapeCasts_S128x128x128_S16384x128 p q k r hr).trans ?_
    refine congrArg Ideal.tanh ?_
    refine congrArg₂ (· + ·) ?_ ?_
    · refine (Cert.Lib.Cube.spread_row _ broadcasts_S128x1x128_S128x128x128 p q k).trans ?_
      refine (Cert.Lib.Cube.cast_row _ shapeCasts_S128x128_S128x1x128 p 0 k).trans ?_
      refine congrArg₂ (· + ·) (congrArg₂ (· * ·) ?_ ?_) ?_
      · exact Cert.Lib.BlockOps.colSpread_apply v0 shapeCasts_S128_S128x1 broadcasts_S128x1_S128x128 p k
      · refine (Cert.Lib.BiasDot.rowBroadcast_apply _ shapeCasts_S128_S1x128 broadcasts_S1x128_S128x128 p k).trans ?_
        exact w1col0_apply v2 k
      · exact Cert.Lib.BiasDot.rowBroadcast_apply v3 shapeCasts_S128_S1x128 broadcasts_S1x128_S128x128 p k
    · refine (Cert.Lib.Cube.spread_slab _ broadcasts_S1x128x128_S128x128x128 p q k).trans ?_
      refine (Cert.Lib.Cube.cast_slab _ shapeCasts_S128x128_S1x128x128 0 q k).trans ?_
      refine congrArg₂ (· * ·) ?_ ?_
      · exact Cert.Lib.BlockOps.colSpread_apply v1 shapeCasts_S128_S128x1 broadcasts_S128x1_S128x128 q k
      · refine (Cert.Lib.BiasDot.rowBroadcast_apply _ shapeCasts_S128_S1x128 broadcasts_S1x128_S128x128 q k).trans ?_
        exact w1col1_apply v2 k
  · refine (transpose_apply [1, 0] _ transposes_S32x128_p1_0_S128x32 (ix2 k o) (ix2 o k) (fun b => ?_)).trans
      (truncf_apply v4 bitsLt_bf16_f32 (ix2 o k))
    match b with
    | ⟨0, _⟩ => rfl
    | ⟨1, _⟩ => rfl

end Cert.KernelIdeal.Hand

end
-- ==== Proof.LibFlagLaw.lean ====
/-
  A one-bit flag as a number, and selecting between two values by it, on the extended reals.

  * The word of the float 1.0 denotes 1 (`one_word`); a one-bit word read as a number is 0 or 1 (`bit_cases`).
  * `law`: for a flag `f` that is 0 or 1, weighting two values `a`, `b` by `f · n` and `(1 - f) · n` and adding is
    forming `a · f + b · (1 - f)` and then multiplying by `n`. For `f = 0` both are `b · n`, for `f = 1` both are
    `a · n`: on the extended reals this takes only `0 · y = 0`, `y + 0 = y`, `1 · y = y`, `1 - 1 = 0` and
    associativity of the product, so none of `a`, `b`, `n` has to be finite.
-/
import Idealize.ShloMosaic.PureOps.Ideal.Laws

noncomputable section

namespace Cert.Lib.FlagLaw

open Idealize.ShloMosaic

/-- The word of the float 1.0 denotes 1. -/
theorem one_word : Ideal.ofBits .f32 0x3F800000#32 = (1 : EReal) := by
  simp [Ideal.ofBits, Ideal.ieee]
  norm_cast
  norm_num

/-- A one-bit word read as a number is 0 or 1. -/
theorem bit_cases (b : BitVec 1) : ((b.toNat : ℝ) : EReal) = 0 ∨ ((b.toNat : ℝ) : EReal) = 1 := by
  have h : b.toNat < 2 := b.isLt
  interval_cases hb : b.toNat <;> simp

theorem one_sub_one : (1 : EReal) - 1 = 0 := by
  rw [← EReal.coe_one, ← EReal.coe_sub]; simp

/-- Weighting each projection by its scaled flag is weighting the flagged sum. -/
theorem law (a b n f : EReal) (hf : f = 0 ∨ f = 1) :
    a * (f * n) + b * ((1 - f) * n) = (a * f + b * (1 - f)) * n := by
  rcases hf with rfl | rfl
  · simp [mul_assoc]
  · simp [one_sub_one]

end Cert.Lib.FlagLaw

end
-- ==== Proof.KVal0b.lean ====
/-
  The first kernel's last layer and mask read at an entry, at the exact values.

  The 16384 x 32 array of second-layer outputs is multiplied by the transposed last-layer weight (a 32 x 1 column),
  the bias is added, and the 16384 results are re-read row-major as a 128 x 128 tile: entry (p, q) is the result of
  row 128 p + q.  The tile is then masked by the global row number 128 b0 + p and column number 128 b1 + q, which are
  32-bit words below 1024, so the word comparisons are comparisons of the numbers: one on the diagonal, the network's
  output strictly above it, zero below.  The whole tile is multiplied by the scale.
-/
import proofs.«163482_j91182155694480_1_alg».proof.Proof.KBody0
import proofs.«163482_j91182155694480_1_alg».proof.Proof.LibBiasDot
import proofs.«163482_j91182155694480_1_alg».proof.Proof.LibCube
import proofs.«163482_j91182155694480_1_alg».proof.Proof.LibSpread
import proofs.«163482_j91182155694480_1_alg».proof.Proof.LibFlagLaw
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-- The global row or column number 128 b + p as a 32-bit word. -/
theorem gidx_word (b p : Nat) :
    IntOp.addi (Scalar.muli (BitVec.ofNat 32 b) 128#32) (BitVec.ofNat 32 p) = BitVec.ofNat 32 (128 * b + p) := by
  show BitVec.ofNat 32 b * 128#32 + BitVec.ofNat 32 p = _
  rw [show (128#32 : BitVec 32) = BitVec.ofNat 32 128 from rfl, ← BitVec.ofNat_mul, ← BitVec.ofNat_add, Nat.mul_comm]

theorem toNat_small (a : Nat) (ha : a < 1024) : (BitVec.ofNat 32 a).toNat = a := by
  rw [BitVec.toNat_ofNat]; omega

theorem toInt_small (a : Nat) (ha : a < 1024) : (BitVec.ofNat 32 a).toInt = (a : Int) := by
  rw [BitVec.toInt_eq_toNat_cond, toNat_small a ha]
  split <;> omega

/-- Equality of two words below 1024 is equality of the numbers. -/
theorem cmpi_eq_small (a b : Nat) (ha : a < 1024) (hb : b < 1024) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun he => h (by
      have := congrArg BitVec.toNat he
      rwa [toNat_small a ha, toNat_small b hb] at this)
    rw [beq_eq_false_iff_ne.mpr hne]; rfl

/-- The signed comparison of two words below 1024 is the comparison of the numbers. -/
theorem cmpi_sgt_small (a b : Nat) (ha : a < 1024) (hb : b < 1024) :
    IntOp.cmpi .sgt (BitVec.ofNat 32 b) (BitVec.ofNat 32 a) = if a < b then 1#1 else 0#1 := by
  unfold IntOp.cmpi
  show BitVec.ofBool ((BitVec.ofNat 32 a).slt (BitVec.ofNat 32 b)) = _
  rw [BitVec.slt, toInt_small a ha, toInt_small b hb]
  by_cases h : a < b
  · rw [if_pos h]; simp [h]
  · rw [if_neg h]; simp [h]

/-- The masked, scaled network output at entry (p, q) of the tile whose block numbers are b0 (rows) and b1 (columns):
    the scale times 1 on the diagonal, times the last layer's output strictly above it, times 0 below. -/
theorem k0_pay1_apply (b0 b1 : Nat) (hb0 : b0 < 8) (hb1 : b1 < 8) (v6 : FVec Ideal S1x32 .f32) (v7 : FVec Ideal S1 .f32)
    (v9 : Ideal .f32) (v42 : FVec Ideal S16384x32 .f32) (p q : Fin 128) (r : Fin 16384)
    (hr : r.val = p.val * 128 + q.val) :
    k0_pay1 (F := Ideal) (BitVec.ofNat 32 b0) (BitVec.ofNat 32 b1) v6 v7 v9 v42 (ix2 p q)
      = v9 * (if 128 * b0 + p.val = 128 * b1 + q.val then 1
              else if 128 * b0 + p.val < 128 * b1 + q.val then (∑ o : Fin 32, v42 (ix2 r o) * v6 (ix2 0 o)) + v7 (ix1 0)
              else 0) := by
  have hp := p.isLt
  have hq := q.isLt
  have h1 : 128 * b0 + p.val < 1024 := by omega
  have h2 : 128 * b1 + q.val < 1024 := by omega
  unfold k0_pay1
  dsimp only
  simp only [mulf_apply, select_apply, broadcast_apply, cmpi, addi]
  have e0 : iota .tc S128x128 32 [0] iota_S128x128_d0_w32 (ix2 p q) = BitVec.ofNat 32 p.val :=
    Cert.Lib.Cube.iota_row .tc iota_S128x128_d0_w32 p q
  have e1 : iota .tc S128x128 32 [1] iota_S128x128_d1_w32 (ix2 p q) = BitVec.ofNat 32 q.val :=
    Cert.Lib.Cube.iota_lane .tc iota_S128x128_d1_w32 p q
  rw [e0, e1, gidx_word, gidx_word]
  rw [cmpi_eq_small _ _ h1 h2, cmpi_sgt_small _ _ h1 h2]
  refine congrArg (v9 * ·) ?_
  by_cases he : 128 * b0 + p.val = 128 * b1 + q.val
  · rw [if_pos he, if_pos he, select_one]
    exact Cert.Lib.FlagLaw.one_word
  · rw [if_neg he, if_neg he, select_zero]
    by_cases hl : 128 * b0 + p.val < 128 * b1 + q.val
    · rw [if_pos hl, if_pos hl, select_one]
      refine (shapeCast_apply _ shapeCasts_S16384_S128x128 (ix2 p q) (ix1 r) ?_).trans ?_
      · rw [Shape.rowMajor_val_one, Shape.rowMajor_val_two]
        exact hr
      refine (Cert.Lib.Spread.colVec_apply _ shapeCasts_S16384x1_S16384 r).trans ?_
      have hd : dot_S16384x32_S32x1_S16384x1_1_0_0_1_n_n = DotDims.plain 16384 32 1 := rfl
      rw [hd]
      refine (Cert.Lib.BiasDot.biasDot_apply none _ _ v7 shapeCasts_S1_S1x1 broadcasts_S1x1_S16384x1 r 0).trans ?_
      refine congrArg (· + v7 (ix1 0)) ?_
      refine Finset.sum_congr rfl fun o _ => ?_
      refine congrArg₂ (· * ·) (truncf_apply v42 bitsLt_bf16_f32 (ix2 r o)) ?_
      refine (transpose_apply [1, 0] _ transposes_S1x32_p1_0_S32x1 (ix2 o 0) (ix2 0 o) (fun b => ?_)).trans
        (truncf_apply v6 bitsLt_bf16_f32 (ix2 0 o))
      match b with
      | ⟨0, _⟩ => rfl
      | ⟨1, _⟩ => rfl
    · rw [if_neg hl, if_neg hl, select_zero]
      exact Ideal.ofBits_zero_f32

end Cert.KernelIdeal.Hand

end
-- ==== Proof.Spec.lean ====
/-
  The mathematics both programs compute, on the extended reals, over plain index types.

  For a time vector x of 1024 entries the pairwise network is
    v(i, j) = W3 · relu(W2 · tanh(x_i · W1[:,0] + b1 + x_j · W1[:,1]) + b2) + b3,
  the matrix K has 1 on the diagonal, v(i, j) strictly above it and 0 below, and the result is
  σ² · KᵀK.  One program scales K by σ before the product, the other scales the product by σ·σ.
-/
import Idealize.ShloMosaic.PureOps.Ideal

noncomputable section

namespace Cert.Spec

open Idealize.ShloMosaic

/-- First layer at the pair (i, j), feature k: the row term with its bias, then the column term. -/
def hid1 (x : Fin 1024 → EReal) (W1 : Fin 128 → Fin 2 → EReal) (b1 : Fin 128 → EReal)
    (i j : Fin 1024) (k : Fin 128) : EReal :=
  Ideal.tanh ((x i * W1 k 0 + b1 k) + x j * W1 k 1)

/-- Second layer with its positive part. -/
def hid2 (x : Fin 1024 → EReal) (W1 : Fin 128 → Fin 2 → EReal) (b1 : Fin 128 → EReal)
    (W2 : Fin 32 → Fin 128 → EReal) (b2 : Fin 32 → EReal) (i j : Fin 1024) (o : Fin 32) : EReal :=
  max ((∑ k : Fin 128, hid1 x W1 b1 i j k * W2 o k) + b2 o) 0

/-- The network's scalar output at the pair (i, j). -/
def pairv (x : Fin 1024 → EReal) (W1 : Fin 128 → Fin 2 → EReal) (b1 : Fin 128 → EReal)
    (W2 : Fin 32 → Fin 128 → EReal) (b2 : Fin 32 → EReal) (W3 : Fin 32 → EReal) (b3 : EReal)
    (i j : Fin 1024) : EReal :=
  (∑ o : Fin 32, hid2 x W1 b1 W2 b2 i j o * W3 o) + b3

/-- The matrix K: one on the diagonal, the network strictly above it, zero below. -/
def Kmat (x : Fin 1024 → EReal) (W1 : Fin 128 → Fin 2 → EReal) (b1 : Fin 128 → EReal)
    (W2 : Fin 32 → Fin 128 → EReal) (b2 : Fin 32 → EReal) (W3 : Fin 32 → EReal) (b3 : EReal)
    (i j : Fin 1024) : EReal :=
  if i = j then 1 else if i < j then pairv x W1 b1 W2 b2 W3 b3 i j else 0

/-- The product with the scale inside: the sum over k of (σ K[k,m]) (σ K[k,n]). -/
def outK (σ : EReal) (K : Fin 1024 → Fin 1024 → EReal) (m n : Fin 1024) : EReal :=
  ∑ k : Fin 1024, (σ * K k m) * (σ * K k n)

/-- The product with the scale outside: (σ σ) times the sum over k of K[k,m] K[k,n]. -/
def outR (σ : EReal) (K : Fin 1024 → Fin 1024 → EReal) (m n : Fin 1024) : EReal :=
  (σ * σ) * ∑ k : Fin 1024, K k m * K k n

end Cert.Spec

end
-- ==== Proof.KVal0.lean ====
/-
  The first kernel's tile read at an entry, at the exact values.

  Every load of the body reads a whole staging buffer, so the tile it stores is the payload of the loaded blocks.
  At entry (p, q), for the grid point with row-block number i₀ and column-block number i₁, the tile holds the scale
  times: 1 when the global row 128 i₀ + p equals the global column 128 i₁ + q, the pairwise network on the row time
  x_p and the column time y_q when the row is smaller, 0 otherwise.  When the loaded blocks are blocks of a time
  vector and of the network's parameters, that is the scale times the matrix K of the shared specification.
-/
import proofs.«163482_j91182155694480_1_alg».proof.Proof.KBody0
import proofs.«163482_j91182155694480_1_alg».proof.Proof.KVal0a
import proofs.«163482_j91182155694480_1_alg».proof.Proof.KVal0b
import proofs.«163482_j91182155694480_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

theorem zero1 : (![0] : Fin 1 → Nat) = fun _ => 0 := funext fun a => by fin_cases a; rfl
theorem zero2 : (![0, 0] : Fin 2 → Nat) = fun _ => 0 := funext fun a => by fin_cases a <;> rfl

/-- Every load of the body reads a whole buffer, so the tile is the payload on the buffers' contents. -/
theorem tile0_eq (i : grid0.Coords) (x0 x1 : Vec Ideal S128 .f32) (x2 : Vec Ideal S128x2 .f32) (x3 : Vec Ideal S128 .f32)
    (x4 : Vec Ideal S32x128 .f32) (x5 : Vec Ideal S32 .f32) (x6 : Vec Ideal S1x32 .f32) (x7 : Vec Ideal S1 .f32)
    (x8 : Vec Ideal S1x1 .f32) :
    tile0 (F := Ideal) i x0 x1 x2 x3 x4 x5 x6 x7 x8
      = k0_pay1 (BitVec.ofNat 32 (i 0).val) (BitVec.ofNat 32 (i 1).val) x6 x7 (k0_pay2 x8) (k0_pay3 x0 x1 x2 x3 x4 x5) := by
  unfold tile0
  have e0 : View.ld x0 rS128 = x0 := View.ld_unit_zero (S := S128) zero1 inb_S128_S128_0 x0
  have e1 : View.ld x1 rS128 = x1 := View.ld_unit_zero (S := S128) zero1 inb_S128_S128_0 x1
  have e2 : View.ld x2 rS128x2 = x2 := View.ld_unit_zero (S := S128x2) zero2 inb_S128x2_S128x2_0_0 x2
  have e3 : View.ld x3 rS128 = x3 := View.ld_unit_zero (S := S128) zero1 inb_S128_S128_0 x3
  have e4 : View.ld x4 rS32x128 = x4 := View.ld_unit_zero (S := S32x128) zero2 inb_S32x128_S32x128_0_0 x4
  have e5 : View.ld x5 rS32 = x5 := View.ld_unit_zero (S := S32) zero1 inb_S32_S32_0 x5
  have e6 : View.ld x6 rS1x32 = x6 := View.ld_unit_zero (S := S1x32) zero2 inb_S1x32_S1x32_0_0 x6
  have e7 : View.ld x7 rS1 = x7 := View.ld_unit_zero (S := S1) zero1 inb_S1_S1_0 x7
  have e8 : View.ld x8 rS1x1 = x8 := View.ld_unit_zero (S := S1x1) zero2 inb_S1x1_S1x1_0_0 x8
  rw [e0, e1, e2, e3, e4, e5, e6, e7, e8]

/-- The scale: the one entry of the 1 x 1 block. -/
theorem k0_pay2_eq (x8 : FVec Ideal S1x1 .f32) : k0_pay2 (F := Ideal) x8 = x8 (ix2 0 0) := by
  unfold k0_pay2 extractAt
  dsimp only
  refine congrArg x8 (funext fun a => ?_)
  match a with
  | ⟨0, _⟩ => rfl
  | ⟨1, _⟩ => rfl

/-- The tile at entry (p, q), for the grid point i: the scale times the masked network on the loaded blocks. -/
theorem tile0_apply (i : grid0.Coords) (x0 x1 : FVec Ideal S128 .f32) (x2 : FVec Ideal S128x2 .f32) (x3 : FVec Ideal S128 .f32)
    (x4 : FVec Ideal S32x128 .f32) (x5 : FVec Ideal S32 .f32) (x6 : FVec Ideal S1x32 .f32) (x7 : FVec Ideal S1 .f32)
    (x8 : FVec Ideal S1x1 .f32) (p q : Fin 128) :
    tile0 (F := Ideal) i x0 x1 x2 x3 x4 x5 x6 x7 x8 (ix2 p q)
      = x8 (ix2 0 0) * (if 128 * (i 0).val + p.val = 128 * (i 1).val + q.val then 1
          else if 128 * (i 0).val + p.val < 128 * (i 1).val + q.val then
            (∑ o : Fin 32, max ((∑ k : Fin 128, Ideal.tanh ((x0 (ix1 p) * x2 (ix2 k 0) + x3 (ix1 k)) + x1 (ix1 q) * x2 (ix2 k 1))
                * x4 (ix2 o k)) + x5 (ix1 o)) 0 * x6 (ix2 0 o)) + x7 (ix1 0)
          else 0) := by
  have hp := p.isLt
  have hq := q.isLt
  rw [tile0_eq]
  refine (k0_pay1_apply (i 0).val (i 1).val (i 0).isLt (i 1).isLt x6 x7 _ _ p q ⟨p.val * 128 + q.val, by omega⟩ rfl).trans ?_
  rw [k0_pay2_eq]
  refine congrArg (x8 (ix2 0 0) * ·) ?_
  refine if_congr Iff.rfl rfl (if_congr Iff.rfl ?_ rfl)
  refine congrArg (· + x7 (ix1 0)) ?_
  refine Finset.sum_congr rfl fun o _ => ?_
  refine congrArg (· * x6 (ix2 0 o)) ?_
  exact k0_pay3_apply x0 x1 x2 x3 x4 x5 p q ⟨p.val * 128 + q.val, by omega⟩ rfl o

/-- The tile at entry (p, q) is the scale times the matrix K at the global row gi = 128 i₀ + p and column
    gj = 128 i₁ + q, for any time vector and parameters that the loaded blocks are blocks of. -/
theorem tile0_Kmat (i : grid0.Coords) (x0 x1 : FVec Ideal S128 .f32) (x2 : FVec Ideal S128x2 .f32) (x3 : FVec Ideal S128 .f32)
    (x4 : FVec Ideal S32x128 .f32) (x5 : FVec Ideal S32 .f32) (x6 : FVec Ideal S1x32 .f32) (x7 : FVec Ideal S1 .f32)
    (x8 : FVec Ideal S1x1 .f32) (p q : Fin 128) (gi gj : Fin 1024)
    (hgi : gi.val = 128 * (i 0).val + p.val) (hgj : gj.val = 128 * (i 1).val + q.val)
    (xs : Fin 1024 → EReal) (W1s : Fin 128 → Fin 2 → EReal) (b1s : Fin 128 → EReal) (W2s : Fin 32 → Fin 128 → EReal)
    (b2s : Fin 32 → EReal) (W3s : Fin 32 → EReal) (b3s : EReal)
    (hxi : xs gi = x0 (ix1 p)) (hxj : xs gj = x1 (ix1 q)) (hW1 : ∀ k c, W1s k c = x2 (ix2 k c))
    (hb1 : ∀ k, b1s k = x3 (ix1 k)) (hW2 : ∀ o k, W2s o k = x4 (ix2 o k)) (hb2 : ∀ o, b2s o = x5 (ix1 o))
    (hW3 : ∀ o, W3s o = x6 (ix2 0 o)) (hb3 : b3s = x7 (ix1 0)) :
    tile0 (F := Ideal) i x0 x1 x2 x3 x4 x5 x6 x7 x8 (ix2 p q)
      = x8 (ix2 0 0) * Cert.Spec.Kmat xs W1s b1s W2s b2s W3s b3s gi gj := by
  rw [tile0_apply]
  refine congrArg (x8 (ix2 0 0) * ·) ?_
  unfold Cert.Spec.Kmat
  refine if_congr ?_ rfl (if_congr ?_ ?_ rfl)
  · rw [Fin.ext_iff, hgi, hgj]
  · rw [Fin.lt_def, hgi, hgj]
  · unfold Cert.Spec.pairv Cert.Spec.hid2 Cert.Spec.hid1
    rw [hb3, hxi, hxj]
    refine congrArg (· + x7 (ix1 0)) ?_
    refine Finset.sum_congr rfl fun o _ => ?_
    rw [hW3 o, hb2 o]
    refine congrArg (fun t => max (t + x5 (ix1 o)) 0 * x6 (ix2 0 o)) ?_
    refine Finset.sum_congr rfl fun k _ => ?_
    rw [hW1 k 0, hW1 k 1, hb1 k, hW2 o k]

end Cert.KernelIdeal.Hand

end
-- ==== Proof.KFinal0.lean ====
/-
  The first kernel's whole result at the exact values: the scale times the matrix K of the shared specification.

  Entry (gi, gj) of the array after the last grid point is entry (gi mod 128, gj mod 128) of the tile of the point
  (gi / 128, gj / 128). That tile entry is the scale times K at the global row 128·(gi / 128) + gi mod 128 = gi and
  column gj, on the time vector and the parameters that the point's blocks are blocks of.
-/
import proofs.«163482_j91182155694480_1_alg».proof.Proof.KFinal0Arr
import proofs.«163482_j91182155694480_1_alg».proof.Proof.KVal0

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

section Region0
variable (V : (c : Dev nD) → (b : Ref sig .tc) → Buf (Elt Ideal) ((c : Thread nD τ).loc b))

/-- The array the first kernel leaves: the scale times K, entry by entry. -/
theorem K_final (c : Dev nD) (gi gj : Fin 1024) :
    @Eq EReal ((dat0 (F := Ideal) V c).arrAt 9 cfg0.N (ix2 gi gj))
      (@HMul.hMul EReal EReal EReal instHMul (V c main_v0 (ix2 0 0))
        (Cert.Spec.Kmat (fun i => V c main_arg0 (ix1 i)) (fun k c2 => V c main_arg1 (ix2 k c2))
          (fun k => V c main_arg2 (ix1 k)) (fun o k => V c main_arg3 (ix2 o k)) (fun o => V c main_arg4 (ix1 o))
          (fun o => V c main_arg5 (ix2 0 o)) (V c main_arg6 (ix1 0)) gi gj)) := by
  obtain ⟨c0, c1⟩ := coords_ptOf0 gi gj
  have hgi : gi.val = 128 * (grid0.coords (ptOf0 gi gj) 0).val + gi.val % 128 := by rw [c0]; omega
  have hgj : gj.val = 128 * (grid0.coords (ptOf0 gi gj) 1).val + gj.val % 128 := by rw [c1]; omega
  refine (final0 (F := Ideal) V c gi gj).trans ?_
  refine (tile0_Kmat (grid0.coords (ptOf0 gi gj)) (iblk0 V c 0 (ptOf0 gi gj)) (iblk0 V c 1 (ptOf0 gi gj))
    (iblk0 V c 2 (ptOf0 gi gj)) (iblk0 V c 3 (ptOf0 gi gj)) (iblk0 V c 4 (ptOf0 gi gj)) (iblk0 V c 5 (ptOf0 gi gj))
    (iblk0 V c 6 (ptOf0 gi gj)) (iblk0 V c 7 (ptOf0 gi gj)) (iblk0 V c 8 (ptOf0 gi gj))
    ⟨gi.val % 128, Nat.mod_lt _ (by decide)⟩ ⟨gj.val % 128, Nat.mod_lt _ (by decide)⟩ gi gj hgi hgj
    (fun i => V c main_arg0 (ix1 i)) (fun k c2 => V c main_arg1 (ix2 k c2)) (fun k => V c main_arg2 (ix1 k))
    (fun o k => V c main_arg3 (ix2 o k)) (fun o => V c main_arg4 (ix1 o)) (fun o => V c main_arg5 (ix2 0 o))
    (V c main_arg6 (ix1 0))
    ?_ ?_ ?_ ?_ ?_ ?_ ?_ ?_).trans ?_
  · refine ((iblk0_0_apply V c (ptOf0 gi gj) ⟨gi.val % 128, Nat.mod_lt _ (by decide)⟩).trans ?_).symm
    exact congrArg (fun j : Fin 1024 => V c main_arg0 (ix1 j)) (Fin.ext hgi.symm)
  · refine ((iblk0_1_apply V c (ptOf0 gi gj) ⟨gj.val % 128, Nat.mod_lt _ (by decide)⟩).trans ?_).symm
    exact congrArg (fun j : Fin 1024 => V c main_arg0 (ix1 j)) (Fin.ext hgj.symm)
  · exact fun k c2 => (congrFun (iblk0_2_eq V c (ptOf0 gi gj)) (ix2 k c2)).symm
  · exact fun k => (congrFun (iblk0_3_eq V c (ptOf0 gi gj)) (ix1 k)).symm
  · exact fun o k => (congrFun (iblk0_4_eq V c (ptOf0 gi gj)) (ix2 o k)).symm
  · exact fun o => (congrFun (iblk0_5_eq V c (ptOf0 gi gj)) (ix1 o)).symm
  · exact fun o => (congrFun (iblk0_6_eq V c (ptOf0 gi gj)) (ix2 0 o)).symm
  · exact (congrFun (iblk0_7_eq V c (ptOf0 gi gj)) (ix1 0)).symm
  · exact congrArg (fun s : EReal => s * _) (congrFun (iblk0_8_eq V c (ptOf0 gi gj)) (ix2 0 0))

end Region0

end Cert.KernelIdeal.Hand

end
-- ==== Proof.KFinal1Blk.lean ====
/-
  The second kernel's input blocks, read at an index (any float instance).

  At grid point t with coordinates (mi, ni, ki): the first window holds rows 512·ki … 512·ki + 511 and columns
  512·mi … 512·mi + 511 of the matrix K, the second rows 512·ki … and columns 512·ni …; the output window's block is
  rows 512·mi … and columns 512·ni … of the result. The point's number is 4·mi + 2·ni + ki.
-/
import proofs.«163482_j91182155694480_1_alg».proof.Proof.KDat1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

/-- The printed index maps, decided once over the 8 grid points: the first window follows the third and the first
    coordinate, the second the third and the second, the output window the first and the second; and the point's
    number is 4 times its first coordinate plus 2 times its second plus its third. -/
theorem idx_facts1 : ∀ t : Fin cfg1.N,
    win1_0.index t (0 : Fin 2) = (grid1.coords t 2).val ∧ win1_0.index t (1 : Fin 2) = (grid1.coords t 0).val
    ∧ win1_1.index t (0 : Fin 2) = (grid1.coords t 2).val ∧ win1_1.index t (1 : Fin 2) = (grid1.coords t 1).val
    ∧ win1_2.index t (0 : Fin 2) = (grid1.coords t 0).val ∧ win1_2.index t (1 : Fin 2) = (grid1.coords t 1).val
    ∧ t.val = 4 * (grid1.coords t 0).val + 2 * (grid1.coords t 1).val + (grid1.coords t 2).val :=
  (by decide +kernel : ∀ t : Fin grid1.N, _)

theorem mi1_lt (t : Fin cfg1.N) : (grid1.coords t 0).val < 2 := (grid1.coords t 0).isLt
theorem ni1_lt (t : Fin cfg1.N) : (grid1.coords t 1).val < 2 := (grid1.coords t 1).isLt
theorem ki1_lt (t : Fin cfg1.N) : (grid1.coords t 2).val < 2 := (grid1.coords t 2).isLt

section Region1
variable (V : (c : Dev nD) → (b : Ref sig .tc) → Buf (Elt F) ((c : Thread nD τ).loc b))

/-- The first window at point t, entry y, is the matrix's entry at row 512·ki + y₀ and column 512·mi + y₁. -/
theorem iblk1_0_at (c : Dev nD) (t : Fin cfg1.N) (y : S512x512.Idx) (gr gc : Fin 1024)
    (hr : gr.val = 512 * (grid1.coords t 2).val + (y 0).val)
    (hc : gc.val = 512 * (grid1.coords t 0).val + (y 1).val) :
    (iblk1 V c 0 t : Vec F S512x512 .f32) y = (V c main_v1 : S1024x1024.Idx → Elt F .f32) (ix2 gr gc) := by
  obtain ⟨e0, e1, -⟩ := idx_facts1 t
  unfold iblk1
  rw [View.read_apply]
  show V c main_v1 _ = V c main_v1 _
  congr 1
  funext a
  apply Fin.ext
  match a with
  | ⟨0, _⟩ => show win1_0.index t (0 : Fin 2) * 512 + 1 * (y 0).val = gr.val; rw [e0, hr]; omega
  | ⟨1, _⟩ => show win1_0.index t (1 : Fin 2) * 512 + 1 * (y 1).val = gc.val; rw [e1, hc]; omega

/-- The second window at point t, entry y, is the matrix's entry at row 512·ki + y₀ and column 512·ni + y₁. -/
theorem iblk1_1_at (c : Dev nD) (t : Fin cfg1.N) (y : S512x512.Idx) (gr gc : Fin 1024)
    (hr : gr.val = 512 * (grid1.coords t 2).val + (y 0).val)
    (hc : gc.val = 512 * (grid1.coords t 1).val + (y 1).val) :
    (iblk1 V c 1 t : Vec F S512x512 .f32) y = (V c main_v1 : S1024x1024.Idx → Elt F .f32) (ix2 gr gc) := by
  obtain ⟨-, -, e0, e1, -⟩ := idx_facts1 t
  unfold iblk1
  rw [View.read_apply]
  show V c main_v1 _ = V c main_v1 _
  congr 1
  funext a
  apply Fin.ext
  match a with
  | ⟨0, _⟩ => show win1_1.index t (0 : Fin 2) * 512 + 1 * (y 0).val = gr.val; rw [e0, hr]; omega
  | ⟨1, _⟩ => show win1_1.index t (1 : Fin 2) * 512 + 1 * (y 1).val = gc.val; rw [e1, hc]; omega

/-- The first window at point t, entry (r, s): row 512·ki + r, column 512·mi + s of the matrix. -/
theorem iblk1_0_apply (c : Dev nD) (t : Fin cfg1.N) (r s : Fin 512) :
    (iblk1 V c 0 t : Vec F S512x512 .f32) (ix2 r s)
      = (V c main_v1 : S1024x1024.Idx → Elt F .f32)
          (ix2 ⟨512 * (grid1.coords t 2).val + r.val, by have := ki1_lt t; have := r.isLt; omega⟩
            ⟨512 * (grid1.coords t 0).val + s.val, by have := mi1_lt t; have := s.isLt; omega⟩) :=
  iblk1_0_at V c t (ix2 r s) _ _ rfl rfl

/-- The second window at point t, entry (r, s): row 512·ki + r, column 512·ni + s of the matrix. -/
theorem iblk1_1_apply (c : Dev nD) (t : Fin cfg1.N) (r s : Fin 512) :
    (iblk1 V c 1 t : Vec F S512x512 .f32) (ix2 r s)
      = (V c main_v1 : S1024x1024.Idx → Elt F .f32)
          (ix2 ⟨512 * (grid1.coords t 2).val + r.val, by have := ki1_lt t; have := r.isLt; omega⟩
            ⟨512 * (grid1.coords t 1).val + s.val, by have := ni1_lt t; have := s.isLt; omega⟩) :=
  iblk1_1_at V c t (ix2 r s) _ _ rfl rfl

end Region1

end Cert.KernelIdeal.Hand

end
-- ==== Proof.LibDotCols.lean ====
/-
  A matrix product whose two operands are both contracted on their FIRST axis, read at an entry.

  For a `K × A` array `l` and a `K × B` array `r`, the product into a zero accumulator that contracts axis 0 of
  both (`lᵀ r`, an `A × B` array) is, at the exact values, the plain sum at every entry:
  `(lᵀ r)(a, b) = Σ_k l(k, a) · r(k, b)` (`matmul_cols_apply`).  No order of summation and no rounding is left in
  it, so nothing about the entries (finiteness included) is assumed.
-/
import Idealize.ShloMosaic.Lib.ValueIdx
import Idealize.ShloMosaic.PureOps.Ideal.Laws

noncomputable section

open scoped BigOperators

namespace Cert.Lib.DotCols

open Idealize.ShloMosaic Idealize.ShloMosaic.ValueIdx

variable {K A B : Nat} {φ₁ φ₂ : FTy}

/-- `lᵀ r` at `(a, b)`: the dimension numbers contract axis 0 of the left operand with axis 0 of the right one, keep
    axis 1 of each, and have no batch axis; the accumulator is the zero word. -/
theorem matmul_cols_apply (D : DotDims ⟨2, ![K, A]⟩ ⟨2, ![K, B]⟩ ⟨2, ![A, B]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision) (l : FVec Ideal ⟨2, ![K, A]⟩ φ₁) (r : FVec Ideal ⟨2, ![K, B]⟩ φ₂)
    (a : Fin A) (b : Fin B) :
    matmul D prec l r (constant ⟨2, ![A, B]⟩ .f32 0x00000000#32) (ix2 a b) = ∑ k : Fin K, l (ix2 k a) * r (ix2 k b) := by
  obtain ⟨lc, rc, ln, rn, lb, rb, wf⟩ := D
  dsimp only at hlc hrc hln hrn hlb hrb
  subst hlc hrc hln hrn hlb hrb
  simp only [matmul]
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, A]⟩ ⟨2, ![K, B]⟩ ⟨2, ![A, B]⟩) K rfl rfl k
  have el : DotDims.lhsIdx (⟨[0], [0], [1], [1], [], [], wf⟩ : DotDims ⟨2, ![K, A]⟩ ⟨2, ![K, B]⟩ ⟨2, ![A, B]⟩) (ix2 a b)
      ((contrEquiv1 _ K rfl rfl).symm k) = ix2 k a := funext fun c => Fin.ext (by
    match c with
    | ⟨0, _⟩ => exact (DotDims.lhsIdx_val_of_single _ rfl _ _).trans hk
    | ⟨1, _⟩ =>
      unfold DotDims.lhsIdx
      rw [dif_neg (by exact List.not_mem_nil), dif_pos (by exact List.mem_singleton.mpr rfl)]
      rfl)
  have er : DotDims.rhsIdx (⟨[0], [0], [1], [1], [], [], wf⟩ : DotDims ⟨2, ![K, A]⟩ ⟨2, ![K, B]⟩ ⟨2, ![A, B]⟩) (ix2 a b)
      ((contrEquiv1 _ K rfl rfl).symm k) = ix2 k b := funext fun c => Fin.ext (by
    match c with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

end Cert.Lib.DotCols

end
-- ==== Proof.KVal1.lean ====
/-
  The second kernel's accumulator step read at an entry, at the exact values.

  The step adds to the accumulator the product of the two 512 x 512 blocks contracted along their first axes:
  entry (m, n) of the result is  acc(m, n) + Σ_k a(k, m) · b(k, n).  The narrowing of the operands before the
  product is the identity on extended reals, the reshapes to the same shape are identities, and the first step
  starts from the zero array, so it leaves the plain sum.
-/
import proofs.«163482_j91182155694480_1_alg».proof.Proof.KBody1
import proofs.«163482_j91182155694480_1_alg».proof.Proof.LibDotCols
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-- The accumulator step at (m, n): the old entry plus the sum over k of a(k, m) b(k, n). -/
theorem accStep_apply (a b acc : FVec Ideal S512x512 .f32) (m n : Fin 512) :
    accStep (F := Ideal) a b acc (ix2 m n) = acc (ix2 m n) + ∑ k : Fin 512, a (ix2 k m) * b (ix2 k n) := by
  unfold accStep k1_pay2
  try dsimp only
  rw [shapeCast_self, shapeCast_self, shapeCast_self, addf_apply]
  congr 1
  exact Cert.Lib.DotCols.matmul_cols_apply (K := 512) (A := 512) (B := 512)
    dot_S512x512_S512x512_S512x512_0_0_1_1_n_n rfl rfl rfl rfl rfl rfl none _ _ m n

/-- The first step at (m, n): the sum over k of a(k, m) b(k, n). -/
theorem accFirst_apply (a b : FVec Ideal S512x512 .f32) (m n : Fin 512) :
    accFirst (F := Ideal) a b (ix2 m n) = ∑ k : Fin 512, a (ix2 k m) * b (ix2 k n) := by
  unfold accFirst
  rw [accStep_apply]
  have h0 : (k1_pay1 (F := Ideal)) (ix2 m n) = 0 := by
    unfold k1_pay1
    try dsimp only
    rw [shapeCast_self, broadcast_apply]
    exact Ideal.ofBits_zero_f32
  rw [h0, zero_add]

end Cert.KernelIdeal.Hand

end
-- ==== Proof.KFinal1.lean ====
/-
  From the accumulated blocks to the whole product (at the exact values).

  The output window's block at grid point (mi, ni, ki) is rows 512·mi … 512·mi + 511 and columns 512·ni … 512·ni + 511 of
  the 1024 × 1024 result; it is written back at the odd points only (ki = 1), and the four odd points' blocks tile the
  array. At an odd point the accumulator holds the step from zero at the point before (ki = 0: rows 0 … 511 of K)
  plus the step at the point itself (ki = 1: rows 512 … 1023 of K), so entry (gm, gn) of the result is the sum over the
  first 512 rows k of K[k, gm] · K[k, gn] plus the sum over the last 512: the sum over all 1024 rows, split at 512.
  Addition of extended reals is associative and commutative, so no entry has to be finite.
-/
import proofs.«163482_j91182155694480_1_alg».proof.Proof.KFinal1Blk
import proofs.«163482_j91182155694480_1_alg».proof.Proof.KVal1

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The grid point that writes back the block holding entry (gm, gn): number 4·(gm / 512) + 2·(gn / 512) + 1. -/
def ptOf1 (gm gn : Fin 1024) : Fin cfg1.N :=
  ⟨4 * (gm.val / 512) + 2 * (gn.val / 512) + 1, by
    rw [show cfg1.N = 8 from N_1]; have := gm.isLt; have := gn.isLt; omega⟩

theorem ptOf1_val (gm gn : Fin 1024) : (ptOf1 gm gn).val = 4 * (gm.val / 512) + 2 * (gn.val / 512) + 1 := rfl

theorem ptOf1_odd (gm gn : Fin 1024) : (ptOf1 gm gn).val % 2 = 1 := by rw [ptOf1_val]; omega

/-- That point's first two coordinates are (gm / 512, gn / 512). -/
theorem coords_ptOf1 (gm gn : Fin 1024) :
    (grid1.coords (ptOf1 gm gn) 0).val = gm.val / 512 ∧ (grid1.coords (ptOf1 gm gn) 1).val = gn.val / 512 := by
  have e : (ptOf1 gm gn).val = 4 * (grid1.coords (ptOf1 gm gn) 0).val + 2 * (grid1.coords (ptOf1 gm gn) 1).val
      + (grid1.coords (ptOf1 gm gn) 2).val := (idx_facts1 (ptOf1 gm gn)).2.2.2.2.2.2
  rw [ptOf1_val] at e
  have h0 := mi1_lt (ptOf1 gm gn)
  have h1 := ni1_lt (ptOf1 gm gn)
  have h2 := ki1_lt (ptOf1 gm gn)
  have := gm.isLt
  have := gn.isLt
  omega

/-- The point before. -/
def prev1 (t : Fin cfg1.N) : Fin cfg1.N := ⟨t.val - 1, Nat.lt_of_le_of_lt (Nat.sub_le _ _) t.isLt⟩

section Region1
variable (V : (c : Dev nD) → (b : Ref sig .tc) → Buf (Elt Ideal) ((c : Thread nD τ).loc b))

/-- The matrix K, as the region finds it. -/
abbrev Kof (c : Dev nD) : FVec Ideal S1024x1024 .f32 := V c main_v1

/-- Entry y of the accumulator after an odd point is the full sum at the place (gm, gn) that y has in the whole
    array: the first 512 rows from the point before, the last 512 from the point itself. -/
theorem accAt1_at (c : Dev nD) (t : Fin cfg1.N) (ht : t.val % 2 = 1) (y : S512x512.Idx) (gm gn : Fin 1024)
    (hgm : gm.val = win1_2.index t (0 : Fin 2) * 512 + 1 * (y 0).val)
    (hgn : gn.val = win1_2.index t (1 : Fin 2) * 512 + 1 * (y 1).val) :
    accAt1 V c t.val t.isLt y = ∑ k : Fin 1024, Kof V c (ix2 k gm) * Kof V c (ix2 k gn) := by
  obtain ⟨m, n, rfl⟩ : ∃ (m n : Fin 512), y = ix2 m n := ⟨y 0, y 1, eq_ix2 y⟩
  have hgm' : gm.val = win1_2.index t (0 : Fin 2) * 512 + 1 * m.val := hgm
  have hgn' : gn.val = win1_2.index t (1 : Fin 2) * 512 + 1 * n.val := hgn
  obtain ⟨-, -, -, -, e0, e1, et⟩ := idx_facts1 t
  have et' : (prev1 t).val = 4 * (grid1.coords (prev1 t) 0).val + 2 * (grid1.coords (prev1 t) 1).val
      + (grid1.coords (prev1 t) 2).val := (idx_facts1 (prev1 t)).2.2.2.2.2.2
  have hv' : (prev1 t).val = t.val - 1 := rfl
  have a0 := mi1_lt t
  have a1 := ni1_lt t
  have a2 := ki1_lt t
  have b0 := mi1_lt (prev1 t)
  have b1 := ni1_lt (prev1 t)
  have b2 := ki1_lt (prev1 t)
  have hc0 : (grid1.coords (prev1 t) 0).val = (grid1.coords t 0).val := by omega
  have hc1 : (grid1.coords (prev1 t) 1).val = (grid1.coords t 1).val := by omega
  have hk' : (grid1.coords (prev1 t) 2).val = 0 := by omega
  have hk : (grid1.coords t 2).val = 1 := by omega
  have hprev : accAt1 V c (t.val - 1) (Nat.lt_of_le_of_lt (Nat.sub_le _ _) t.isLt)
      = accFirst (iblk1 V c 0 (prev1 t)) (iblk1 V c 1 (prev1 t)) :=
    accAt1_even V c (prev1 t) (by rw [hv']; omega)
  rw [accAt1_odd V c t ht, accStep_apply, hprev, accFirst_apply]
  have hsplit : (∑ k : Fin 1024, Kof V c (ix2 k gm) * Kof V c (ix2 k gn))
      = (∑ k : Fin 512, Kof V c (ix2 (Fin.castAdd 512 k) gm) * Kof V c (ix2 (Fin.castAdd 512 k) gn))
        + ∑ k : Fin 512, Kof V c (ix2 (Fin.natAdd 512 k) gm) * Kof V c (ix2 (Fin.natAdd 512 k) gn) :=
    Fin.sum_univ_add (a := 512) (b := 512) (fun k : Fin 1024 => Kof V c (ix2 k gm) * Kof V c (ix2 k gn))
  rw [hsplit]
  refine congrArg₂ (· + ·) (Finset.sum_congr rfl fun k _ => ?_) (Finset.sum_congr rfl fun k _ => ?_)
  · rw [iblk1_0_at V c (prev1 t) (ix2 k m) (Fin.castAdd 512 k) gm
        (by show k.val = 512 * (grid1.coords (prev1 t) 2).val + k.val; omega)
        (by show gm.val = 512 * (grid1.coords (prev1 t) 0).val + m.val; omega),
      iblk1_1_at V c (prev1 t) (ix2 k n) (Fin.castAdd 512 k) gn
        (by show k.val = 512 * (grid1.coords (prev1 t) 2).val + k.val; omega)
        (by show gn.val = 512 * (grid1.coords (prev1 t) 1).val + n.val; omega)]
  · rw [iblk1_0_at V c t (ix2 k m) (Fin.natAdd 512 k) gm
        (by show 512 + k.val = 512 * (grid1.coords t 2).val + k.val; omega)
        (by show gm.val = 512 * (grid1.coords t 0).val + m.val; omega),
      iblk1_1_at V c t (ix2 k n) (Fin.natAdd 512 k) gn
        (by show 512 + k.val = 512 * (grid1.coords t 2).val + k.val; omega)
        (by show gn.val = 512 * (grid1.coords t 1).val + n.val; omega)]

/-- The whole product, entry by entry. -/
def G1 (c : Dev nD) : FVec Ideal S1024x1024 .f32 := fun i =>
  ∑ k : Fin 1024, Kof V c (ix2 k (i 0)) * Kof V c (ix2 k (i 1))

/-- What an odd point t writes back is block t of that matrix. -/
theorem flushed1_2_eq (c : Dev nD) (t : Fin cfg1.N) (ht : t.val % 2 = 1) :
    (dat1 V c).flushed 2 t = ((cfg1.win 2).blk t).view.read (Elt Ideal) (G1 V c) := by
  show (cfg1.win 2).cut (grid1.coords t) ((dat1 V c).after 2 t) = _
  rw [after1_2]
  funext y
  rw [View.read_apply]
  exact accAt1_at V c t ht ((cfg1.win 2).xinj (grid1.coords t) y) ((((cfg1.win 2).blk t).view.emb y) 0)
    ((((cfg1.win 2).blk t).view.emb y) 1) rfl rfl

/-- Every entry of the result lies in the block of the odd point that holds it. -/
theorem cover1_2 (i : S1024x1024.Idx) :
    ∃ t : Fin cfg1.N, (cfg1.win 2).flush t = true ∧ i ∈ ((cfg1.win 2).blk t).view.set := by
  refine ⟨ptOf1 (i 0) (i 1), (flush1_2 _).mpr (ptOf1_odd _ _), ?_⟩
  obtain ⟨-, -, -, -, e0, e1, -⟩ := idx_facts1 (ptOf1 (i 0) (i 1))
  obtain ⟨c0, c1⟩ := coords_ptOf1 (i 0) (i 1)
  have hi0 : (i 0).val < 1024 := (i 0).isLt
  have hi1 : (i 1).val < 1024 := (i 1).isLt
  show i ∈ ((View.whole main_v2).slice (win1_2.rect (ptOf1 (i 0) (i 1)))).set
  rw [View.set_slice_whole, Rect.mem_set_unit]
  intro a
  match a with
  | ⟨0, _⟩ =>
    show win1_2.index (ptOf1 (i 0) (i 1)) (0 : Fin 2) * 512 ≤ (i 0).val
      ∧ (i 0).val < win1_2.index (ptOf1 (i 0) (i 1)) (0 : Fin 2) * 512 + 512
    rw [e0, c0]; omega
  | ⟨1, _⟩ =>
    show win1_2.index (ptOf1 (i 0) (i 1)) (1 : Fin 2) * 512 ≤ (i 1).val
      ∧ (i 1).val < win1_2.index (ptOf1 (i 0) (i 1)) (1 : Fin 2) * 512 + 512
    rw [e1, c1]; omega

/-- The array after the last point is that matrix. -/
theorem arrAt1_2_eq (c : Dev nD) : (dat1 V c).arrAt 2 cfg1.N = G1 V c :=
  (dat1 V c).arrAt_eq_of_cover 2 (G1 V c) (fun t hf => flushed1_2_eq V c t ((flush1_2 t).mp hf)) (cover1_2)

/-- THE RESULT READ AT (gm, gn): the sum over the 1024 rows k of K[k, gm] · K[k, gn]. -/
theorem final1 (c : Dev nD) (gm gn : Fin 1024) :
    @Eq EReal ((dat1 V c).arrAt 2 cfg1.N (ix2 gm gn))
      (∑ k : Fin 1024, Kof V c (ix2 k gm) * Kof V c (ix2 k gn)) := by
  rw [arrAt1_2_eq]
  rfl

end Region1

end Cert.KernelIdeal.Hand

end
-- ==== Proof.KValue.lean ====
/-
  The kernel's value, composed, at the exact values.

  The program is three items: the scale reshaped from one entry to a 1 × 1 array, the first region (the matrix σ K,
  tile by tile), the second region (the Gram matrix of what the first left). Read at an entry: the reshape keeps the
  one entry, so the first region's scale is σ as launched and its other inputs are the launched arrays; its output
  array is σ · K entry by entry; and the second region sums, over the 1024 rows k, the products of entries (k, gm)
  and (k, gn) of that array: the sum over k of (σ K[k,gm]) (σ K[k,gn]).
-/
import proofs.«163482_j91182155694480_1_alg».proof.Proof.KRun
import proofs.«163482_j91182155694480_1_alg».proof.Proof.KFinal0
import proofs.«163482_j91182155694480_1_alg».proof.Proof.KFinal1
import proofs.«163482_j91182155694480_1_alg».proof.Proof.Spec

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The scale σ as launched: the one entry of its array. -/
def scaleOf (c : Dev nD) : EReal := m ((c.tc : Thread nD τ).loc main_arg7) (ix1 0)

/-- The matrix K of the launched time vector and parameters. -/
def KmOf (c : Dev nD) : Fin 1024 → Fin 1024 → EReal :=
  Cert.Spec.Kmat (fun i => m ((c.tc : Thread nD τ).loc main_arg0) (ix1 i))
    (fun k c2 => m ((c.tc : Thread nD τ).loc main_arg1) (ix2 k c2))
    (fun k => m ((c.tc : Thread nD τ).loc main_arg2) (ix1 k))
    (fun o k => m ((c.tc : Thread nD τ).loc main_arg3) (ix2 o k))
    (fun o => m ((c.tc : Thread nD τ).loc main_arg4) (ix1 o))
    (fun o => m ((c.tc : Thread nD τ).loc main_arg5) (ix2 0 o))
    (m ((c.tc : Thread nD τ).loc main_arg6) (ix1 0))

/-! ## What the first region is entered from -/

theorem V1_arg0 (c : Dev nD) : V1 m ρ c main_arg0 = m ((c.tc : Thread nD τ).loc main_arg0) :=
  (W1_of_ne_v0 m ρ c main_arg0 (by decide)).trans rfl
theorem V1_arg1 (c : Dev nD) : V1 m ρ c main_arg1 = m ((c.tc : Thread nD τ).loc main_arg1) :=
  (W1_of_ne_v0 m ρ c main_arg1 (by decide)).trans rfl
theorem V1_arg2 (c : Dev nD) : V1 m ρ c main_arg2 = m ((c.tc : Thread nD τ).loc main_arg2) :=
  (W1_of_ne_v0 m ρ c main_arg2 (by decide)).trans rfl
theorem V1_arg3 (c : Dev nD) : V1 m ρ c main_arg3 = m ((c.tc : Thread nD τ).loc main_arg3) :=
  (W1_of_ne_v0 m ρ c main_arg3 (by decide)).trans rfl
theorem V1_arg4 (c : Dev nD) : V1 m ρ c main_arg4 = m ((c.tc : Thread nD τ).loc main_arg4) :=
  (W1_of_ne_v0 m ρ c main_arg4 (by decide)).trans rfl
theorem V1_arg5 (c : Dev nD) : V1 m ρ c main_arg5 = m ((c.tc : Thread nD τ).loc main_arg5) :=
  (W1_of_ne_v0 m ρ c main_arg5 (by decide)).trans rfl
theorem V1_arg6 (c : Dev nD) : V1 m ρ c main_arg6 = m ((c.tc : Thread nD τ).loc main_arg6) :=
  (W1_of_ne_v0 m ρ c main_arg6 (by decide)).trans rfl

/-- A one-entry vector recast as a 1 × 1 array reads, at its one index, the one entry. -/
theorem shapeCast_unit_apply (x : S1.Idx → EReal) (h : S1.ShapeCasts S1x1) (j : S1x1.Idx) :
    shapeCast S1x1 x h j = x (ix1 0) := by
  unfold shapeCast
  refine congrArg x (funext fun a => ?_)
  match a with
  | ⟨0, _⟩ =>
    have h1 : ((Shape.reshapeEquiv h j) 0).val < 1 := ((Shape.reshapeEquiv h j) 0).isLt
    exact Fin.ext (show ((Shape.reshapeEquiv h j) 0).val = 0 by omega)

/-- The scale's 1 × 1 array at region entry is the launched scale recast. -/
theorem V1_v0_eq (c : Dev nD) :
    (V1 m ρ c main_v0 : S1x1.Idx → EReal)
      = shapeCast S1x1 (m ((c.tc : Thread nD τ).loc main_arg7) : S1.Idx → EReal) shapeCasts_S1_S1x1 := by
  dsimp only [V1, W1, hostOps0]
  after_results
  rfl

/-- So its one entry is σ. -/
theorem V1_v0_apply (c : Dev nD) : @Eq EReal (V1 m ρ c main_v0 (ix2 0 0)) (scaleOf m c) :=
  (congrFun (V1_v0_eq m ρ c) (ix2 0 0)).trans (shapeCast_unit_apply _ _ _)

/-! ## What the first region leaves: σ · K -/

theorem V2_v1_apply (c : Dev nD) (gi gj : Fin 1024) :
    @Eq EReal (V2 m ρ c main_v1 (ix2 gi gj)) (scaleOf m c * KmOf m c gi gj) := by
  have h1 : V2 m ρ c main_v1 = (dat0 (V1 m ρ) c).arrAt 9 cfg0.N := W2_v1 m ρ c
  refine (congrFun h1 (ix2 gi gj)).trans ?_
  refine (K_final (V1 m ρ) c gi gj).trans ?_
  rw [V1_v0_apply m ρ c, V1_arg0 m ρ c, V1_arg1 m ρ c, V1_arg2 m ρ c, V1_arg3 m ρ c, V1_arg4 m ρ c, V1_arg5 m ρ c,
    V1_arg6 m ρ c]
  rfl

/-! ## What the second region leaves: the sum over k of (σ K[k,gm]) (σ K[k,gn]) -/

theorem out_apply (c : Dev nD) (gm gn : Fin 1024) :
    @Eq EReal ((dat1 (V2 m ρ) c).arrAt 2 cfg1.N (ix2 gm gn)) (Cert.Spec.outK (scaleOf m c) (KmOf m c) gm gn) := by
  refine (final1 (V2 m ρ) c gm gn).trans ?_
  unfold Cert.Spec.outK
  refine Finset.sum_congr rfl fun k _ => ?_
  exact congrArg₂ (fun a b : EReal => a * b) (V2_v1_apply m ρ c k gm) (V2_v1_apply m ρ c k gn)

end Cert.KernelIdeal.Hand

end
-- ==== Proof.RefIntDefs.lean ====
/-
  The reference program's integer index pipeline as closed values.

  The upper-triangle mask of a 1024 × 1024 matrix (the kept half of a matrix of ones compared with zero), its
  flattened inclusive running count, the running count clipped and wrapped into an index column, the count of
  positions per running-count value (a scatter-add of ones), the inclusive running sum of those counts, and the row
  and column numbers read off that running sum by floor division and remainder.  Each definition is the program's
  own operations in the program's order.
-/
import proofs.«163482_j91182155694480_1_alg».proof.ReferenceIdeal

noncomputable section

namespace Cert.ReferenceIdeal.Hand

open Idealize.ShloMosaic Idealize.SL.Sem
open Cert.ReferenceIdeal

variable {F : FTy → Type} [FloatOps F] [Facts]
open Facts₀ Facts

/-- The kept-half selection applied to the matrix of ones: zero where row − 1 ≥ column, one elsewhere. -/
def refTriu : FVec F S1024x1024 .f32 :=
  select
    (cmpi .sge
      (addi (iotaInDim S1024x1024 32 0)
        (broadcastInDim S1024x1024 ![] bcast_S_S1024x1024 (constantI S_ 32 4294967295#32)))
      (iotaInDim S1024x1024 32 1))
    (broadcastInDim S1024x1024 ![] bcast_S_S1024x1024 (constant (F := F) S_ .f32 0x00000000#32))
    (broadcastInDim S1024x1024 ![] bcast_S_S1024x1024 (constant (F := F) S_ .f32 0x3F800000#32))

/-- The mask: the kept half of the matrix of ones differs from zero. -/
def refMask : IVec S1024x1024 1 :=
  cmpf .une (refTriu (F := F))
    (broadcastInDim S1024x1024 ![] bcast_S_S1024x1024 (constant (F := F) S_ .f32 0x00000000#32))

/-- The inclusive running count of the flattened mask. -/
def refCs (mask : IVec S1024x1024 1) : IVec S1048576 32 :=
  Host.reduceWindow IntOp.addi ![1048576] ![1] ![1048575] ![0]
    (extui 32 (shapeCast S1048576 mask shapeCasts_S1024x1024_S1048576) natLt_1_32)
    (broadcastInDim S_ ![] bcast_S_S_ (constantI S_ 32 0#32))
    reduceWindows_S1048576_S1048576_w1048576s1p1048575_0 h_S_

/-- The running count clipped below at zero. -/
def refClip (cs : IVec S1048576 32) : IVec S1048576 32 :=
  maxsi (broadcastInDim S1048576 ![] bcast_S_S1048576 (id (constantI S_ 32 0#32))) cs

/-- The clipped running count, a negative value wrapped by the bin count, as an index column. -/
def refIdx (cs : IVec S1048576 32) : IVec S1048576x1 32 :=
  broadcastInDim S1048576x1 ![0] bcast_S1048576_S1048576x1_0
    (select
      (cmpi .slt (refClip cs) (broadcastInDim S1048576 ![] bcast_S_S1048576 (constantI S_ 32 0#32)))
      (addi (refClip cs) (broadcastInDim S1048576 ![] bcast_S_S1048576 (constantI S_ 32 524800#32)))
      (refClip cs))

/-- How many positions have each running-count value: ones added at the index column into zeros. -/
def refBin (idx : IVec S1048576x1 32) : IVec S524800 32 :=
  Host.scatter scatter_S524800_S1048576x1_S1048576_n_0_0_1 IntOp.addi
    (broadcastInDim S524800 ![] bcast_S_S524800 (constantI S_ 32 0#32))
    idx
    (broadcastInDim S1048576 ![] bcast_S_S1048576 (constantI S_ 32 1#32))

/-- The inclusive running sum of the counts. -/
def refFlat (bin : IVec S524800 32) : IVec S524800 32 :=
  Host.reduceWindow IntOp.addi ![524800] ![1] ![524799] ![0]
    bin
    (broadcastInDim S_ ![] bcast_S_S_ (constantI S_ 32 0#32))
    reduceWindows_S524800_S524800_w524800s1p524799_0 h_S_

/-- Floor division of a column of words by a scalar word: the truncated quotient, less one where the signs differ
    and the remainder is not zero. -/
def refFloorDiv (x : IVec S524800 32) (d : IVec S_ 32) : IVec S524800 32 :=
  select
    (andi
      (cmpi .ne (signi x) (broadcastInDim S524800 ![] bcast_S_S524800 (signi d)))
      (cmpi .ne (Host.remsi x (broadcastInDim S524800 ![] bcast_S_S524800 d))
        (broadcastInDim S524800 ![] bcast_S_S524800 (constantI S_ 32 0#32))))
    (subi (Host.divsi x (broadcastInDim S524800 ![] bcast_S_S524800 d))
      (broadcastInDim S524800 ![] bcast_S_S524800 (constantI S_ 32 1#32)))
    (Host.divsi x (broadcastInDim S524800 ![] bcast_S_S524800 d))

/-- The divisor a remainder uses: one in place of zero. -/
def refRemDiv (d : IVec S_ 32) : IVec S_ 32 :=
  select (cmpi .eq (id d) (constantI S_ 32 0#32)) (constantI S_ 32 1#32) (id d)

/-- The truncated remainder of a column of words by the remainder's divisor. -/
def refRemT (x : IVec S524800 32) (d : IVec S_ 32) : IVec S524800 32 :=
  Host.remsi x (broadcastInDim S524800 ![] bcast_S_S524800 (refRemDiv d))

/-- The remainder with the divisor's sign: the truncated remainder, plus the divisor where it is not zero and its
    sign differs from the divisor's. -/
def refRemainder (x : IVec S524800 32) (d : IVec S_ 32) : IVec S524800 32 :=
  select
    (andi
      (cmpi .ne
        (cmpi .slt (refRemT x d) (broadcastInDim S524800 ![] bcast_S_S524800 (constantI S_ 32 0#32)))
        (broadcastInDim S524800 ![] bcast_S_S524800 (cmpi .slt (refRemDiv d) (constantI S_ 32 0#32))))
      (cmpi .ne (refRemT x d) (broadcastInDim S524800 ![] bcast_S_S524800 (constantI S_ 32 0#32))))
    (addi (refRemT x d) (broadcastInDim S524800 ![] bcast_S_S524800 (refRemDiv d)))
    (refRemT x d)

/-- The row numbers: the running sum floor-divided by 1024, its remainder by 1024. -/
def refIu (flat : IVec S524800 32) : IVec S524800 32 :=
  refRemainder (refFloorDiv flat (constantI S_ 32 1024#32)) (constantI S_ 32 1024#32)

/-- The column numbers: the running sum floor-divided by 1, its remainder by 1024. -/
def refJu (flat : IVec S524800 32) : IVec S524800 32 :=
  refRemainder (refFloorDiv flat (constantI S_ 32 1#32)) (constantI S_ 32 1024#32)

end Cert.ReferenceIdeal.Hand

end
-- ==== Proof.Tri.lean ====
/-
  Row-major enumeration of the upper triangle of a 1024 × 1024 matrix.

  Flat positions q = 1024·i + j are kept when the column is at least the row.  The inclusive running count of kept
  positions, the count of positions per value of that running count, and the inclusive running sum of those counts
  give, at p, the flat position of the (p+1)-th kept position.

  The first part works with an arbitrary Boolean mask on ℕ and an arbitrary length n: the running count is monotone
  and rises by exactly one at each kept position, so the number of positions below n whose running count is at most p
  is the position of the (p+1)-th kept one.  The second part counts the kept positions of the triangle row by row
  (row i keeps 1024 − i positions) and specialises.
-/
import Mathlib.Data.Nat.Count
import Mathlib.Algebra.BigOperators.Intervals
import Mathlib.Order.Interval.Finset.Nat
import Mathlib.Tactic

namespace Cert.Tri

/-! ### An arbitrary mask -/

section Abstract

variable (mk : ℕ → Bool) (n : ℕ)

/-- The inclusive running count of kept positions. -/
def cnt (q : ℕ) : ℕ := ((Finset.range (q + 1)).filter fun q' => mk q' = true).card

theorem cnt_eq_count (q : ℕ) : cnt mk q = Nat.count (fun q' => mk q' = true) (q + 1) := by
  unfold cnt
  rw [Nat.count_eq_card_filter_range]

theorem cnt_mono {q q' : ℕ} (h : q ≤ q') : cnt mk q ≤ cnt mk q' := by
  rw [cnt_eq_count, cnt_eq_count]
  exact Nat.count_monotone _ (by omega)

theorem cnt_succ (q : ℕ) : cnt mk (q + 1) = cnt mk q + (if mk (q + 1) = true then 1 else 0) := by
  rw [cnt_eq_count, cnt_eq_count, Nat.count_succ]

theorem cnt_zero : cnt mk 0 = if mk 0 = true then 1 else 0 := by
  rw [cnt_eq_count, Nat.count_succ, Nat.count_zero, Nat.zero_add]

theorem cnt_pos {q : ℕ} (h : mk q = true) : 0 < cnt mk q := by
  unfold cnt
  apply Finset.card_pos.mpr
  exact ⟨q, by simp [h]⟩

/-- The inclusive running sum, over the values c ≤ p, of the number of positions below n with running count c. -/
def fl (p : ℕ) : ℕ := ∑ c ∈ Finset.range (p + 1), ((Finset.range n).filter fun q => cnt mk q = c).card

/-- The running sum counts the positions below n whose running count is at most p. -/
theorem fl_eq_card (p : ℕ) : fl mk n p = ((Finset.range n).filter fun q => cnt mk q ≤ p).card := by
  unfold fl
  rw [Finset.card_eq_sum_card_fiberwise (f := cnt mk) (t := Finset.range (p + 1))]
  · apply Finset.sum_congr rfl
    intro c hc
    rw [Finset.mem_range] at hc
    rw [Finset.filter_filter]
    congr 1
    apply Finset.filter_congr
    intro q _
    constructor
    · intro h; exact ⟨by omega, h⟩
    · intro h; exact h.2
  · intro q hq
    simp only [Finset.coe_filter, Finset.mem_range, Set.mem_setOf_eq] at hq
    simp only [Finset.coe_range, Set.mem_Iio]
    omega

/-- A kept position q below n whose running count is p + 1 is the value of the running sum at p. -/
theorem fl_eq_of {p q : ℕ} (hq : q < n) (hm : mk q = true) (hc : cnt mk q = p + 1) : fl mk n p = q := by
  rw [fl_eq_card]
  have hset : ((Finset.range n).filter fun q' => cnt mk q' ≤ p) = Finset.range q := by
    ext q'
    simp only [Finset.mem_filter, Finset.mem_range]
    constructor
    · rintro ⟨_, h⟩
      by_contra hge
      have := cnt_mono mk (Nat.le_of_not_lt hge)
      omega
    · intro h
      refine ⟨by omega, ?_⟩
      obtain ⟨k, rfl⟩ : ∃ k, q = k + 1 := ⟨q - 1, by omega⟩
      have h1 := cnt_succ mk k
      rw [if_pos hm] at h1
      have := cnt_mono mk (show q' ≤ k by omega)
      omega
  rw [hset, Finset.card_range]

/-- Every value 1, …, cnt m of the running count is taken at a kept position at or before m. -/
theorem exists_kept {p : ℕ} (m : ℕ) (hp : p < cnt mk m) : ∃ q, q ≤ m ∧ mk q = true ∧ cnt mk q = p + 1 := by
  induction m with
  | zero =>
    rw [cnt_zero] at hp
    by_cases h : mk 0 = true
    · rw [if_pos h] at hp
      refine ⟨0, le_refl _, h, ?_⟩
      rw [cnt_zero, if_pos h]; omega
    · rw [if_neg h] at hp; omega
  | succ m ih =>
    by_cases h : p < cnt mk m
    · obtain ⟨q, hq, h1, h2⟩ := ih h
      exact ⟨q, by omega, h1, h2⟩
    · have hs := cnt_succ mk m
      by_cases hk : mk (m + 1) = true
      · rw [if_pos hk] at hs; exact ⟨m + 1, le_refl _, hk, by omega⟩
      · rw [if_neg hk] at hs; omega

end Abstract

/-! ### Counting the triangle row by row -/

/-- In a row of width w, the columns j ≥ r number w − r. -/
theorem row_count (w r : ℕ) : (∑ j ∈ Finset.range w, if r ≤ j then 1 else 0) = w - r := by
  induction w with
  | zero => simp
  | succ w ih =>
    rw [Finset.sum_range_succ, ih]
    split_ifs <;> omega

/-- The first r rows of a w × w square keep Σ_{i<r} (w − i) positions: twice that number plus r² is r (2w + 1). -/
theorem tri_count (w r : ℕ) (hr : r ≤ w) :
    2 * (∑ q ∈ Finset.range (w * r), if q / w ≤ q % w then 1 else 0) + r * r = r * (2 * w + 1) := by
  induction r with
  | zero => simp
  | succ r ih =>
    have hw : 0 < w := by omega
    have hrow : (∑ j ∈ Finset.range w, if (w * r + j) / w ≤ (w * r + j) % w then 1 else 0) = w - r := by
      rw [← row_count w r]
      apply Finset.sum_congr rfl
      intro j hj
      rw [Finset.mem_range] at hj
      rw [Nat.mul_add_div hw, Nat.mul_add_mod, Nat.div_eq_of_lt hj, Nat.mod_eq_of_lt hj, Nat.add_zero]
    rw [Nat.mul_succ, Finset.sum_range_add, hrow]
    have h := ih (by omega)
    obtain ⟨d, rfl⟩ : ∃ d, w = r + 1 + d := ⟨w - (r + 1), by omega⟩
    have hd : r + 1 + d - r = d + 1 := by omega
    rw [hd]
    nlinarith [h]

/-! ### The triangle -/

/-- The number of flat positions q = 1024·i + j. -/
def N : ℕ := 1048576
/-- The number of kept positions, 1024·1025/2. -/
def L : ℕ := 524800

theorem N_eq : N = 1048576 := rfl
theorem L_eq : L = 524800 := rfl

/-- A flat position is kept when its column is at least its row. -/
def mask (q : ℕ) : Bool := decide (q / 1024 ≤ q % 1024)
/-- The inclusive running count of kept positions. -/
def cs (q : ℕ) : ℕ := ((Finset.range (q + 1)).filter fun q' => mask q' = true).card
/-- How many positions have running count c. -/
def bin (c : ℕ) : ℕ := ((Finset.range N).filter fun q => cs q = c).card
/-- The inclusive running sum of bin. -/
def flat (p : ℕ) : ℕ := ∑ c ∈ Finset.range (p + 1), bin c

theorem cs_eq_cnt (q : ℕ) : cs q = cnt mask q := rfl
theorem flat_eq_fl (p : ℕ) : flat p = fl mask N p := rfl

theorem mask_iff (q : ℕ) : mask q = true ↔ q / 1024 ≤ q % 1024 := by
  unfold mask
  exact decide_eq_true_iff

/-- All 1024 rows together keep 524800 positions. -/
theorem cs_last : cs (N - 1) = L := by
  have h := tri_count 1024 1024 (le_refl _)
  have e : cs (N - 1) = ∑ q ∈ Finset.range (1024 * 1024), if q / 1024 ≤ q % 1024 then 1 else 0 := by
    unfold cs
    rw [Finset.card_filter]
    have hN : N - 1 + 1 = 1024 * 1024 := by rw [N_eq]
    rw [hN]
    apply Finset.sum_congr rfl
    intro q _
    by_cases hq : q / 1024 ≤ q % 1024
    · rw [if_pos hq, if_pos ((mask_iff q).mpr hq)]
    · rw [if_neg hq, if_neg (fun hm => hq ((mask_iff q).mp hm))]
  rw [e, L_eq]
  generalize (∑ q ∈ Finset.range (1024 * 1024), if q / 1024 ≤ q % 1024 then 1 else 0) = S at h ⊢
  omega

theorem cs_le (q : ℕ) (hq : q < N) : cs q ≤ L := by
  rw [← cs_last, cs_eq_cnt, cs_eq_cnt]
  exact cnt_mono mask (by omega)

theorem flat_eq_card (p : ℕ) : flat p = ((Finset.range N).filter fun q => cs q ≤ p).card :=
  fl_eq_card mask N p

/-- Below L the running sum lands on a kept position, the one whose running count is p + 1. -/
theorem flat_spec (p : ℕ) (hp : p < L) : flat p < N ∧ mask (flat p) = true ∧ cs (flat p) = p + 1 := by
  have hp' : p < cnt mask (N - 1) := by rw [← cs_eq_cnt, cs_last]; exact hp
  obtain ⟨q, hq, hm, hc⟩ := exists_kept mask (N - 1) hp'
  have hN := N_eq
  have hqN : q < N := by omega
  have hf : flat p = q := fl_eq_of mask N hqN hm hc
  rw [hf]
  exact ⟨hqN, hm, hc⟩

theorem flat_lt (p : ℕ) (hp : p < L) : flat p < N := (flat_spec p hp).1
theorem mask_flat (p : ℕ) (hp : p < L) : mask (flat p) = true := (flat_spec p hp).2.1
theorem cs_flat (p : ℕ) (hp : p < L) : cs (flat p) = p + 1 := (flat_spec p hp).2.2

theorem flat_strictMono {p p' : ℕ} (h : p < p') (hp' : p' < L) : flat p < flat p' := by
  by_contra hge
  have h1 := cnt_mono mask (Nat.le_of_not_lt hge)
  rw [← cs_eq_cnt, ← cs_eq_cnt, cs_flat p (by omega), cs_flat p' hp'] at h1
  omega

theorem flat_cs (q : ℕ) (hq : q < N) (hm : mask q = true) : flat (cs q - 1) = q ∧ cs q - 1 < L := by
  have hpos : 0 < cs q := cnt_pos mask hm
  have hle := cs_le q hq
  refine ⟨?_, by omega⟩
  exact fl_eq_of mask N hq hm (by rw [← cs_eq_cnt]; omega)

/-- The row of the (p+1)-th kept position. -/
def iu (p : Fin L) : Fin 1024 :=
  ⟨flat p / 1024, by have h := flat_lt p p.isLt; rw [N_eq] at h; omega⟩
/-- The column of the (p+1)-th kept position. -/
def ju (p : Fin L) : Fin 1024 := ⟨flat p % 1024, Nat.mod_lt _ (by norm_num)⟩

theorem iu_val (p : Fin L) : (iu p : ℕ) = flat p / 1024 := rfl
theorem ju_val (p : Fin L) : (ju p : ℕ) = flat p % 1024 := rfl

theorem iu_le_ju (p : Fin L) : iu p ≤ ju p := by
  rw [Fin.le_def, iu_val, ju_val]
  exact (mask_iff _).mp (mask_flat p p.isLt)

theorem pair_inj : Function.Injective fun p : Fin L => (iu p, ju p) := by
  intro p p' h
  simp only [Prod.mk.injEq] at h
  obtain ⟨h1, h2⟩ := h
  have h1' := congrArg Fin.val h1
  have h2' := congrArg Fin.val h2
  rw [iu_val, iu_val] at h1'
  rw [ju_val, ju_val] at h2'
  have hfl : flat p = flat p' := by omega
  apply Fin.ext
  rcases Nat.lt_trichotomy p.val p'.val with hlt | heq | hgt
  · have := flat_strictMono hlt p'.isLt; omega
  · exact heq
  · have := flat_strictMono hgt p.isLt; omega

theorem pair_surj (i j : Fin 1024) (h : i ≤ j) : ∃ p : Fin L, iu p = i ∧ ju p = j := by
  have hi := i.isLt
  have hj := j.isLt
  have hij : i.val ≤ j.val := h
  have hq : 1024 * i.val + j.val < N := by rw [N_eq]; omega
  have hm : mask (1024 * i.val + j.val) = true := by
    rw [mask_iff]; omega
  obtain ⟨hf, hl⟩ := flat_cs _ hq hm
  refine ⟨⟨cs (1024 * i.val + j.val) - 1, hl⟩, Fin.ext ?_, Fin.ext ?_⟩
  · rw [iu_val]
    show flat (cs (1024 * i.val + j.val) - 1) / 1024 = i.val
    rw [hf]; omega
  · rw [ju_val]
    show flat (cs (1024 * i.val + j.val) - 1) % 1024 = j.val
    rw [hf]; omega

end Cert.Tri
-- ==== Proof.LibIntCumsum.lean ====
/-
  The inclusive running sum of a column of 32-bit words, as a windowed reduction.

  A window of n entries, stride one, padded by n − 1 entries before the column and none after it, reduced by word
  addition from the word zero: the window at position j covers the padded positions j … j + n − 1, that is the column's
  entries 0 … j after n − 1 − j padding entries.  Read at j the reduction is therefore the sum of the entries up to and
  including j; when each entry is the word of a natural number, it is the word of the natural sum.
-/
import Idealize.ShloMosaic.Lib.ValueIdx
import Mathlib.Algebra.BigOperators.Fin
import Mathlib.Algebra.BigOperators.Intervals
import Mathlib.Tactic

noncomputable section

open scoped BigOperators

namespace Cert.Lib.IntCumsum

open Idealize.ShloMosaic Idealize.ShloMosaic.ValueIdx

/-- A left fold of word addition over a list whose terms are the words of naturals, from the word of a natural, is the
    word of the natural sum. -/
theorem foldl_addi_ofNat {ι : Type} (l : List ι) (g : ι → BitVec 32) (a : ι → ℕ)
    (h : ∀ m ∈ l, g m = BitVec.ofNat 32 (a m)) (c : ℕ) :
    l.foldl (fun r m => IntOp.addi r (g m)) (BitVec.ofNat 32 c) = BitVec.ofNat 32 (c + (l.map a).sum) := by
  induction l generalizing c with
  | nil => simp
  | cons m l ih =>
    rw [List.foldl_cons, h m (List.mem_cons_self ..)]
    have e : IntOp.addi (BitVec.ofNat 32 c) (BitVec.ofNat 32 (a m)) = BitVec.ofNat 32 (c + a m) := by
      show BitVec.ofNat 32 c + BitVec.ofNat 32 (a m) = _
      rw [BitVec.ofNat_add]
    rw [e, ih (fun m' hm' => h m' (List.mem_cons_of_mem _ hm')), List.map_cons, List.sum_cons, Nat.add_assoc]

/-- The window sum over n padded positions, re-indexed: the positions at or after the padding are the entries 0 … j. -/
theorem shift_sum (n lo j : ℕ) (hlo : lo + 1 = n) (hj : j < n) (b : ℕ → ℕ) :
    ∑ m ∈ Finset.range n, (if lo ≤ j + m then b (j + m - lo) else 0) = ∑ k ∈ Finset.range (j + 1), b k := by
  rw [Finset.sum_ite, Finset.sum_const_zero, add_zero]
  refine Finset.sum_nbij' (fun m => j + m - lo) (fun k => k + lo - j) ?_ ?_ ?_ ?_ ?_
  · intro m hm
    simp only [Finset.mem_filter, Finset.mem_range] at hm ⊢
    omega
  · intro k hk
    simp only [Finset.mem_filter, Finset.mem_range] at hk ⊢
    omega
  · intro m hm
    simp only [Finset.mem_filter, Finset.mem_range] at hm
    omega
  · intro k hk
    simp only [Finset.mem_range] at hk
    omega
  · intro m hm
    rfl

/-- THE RUNNING SUM READ AT j: a window of n entries, stride one, n − 1 padding entries before and none after, reduced
    by word addition from the word zero, over a column whose entry k is the word of the natural b k, is at j the word
    of b 0 + … + b j. -/
theorem cumsum_apply {n lo : ℕ} (hlo : lo + 1 = n)
    (h : (⟨1, ![n]⟩ : Shape).ReduceWindows (![n] : Fin 1 → Nat) ![1] ![lo] ![0] ⟨1, ![n]⟩)
    {u : Shape} (hu : 0 < u.numel)
    (x : IVec ⟨1, ![n]⟩ 32) (init : IVec u 32) (hinit : ∀ i, init i = 0#32)
    (b : ℕ → ℕ) (hx : ∀ k : Fin n, x (ix1 k) = BitVec.ofNat 32 (b k)) (j : Fin n) :
    Host.reduceWindow IntOp.addi ![n] ![1] ![lo] ![0] x init h hu (ix1 j)
      = BitVec.ofNat 32 (∑ k ∈ Finset.range (j.val + 1), b k) := by
  unfold Host.reduceWindow
  simp only [hinit]
  have hnum : (⟨1, ![n]⟩ : Shape).numel = n := by simp [Shape.numel]
  have hsym : ∀ m : Fin (⟨1, ![n]⟩ : Shape).numel, (((⟨1, ![n]⟩ : Shape).rowMajor.symm m) 0).val = m.val := by
    intro m
    have e := Shape.rowMajor_val_one (d := ![n]) ((⟨1, ![n]⟩ : Shape).rowMajor.symm m)
    rw [Equiv.apply_symm_apply] at e
    exact e.symm
  refine (foldl_addi_ofNat (List.finRange (⟨1, ![n]⟩ : Shape).numel) _
    (fun m => if lo ≤ j.val + m.val then b (j.val + m.val - lo) else 0) ?_ 0).trans ?_
  · intro m _
    have hs := hsym m
    have hm : m.val < n := lt_of_lt_of_eq m.isLt hnum
    have hj := j.isLt
    split_ifs with h1 h2 h2
    · refine Eq.trans (congrArg x ?_) (hx ⟨j.val + m.val - lo, by omega⟩)
      funext a
      obtain rfl : a = 0 := Subsingleton.elim _ _
      refine Fin.ext ?_
      show j.val * 1 + ((⟨1, ![n]⟩ : Shape).rowMajor.symm m 0).val - lo = j.val + m.val - lo
      rw [hs, Nat.mul_one]
    · exfalso
      have h0 := (h1 0).1
      change lo ≤ j.val * 1 + ((⟨1, ![n]⟩ : Shape).rowMajor.symm m 0).val at h0
      rw [hs] at h0
      omega
    · exfalso
      apply h1
      intro a
      obtain rfl : a = 0 := Subsingleton.elim _ _
      show lo ≤ j.val * 1 + ((⟨1, ![n]⟩ : Shape).rowMajor.symm m 0).val
        ∧ j.val * 1 + ((⟨1, ![n]⟩ : Shape).rowMajor.symm m 0).val - lo < n
      rw [hs]
      omega
    · rfl
  · congr 1
    rw [Nat.zero_add, ← Fin.sum_univ_def,
      Fin.sum_univ_eq_sum_range (fun m => if lo ≤ j.val + m then b (j.val + m - lo) else 0), hnum]
    exact shift_sum n lo j.val hlo j.isLt b

end Cert.Lib.IntCumsum

end
-- ==== Proof.RefIntMask.lean ====
/-
  The reference program's triangle mask and its running count, read at an index.

  The kept half of the matrix of ones is zero where row − 1 ≥ column (a signed comparison of words) and one elsewhere; on
  the extended reals 1 ≠ 0 and 0 = 0, so the mask is set exactly where the row is at most the column.  Flattened in
  row-major order, position q = 1024·i + j reads the mask at (i, j); widened to 32 bits its inclusive running sum at q is
  the word of the number of kept positions up to q.
-/
import proofs.«163482_j91182155694480_1_alg».proof.Proof.RefIntDefs
import proofs.«163482_j91182155694480_1_alg».proof.Proof.Tri
import proofs.«163482_j91182155694480_1_alg».proof.Proof.LibIntCumsum
import proofs.«163482_j91182155694480_1_alg».proof.Proof.LibFlagLaw
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Hand

open Idealize.ShloMosaic Idealize.ShloMosaic.ValueIdx
open Cert.ReferenceIdeal

variable [Facts]
open Facts₀ Facts

/-- A natural below 2³¹ is the unsigned reading of its word. -/
theorem toNat_word31 (n : ℕ) (h : n < 2147483648) : (BitVec.ofNat 32 n).toNat = n := by
  rw [BitVec.toNat_ofNat]
  exact Nat.mod_eq_of_lt (by omega)

/-- The word of a natural below 2³¹ has a clear sign bit. -/
theorem msb_word31 (n : ℕ) (h : n < 2147483648) : (BitVec.ofNat 32 n).msb = false := by
  rw [BitVec.msb_eq_false_iff_two_mul_lt, toNat_word31 n h]
  omega

/-- A natural below 2³¹ is the signed reading of its word. -/
theorem toInt_word31 (n : ℕ) (h : n < 2147483648) : (BitVec.ofNat 32 n).toInt = (n : Int) := by
  rw [BitVec.toInt_eq_toNat_of_msb (msb_word31 n h), toNat_word31 n h]

/-- Row − 1 ≥ column as a signed comparison of words, for a row and a column below 1024: the column is below the row. -/
theorem sge_pred (i j : ℕ) (hi : i < 1024) (hj : j < 1024) :
    IntOp.cmpi .sge (IntOp.addi (BitVec.ofNat 32 i) 4294967295#32) (BitVec.ofNat 32 j)
      = if j < i then 1#1 else 0#1 := by
  show BitVec.ofBool ((BitVec.ofNat 32 j).sle (BitVec.ofNat 32 i + 4294967295#32)) = _
  have h : (BitVec.ofNat 32 j).sle (BitVec.ofNat 32 i + 4294967295#32) = decide (j < i) := by
    rw [Bool.eq_iff_iff, BitVec.sle_iff_toInt_le, decide_eq_true_eq, toInt_word31 j (by omega)]
    cases i with
    | zero =>
      have e : (BitVec.ofNat 32 0 + 4294967295#32).toInt = -1 := by decide
      rw [e]
      omega
    | succ k =>
      have e : BitVec.ofNat 32 (k + 1) + 4294967295#32 = BitVec.ofNat 32 k := by
        apply BitVec.eq_of_toNat_eq
        rw [BitVec.toNat_add, BitVec.toNat_ofNat, BitVec.toNat_ofNat, BitVec.toNat_ofNat]
        omega
      rw [e, toInt_word31 k (by omega)]
      omega
  rw [h]
  by_cases hji : j < i
  · rw [if_pos hji, decide_eq_true hji]; rfl
  · rw [if_neg hji, decide_eq_false hji]; rfl

/-- THE MASK READ AT (i, j): set exactly where the row is at most the column. -/
theorem refMask_apply (i j : Fin 1024) :
    refMask (F := Ideal) (ix2 i j) = if i ≤ j then 1#1 else 0#1 := by
  unfold refMask refTriu
  rw [cmpf_apply, select_apply]
  have h1 : (cmpi .sge (addi (iotaInDim S1024x1024 32 0)
        (broadcastInDim S1024x1024 ![] bcast_S_S1024x1024 (constantI S_ 32 4294967295#32)))
      (iotaInDim S1024x1024 32 1)) (ix2 i j)
      = IntOp.cmpi .sge (IntOp.addi (BitVec.ofNat 32 i.val) 4294967295#32) (BitVec.ofNat 32 j.val) := rfl
  have h2 : ∀ b, (broadcastInDim S1024x1024 ![] bcast_S_S1024x1024 (constant (F := Ideal) S_ .f32 b)) (ix2 i j)
      = Ideal.ofBits .f32 b := fun _ => rfl
  rw [h1, h2, h2, Ideal.cmpf_def]
  rw [sge_pred i.val j.val i.isLt j.isLt, Ideal.ofBits_zero_f32, Cert.Lib.FlagLaw.one_word]
  by_cases hji : j.val < i.val
  · rw [if_pos hji, select_one, if_neg (by rw [Fin.le_def]; omega)]
    simp [Ideal.cmp]
  · rw [if_neg hji, select_zero, if_pos (by rw [Fin.le_def]; omega)]
    simp [Ideal.cmp]

/-- The flattened mask widened to 32 bits, read at q: the word 1 where position q is kept, the word 0 elsewhere. -/
theorem refMaskFlat_apply (q : Fin 1048576) :
    extui 32 (shapeCast S1048576 (refMask (F := Ideal)) shapeCasts_S1024x1024_S1048576) natLt_1_32 (ix1 q)
      = BitVec.ofNat 32 (if Cert.Tri.mask q.val = true then 1 else 0) := by
  show (shapeCast S1048576 (refMask (F := Ideal)) shapeCasts_S1024x1024_S1048576 (ix1 q)).setWidth 32 = _
  have hq := q.isLt
  rw [shapeCast_apply (refMask (F := Ideal)) shapeCasts_S1024x1024_S1048576 (ix1 q)
    (ix2 (⟨q.val / 1024, by omega⟩ : Fin 1024) (⟨q.val % 1024, by omega⟩ : Fin 1024))
    (by rw [Shape.rowMajor_val_two, Shape.rowMajor_val_one]
        show q.val / 1024 * 1024 + q.val % 1024 = q.val
        omega)]
  rw [refMask_apply]
  unfold Cert.Tri.mask
  by_cases hm : q.val / 1024 ≤ q.val % 1024
  · rw [if_pos (by rw [Fin.le_def]; exact hm), if_pos (by simpa using hm)]
    rfl
  · rw [if_neg (by rw [Fin.le_def]; exact hm), if_neg (by simpa using hm)]
    rfl

/-- THE RUNNING COUNT READ AT q: the word of the number of kept positions up to and including q. -/
theorem refCs_apply (q : Fin 1048576) :
    refCs (refMask (F := Ideal)) (ix1 q) = BitVec.ofNat 32 (Cert.Tri.cs q.val) := by
  unfold refCs
  refine Eq.trans (Cert.Lib.IntCumsum.cumsum_apply (n := 1048576) (lo := 1048575) rfl
    reduceWindows_S1048576_S1048576_w1048576s1p1048575_0 h_S_ _
    (broadcastInDim S_ ![] bcast_S_S_ (constantI S_ 32 0#32)) (fun _ => rfl)
    (fun k => if Cert.Tri.mask k = true then 1 else 0) refMaskFlat_apply q) ?_
  unfold Cert.Tri.cs
  rw [Finset.card_filter]

end Cert.ReferenceIdeal.Hand

end
-- ==== Proof.LibIntScatter.lean ====
/-
  A scatter-add of ones into a column of zeros counts.

  The host's scatter visits the updates in row-major order; with word addition as its body, update e adds its word to the
  operand's entry at the index it lands on, and is dropped when it lands outside.  For a column of K entries, a column of
  M index words (shape [M, 1]) and M updates, update e lands on entry c exactly when its index word read as a signed
  integer is c.  Starting from zeros and adding ones, entry c of the result is therefore the word of the number of
  updates whose signed index word is c.
-/
import Idealize.ShloMosaic.Lib.ValueIdx
import Idealize.ShloMosaic.PureOps.ShapeOps
import Mathlib.Algebra.BigOperators.Fin
import Mathlib.Tactic

noncomputable section

open scoped BigOperators

namespace Cert.Lib.IntScatter

open Idealize.ShloMosaic Idealize.ShloMosaic.ValueIdx

/-- A left fold of steps that each add the word of a natural at one place, read at that place: from the word of a
    natural, it ends at the word of the start plus the naturals added. -/
theorem foldStep_apply {ι κ : Type} (step : (ι → BitVec 32) → κ → ι → BitVec 32) (c : ι) (a : κ → ℕ)
    (hstep : ∀ r n, step r n c = r c + BitVec.ofNat 32 (a n)) :
    ∀ (L : List κ) (y : ι → BitVec 32) (a0 : ℕ), y c = BitVec.ofNat 32 a0 →
      L.foldl step y c = BitVec.ofNat 32 (a0 + (L.map a).sum)
  | [], y, a0, hy => by simpa using hy
  | n :: L, y, a0, hy => by
      rw [List.foldl_cons, List.map_cons, List.sum_cons, ← Nat.add_assoc]
      refine foldStep_apply step c a hstep L _ _ ?_
      rw [hstep, hy, BitVec.ofNat_add]

/-- The dimension numbers of a scatter of single entries into a column: operand [K], scatter indices [M, 1], updates
    [M]; no window axis, the operand's axis 0 inserted and named by the scatter index, the index vector along axis 1 of
    the scatter indices. -/
abbrev scatter1Dims (K M : Nat)
    (wf : ScatterDims.WF ⟨1, ![K]⟩ ⟨2, ![M, 1]⟩ ⟨1, ![M]⟩ [] [0] [0] 1) :
    ScatterDims ⟨1, ![K]⟩ ⟨2, ![M, 1]⟩ ⟨1, ![M]⟩ where
  updateWindowDims := []
  insertedWindowDims := [0]
  scatterDimsToOperandDims := [0]
  indexVectorDim := 1
  wf := wf

/-- The start of update e on the one operand axis is its index word read as a signed integer. -/
theorem scatter1_start {K M w : Nat} (wf : ScatterDims.WF ⟨1, ![K]⟩ ⟨2, ![M, 1]⟩ ⟨1, ![M]⟩ [] [0] [0] 1)
    (idx : IVec ⟨2, ![M, 1]⟩ w) (e : Fin M) :
    (scatter1Dims K M wf).start (ix1 e) idx 0 = (idx (ix2 e (0 : Fin 1))).toInt := by
  unfold ScatterDims.start
  rw [dif_pos (show (0 : Fin 1) ∈ (scatter1Dims K M wf).scatterDimsToOperandDims from List.mem_singleton.mpr rfl)]
  have hsi : (scatter1Dims K M wf).siIdx (ix1 e)
      ⟨List.idxOf (0 : Fin 1) (scatter1Dims K M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate there is 0. -/
theorem scatter1_window {K M : Nat} (wf : ScatterDims.WF ⟨1, ![K]⟩ ⟨2, ![M, 1]⟩ ⟨1, ![M]⟩ [] [0] [0] 1)
    (e : Fin M) : (scatter1Dims K M wf).window (ix1 e) 0 = 0 := by
  unfold ScatterDims.window
  rw [dif_neg]
  intro h
  have : (0 : Fin 1) ∉ (scatter1Dims K M wf).insertedWindowDims := by
    simpa [ScatterDims.sKept, Shape.kept, List.mem_filter] using h
  exact this (List.mem_singleton.mpr rfl)

/-- Update e lands on entry c exactly when its signed index word is c. -/
theorem resultIdx?_scatter1 {K M w : Nat} (wf : ScatterDims.WF ⟨1, ![K]⟩ ⟨2, ![M, 1]⟩ ⟨1, ![M]⟩ [] [0] [0] 1)
    (idx : IVec ⟨2, ![M, 1]⟩ w) (e : Fin M) (c : Fin K) :
    (scatter1Dims K M wf).resultIdx? (ix1 e) idx = some (ix1 c) ↔ (idx (ix2 e (0 : Fin 1))).toInt = (c.val : Int) := by
  unfold ScatterDims.resultIdx?
  have hst := scatter1_start wf idx e
  have hw := scatter1_window wf e
  constructor
  · intro h
    split at h
    · rename_i hb
      have h' := Option.some.inj h
      have h2 : ((scatter1Dims K M wf).start (ix1 e) idx 0 + ((scatter1Dims K M wf).window (ix1 e) 0 : Int)).toNat = c.val :=
        congrArg Fin.val (congrFun h' 0)
      have := hb 0
      rw [hst, hw] at h2 this
      omega
    · cases h
  · intro h
    have hb : ∀ a, 0 ≤ (scatter1Dims K M wf).start (ix1 e) idx a + ((scatter1Dims K M wf).window (ix1 e) a : Int)
        ∧ (scatter1Dims K M wf).start (ix1 e) idx a + ((scatter1Dims K M wf).window (ix1 e) a : Int)
          < (⟨1, ![K]⟩ : Shape).size a := by
      intro a
      obtain rfl : a = 0 := Subsingleton.elim _ _
      rw [hst, hw, h]
      have hc : (c.val : Int) < (K : Int) := by exact_mod_cast c.isLt
      exact ⟨by omega, by simpa using hc⟩
    rw [dif_pos hb]
    congr 1
    funext a
    obtain rfl : a = 0 := Subsingleton.elim _ _
    apply Fin.ext
    show ((scatter1Dims K M wf).start (ix1 e) idx 0 + ((scatter1Dims K M wf).window (ix1 e) 0 : Int)).toNat = c.val
    rw [hst, hw, h]
    simp

/-- THE COUNTING SCATTER READ AT c: ones added at the index column into zeros leave at entry c the word of the number of
    index words whose signed reading is c. -/
theorem scatter_count_apply {K M : Nat} (wf : ScatterDims.WF ⟨1, ![K]⟩ ⟨2, ![M, 1]⟩ ⟨1, ![M]⟩ [] [0] [0] 1)
    (x : IVec ⟨1, ![K]⟩ 32) (hx : ∀ i, x i = 0#32) (idx : IVec ⟨2, ![M, 1]⟩ 32)
    (upd : IVec ⟨1, ![M]⟩ 32) (hupd : ∀ i, upd i = 1#32) (c : Fin K) :
    Host.scatter (scatter1Dims K M wf) IntOp.addi x idx upd (ix1 c)
      = BitVec.ofNat 32 (Finset.univ.filter fun e : Fin M => (idx (ix2 e (0 : Fin 1))).toInt = (c.val : Int)).card := by
  unfold Host.scatter
  have hnum : (⟨1, ![M]⟩ : Shape).numel = M := by simp [Shape.numel]
  refine (foldStep_apply _ (ix1 c)
    (fun n => if (scatter1Dims K M wf).resultIdx? ((⟨1, ![M]⟩ : Shape).rowMajor.symm n) idx = some (ix1 c) then 1 else 0)
    ?_ (List.finRange _) x 0 (hx _)).trans ?_
  · intro r n
    generalize (scatter1Dims K M wf).resultIdx? ((⟨1, ![M]⟩ : Shape).rowMajor.symm n) idx = o
    cases o with
    | none =>
      show r (ix1 c) = r (ix1 c) + BitVec.ofNat 32 (if (none : Option (⟨1, ![K]⟩ : Shape).Idx) = some (ix1 c) then 1 else 0)
      rw [if_neg (by simp)]
      simp
    | some i =>
      show (if ix1 c = i then IntOp.addi (r i) (upd ((⟨1, ![M]⟩ : Shape).rowMajor.symm n)) else r (ix1 c))
        = r (ix1 c) + BitVec.ofNat 32 (if some i = some (ix1 c) then 1 else 0)
      by_cases hci : ix1 c = i
      · subst hci
        rw [if_pos rfl, if_pos rfl, hupd]
        rfl
      · rw [if_neg hci, if_neg (fun e => hci (Option.some.inj e).symm)]
        simp
  congr 1
  rw [Nat.zero_add, ← Fin.sum_univ_def, ← Finset.card_filter]
  refine Finset.card_equiv (finCongr hnum) (fun n => ?_)
  have hsym : (⟨1, ![M]⟩ : Shape).rowMajor.symm n = ix1 (finCongr hnum n) := by
    rw [eq_ix1 ((⟨1, ![M]⟩ : Shape).rowMajor.symm n)]
    congr 1
    apply Fin.ext
    have e := Shape.rowMajor_val_one (d := ![M]) ((⟨1, ![M]⟩ : Shape).rowMajor.symm n)
    rw [Equiv.apply_symm_apply] at e
    exact e.symm
  simp only [Finset.mem_filter, Finset.mem_univ, true_and]
  rw [hsym, resultIdx?_scatter1]

end Cert.Lib.IntScatter

end
-- ==== Proof.LibIntDivMod.lean ====
/-
  Floor division and the divisor-signed remainder of a non-negative 32-bit word by a positive one.

  Floor division of words is written as the truncated quotient, less one where the operands' signs differ and the
  truncated remainder is not zero.  The divisor-signed remainder is written as the truncated remainder by the divisor
  (one in place of a zero divisor), plus that divisor where the remainder is not zero and its sign differs from the
  divisor's.  For a word x whose sign bit is clear and a non-zero word d whose sign bit is clear no correction applies:
  the two are the words of x / d and x % d on the naturals.
-/
import Idealize.ShloMosaic.Lib.ValueIdx
import Mathlib.Tactic

noncomputable section

namespace Cert.Lib.IntDivMod

open Idealize.ShloMosaic Idealize.ShloMosaic.ValueIdx

/-- The sign of a word as a two's-complement integer: −1, 0 or 1. -/
abbrev sgn (x : BitVec 32) : BitVec 32 := if x = 0 then 0 else if x.msb then -1 else 1

/-- A non-zero word with a clear sign bit is not a corner of signed division. -/
theorem not_corner (x d : BitVec 32) (hd : d.msb = false) (hd0 : d ≠ 0) : ¬ IntOp.SDivCorner x d := by
  rintro (h | ⟨_, h⟩)
  · exact hd0 h
  · rw [h] at hd
    exact absurd hd (by decide)

/-- The host's truncated quotient of sign-clear words is the unsigned quotient. -/
theorem divsi_host (x d : BitVec 32) (hx : x.msb = false) (hd : d.msb = false) (hd0 : d ≠ 0) :
    IntOp.divsi .host x d = x / d := by
  unfold IntOp.divsi
  rw [if_neg (not_corner x d hd hd0), BitVec.sdiv_eq, hx, hd]
  rfl

/-- The host's truncated remainder of sign-clear words is the unsigned remainder. -/
theorem remsi_host (x d : BitVec 32) (hx : x.msb = false) (hd : d.msb = false) (hd0 : d ≠ 0) :
    IntOp.remsi .host x d = x % d := by
  unfold IntOp.remsi
  rw [if_neg (not_corner x d hd hd0), BitVec.srem_eq, hx, hd]

/-- A word with a clear sign bit is not below zero as a signed integer. -/
theorem slt_zero_of_msb (x : BitVec 32) (hx : x.msb = false) : IntOp.cmpi .slt x 0#32 = 0#1 := by
  show BitVec.ofBool (x.slt 0#32) = 0#1
  have hs : x.slt 0#32 = false := by
    rw [Bool.eq_false_iff]
    intro hs
    have hlt := BitVec.slt_iff_toInt_lt.mp hs
    rw [BitVec.toInt_zero, BitVec.toInt_eq_toNat_of_msb hx] at hlt
    omega
  rw [hs]
  rfl

/-- The unsigned remainder of a sign-clear word has a clear sign bit. -/
theorem msb_umod (x d : BitVec 32) (hx : x.msb = false) : (x % d).msb = false := by
  rw [BitVec.msb_eq_false_iff_two_mul_lt] at hx ⊢
  rw [BitVec.toNat_umod]
  have := Nat.mod_le x.toNat d.toNat
  omega

/-- The unsigned quotient of a sign-clear word has a clear sign bit. -/
theorem msb_udiv (x d : BitVec 32) (hx : x.msb = false) : (x / d).msb = false := by
  rw [BitVec.msb_eq_false_iff_two_mul_lt] at hx ⊢
  rw [BitVec.toNat_udiv]
  have := Nat.div_le_self x.toNat d.toNat
  omega

theorem udiv_eq_ofNat (x d : BitVec 32) : x / d = BitVec.ofNat 32 (x.toNat / d.toNat) := by
  apply BitVec.eq_of_toNat_eq
  rw [BitVec.toNat_udiv, BitVec.toNat_ofNat]
  exact (Nat.mod_eq_of_lt (lt_of_le_of_lt (Nat.div_le_self _ _) x.isLt)).symm

theorem umod_eq_ofNat (x d : BitVec 32) : x % d = BitVec.ofNat 32 (x.toNat % d.toNat) := by
  apply BitVec.eq_of_toNat_eq
  rw [BitVec.toNat_umod, BitVec.toNat_ofNat]
  exact (Nat.mod_eq_of_lt (lt_of_le_of_lt (Nat.mod_le _ _) x.isLt)).symm

/-- FLOOR DIVISION of a sign-clear word by a non-zero sign-clear word: the word of the natural quotient. -/
theorem floorDiv_word (x d : BitVec 32) (hx : x.msb = false) (hd : d.msb = false) (hd0 : d ≠ 0) :
    Scalar.select
        (IntOp.andi (IntOp.cmpi .ne (sgn x) (sgn d)) (IntOp.cmpi .ne (IntOp.remsi .host x d) 0#32))
        (IntOp.subi (IntOp.divsi .host x d) 1#32)
        (IntOp.divsi .host x d)
      = BitVec.ofNat 32 (x.toNat / d.toNat) := by
  have hc : IntOp.andi (IntOp.cmpi .ne (sgn x) (sgn d)) (IntOp.cmpi .ne (IntOp.remsi .host x d) 0#32) = 0#1 := by
    by_cases hx0 : x = 0
    · have hr : IntOp.remsi .host x d = 0#32 := by
        rw [remsi_host _ _ hx hd hd0, hx0]
        exact BitVec.zero_umod
      rw [hr]
      show _ &&& BitVec.ofBool ((0#32) != 0#32) = 0#1
      simp
    · have hsx : sgn x = 1 := by simp only [sgn, if_neg hx0, hx]; rfl
      have hsd : sgn d = 1 := by simp only [sgn, if_neg hd0, hd]; rfl
      rw [hsx, hsd]
      show BitVec.ofBool ((1 : BitVec 32) != 1) &&& _ = 0#1
      simp
  rw [hc, select_zero, divsi_host _ _ hx hd hd0, udiv_eq_ofNat]

/-- THE DIVISOR-SIGNED REMAINDER of a sign-clear word by a non-zero sign-clear word: the word of the natural
    remainder. -/
theorem remainder_word (x d : BitVec 32) (hx : x.msb = false) (hd : d.msb = false) (hd0 : d ≠ 0) :
    Scalar.select
        (IntOp.andi
          (IntOp.cmpi .ne
            (IntOp.cmpi .slt (IntOp.remsi .host x (Scalar.select (IntOp.cmpi .eq d 0#32) 1#32 d)) 0#32)
            (IntOp.cmpi .slt (Scalar.select (IntOp.cmpi .eq d 0#32) 1#32 d) 0#32))
          (IntOp.cmpi .ne (IntOp.remsi .host x (Scalar.select (IntOp.cmpi .eq d 0#32) 1#32 d)) 0#32))
        (IntOp.addi (IntOp.remsi .host x (Scalar.select (IntOp.cmpi .eq d 0#32) 1#32 d))
          (Scalar.select (IntOp.cmpi .eq d 0#32) 1#32 d))
        (IntOp.remsi .host x (Scalar.select (IntOp.cmpi .eq d 0#32) 1#32 d))
      = BitVec.ofNat 32 (x.toNat % d.toNat) := by
  have hE : Scalar.select (IntOp.cmpi .eq d 0#32) 1#32 d = d := by
    have : IntOp.cmpi .eq d 0#32 = 0#1 := by
      show BitVec.ofBool (d == 0#32) = 0#1
      have : (d == 0#32) = false := by simpa using hd0
      rw [this]; rfl
    rw [this, select_zero]
  rw [hE, remsi_host _ _ hx hd hd0, slt_zero_of_msb _ (msb_umod x d hx), slt_zero_of_msb _ hd]
  have hc : IntOp.andi (IntOp.cmpi .ne (0#1) (0#1)) (IntOp.cmpi .ne (x % d) 0#32) = 0#1 := by
    show BitVec.ofBool ((0#1) != 0#1) &&& _ = 0#1
    simp
  rw [hc, select_zero, umod_eq_ofNat]

end Cert.Lib.IntDivMod

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«163482_j91182155694480_1_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.RefInt.lean ====
/-
  The reference program's integer index pipeline, read at an index.

  From the running count of kept positions: the index column is the running count itself (it is never negative, so
  neither the clip nor the wrap changes it); the scatter-add of ones counts, for each value c below 524800, the positions
  whose running count is c; the running sum of those counts at p is the flat position of the (p + 1)-th kept position,
  below 1048576; its floor quotient by 1024 reduced modulo 1024 is the row, and its floor quotient by 1 reduced modulo
  1024 is the column.
-/
import proofs.«163482_j91182155694480_1_alg».proof.Proof.RefIntMask
import proofs.«163482_j91182155694480_1_alg».proof.Proof.LibIntScatter
import proofs.«163482_j91182155694480_1_alg».proof.Proof.LibIntDivMod
import proofs.«163482_j91182155694480_1_alg».proof.Proof.LibGather1

set_option maxRecDepth 16384

noncomputable section

open scoped BigOperators

namespace Cert.ReferenceIdeal.Hand

open Idealize.ShloMosaic Idealize.ShloMosaic.ValueIdx
open Cert.ReferenceIdeal

variable [Facts]
open Facts₀ Facts

/-- The running count, the index column, the counts and the running sum of the counts, as the program computes them
    from its own mask on the extended reals. -/
abbrev refCs' : IVec S1048576 32 := refCs (refMask (F := Ideal))
abbrev refIdx' : IVec S1048576x1 32 := refIdx refCs'
abbrev refBin' : IVec S524800 32 := refBin refIdx'
abbrev refFlat' : IVec S524800 32 := refFlat refBin'
abbrev refIu' : IVec S524800 32 := refIu refFlat'
abbrev refJu' : IVec S524800 32 := refJu refFlat'

/-- The running count is at most 524800. -/
theorem cs_small (q : Fin 1048576) : Cert.Tri.cs q.val < 2147483648 := by
  have h := Cert.Tri.cs_le q.val (by rw [Cert.Tri.N_eq]; exact q.isLt)
  rw [Cert.Tri.L_eq] at h
  omega

/-- THE INDEX COLUMN READ AT (q, 0): the running count at q. -/
theorem refIdx_apply (q : Fin 1048576) :
    refIdx' (ix2 q (0 : Fin 1)) = BitVec.ofNat 32 (Cert.Tri.cs q.val) := by
  unfold refIdx' refIdx
  rw [broadcastInDim_apply _ _ _ _ (ix1 q) (by
    intro a
    obtain rfl : a = 0 := Subsingleton.elim _ _
    show q.val = if (1048576 : ℕ) = 1 then 0 else q.val
    rw [if_neg (by decide)])]
  show Scalar.select (IntOp.cmpi .slt (IntOp.maxsi 0#32 (refCs' (ix1 q))) 0#32)
      (IntOp.addi (IntOp.maxsi 0#32 (refCs' (ix1 q))) 524800#32) (IntOp.maxsi 0#32 (refCs' (ix1 q))) = _
  rw [show refCs' (ix1 q) = _ from refCs_apply q]
  have hnn : 0 ≤ (BitVec.ofNat 32 (Cert.Tri.cs q.val)).toInt := by
    rw [toInt_word31 _ (cs_small q)]
    exact Int.natCast_nonneg _
  have hmax : IntOp.maxsi 0#32 (BitVec.ofNat 32 (Cert.Tri.cs q.val)) = BitVec.ofNat 32 (Cert.Tri.cs q.val) := by
    show (if (BitVec.ofNat 32 (Cert.Tri.cs q.val)).slt 0#32 then 0#32 else _) = _
    rw [if_neg]
    intro hs
    have hlt := BitVec.slt_iff_toInt_lt.mp hs
    rw [BitVec.toInt_zero] at hlt
    omega
  rw [hmax, Cert.Lib.Gather1.select_wrap_of_nonneg _ _ hnn]

/-- THE COUNTS READ AT c: the word of the number of positions whose running count is c. -/
theorem refBin_apply (c : Fin 524800) : refBin' (ix1 c) = BitVec.ofNat 32 (Cert.Tri.bin c.val) := by
  unfold refBin' refBin
  have hd : scatter_S524800_S1048576x1_S1048576_n_0_0_1
      = Cert.Lib.IntScatter.scatter1Dims 524800 1048576 scatter_S524800_S1048576x1_S1048576_n_0_0_1_wf := rfl
  have key := Cert.Lib.IntScatter.scatter_count_apply (K := 524800) (M := 1048576)
    scatter_S524800_S1048576x1_S1048576_n_0_0_1_wf
    (broadcastInDim S524800 ![] bcast_S_S524800 (constantI S_ 32 0#32)) (fun _ => rfl) refIdx'
    (broadcastInDim S1048576 ![] bcast_S_S1048576 (constantI S_ 32 1#32)) (fun _ => rfl) c
  rw [hd]
  refine key.trans (congrArg (BitVec.ofNat 32) ?_)
  have hfilter : (Finset.univ.filter fun e : Fin 1048576 => (refIdx' (ix2 e (0 : Fin 1))).toInt = (c.val : Int))
      = Finset.univ.filter fun e : Fin 1048576 => Cert.Tri.cs e.val = c.val := by
    refine Finset.filter_congr (fun e _ => ?_)
    rw [refIdx_apply, toInt_word31 _ (cs_small e)]
    exact Nat.cast_inj
  rw [hfilter]
  unfold Cert.Tri.bin
  rw [Finset.card_filter, Finset.card_filter, Cert.Tri.N_eq]
  exact Fin.sum_univ_eq_sum_range (fun q => if Cert.Tri.cs q = c.val then 1 else 0) 1048576

/-- THE RUNNING SUM OF THE COUNTS READ AT p: the word of the flat position of the (p + 1)-th kept position. -/
theorem refFlat_apply (p : Fin 524800) : refFlat' (ix1 p) = BitVec.ofNat 32 (Cert.Tri.flat p.val) := by
  unfold refFlat' refFlat
  exact Cert.Lib.IntCumsum.cumsum_apply (n := 524800) (lo := 524799) rfl
    reduceWindows_S524800_S524800_w524800s1p524799_0 h_S_ _
    (broadcastInDim S_ ![] bcast_S_S_ (constantI S_ 32 0#32)) (fun _ => rfl)
    Cert.Tri.bin refBin_apply p

/-- The flat position of a kept position is below 1048576. -/
theorem flat_small (p : Fin 524800) : Cert.Tri.flat p.val < 1048576 := by
  have h := Cert.Tri.flat_lt p.val (by rw [Cert.Tri.L_eq]; exact p.isLt)
  rwa [Cert.Tri.N_eq] at h

/-- Floor division of a sign-clear column entry by a positive literal: the word of the natural quotient. -/
theorem refFloorDiv_apply (x : IVec S524800 32) (d : BitVec 32) (p : Fin 524800) (n : ℕ)
    (hx : x (ix1 p) = BitVec.ofNat 32 n) (hn : n < 2147483648) (hd : d.msb = false) (hd0 : d ≠ 0) :
    refFloorDiv x (constantI S_ 32 d) (ix1 p) = BitVec.ofNat 32 (n / d.toNat) := by
  refine (Cert.Lib.IntDivMod.floorDiv_word (x (ix1 p)) d ?_ hd hd0).trans ?_
  · rw [hx]; exact msb_word31 n hn
  · rw [hx, toNat_word31 n hn]

/-- The divisor-signed remainder of a sign-clear column entry by a positive literal: the word of the natural remainder. -/
theorem refRemainder_apply (x : IVec S524800 32) (d : BitVec 32) (p : Fin 524800) (n : ℕ)
    (hx : x (ix1 p) = BitVec.ofNat 32 n) (hn : n < 2147483648) (hd : d.msb = false) (hd0 : d ≠ 0) :
    refRemainder x (constantI S_ 32 d) (ix1 p) = BitVec.ofNat 32 (n % d.toNat) := by
  refine (Cert.Lib.IntDivMod.remainder_word (x (ix1 p)) d ?_ hd hd0).trans ?_
  · rw [hx]; exact msb_word31 n hn
  · rw [hx, toNat_word31 n hn]

/-- THE ROW NUMBERS READ AT p: the word of the row of the (p + 1)-th kept position. -/
theorem refIu_apply (p : Fin 524800) : refIu' (ix1 p) = BitVec.ofNat 32 (Cert.Tri.iu p).val := by
  have hs := flat_small p
  unfold refIu' refIu
  rw [refRemainder_apply _ 1024#32 p (Cert.Tri.flat p.val / 1024)
    (refFloorDiv_apply refFlat' 1024#32 p _ (refFlat_apply p) (by omega) (by decide) (by decide))
    (by omega) (by decide) (by decide)]
  show BitVec.ofNat 32 (Cert.Tri.flat p.val / 1024 % 1024) = BitVec.ofNat 32 (Cert.Tri.flat p.val / 1024)
  rw [Nat.mod_eq_of_lt (by omega)]

/-- THE COLUMN NUMBERS READ AT p: the word of the column of the (p + 1)-th kept position. -/
theorem refJu_apply (p : Fin 524800) : refJu' (ix1 p) = BitVec.ofNat 32 (Cert.Tri.ju p).val := by
  have hs := flat_small p
  unfold refJu' refJu
  rw [refRemainder_apply _ 1024#32 p (Cert.Tri.flat p.val / 1)
    (refFloorDiv_apply refFlat' 1#32 p _ (refFlat_apply p) (by omega) (by decide) (by decide))
    (by omega) (by decide) (by decide)]
  show BitVec.ofNat 32 (Cert.Tri.flat p.val / 1 % 1024) = BitVec.ofNat 32 (Cert.Tri.flat p.val % 1024)
  rw [Nat.div_one]

end Cert.ReferenceIdeal.Hand

end
-- ==== Proof.RefFloatDefs.lean ====
/-
  The float pipeline of the reference program as three whole-array functions: the network evaluated on the
  gathered pairs, the matrix the values are scattered into, and the scaled product.

  Each definition is the program's own chain of operations, in the program's order, over the program's shapes and
  dimension records; the index columns `iu`, `ju` and the value column `v` are parameters.
-/
import proofs.«163482_j91182155694480_1_alg».proof.ReferenceIdeal

noncomputable section

namespace Cert.ReferenceIdeal.Hand

open Idealize.ShloMosaic Idealize.SL.Sem
open Cert.ReferenceIdeal

variable {F : FTy → Type} [FloatOps F] [Facts]
open Facts₀ Facts

/-- The wrap of a possibly negative index column: `w + 1024` where `w < 0`, else `w`. -/
def refWrap (w : IVec S524800 32) : IVec S524800 32 :=
  select (cmpi .slt w (broadcastInDim S524800 ![] bcast_S_S524800 (constantI S_ 32 0#32)))
    (addi w (broadcastInDim S524800 ![] bcast_S_S524800 (constantI S_ 32 1024#32))) w

/-- The entries of `x` at a wrapped index column, as a `[524800, 1]` column. -/
def refTake (x : FVec F S1024 .f32) (w : IVec S524800 32) : FVec F S524800x1 .f32 :=
  broadcastInDim S524800x1 ![0] bcast_S524800_S524800x1_0
    (Host.gather gather_S1024_S524800x1_S524800_n_0_n_n_0_1_1 x
      (broadcastInDim S524800x1 ![0] bcast_S524800_S524800x1_0 (refWrap w)))

/-- The first layer on every pair: tanh of the two gathered columns times W1ᵀ, plus b1. -/
def refH1 (x : FVec F S1024 .f32) (W1 : FVec F S128x2 .f32) (b1 : FVec F S128 .f32) (iu ju : IVec S524800 32) :
    FVec F S524800x128 .f32 :=
  Host.tanh (F := F)
    (addf
      (Host.dotGeneral (F := F) dot_S524800x2_S2x128_S524800x128_1_0_0_1_n_n none
        (concatenate S524800x2 1 [⟨S524800x1, refTake x iu⟩, ⟨S524800x1, refTake x ju⟩]
          concatenates_S524800x1_S524800x1_S524800x2_d1)
        (transpose S2x128 [1, 0] W1 transposes_S128x2_S2x128_1_0))
      (broadcastInDim S524800x128 ![0, 1] bcast_S1x128_S524800x128_0_1
        (broadcastInDim S1x128 ![1] bcast_S128_S1x128_1 b1)))

/-- The second layer on every pair: the positive part of the first layer times W2ᵀ, plus b2. -/
def refH2 (h1 : FVec F S524800x128 .f32) (W2 : FVec F S32x128 .f32) (b2 : FVec F S32 .f32) :
    FVec F S524800x32 .f32 :=
  maximumf
    (addf
      (Host.dotGeneral (F := F) dot_S524800x128_S128x32_S524800x32_1_0_0_1_n_n none h1
        (transpose S128x32 [1, 0] W2 transposes_S32x128_S128x32_1_0))
      (broadcastInDim S524800x32 ![0, 1] bcast_S1x32_S524800x32_0_1
        (broadcastInDim S1x32 ![1] bcast_S32_S1x32_1 b2)))
    (broadcastInDim S524800x32 ![] bcast_S_S524800x32 (constant (F := F) S_ .f32 0x00000000#32))

/-- The output layer on every pair, as a vector of 524800 values. -/
def refH3 (h2 : FVec F S524800x32 .f32) (W3 : FVec F S1x32 .f32) (b3 : FVec F S1 .f32) : FVec F S524800 .f32 :=
  shapeCast S524800
    (addf
      (Host.dotGeneral (F := F) dot_S524800x32_S32x1_S524800x1_1_0_0_1_n_n none h2
        (transpose S32x1 [1, 0] W3 transposes_S1x32_S32x1_1_0))
      (broadcastInDim S524800x1 ![0, 1] bcast_S1x1_S524800x1_0_1
        (broadcastInDim S1x1 ![1] bcast_S1_S1x1_1 b3)))
    shapeCasts_S524800x1_S524800

/-- The network on every pair of the two index columns. -/
def refV (x : FVec F S1024 .f32) (W1 : FVec F S128x2 .f32) (b1 : FVec F S128 .f32) (W2 : FVec F S32x128 .f32)
    (b2 : FVec F S32 .f32) (W3 : FVec F S1x32 .f32) (b3 : FVec F S1 .f32) (iu ju : IVec S524800 32) :
    FVec F S524800 .f32 :=
  refH3 (refH2 (refH1 x W1 b1 iu ju) W2 b2) W3 b3

/-- The identity matrix as the program spells it: the float of the test "row + 0 = column". -/
def refEye : FVec F S1024x1024 .f32 :=
  uitofp (F := F) .f32
    (cmpi .eq
      (addi (iotaInDim S1024x1024 32 0) (broadcastInDim S1024x1024 ![] bcast_S_S1024x1024 (constantI S_ 32 0#32)))
      (iotaInDim S1024x1024 32 1))

/-- The values scattered: one where the two indices agree, else the network's value. -/
def refUpd (v : FVec F S524800 .f32) (iu ju : IVec S524800 32) : FVec F S524800 .f32 :=
  select (cmpi .eq iu ju)
    (broadcastInDim S524800 ![] bcast_S_S524800 (id (constant (F := F) S_ .f32 0x3F800000#32))) v

/-- The index pairs scattered at: the two wrapped columns side by side. -/
def refPairIdx (iu ju : IVec S524800 32) : IVec S524800x2 32 :=
  concatenate S524800x2 1
    [⟨S524800x1, broadcastInDim S524800x1 ![0] bcast_S524800_S524800x1_0 (refWrap iu)⟩,
     ⟨S524800x1, broadcastInDim S524800x1 ![0] bcast_S524800_S524800x1_0 (refWrap ju)⟩]
    concatenates_S524800x1_S524800x1_S524800x2_d1

/-- The matrix K: the identity overwritten at every index pair by that pair's value. -/
def refK (v : FVec F S524800 .f32) (iu ju : IVec S524800 32) : FVec F S1024x1024 .f32 :=
  Host.scatter scatter_S1024x1024_S524800x2_S524800_n_01_01_1 (fun _ b => b) (refEye (F := F)) (refPairIdx iu ju)
    (refUpd v iu ju)

/-- The result: (σ·σ) times KᵀK. -/
def refOut (K : FVec F S1024x1024 .f32) (s : FVec F S1 .f32) : FVec F S1024x1024 .f32 :=
  mulf
    (broadcastInDim S1024x1024 ![] bcast_S_S1024x1024
      (mulf (shapeCast S_ s shapeCasts_S1_S_) (shapeCast S_ s shapeCasts_S1_S_)))
    (Host.dotGeneral (F := F) dot_S1024x1024_S1024x1024_S1024x1024_1_0_0_1_n_n none
      (transpose S1024x1024 [1, 0] K transposes_S1024x1024_S1024x1024_1_0) K)

end Cert.ReferenceIdeal.Hand

end
-- ==== Proof.RefFloatIdx.lean ====
/-
  The index columns after the wrap of negative values, and the entries of the time vector they pick.

  When an index column holds, at position p, the word of a number f p below 1024, the wrap "w + 1024 where w < 0"
  leaves it as it is, its signed reading is f p, and the gather from the 1024 entries reads entry f p: the clamp
  into [0, 1023] does nothing.
-/
import Idealize.ShloMosaic.Lib.ValueIdx
import Idealize.ShloMosaic.Lib.Pipeline.Value
import proofs.«163482_j91182155694480_1_alg».proof.Proof.RefFloatDefs
import proofs.«163482_j91182155694480_1_alg».proof.Proof.LibGather1

noncomputable section

namespace Cert.ReferenceIdeal.Hand

open Idealize.ShloMosaic Idealize.ShloMosaic.ValueIdx
open Cert.ReferenceIdeal

variable [Facts]
open Facts₀ Facts

/-- The 32-bit word of a number below 1024 reads, signed, as that number. -/
theorem toInt_ofNat_small (n : Nat) (h : n < 1024) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The words of two numbers below 1024 are equal exactly when the numbers are. -/
theorem ofNat_small_inj (m n : Nat) (hm : m < 1024) (hn : n < 1024)
    (h : BitVec.ofNat 32 m = BitVec.ofNat 32 n) : m = n := by
  have := congrArg BitVec.toInt h
  rw [toInt_ofNat_small m hm, toInt_ofNat_small n hn] at this
  exact_mod_cast this

/-- A vector broadcast to a one-column matrix reads, at (p, 0), the vector at p. -/
theorem colOf_apply {α : Type} (v : S524800.Idx → α) (p : Fin 524800) :
    broadcastInDim S524800x1 ![0] bcast_S524800_S524800x1_0 v (ix2 p (0 : Fin 1)) = v (ix1 p) :=
  broadcastInDim_apply ![0] bcast_S524800_S524800x1_0 v (ix2 p (0 : Fin 1)) (ix1 p) fun a => by
    match a with
    | ⟨0, _⟩ =>
      exact (if_neg (show ¬ ((524800 : Nat) = 1) by decide)).symm

/-- The wrap leaves the word of a number below 1024 as it is. -/
theorem refWrap_apply (w : IVec S524800 32) (f : Fin 524800 → Fin 1024)
    (hw : ∀ p, w (ix1 p) = BitVec.ofNat 32 (f p).val) (p : Fin 524800) :
    refWrap w (ix1 p) = BitVec.ofNat 32 (f p).val := by
  unfold refWrap
  rw [select_apply]
  show Scalar.select (IntOp.cmpi .slt (w (ix1 p)) 0#32) (IntOp.addi (w (ix1 p)) 1024#32) (w (ix1 p)) = _
  rw [Cert.Lib.Gather1.select_wrap_of_nonneg _ _
    (by rw [hw, toInt_ofNat_small _ (f p).isLt]; exact Int.natCast_nonneg _), hw]

/-- The gathered column at (p, 0) is the time vector at f p. -/
theorem refTake_apply {F : FTy → Type} [FloatOps F] (x : FVec F S1024 .f32) (w : IVec S524800 32)
    (f : Fin 524800 → Fin 1024) (hw : ∀ p, w (ix1 p) = BitVec.ofNat 32 (f p).val) (p : Fin 524800) :
    refTake x w (ix2 p (0 : Fin 1)) = x (ix1 (f p)) := by
  unfold refTake
  refine (colOf_apply _ p).trans ?_
  refine (Cert.Lib.Gather1.gather1_apply (by decide) gather_S1024_S524800x1_S524800_n_0_n_n_0_1_1_wf x _ p).trans ?_
  refine congrArg (fun r => x (ix1 r)) (Cert.Lib.Gather1.gatherRow_eq_of_toInt _ _ p (f p) ?_)
  rw [colOf_apply, refWrap_apply w f hw, toInt_ofNat_small _ (f p).isLt]

end Cert.ReferenceIdeal.Hand

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«163482_j91182155694480_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«163482_j91182155694480_1_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.RefFloatNet.lean ====
/-
  The three layers of the network on the gathered pairs, read at an entry.

  Each layer is the host's spelling of a dense layer: a product against the transposed weight, the bias broadcast in
  two steps and added, then tanh, the positive part, or nothing. Entry by entry these are the sums of the shared
  specification. The first layer's operand is the two gathered columns side by side, so its sum over the two columns
  is x_i · W1[k, 0] + x_j · W1[k, 1]; adding the bias after instead of between the two terms is a regrouping of a sum
  of three extended reals, which is associative and commutative.
-/
import Idealize.ShloMosaic.Lib.ValueIdx
import Idealize.ShloMosaic.Lib.Pipeline.Value
import Idealize.ShloMosaic.PureOps.Ideal.Laws
import proofs.«163482_j91182155694480_1_alg».proof.Proof.RefFloatIdx
import proofs.«163482_j91182155694480_1_alg».proof.Proof.Spec
import proofs.«163482_j91182155694480_1_alg».proof.Proof.LibCatDot
import proofs.«163482_j91182155694480_1_alg».proof.Proof.LibConcatRead

noncomputable section

open scoped BigOperators

namespace Cert.ReferenceIdeal.Hand

open Idealize.ShloMosaic Idealize.ShloMosaic.ValueIdx
open Cert.ReferenceIdeal Cert.Spec Cert.Lib.BiasDot Cert.Lib.Dense

variable [Facts]
open Facts₀ Facts

/-- A transposed matrix at (b, a) is the matrix at (a, b). -/
theorem transpose2_apply {α : Type} {A B : Nat} (X : (⟨2, ![A, B]⟩ : Shape).Idx → α)
    (h : (⟨2, ![A, B]⟩ : Shape).Transposes [1, 0] ⟨2, ![B, A]⟩) (b : Fin B) (a : Fin A) :
    transpose ⟨2, ![B, A]⟩ [1, 0] X h (ix2 b a) = X (ix2 a b) :=
  transpose_apply [1, 0] X h (ix2 b a) (ix2 a b) fun c => by
    match c with
    | ⟨0, _⟩ => rfl
    | ⟨1, _⟩ => rfl

/-- THE FIRST LAYER at pair p, feature k. -/
theorem refH1_apply (x : FVec Ideal S1024 .f32) (W1 : FVec Ideal S128x2 .f32) (b1 : FVec Ideal S128 .f32)
    (iu ju : IVec S524800 32) (fi fj : Fin 524800 → Fin 1024)
    (hi : ∀ p, iu (ix1 p) = BitVec.ofNat 32 (fi p).val) (hj : ∀ p, ju (ix1 p) = BitVec.ofNat 32 (fj p).val)
    (p : Fin 524800) (k : Fin 128) :
    refH1 (F := Ideal) x W1 b1 iu ju (ix2 p k)
      = hid1 (fun i => x (ix1 i)) (fun k c => W1 (ix2 k c)) (fun k => b1 (ix1 k)) (fi p) (fj p) k := by
  unfold refH1
  rw [Cert.Lib.CatDot.host_lin dot_S524800x2_S2x128_S524800x128_1_0_0_1_n_n rfl]
  show Ideal.tanh (lin _ _ b1 (ix2 p k)) = _
  have e0 : concatenate S524800x2 1 [⟨S524800x1, refTake (F := Ideal) x iu⟩, ⟨S524800x1, refTake (F := Ideal) x ju⟩]
      concatenates_S524800x1_S524800x1_S524800x2_d1 (ix2 p (0 : Fin 2)) = x (ix1 (fi p)) :=
    (Cert.Lib.ConcatRead.cols_left _ _ _ p (0 : Fin 2) (0 : Fin 1) rfl).trans (refTake_apply x iu fi hi p)
  have e1 : concatenate S524800x2 1 [⟨S524800x1, refTake (F := Ideal) x iu⟩, ⟨S524800x1, refTake (F := Ideal) x ju⟩]
      concatenates_S524800x1_S524800x1_S524800x2_d1 (ix2 p (1 : Fin 2)) = x (ix1 (fj p)) :=
    (Cert.Lib.ConcatRead.cols_right _ _ _ p (1 : Fin 2) (0 : Fin 1) rfl).trans (refTake_apply x ju fj hj p)
  rw [lin_apply, Fin.sum_univ_two, e0, e1, transpose2_apply, transpose2_apply]
  show _ = Ideal.tanh ((x (ix1 (fi p)) * W1 (ix2 k 0) + b1 (ix1 k)) + x (ix1 (fj p)) * W1 (ix2 k 1))
  rw [add_right_comm]

/-- THE SECOND LAYER at pair p, feature o, over any first-layer array. -/
theorem refH2_apply (h1 : FVec Ideal S524800x128 .f32) (W2 : FVec Ideal S32x128 .f32) (b2 : FVec Ideal S32 .f32)
    (p : Fin 524800) (o : Fin 32) :
    refH2 (F := Ideal) h1 W2 b2 (ix2 p o)
      = max ((∑ k : Fin 128, h1 (ix2 p k) * W2 (ix2 o k)) + b2 (ix1 o)) 0 := by
  unfold refH2
  rw [Cert.Lib.Dense.host_lin_relu dot_S524800x128_S128x32_S524800x32_1_0_0_1_n_n rfl]
  show max (lin _ _ b2 (ix2 p o)) 0 = _
  rw [lin_apply]
  refine congrArg (fun z => max (z + b2 (ix1 o)) 0) (Finset.sum_congr rfl fun k _ => ?_)
  rw [transpose2_apply]

/-- THE OUTPUT LAYER at pair p, over any second-layer array. -/
theorem refH3_apply (h2 : FVec Ideal S524800x32 .f32) (W3 : FVec Ideal S1x32 .f32) (b3 : FVec Ideal S1 .f32)
    (p : Fin 524800) :
    refH3 (F := Ideal) h2 W3 b3 (ix1 p)
      = (∑ o : Fin 32, h2 (ix2 p o) * W3 (ix2 (0 : Fin 1) o)) + b3 (ix1 (0 : Fin 1)) := by
  unfold refH3
  rw [Cert.Lib.CatDot.host_lin dot_S524800x32_S32x1_S524800x1_1_0_0_1_n_n rfl]
  refine (shapeCast_apply _ shapeCasts_S524800x1_S524800 (ix1 p) (ix2 p (0 : Fin 1)) ?_).trans ?_
  · rw [Shape.rowMajor_val_two, Shape.rowMajor_val_one]
    show p.val * 1 + 0 = p.val
    omega
  · rw [lin_apply]
    refine congrArg (fun z => z + b3 (ix1 (0 : Fin 1))) (Finset.sum_congr rfl fun o _ => ?_)
    rw [transpose2_apply]

end Cert.ReferenceIdeal.Hand

end
-- ==== Proof.LibScatterSet.lean ====
/-
  A scatter that overwrites, read at an entry.

  The host's scatter visits the updates in row-major order; with a body that returns the update, update number `n`
  replaces the operand's entry at the index it lands on. When update `n` lands on `g n` for every `n`, and `g` sends
  different updates to different entries, the result holds update `n₀` at `g n₀`, and the operand's own entry
  wherever no update lands: a list of point writes to distinct places can be read in any order.
-/
import Idealize.ShloMosaic.PureOps.ShapeOps

noncomputable section

namespace Cert.Lib.ScatterSet

open Idealize.ShloMosaic

/-- Point writes to places other than `i` leave the entry at `i` alone. -/
theorem foldSet_not_mem {ι κ α : Type} [DecidableEq ι] (g : κ → ι) (v : κ → α) :
    ∀ (L : List κ) (y : ι → α) (i : ι), (∀ n ∈ L, g n ≠ i) →
      L.foldl (fun r n => fun i' => if i' = g n then v n else r i') y i = y i
  | [], _, _, _ => rfl
  | a :: L, y, i, h => by
      rw [List.foldl_cons, foldSet_not_mem g v L _ i (fun n hn => h n (List.mem_cons_of_mem _ hn))]
      exact if_neg (fun e => h a (List.mem_cons.2 (Or.inl rfl)) e.symm)

/-- After point writes to pairwise distinct places, the place of write `n₀` holds its value. -/
theorem foldSet_mem {ι κ α : Type} [DecidableEq ι] (g : κ → ι) (hg : Function.Injective g) (v : κ → α) :
    ∀ (L : List κ) (y : ι → α) (n₀ : κ), n₀ ∈ L → L.Nodup →
      L.foldl (fun r n => fun i' => if i' = g n then v n else r i') y (g n₀) = v n₀
  | [], _, _, h, _ => absurd h (by simp)
  | a :: L, y, n₀, h, hnd => by
      rw [List.foldl_cons]
      rcases List.mem_cons.1 h with e | h'
      · subst e
        rw [foldSet_not_mem g v L _ (g n₀) (fun n hn e => (List.nodup_cons.1 hnd).1 (hg e ▸ hn))]
        exact if_pos rfl
      · exact foldSet_mem g hg v L _ n₀ h' (List.nodup_cons.1 hnd).2

variable {s si u : Shape} {w : Nat} {α : Type}

/-- An overwriting scatter whose update `n` lands on `g n`, `g` injective: at `g n₀` the result is update `n₀`. -/
theorem scatter_set_apply (d : ScatterDims s si u) (x : s.Idx → α) (idx : IVec si w) (upd : u.Idx → α)
    (g : Fin u.numel → s.Idx) (hg : Function.Injective g)
    (hres : ∀ n, d.resultIdx? (u.rowMajor.symm n) idx = some (g n)) (n₀ : Fin u.numel) :
    Host.scatter d (fun _ b => b) x idx upd (g n₀) = upd (u.rowMajor.symm n₀) := by
  unfold Host.scatter
  refine Eq.trans (congrFun (congrArg (fun F => List.foldl F x (List.finRange u.numel)) ?_) (g n₀))
    (foldSet_mem g hg (fun n => upd (u.rowMajor.symm n)) (List.finRange _) x n₀ (List.mem_finRange _) (List.nodup_finRange _))
  funext r n
  rw [hres n]

end Cert.Lib.ScatterSet

end
-- ==== Proof.RefFloatPair.lean ====
/-
  A scatter of single entries into a matrix at index pairs, read through where each update lands.

  The operand is an N × N' matrix, the scatter indices an M × 2 array whose row p is the pair (row, column) that
  update p is written at, and the updates a vector of M values: no window axis, both operand axes inserted and named
  by the index vector, which lies along axis 1 of the indices. Update p lands at the signed readings of its two index
  words when those are inside the matrix. An overwriting scatter none of whose updates lands on an entry leaves that
  entry as the operand has it.
-/
import Idealize.ShloMosaic.Lib.ValueIdx
import Idealize.ShloMosaic.Lib.Pipeline.Value
import proofs.«163482_j91182155694480_1_alg».proof.Proof.LibRowScatter
import proofs.«163482_j91182155694480_1_alg».proof.Proof.LibScatterSet

noncomputable section

namespace Cert.ReferenceIdeal.Hand

open Idealize.ShloMosaic Idealize.ShloMosaic.ValueIdx

/-- The dimension numbers of a scatter of single entries at index pairs. -/
abbrev pairDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat}

/-- On the row axis the start of update p is its first index word read as a signed integer. -/
theorem pair_start_zero (wf : ScatterDims.WF ⟨2, ![N, N']⟩ ⟨2, ![M, 2]⟩ ⟨1, ![M]⟩ [] [0, 1] [0, 1] 1)
    (idx : IVec ⟨2, ![M, 2]⟩ w) (p : Fin M) :
    (pairDims N N' M wf).start (ix1 p) idx 0 = (idx (ix2 p (0 : Fin 2))).toInt := by
  unfold ScatterDims.start
  rw [dif_pos (show (0 : Fin 2) ∈ (pairDims N N' M wf).scatterDimsToOperandDims from List.mem_cons.mpr (Or.inl rfl))]
  have hsi : (pairDims N N' M wf).siIdx (ix1 p)
      ⟨List.idxOf (0 : Fin 2) (pairDims N N' M wf).scatterDimsToOperandDims,
        List.idxOf_lt_length_iff.2 (List.mem_cons.mpr (Or.inl rfl))⟩ = ix2 p (0 : Fin 2) := by
    funext b; refine Fin.ext ?_
    match b with
    | ⟨0, _⟩ => rfl
    | ⟨1, _⟩ => rfl
  rw [hsi]

/-- On the column axis it is the second index word. -/
theorem pair_start_one (wf : ScatterDims.WF ⟨2, ![N, N']⟩ ⟨2, ![M, 2]⟩ ⟨1, ![M]⟩ [] [0, 1] [0, 1] 1)
    (idx : IVec ⟨2, ![M, 2]⟩ w) (p : Fin M) :
    (pairDims N N' M wf).start (ix1 p) idx 1 = (idx (ix2 p (1 : Fin 2))).toInt := by
  unfold ScatterDims.start
  rw [dif_pos (show (1 : Fin 2) ∈ (pairDims N N' M wf).scatterDimsToOperandDims from
    List.mem_cons.mpr (Or.inr (List.mem_cons.mpr (Or.inl rfl))))]
  have hsi : (pairDims N N' M wf).siIdx (ix1 p)
      ⟨List.idxOf (1 : Fin 2) (pairDims N N' M wf).scatterDimsToOperandDims,
        List.idxOf_lt_length_iff.2 (List.mem_cons.mpr (Or.inr (List.mem_cons.mpr (Or.inl rfl))))⟩ = ix2 p (1 : Fin 2) := by
    funext b; refine Fin.ext ?_
    match b with
    | ⟨0, _⟩ => rfl
    | ⟨1, _⟩ => rfl
  rw [hsi]

/-- Both operand axes are inserted: the window coordinate is 0 on each. -/
theorem pair_window (wf : ScatterDims.WF ⟨2, ![N, N']⟩ ⟨2, ![M, 2]⟩ ⟨1, ![M]⟩ [] [0, 1] [0, 1] 1)
    (p : Fin M) (a : Fin 2) : (pairDims N N' M wf).window (ix1 p) a = 0 := by
  unfold ScatterDims.window
  rw [dif_neg (fun h => (Cert.Lib.RowScatter.mem_kept _ _).mp h (by
    match a with
    | ⟨0, _⟩ => exact List.mem_cons.mpr (Or.inl rfl)
    | ⟨1, _⟩ => exact List.mem_cons.mpr (Or.inr (List.mem_cons.mpr (Or.inl rfl)))))]

/-- Update p lands at (a, b) when its two index words read, signed, as a and b. -/
theorem resultIdx?_pair (wf : ScatterDims.WF ⟨2, ![N, N']⟩ ⟨2, ![M, 2]⟩ ⟨1, ![M]⟩ [] [0, 1] [0, 1] 1)
    (idx : IVec ⟨2, ![M, 2]⟩ w) (p : Fin M) (a : Fin N) (b : Fin N')
    (ha : (idx (ix2 p (0 : Fin 2))).toInt = (a.val : Int)) (hb : (idx (ix2 p (1 : Fin 2))).toInt = (b.val : Int)) :
    (pairDims N N' M wf).resultIdx? (ix1 p) idx = some (ix2 a b) := by
  rw [Cert.Lib.RowScatter.resultIdx?_eq_some_iff, Fin.forall_fin_two]
  rw [pair_start_zero, pair_start_one, pair_window, pair_window, ha, hb]
  show ((a.val : Int) + ((0 : Nat) : Int) = (a.val : Int)) ∧ ((b.val : Int) + ((0 : Nat) : Int) = (b.val : Int))
  exact ⟨by omega, by omega⟩

variable {s si u : Shape} {α : Type}

/-- An overwriting scatter whose update n lands on g n: an entry no update lands on is the operand's. -/
theorem scatter_set_not_mem (d : ScatterDims s si u) (x : s.Idx → α) (idx : IVec si w) (upd : u.Idx → α)
    (g : Fin u.numel → s.Idx) (hres : ∀ n, d.resultIdx? (u.rowMajor.symm n) idx = some (g n))
    (i : s.Idx) (hi : ∀ n, g n ≠ i) :
    Host.scatter d (fun _ b => b) x idx upd i = x i := by
  unfold Host.scatter
  refine Eq.trans (congrFun (congrArg (fun F => List.foldl F x (List.finRange u.numel)) ?_) i)
    (Cert.Lib.ScatterSet.foldSet_not_mem g (fun n => upd (u.rowMajor.symm n)) (List.finRange _) x i (fun n _ => hi n))
  funext r n
  rw [hres n]

end Cert.ReferenceIdeal.Hand

end
-- ==== Proof.RefFloatK.lean ====
/-
  The matrix K read at an entry.

  The identity matrix is overwritten, at the index pair of every update p, by that update's value: one where the two
  indices agree, else the network's value. When the pairs (f_i p, f_j p) run once through all (i, j) with i ≤ j, every
  entry on or above the diagonal is written exactly once, and an entry below the diagonal is never written and keeps
  the identity's zero.
-/
import Idealize.ShloMosaic.Lib.ValueIdx
import Idealize.ShloMosaic.Lib.Pipeline.Value
import Idealize.ShloMosaic.PureOps.Ideal.Laws
import proofs.«163482_j91182155694480_1_alg».proof.Proof.RefFloatIdx
import proofs.«163482_j91182155694480_1_alg».proof.Proof.RefFloatPair
import proofs.«163482_j91182155694480_1_alg».proof.Proof.LibConcatRead
import proofs.«163482_j91182155694480_1_alg».proof.Proof.LibFlagLaw
import proofs.«163482_j91182155694480_1_alg».proof.Proof.LibScatterSet

noncomputable section

namespace Cert.ReferenceIdeal.Hand

open Idealize.ShloMosaic Idealize.ShloMosaic.ValueIdx
open Cert.ReferenceIdeal

variable [Facts]
open Facts₀ Facts

/-! ## The index pairs -/

/-- The first index word of pair p reads, signed, as f_i p. -/
theorem refPairIdx_zero (iu ju : IVec S524800 32) (fi : Fin 524800 → Fin 1024)
    (hi : ∀ p, iu (ix1 p) = BitVec.ofNat 32 (fi p).val) (p : Fin 524800) :
    (refPairIdx iu ju (ix2 p (0 : Fin 2))).toInt = ((fi p).val : Int) := by
  unfold refPairIdx
  rw [Cert.Lib.ConcatRead.cols_left _ _ _ p (0 : Fin 2) (0 : Fin 1) rfl, colOf_apply, refWrap_apply iu fi hi,
    toInt_ofNat_small _ (fi p).isLt]

/-- The second index word of pair p reads, signed, as f_j p. -/
theorem refPairIdx_one (iu ju : IVec S524800 32) (fj : Fin 524800 → Fin 1024)
    (hj : ∀ p, ju (ix1 p) = BitVec.ofNat 32 (fj p).val) (p : Fin 524800) :
    (refPairIdx iu ju (ix2 p (1 : Fin 2))).toInt = ((fj p).val : Int) := by
  unfold refPairIdx
  rw [Cert.Lib.ConcatRead.cols_right _ _ _ p (1 : Fin 2) (0 : Fin 1) rfl, colOf_apply, refWrap_apply ju fj hj,
    toInt_ofNat_small _ (fj p).isLt]

/-! ## The identity off the diagonal, and the updates -/

/-- Off the diagonal the identity matrix is zero. -/
theorem refEye_apply_ne (i j : Fin 1024) (h : i ≠ j) : refEye (F := Ideal) (ix2 i j) = 0 := by
  unfold refEye
  show (((BitVec.ofBool (IntOp.addi (BitVec.ofNat 32 i.val) 0#32 == BitVec.ofNat 32 j.val)).toNat : ℝ) : EReal) = 0
  have hx : IntOp.addi (BitVec.ofNat 32 i.val) 0#32 = BitVec.ofNat 32 i.val := BitVec.add_zero _
  have hne : (BitVec.ofNat 32 i.val == BitVec.ofNat 32 j.val) = false := by
    rw [beq_eq_false_iff_ne]
    intro e
    exact h (Fin.ext (ofNat_small_inj _ _ i.isLt j.isLt e))
  rw [hx, hne]
  show (((0 : ℕ) : ℝ) : EReal) = 0
  rw [Nat.cast_zero, EReal.coe_zero]

/-- Update p is one where the two indices agree, else the value at p. -/
theorem refUpd_apply (v : FVec Ideal S524800 .f32) (iu ju : IVec S524800 32) (fi fj : Fin 524800 → Fin 1024)
    (hi : ∀ p, iu (ix1 p) = BitVec.ofNat 32 (fi p).val) (hj : ∀ p, ju (ix1 p) = BitVec.ofNat 32 (fj p).val)
    (p : Fin 524800) :
    refUpd (F := Ideal) v iu ju (ix1 p) = if fi p = fj p then 1 else v (ix1 p) := by
  unfold refUpd
  rw [select_apply]
  show Scalar.select (BitVec.ofBool (iu (ix1 p) == ju (ix1 p))) (Ideal.ofBits .f32 0x3F800000#32) (v (ix1 p)) = _
  rw [hi, hj]
  by_cases e : fi p = fj p
  · rw [e, beq_self_eq_true, if_pos rfl]
    exact (select_one _ _).trans Cert.Lib.FlagLaw.one_word
  · have hne : (BitVec.ofNat 32 (fi p).val == BitVec.ofNat 32 (fj p).val) = false := by
      rw [beq_eq_false_iff_ne]
      intro h
      exact e (Fin.ext (ofNat_small_inj _ _ (fi p).isLt (fj p).isLt h))
    rw [hne, if_neg e]
    exact select_zero _ _

/-! ## Where each update lands -/

/-- The pair number of update n: the one coordinate of its index. -/
def pairOf (n : Fin S524800.numel) : Fin 524800 := (S524800.rowMajor.symm n) (0 : Fin 1)

/-- The entry update n lands on. -/
def landAt (fi fj : Fin 524800 → Fin 1024) (n : Fin S524800.numel) : S1024x1024.Idx :=
  ix2 (fi (pairOf n)) (fj (pairOf n))

theorem symm_eq_pairOf (n : Fin S524800.numel) : S524800.rowMajor.symm n = ix1 (pairOf n) := eq_ix1 _

theorem pairOf_rowMajor (p : Fin 524800) : pairOf (S524800.rowMajor (ix1 p)) = p := by
  unfold pairOf
  rw [Equiv.symm_apply_apply]

theorem landAt_injective (fi fj : Fin 524800 → Fin 1024) (hinj : Function.Injective fun p => (fi p, fj p)) :
    Function.Injective (landAt fi fj) := by
  intro n n' e
  have h0 : fi (pairOf n) = fi (pairOf n') := congrFun e (0 : Fin 2)
  have h1 : fj (pairOf n) = fj (pairOf n') := congrFun e (1 : Fin 2)
  have hp : pairOf n = pairOf n' := hinj (Prod.ext h0 h1)
  exact S524800.rowMajor.symm.injective
    ((symm_eq_pairOf n).trans ((congrArg ix1 hp).trans (symm_eq_pairOf n').symm))

theorem landAt_spec (iu ju : IVec S524800 32) (fi fj : Fin 524800 → Fin 1024)
    (hi : ∀ p, iu (ix1 p) = BitVec.ofNat 32 (fi p).val) (hj : ∀ p, ju (ix1 p) = BitVec.ofNat 32 (fj p).val)
    (n : Fin S524800.numel) :
    scatter_S1024x1024_S524800x2_S524800_n_01_01_1.resultIdx? (S524800.rowMajor.symm n) (refPairIdx iu ju)
      = some (landAt fi fj n) := by
  rw [symm_eq_pairOf n]
  exact resultIdx?_pair scatter_S1024x1024_S524800x2_S524800_n_01_01_1_wf (refPairIdx iu ju) (pairOf n)
    (fi (pairOf n)) (fj (pairOf n)) (refPairIdx_zero iu ju fi hi _) (refPairIdx_one iu ju fj hj _)

/-! ## The matrix -/

/-- THE MATRIX K READ AT (i, j): one on the diagonal, the pair's value above it, zero below. -/
theorem refK_apply (v : FVec Ideal S524800 .f32) (iu ju : IVec S524800 32) (fi fj : Fin 524800 → Fin 1024)
    (hi : ∀ p, iu (ix1 p) = BitVec.ofNat 32 (fi p).val) (hj : ∀ p, ju (ix1 p) = BitVec.ofNat 32 (fj p).val)
    (hle : ∀ p, fi p ≤ fj p) (hinj : Function.Injective fun p => (fi p, fj p))
    (hsurj : ∀ i j : Fin 1024, i ≤ j → ∃ p, fi p = i ∧ fj p = j)
    (g : Fin 1024 → Fin 1024 → EReal) (hv : ∀ p, v (ix1 p) = g (fi p) (fj p)) (i j : Fin 1024) :
    refK (F := Ideal) v iu ju (ix2 i j) = if i = j then 1 else if i < j then g i j else 0 := by
  unfold refK
  by_cases hij : i ≤ j
  · obtain ⟨p, rfl, rfl⟩ := hsurj i j hij
    have key := Cert.Lib.ScatterSet.scatter_set_apply scatter_S1024x1024_S524800x2_S524800_n_01_01_1
      (refEye (F := Ideal)) (refPairIdx iu ju) (refUpd (F := Ideal) v iu ju) (landAt fi fj)
      (landAt_injective fi fj hinj) (landAt_spec iu ju fi fj hi hj) (S524800.rowMajor (ix1 p))
    have hn : landAt fi fj (S524800.rowMajor (ix1 p)) = ix2 (fi p) (fj p) := by
      unfold landAt
      rw [pairOf_rowMajor]
    rw [hn, Equiv.symm_apply_apply] at key
    rw [key, refUpd_apply v iu ju fi fj hi hj p, hv]
    by_cases e : fi p = fj p
    · rw [if_pos e, if_pos e]
    · rw [if_neg e, if_neg e, if_pos (lt_of_le_of_ne (hle p) e)]
  · have hne : ∀ n, landAt fi fj n ≠ ix2 i j := by
      intro n e
      have h0 : fi (pairOf n) = i := congrFun e (0 : Fin 2)
      have h1 : fj (pairOf n) = j := congrFun e (1 : Fin 2)
      exact hij (h0 ▸ h1 ▸ hle (pairOf n))
    rw [scatter_set_not_mem scatter_S1024x1024_S524800x2_S524800_n_01_01_1 _ _ _ (landAt fi fj)
      (landAt_spec iu ju fi fj hi hj) (ix2 i j) hne,
      refEye_apply_ne i j (fun e : i = j => hij (le_of_eq e)),
      if_neg (fun e : i = j => hij (le_of_eq e)), if_neg (fun e : i < j => hij (le_of_lt e))]

end Cert.ReferenceIdeal.Hand

end
-- ==== Proof.RefFloatOut.lean ====
/-
  The scaled product read at an entry.

  The result is the scalar σ·σ, repeated over the matrix, times the product of the transposed matrix with the matrix:
  at (m, n) it is (σ·σ) · ∑ k, K[k, m] · K[k, n].
-/
import Idealize.ShloMosaic.Lib.ValueIdx
import Idealize.ShloMosaic.Lib.Pipeline.Value
import Idealize.ShloMosaic.PureOps.Ideal.Laws
import proofs.«163482_j91182155694480_1_alg».proof.Proof.RefFloatDefs
import proofs.«163482_j91182155694480_1_alg».proof.Proof.Spec
import proofs.«163482_j91182155694480_1_alg».proof.Proof.LibDense

noncomputable section

open scoped BigOperators

namespace Cert.ReferenceIdeal.Hand

open Idealize.ShloMosaic Idealize.ShloMosaic.ValueIdx
open Cert.ReferenceIdeal Cert.Spec

variable [Facts]
open Facts₀ Facts

/-- A one-entry vector reshaped to a scalar holds that entry. -/
theorem scalar_of_S1 {α : Type} (s : S1.Idx → α) (h : S1.ShapeCasts S_) (j : S_.Idx) :
    shapeCast S_ s h j = s (ix1 (0 : Fin 1)) := by
  refine (shapeCast_dropUnit_apply ![] s h j).trans (congrArg s ?_)
  funext a
  match a with
  | ⟨0, _⟩ => rfl

/-- The transposed matrix at (m, k) is the matrix at (k, m). -/
theorem transposeK_apply {α : Type} (K : S1024x1024.Idx → α) (h : S1024x1024.Transposes [1, 0] S1024x1024)
    (m k : Fin 1024) : transpose S1024x1024 [1, 0] K h (ix2 m k) = K (ix2 k m) :=
  transpose_apply [1, 0] K h (ix2 m k) (ix2 k m) fun b => by
    match b with
    | ⟨0, _⟩ => rfl
    | ⟨1, _⟩ => rfl

/-- THE RESULT READ AT (m, n): (σ·σ) times the sum over k of K[k, m] · K[k, n]. -/
theorem refOut_apply (K : FVec Ideal S1024x1024 .f32) (s : FVec Ideal S1 .f32) (m n : Fin 1024) :
    refOut (F := Ideal) K s (ix2 m n) = outR (s (ix1 0)) (fun i j => K (ix2 i j)) m n := by
  unfold refOut
  rw [mulf_apply,
    broadcastInDim_apply (s := S_) ![] bcast_S_S1024x1024 _ (ix2 m n) ix0 (fun a => a.elim0),
    mulf_apply, scalar_of_S1,
    Cert.Lib.Dense.host_mm dot_S1024x1024_S1024x1024_S1024x1024_1_0_0_1_n_n rfl]
  show s (ix1 0) * s (ix1 0) * (∑ k : Fin 1024,
      transpose S1024x1024 [1, 0] K transposes_S1024x1024_S1024x1024_1_0 (ix2 m k) * K (ix2 k n)) = _
  refine congrArg (fun z => s (ix1 0) * s (ix1 0) * z) (Finset.sum_congr rfl fun k _ => ?_)
  rw [transposeK_apply]

end Cert.ReferenceIdeal.Hand

end
-- ==== Proof.RefFloat.lean ====
/-
  The float pipeline of the reference program, read at an entry against the shared specification.

  Over index columns that hold, at position p, the words of a pair (f_i p, f_j p) of numbers below 1024:
  * the network's output on the gathered pairs is the specification's value at (f_i p, f_j p);
  * when the pairs run once through all (i, j) with i ≤ j, the scattered matrix is one on the diagonal, the pair's
    value above it and zero below;
  * the result is (σ·σ) times the sum over k of K[k, m] · K[k, n].
  The definitions are in the definitions module; the layers, the index pairs, the scatter and the product are read in
  the modules imported below.
-/
import proofs.«163482_j91182155694480_1_alg».proof.Proof.RefFloatDefs
import proofs.«163482_j91182155694480_1_alg».proof.Proof.RefFloatIdx
import proofs.«163482_j91182155694480_1_alg».proof.Proof.RefFloatNet
import proofs.«163482_j91182155694480_1_alg».proof.Proof.RefFloatK
import proofs.«163482_j91182155694480_1_alg».proof.Proof.RefFloatOut

noncomputable section

open scoped BigOperators

namespace Cert.ReferenceIdeal.Hand

open Idealize.ShloMosaic Idealize.ShloMosaic.ValueIdx
open Cert.ReferenceIdeal Cert.Spec

variable [Facts]
open Facts₀ Facts

/-- THE NETWORK ON THE GATHERED PAIRS READ AT p: the specification's value at the pair (f_i p, f_j p). -/
theorem refV_apply (x : FVec Ideal S1024 .f32) (W1 : FVec Ideal S128x2 .f32) (b1 : FVec Ideal S128 .f32)
    (W2 : FVec Ideal S32x128 .f32) (b2 : FVec Ideal S32 .f32) (W3 : FVec Ideal S1x32 .f32) (b3 : FVec Ideal S1 .f32)
    (iu ju : IVec S524800 32) (fi fj : Fin 524800 → Fin 1024)
    (hi : ∀ p, iu (ix1 p) = BitVec.ofNat 32 (fi p).val) (hj : ∀ p, ju (ix1 p) = BitVec.ofNat 32 (fj p).val)
    (p : Fin 524800) :
    refV (F := Ideal) x W1 b1 W2 b2 W3 b3 iu ju (ix1 p)
      = pairv (fun i => x (ix1 i)) (fun k c => W1 (ix2 k c)) (fun k => b1 (ix1 k)) (fun o k => W2 (ix2 o k))
          (fun o => b2 (ix1 o)) (fun o => W3 (ix2 (0 : Fin 1) o)) (b3 (ix1 (0 : Fin 1))) (fi p) (fj p) := by
  unfold refV
  rw [refH3_apply]
  unfold pairv
  refine congrArg (fun z => z + b3 (ix1 (0 : Fin 1))) (Finset.sum_congr rfl fun o _ => ?_)
  rw [refH2_apply]
  unfold hid2
  refine congrArg (fun z => max (z + b2 (ix1 o)) 0 * W3 (ix2 (0 : Fin 1) o)) (Finset.sum_congr rfl fun k _ => ?_)
  rw [refH1_apply x W1 b1 iu ju fi fj hi hj p k]

/-- THE MATRIX OF THE NETWORK'S VALUES: when the pairs run once through all (i, j) with i ≤ j, the scattered matrix
    is the specification's K. -/
theorem refK_refV_apply (x : FVec Ideal S1024 .f32) (W1 : FVec Ideal S128x2 .f32) (b1 : FVec Ideal S128 .f32)
    (W2 : FVec Ideal S32x128 .f32) (b2 : FVec Ideal S32 .f32) (W3 : FVec Ideal S1x32 .f32) (b3 : FVec Ideal S1 .f32)
    (iu ju : IVec S524800 32) (fi fj : Fin 524800 → Fin 1024)
    (hi : ∀ p, iu (ix1 p) = BitVec.ofNat 32 (fi p).val) (hj : ∀ p, ju (ix1 p) = BitVec.ofNat 32 (fj p).val)
    (hle : ∀ p, fi p ≤ fj p) (hinj : Function.Injective fun p => (fi p, fj p))
    (hsurj : ∀ i j : Fin 1024, i ≤ j → ∃ p, fi p = i ∧ fj p = j) (i j : Fin 1024) :
    refK (F := Ideal) (refV (F := Ideal) x W1 b1 W2 b2 W3 b3 iu ju) iu ju (ix2 i j)
      = Kmat (fun i => x (ix1 i)) (fun k c => W1 (ix2 k c)) (fun k => b1 (ix1 k)) (fun o k => W2 (ix2 o k))
          (fun o => b2 (ix1 o)) (fun o => W3 (ix2 (0 : Fin 1) o)) (b3 (ix1 (0 : Fin 1))) i j :=
  refK_apply _ iu ju fi fj hi hj hle hinj hsurj
    (pairv (fun i => x (ix1 i)) (fun k c => W1 (ix2 k c)) (fun k => b1 (ix1 k)) (fun o k => W2 (ix2 o k))
      (fun o => b2 (ix1 o)) (fun o => W3 (ix2 (0 : Fin 1) o)) (b3 (ix1 (0 : Fin 1))))
    (fun p => refV_apply x W1 b1 W2 b2 W3 b3 iu ju fi fj hi hj p) i j

/-- THE WHOLE FLOAT PIPELINE READ AT (m, n): (σ·σ) times the sum over k of K[k, m] · K[k, n] for the specification's K. -/
theorem refFloat_apply (x : FVec Ideal S1024 .f32) (W1 : FVec Ideal S128x2 .f32) (b1 : FVec Ideal S128 .f32)
    (W2 : FVec Ideal S32x128 .f32) (b2 : FVec Ideal S32 .f32) (W3 : FVec Ideal S1x32 .f32) (b3 : FVec Ideal S1 .f32)
    (s : FVec Ideal S1 .f32) (iu ju : IVec S524800 32) (fi fj : Fin 524800 → Fin 1024)
    (hi : ∀ p, iu (ix1 p) = BitVec.ofNat 32 (fi p).val) (hj : ∀ p, ju (ix1 p) = BitVec.ofNat 32 (fj p).val)
    (hle : ∀ p, fi p ≤ fj p) (hinj : Function.Injective fun p => (fi p, fj p))
    (hsurj : ∀ i j : Fin 1024, i ≤ j → ∃ p, fi p = i ∧ fj p = j) (m n : Fin 1024) :
    refOut (F := Ideal) (refK (F := Ideal) (refV (F := Ideal) x W1 b1 W2 b2 W3 b3 iu ju) iu ju) s (ix2 m n)
      = outR (s (ix1 (0 : Fin 1)))
          (Kmat (fun i => x (ix1 i)) (fun k c => W1 (ix2 k c)) (fun k => b1 (ix1 k)) (fun o k => W2 (ix2 o k))
            (fun o => b2 (ix1 o)) (fun o => W3 (ix2 (0 : Fin 1) o)) (b3 (ix1 (0 : Fin 1)))) m n := by
  rw [refOut_apply]
  exact congrArg (fun K => outR (s (ix1 (0 : Fin 1))) K m n)
    (funext fun i => funext fun j => refK_refV_apply x W1 b1 W2 b2 W3 b3 iu ju fi fj hi hj hle hinj hsurj i j)

end Cert.ReferenceIdeal.Hand

end
-- ==== Proof.RefValue.lean ====
/-
  The reference program's value, composed.

  The integer index pipeline yields, at position p of the pair list, the words of the row and the column of the
  (p + 1)-th kept position of the upper triangle in row-major order; these pairs have row at most column, are pairwise
  distinct and exhaust the upper triangle.  Fed to the float pipeline — gather the times at the pairs, run the network on
  every pair, write the values over the identity matrix at the pairs, multiply (σ·σ) by KᵀK — the result at (m, n) is
  (σ·σ) times the sum over k of K[k, m] · K[k, n] for the specification's matrix K.
-/
import proofs.«163482_j91182155694480_1_alg».proof.Proof.RefInt
import proofs.«163482_j91182155694480_1_alg».proof.Proof.RefFloat
import proofs.«163482_j91182155694480_1_alg».proof.Proof.Tri

noncomputable section

open scoped BigOperators

namespace Cert.ReferenceIdeal.Hand

open Idealize.ShloMosaic Idealize.ShloMosaic.ValueIdx
open Cert.ReferenceIdeal Cert.Spec

variable [Facts]
open Facts₀ Facts

/-- The reference program's result as a function of its eight inputs: the float pipeline run at the row and column
    numbers the integer pipeline computes. -/
def refResult (a0 : FVec Ideal S1024 .f32) (a1 : FVec Ideal S128x2 .f32) (a2 : FVec Ideal S128 .f32)
    (a3 : FVec Ideal S32x128 .f32) (a4 : FVec Ideal S32 .f32) (a5 : FVec Ideal S1x32 .f32)
    (a6 : FVec Ideal S1 .f32) (a7 : FVec Ideal S1 .f32) : FVec Ideal S1024x1024 .f32 :=
  refOut (F := Ideal) (refK (F := Ideal) (refV (F := Ideal) a0 a1 a2 a3 a4 a5 a6 refIu' refJu') refIu' refJu') a7

/-- THE REFERENCE PROGRAM'S RESULT READ AT (m, n): (σ·σ) times the sum over k of K[k, m] · K[k, n] for the
    specification's K on the inputs' entries. -/
theorem refResult_apply (a0 : FVec Ideal S1024 .f32) (a1 : FVec Ideal S128x2 .f32) (a2 : FVec Ideal S128 .f32)
    (a3 : FVec Ideal S32x128 .f32) (a4 : FVec Ideal S32 .f32) (a5 : FVec Ideal S1x32 .f32)
    (a6 : FVec Ideal S1 .f32) (a7 : FVec Ideal S1 .f32) (m n : Fin 1024) :
    refResult a0 a1 a2 a3 a4 a5 a6 a7 (ix2 m n)
      = outR (a7 (ix1 (0 : Fin 1)))
          (Kmat (fun i => a0 (ix1 i)) (fun k c => a1 (ix2 k c)) (fun k => a2 (ix1 k)) (fun o k => a3 (ix2 o k))
            (fun o => a4 (ix1 o)) (fun o => a5 (ix2 (0 : Fin 1) o)) (a6 (ix1 (0 : Fin 1)))) m n := by
  unfold refResult
  exact refFloat_apply a0 a1 a2 a3 a4 a5 a6 a7 refIu' refJu'
    (fun p : Fin 524800 => Cert.Tri.iu p) (fun p : Fin 524800 => Cert.Tri.ju p)
    refIu_apply refJu_apply (fun p => Cert.Tri.iu_le_ju p) Cert.Tri.pair_inj
    (fun i j h => Cert.Tri.pair_surj i j h) m n

end Cert.ReferenceIdeal.Hand

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.SpecLaw.lean ====
/-
  The algebra joining the two spellings of the result, and closure of the reals under the network.

  Over the reals, the sum over k of (σ K[k,m]) (σ K[k,n]) equals (σ σ) times the sum over k of K[k,m] K[k,n]:
  a product moved across a finite sum. On the extended reals this needs every value to be a real, so the
  second half shows that the pairwise network, and hence the matrix K, is real wherever its inputs are.
-/
import proofs.«163482_j91182155694480_1_alg».proof.Proof.Spec
import proofs.«163482_j91182155694480_1_alg».proof.Proof.LibRealOps
import Mathlib

noncomputable section

namespace Cert.Spec

open Idealize.ShloMosaic ProofLib.RealOps

/-- The scale moved across a finite sum, over any finite index type, for real entries. -/
theorem scaled_gram_eq {ι : Type*} [Fintype ι] (s : ℝ) (a b : ι → ℝ) :
    ∑ k : ι, ((s : EReal) * (a k : EReal)) * ((s : EReal) * (b k : EReal))
      = ((s : EReal) * (s : EReal)) * ∑ k : ι, (a k : EReal) * (b k : EReal) := by
  have h1 : ∀ k : ι, ((s : EReal) * (a k : EReal)) * ((s : EReal) * (b k : EReal))
      = (((s * a k) * (s * b k) : ℝ) : EReal) := by
    intro k
    rw [EReal.coe_mul, EReal.coe_mul, EReal.coe_mul]
  rw [Finset.sum_congr rfl (fun k _ => h1 k), ← coe_sum, dot_coe, ← EReal.coe_mul, ← EReal.coe_mul]
  congr 1
  rw [Finset.mul_sum]
  exact Finset.sum_congr rfl fun k _ => by ring

/-- The two spellings of σ² · KᵀK agree wherever σ and every entry of K are reals. -/
theorem outK_eq_outR (σ : EReal) (K : Fin 1024 → Fin 1024 → EReal) (hσ : ∃ s : ℝ, σ = (s : EReal))
    (hK : ∀ i j, ∃ r : ℝ, K i j = (r : EReal)) (m n : Fin 1024) : outK σ K m n = outR σ K m n := by
  obtain ⟨s, rfl⟩ := hσ
  choose r hr using hK
  unfold outK outR
  simp only [hr]
  exact scaled_gram_eq s (fun k => r k m) (fun k => r k n)

/-- The first layer of a real pair is a real. -/
theorem hid1_real (x : Fin 1024 → EReal) (W1 : Fin 128 → Fin 2 → EReal) (b1 : Fin 128 → EReal)
    (hx : ∀ i, ∃ r : ℝ, x i = (r : EReal)) (hW1 : ∀ k c, ∃ r : ℝ, W1 k c = (r : EReal))
    (hb1 : ∀ k, ∃ r : ℝ, b1 k = (r : EReal)) (i j : Fin 1024) (k : Fin 128) :
    ∃ r : ℝ, hid1 x W1 b1 i j k = (r : EReal) := by
  obtain ⟨a, ha⟩ := hx i
  obtain ⟨b, hb⟩ := hx j
  obtain ⟨w0, hw0⟩ := hW1 k 0
  obtain ⟨w1, hw1⟩ := hW1 k 1
  obtain ⟨c, hc⟩ := hb1 k
  refine ⟨Real.tanh ((a * w0 + c) + b * w1), ?_⟩
  unfold hid1
  rw [ha, hb, hw0, hw1, hc, ← EReal.coe_mul, ← EReal.coe_mul, ← EReal.coe_add, ← EReal.coe_add, Ideal.tanh_coe]

/-- The second layer of a real pair is a real. -/
theorem hid2_real (x : Fin 1024 → EReal) (W1 : Fin 128 → Fin 2 → EReal) (b1 : Fin 128 → EReal)
    (W2 : Fin 32 → Fin 128 → EReal) (b2 : Fin 32 → EReal)
    (hx : ∀ i, ∃ r : ℝ, x i = (r : EReal)) (hW1 : ∀ k c, ∃ r : ℝ, W1 k c = (r : EReal))
    (hb1 : ∀ k, ∃ r : ℝ, b1 k = (r : EReal)) (hW2 : ∀ o k, ∃ r : ℝ, W2 o k = (r : EReal))
    (hb2 : ∀ o, ∃ r : ℝ, b2 o = (r : EReal)) (i j : Fin 1024) (o : Fin 32) :
    ∃ r : ℝ, hid2 x W1 b1 W2 b2 i j o = (r : EReal) := by
  choose h hh using hid1_real x W1 b1 hx hW1 hb1 i j
  choose w hw using hW2
  obtain ⟨c, hc⟩ := hb2 o
  refine ⟨max ((∑ k : Fin 128, h k * w o k) + c) 0, ?_⟩
  unfold hid2
  simp only [hh, hw]
  rw [hc, dot_coe, ← EReal.coe_add, ← EReal.coe_zero, ← coe_max]

/-- The network's output at a real pair is a real. -/
theorem pairv_real (x : Fin 1024 → EReal) (W1 : Fin 128 → Fin 2 → EReal) (b1 : Fin 128 → EReal)
    (W2 : Fin 32 → Fin 128 → EReal) (b2 : Fin 32 → EReal) (W3 : Fin 32 → EReal) (b3 : EReal)
    (hx : ∀ i, ∃ r : ℝ, x i = (r : EReal)) (hW1 : ∀ k c, ∃ r : ℝ, W1 k c = (r : EReal))
    (hb1 : ∀ k, ∃ r : ℝ, b1 k = (r : EReal)) (hW2 : ∀ o k, ∃ r : ℝ, W2 o k = (r : EReal))
    (hb2 : ∀ o, ∃ r : ℝ, b2 o = (r : EReal)) (hW3 : ∀ o, ∃ r : ℝ, W3 o = (r : EReal))
    (hb3 : ∃ r : ℝ, b3 = (r : EReal)) :
    ∀ i j, ∃ r : ℝ, pairv x W1 b1 W2 b2 W3 b3 i j = (r : EReal) := by
  intro i j
  choose h hh using hid2_real x W1 b1 W2 b2 hx hW1 hb1 hW2 hb2 i j
  choose w hw using hW3
  obtain ⟨c, hc⟩ := hb3
  refine ⟨(∑ o : Fin 32, h o * w o) + c, ?_⟩
  unfold pairv
  simp only [hh, hw]
  rw [hc, dot_coe, ← EReal.coe_add]

/-- Every entry of the matrix K is a real: one, the network at a real pair, or zero. -/
theorem Kmat_real (x : Fin 1024 → EReal) (W1 : Fin 128 → Fin 2 → EReal) (b1 : Fin 128 → EReal)
    (W2 : Fin 32 → Fin 128 → EReal) (b2 : Fin 32 → EReal) (W3 : Fin 32 → EReal) (b3 : EReal)
    (hx : ∀ i, ∃ r : ℝ, x i = (r : EReal)) (hW1 : ∀ k c, ∃ r : ℝ, W1 k c = (r : EReal))
    (hb1 : ∀ k, ∃ r : ℝ, b1 k = (r : EReal)) (hW2 : ∀ o k, ∃ r : ℝ, W2 o k = (r : EReal))
    (hb2 : ∀ o, ∃ r : ℝ, b2 o = (r : EReal)) (hW3 : ∀ o, ∃ r : ℝ, W3 o = (r : EReal))
    (hb3 : ∃ r : ℝ, b3 = (r : EReal)) :
    ∀ i j, ∃ r : ℝ, Kmat x W1 b1 W2 b2 W3 b3 i j = (r : EReal) := by
  intro i j
  unfold Kmat
  by_cases hij : i = j
  · exact ⟨1, by rw [if_pos hij, EReal.coe_one]⟩
  · by_cases hlt : i < j
    · obtain ⟨r, hr⟩ := pairv_real x W1 b1 W2 b2 W3 b3 hx hW1 hb1 hW2 hb2 hW3 hb3 i j
      exact ⟨r, by rw [if_neg hij, if_pos hlt, hr]⟩
    · exact ⟨0, by rw [if_neg hij, if_neg hlt, EReal.coe_zero]⟩

end Cert.Spec

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.PreReal.lean ====
/-
  From the precondition to "every entry of every input is a real".

  The precondition is a conjunction of eight tests, one per input array, each saying that every entry's absolute
  value lies below +∞. An extended real whose absolute value is below ⊤ is neither ⊤ nor ⊥, hence a real. The
  conjunction is an `and` of one-bit flags, which is 1 exactly when each flag is 1.
-/
import proofs.«163482_j91182155694480_1_alg».proof.Pre_finite_inputs
import proofs.«163482_j91182155694480_1_alg».proof.Proof.LibFiniteEntry
import Idealize.ShloMosaic.PureOps.Ideal
import Idealize.ShloMosaic.Lib.ValueIdx
import Idealize.ShloMosaic.Lib.ReduceAll

noncomputable section

namespace Cert.KernelIdeal.Hand

open Idealize.ShloMosaic Cert.Pre_finite_inputs

/-- The shape with no axes has exactly one index. -/
instance subsingleton_scalar_idx : Subsingleton S_.Idx := ⟨fun a b => funext fun d => d.elim0⟩

/-- One test: if "every |entry| < +∞" holds of an array of any shape, every entry of it is a real. -/
theorem real_of_test {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, (x i : EReal) = (r : EReal) :=
  fun i => ProofLib.Finite.all_real_of_all_abs_lt_inf x
    (broadcastInDim s ![] hb (constant (F := Ideal) S_ .f32 0x7F800000#32)) (fun _ => rfl)
    (constantI S_ 1 1#1) hr hu ValueIdx.ix0 e i

/-- The precondition, true, says every entry of each of the eight inputs is a real. -/
theorem real_of_pre [Cert.Pre_finite_inputs.Facts] (a0 : FVec Ideal S1024 .f32) (a1 : FVec Ideal S128x2 .f32)
    (a2 : FVec Ideal S128 .f32) (a3 : FVec Ideal S32x128 .f32) (a4 : FVec Ideal S32 .f32)
    (a5 : FVec Ideal S1x32 .f32) (a6 : FVec Ideal S1 .f32) (a7 : FVec Ideal S1 .f32)
    (h : Cert.Pre_finite_inputs.fn (F := Ideal) a0 a1 a2 a3 a4 a5 a6 a7 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal))
      ∧ (∀ i, ∃ r : ℝ, (a4 i : EReal) = (r : EReal)) ∧ (∀ i, ∃ r : ℝ, (a5 i : EReal) = (r : EReal))
      ∧ (∀ i, ∃ r : ℝ, (a6 i : EReal) = (r : EReal)) ∧ (∀ i, ∃ r : ℝ, (a7 i : EReal) = (r : EReal)) := by
  have h0 := congrFun h ValueIdx.ix0
  unfold Cert.Pre_finite_inputs.fn Cert.Pre_finite_inputs.fn_part1 Cert.Pre_finite_inputs.fn_part2 at h0
  dsimp only at h0
  obtain ⟨h33, e7⟩ := IntOp.andi_eq_one.1 h0
  obtain ⟨h28, e6⟩ := IntOp.andi_eq_one.1 h33
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨real_of_test a0 _ _ _ e0, real_of_test a1 _ _ _ e1, real_of_test a2 _ _ _ e2, real_of_test a3 _ _ _ e3,
    real_of_test a4 _ _ _ e4, real_of_test a5 _ _ _ e5, real_of_test a6 _ _ _ e6, real_of_test a7 _ _ _ e7⟩

end Cert.KernelIdeal.Hand

end
-- ==== Proof.Alg.lean ====
/-
  The value conjunct, assembled.

  Both programs run. The kernel program's result is, entry by entry, the sum over k of (σ K[k,m]) (σ K[k,n]); the
  reference program's is (σ σ) times the sum over k of K[k,m] K[k,n], for the same matrix K of the same (agreeing)
  arguments. Under the precondition σ and every entry of K are reals, so the factor moves across the finite sum and
  the two results are equal at every entry. The one fact taken as a hypothesis here is what the reference program's
  operations leave in its result buffer, as a function of its eight argument buffers.
-/
import proofs.«163482_j91182155694480_1_alg».proof.Defs
import proofs.«163482_j91182155694480_1_alg».proof.Proof.Gen.KernelIdeal
import proofs.«163482_j91182155694480_1_alg».proof.Proof.Gen.ReferenceIdeal
import proofs.«163482_j91182155694480_1_alg».proof.Proof.Gen.Pre_finite_inputs
import proofs.«163482_j91182155694480_1_alg».proof.Proof.KValue
import proofs.«163482_j91182155694480_1_alg».proof.Proof.RefRun
import proofs.«163482_j91182155694480_1_alg».proof.Proof.RefValue
import proofs.«163482_j91182155694480_1_alg».proof.Proof.SpecLaw
import proofs.«163482_j91182155694480_1_alg».proof.Proof.PreReal

set_option maxRecDepth 16384

noncomputable section

namespace Cert.Proof

open Idealize.ShloMosaic Idealize.SL.Sem Idealize.ShloMosaic.TcCoe Idealize.ShloMosaic.ValueIdx

/-- The two spellings agree on real inputs: (σ σ) Σₖ K[k,m] K[k,n] = Σₖ (σ K[k,m]) (σ K[k,n]) for the matrix K of
    arrays whose every entry is a real. -/
theorem outR_eq_outK_of_real (x : Fin 1024 → EReal) (W1 : Fin 128 → Fin 2 → EReal) (b1 : Fin 128 → EReal)
    (W2 : Fin 32 → Fin 128 → EReal) (b2 : Fin 32 → EReal) (W3 : Fin 32 → EReal) (b3 σ : EReal)
    (hx : ∀ i, ∃ r : ℝ, x i = (r : EReal)) (hW1 : ∀ k c, ∃ r : ℝ, W1 k c = (r : EReal))
    (hb1 : ∀ k, ∃ r : ℝ, b1 k = (r : EReal)) (hW2 : ∀ o k, ∃ r : ℝ, W2 o k = (r : EReal))
    (hb2 : ∀ o, ∃ r : ℝ, b2 o = (r : EReal)) (hW3 : ∀ o, ∃ r : ℝ, W3 o = (r : EReal))
    (hb3 : ∃ r : ℝ, b3 = (r : EReal)) (hσ : ∃ s : ℝ, σ = (s : EReal)) (gm gn : Fin 1024) :
    Cert.Spec.outR σ (Cert.Spec.Kmat x W1 b1 W2 b2 W3 b3) gm gn = Cert.Spec.outK σ (Cert.Spec.Kmat x W1 b1 W2 b2 W3 b3) gm gn :=
  (Cert.Spec.outK_eq_outR σ _ hσ (Cert.Spec.Kmat_real x W1 b1 W2 b2 W3 b3 hx hW1 hb1 hW2 hb2 hW3 hb3) gm gn).symm

/-- The value conjunct, from what the reference program's operations leave in its result buffer. -/
theorem algebraic_of
    (hres : ∀ V : Valuation Cert.ReferenceIdeal.τ Cert.ReferenceIdeal.sig (Elt Ideal),
      StableHlo.after (Cert.ReferenceIdeal.Hand.ops (F := Ideal)) V (Proc.devRef .tc Cert.ReferenceIdeal.main_v82)
        = Cert.ReferenceIdeal.Hand.refResult (V (Proc.devRef .tc Cert.ReferenceIdeal.main_arg0))
            (V (Proc.devRef .tc Cert.ReferenceIdeal.main_arg1)) (V (Proc.devRef .tc Cert.ReferenceIdeal.main_arg2))
            (V (Proc.devRef .tc Cert.ReferenceIdeal.main_arg3)) (V (Proc.devRef .tc Cert.ReferenceIdeal.main_arg4))
            (V (Proc.devRef .tc Cert.ReferenceIdeal.main_arg5)) (V (Proc.devRef .tc Cert.ReferenceIdeal.main_arg6))
            (V (Proc.devRef .tc Cert.ReferenceIdeal.main_arg7))) :
    @Cert.algebraic_KernelIdeal_ReferenceIdeal Cert.KernelIdeal.Gen.facts Cert.ReferenceIdeal.Gen.facts
      Cert.Pre_finite_inputs.Gen.facts := by
  intro m ρ m' ρ' hpre hagree
  refine ⟨fun c => (Cert.KernelIdeal.Hand.dat1 (Cert.KernelIdeal.Hand.V2 m ρ) c).arrAt 2 Cert.KernelIdeal.cfg1.N,
    Cert.KernelIdeal.Hand.run_named (F := Ideal) m ρ, ?_⟩
  refine (θ_run (Cert.ReferenceIdeal.defs (F := Ideal)) _ _).mono (fun _ h c => ⟨(h c).1.trans ?_, (h c).2⟩)
    (Cert.ReferenceIdeal.Hand.run (F := Ideal) m' ρ')
  obtain ⟨a0, a1, a2, a3, a4, a5, a6, a7⟩ := hagree c
  obtain ⟨h0, h1, h2, h3, h4, h5, h6, h7⟩ := Cert.KernelIdeal.Hand.real_of_pre _ _ _ _ _ _ _ _ (hpre c)
  refine (hres _).trans ?_
  show Cert.ReferenceIdeal.Hand.refResult
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [a0, a1, a2, a3, a4, a5, a6, a7]
  refine funext fun idx => ?_
  obtain ⟨gm, gn, rfl⟩ : ∃ gm gn : Fin 1024, idx = ix2 gm gn := ⟨idx 0, idx 1, eq_ix2 idx⟩
  refine (Cert.ReferenceIdeal.Hand.refResult_apply _ _ _ _ _ _ _ _ gm gn).trans ?_
  refine Eq.trans ?_ (Cert.KernelIdeal.Hand.out_apply m ρ c gm gn).symm
  exact outR_eq_outK_of_real _ _ _ _ _ _ _ _ (fun i => h0 (ix1 i)) (fun k c2 => h1 (ix2 k c2)) (fun k => h2 (ix1 k))
    (fun o k => h3 (ix2 o k)) (fun o => h4 (ix1 o)) (fun o => h5 (ix2 0 o)) (h6 (ix1 0)) (h7 (ix1 0)) gm gn

end Cert.Proof

end
-- ==== Proof.RefRunInt.lean ====
/- The reference program's integer stretch, stage by stage: the operations up to the row and column numbers, cut where
   the closed values of the index pipeline are cut, and for each cut the value its operations leave in its buffer,
   from any contents, as that closed value of what the cut reads. -/
import proofs.«163482_j91182155694480_1_alg».proof.Proof.RefIntDefs
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- An operation whose one written buffer is in a list writes inside the list. -/
theorem ws {op : HloOp τ sig (Elt F)} (y : Ref sig .tc) (hw : op.writes = {Proc.devRef .tc y})
    {A : List (Ref sig .tc)} (hy : y ∈ A) :
    op.writes ⊆ (A.map (Proc.devRef (τ := τ) .tc)).toFinset := by
  rw [hw, Finset.singleton_subset_iff, List.mem_toFinset]
  exact List.mem_map_of_mem hy

/-- The operations computing the upper-triangle mask. -/
abbrev opsA : List (HloOp τ sig (Elt F)) :=
  [
    StableHlo.nullary main_cst (constant S_ .f32 0x3F800000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.TRef.nullary main_call0.v0 (iotaInDim S1024x1024 32 0),
    StableHlo.TRef.nullary main_call0.c (constantI S_ 32 4294967295#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 main_call0.v5 (.of main_v0 : StableHlo.TRef sig ⟨S1024x1024, .f32⟩) main_call0.v6 select,
    StableHlo.nullary main_cst_0 (constant S_ .f32 0x00000000#32),
    StableHlo.unary main_cst_0 main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)) ]

/-- The buffers those operations write. -/
abbrev opsA_W : List (Ref sig .tc) :=
  [main_cst, main_v0, main_call0.v0.ref, main_call0.c.ref, main_call0.v1.ref, main_call0.v2.ref, main_call0.v3.ref, main_call0.v4.ref, main_call0.cst.ref, main_call0.v5.ref, main_call0.v6.ref, main_cst_0, main_v2, main_v3]

theorem opsA_writes : (opsA : List (HloOp τ sig (Elt F))).Forall fun op =>
    op.writes ⊆ (opsA_W.map (Proc.devRef (τ := τ) .tc)).toFinset :=
  ⟨
    ws main_cst rfl (by decide), ws main_v0 rfl (by decide), ws main_call0.v0.ref rfl (by decide), ws main_call0.c.ref rfl (by decide),
    ws main_call0.v1.ref rfl (by decide), ws main_call0.v2.ref rfl (by decide), ws main_call0.v3.ref rfl (by decide), ws main_call0.v4.ref rfl (by decide),
    ws main_call0.cst.ref rfl (by decide), ws main_call0.v5.ref rfl (by decide), ws main_call0.v6.ref rfl (by decide), ws main_cst_0 rfl (by decide),
    ws main_v2 rfl (by decide), ws main_v3 rfl (by decide)⟩

/-- A buffer those operations do not write keeps its contents through them. -/
theorem keepA (W : Valuation τ sig (Elt F)) (r : Ref sig .tc) (h : r ∉ opsA_W) :
    after opsA W (Proc.devRef .tc r) = W (Proc.devRef .tc r) :=
  after_of_writes_sub opsA W opsA_writes h

/-- The same operations over any values of their five constants. -/
abbrev opsA' (r0 r1 : IVec S1024x1024 32) (cm1 : IVec S_ 32) (z o : FVec F S_ .f32) : List (HloOp τ sig (Elt F)) :=
  [
    StableHlo.nullary main_cst o,
    StableHlo.unary main_cst main_v0 (broadcastInDim S1024x1024 ![] bcast_S_S1024x1024 : (⟨S_, .f32⟩ : BufTy).Contents (Elt F) → (⟨S1024x1024, .f32⟩ : BufTy).Contents (Elt F)),
    StableHlo.TRef.nullary main_call0.v0 r0,
    StableHlo.TRef.nullary main_call0.c cm1,
    StableHlo.TRef.unary main_call0.c main_call0.v1 (broadcastInDim S1024x1024 ![] bcast_S_S1024x1024),
    StableHlo.TRef.binary main_call0.v0 main_call0.v1 main_call0.v2 addi,
    StableHlo.TRef.nullary main_call0.v3 r1,
    StableHlo.TRef.binary main_call0.v2 main_call0.v3 main_call0.v4 (cmpi .sge),
    StableHlo.TRef.nullary main_call0.cst z,
    StableHlo.TRef.unary main_call0.cst main_call0.v5 (broadcastInDim S1024x1024 ![] bcast_S_S1024x1024),
    StableHlo.TRef.ternary main_call0.v4 main_call0.v5 (.of main_v0 : StableHlo.TRef sig ⟨S1024x1024, .f32⟩) main_call0.v6 select,
    StableHlo.nullary main_cst_0 z,
    StableHlo.unary main_cst_0 main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)) ]

set_option maxRecDepth 8192 in
set_option maxHeartbeats 2000000 in
/-- From any contents, whatever the five constants are, the operations leave in the mask's buffer the comparison with
    the second zero of the selection between the first zero and the one, by "row + constant ≥ column". -/
theorem stageA' (r0 r1 : IVec S1024x1024 32) (cm1 : IVec S_ 32) (z o : FVec F S_ .f32) (W : Valuation τ sig (Elt F)) :
    after (opsA' r0 r1 cm1 z o) W (Proc.devRef .tc main_v3)
      = cmpf .une
          (select (cmpi .sge (addi r0 (broadcastInDim S1024x1024 ![] bcast_S_S1024x1024 cm1)) r1) (broadcastInDim S1024x1024 ![] bcast_S_S1024x1024 z) (broadcastInDim S1024x1024 ![] bcast_S_S1024x1024 o))
          (broadcastInDim S1024x1024 ![] bcast_S_S1024x1024 z) := by
  simp only [opsA']
  after_results_simp
  try simp only [cast_eq]
  all_goals rfl

/-- From any contents, the operations leave the upper-triangle mask in its buffer. -/
theorem stageA (W : Valuation τ sig (Elt F)) :
    after opsA W (Proc.devRef .tc main_v3) = refMask (F := F) :=
  stageA' (iotaInDim S1024x1024 32 0) (iotaInDim S1024x1024 32 1) (constantI S_ 32 4294967295#32)
    (constant S_ .f32 0x00000000#32) (constant S_ .f32 0x3F800000#32) W

/-- The operations computing the mask's running count. -/
abbrev opsB : List (HloOp τ sig (Elt F)) :=
  [
    StableHlo.TRef.reshape (.of main_v3 : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1048576] ![1] ![1048575] ![0] x v reduceWindows_S1048576_S1048576_w1048576s1p1048575_0 h_S_) ]

/-- The buffers those operations write. -/
abbrev opsB_W : List (Ref sig .tc) :=
  [main_call1.v0.ref, main_call1.v1.ref, main_call1.call0.c.ref, main_call1.call0.v0.ref, main_call1.call0.v1.ref]

theorem opsB_writes : (opsB : List (HloOp τ sig (Elt F))).Forall fun op =>
    op.writes ⊆ (opsB_W.map (Proc.devRef (τ := τ) .tc)).toFinset :=
  ⟨
    ws main_call1.v0.ref rfl (by decide), ws main_call1.v1.ref rfl (by decide), ws main_call1.call0.c.ref rfl (by decide), ws main_call1.call0.v0.ref rfl (by decide),
    ws main_call1.call0.v1.ref rfl (by decide)⟩

/-- A buffer those operations do not write keeps its contents through them. -/
theorem keepB (W : Valuation τ sig (Elt F)) (r : Ref sig .tc) (h : r ∉ opsB_W) :
    after opsB W (Proc.devRef .tc r) = W (Proc.devRef .tc r) :=
  after_of_writes_sub opsB W opsB_writes h

set_option maxRecDepth 8192 in
set_option maxHeartbeats 2000000 in
/-- From any contents, the operations leave the mask's running count in its buffer. -/
theorem stageB (W : Valuation τ sig (Elt F)) :
    after opsB W (Proc.devRef .tc main_v4) = refCs (W (Proc.devRef .tc main_v3)) := by
  simp only [opsB]
  after_results_simp
  try simp only [cast_eq]
  all_goals rfl

/-- The operations computing the count of positions per running-count value. -/
abbrev opsC : List (HloOp τ sig (Elt F)) :=
  [
    StableHlo.nullary main_c (constantI S_ 32 0#32),
    StableHlo.unary main_c main_v5 (broadcastInDim S524800 ![] bcast_S_S524800 : (⟨S_, .i32⟩ : BufTy).Contents (Elt F) → (⟨S524800, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1048576 ![] bcast_S_S1048576),
    StableHlo.TRef.binary main_call2.v1 (.of main_v4 : StableHlo.TRef sig ⟨S1048576, .i32⟩) main_call2.v2 maxsi,
    StableHlo.nullary main_c_2 (constantI S_ 32 0#32),
    StableHlo.unary main_c_2 main_v7 (broadcastInDim S1048576 ![] bcast_S_S1048576 : (⟨S_, .i32⟩ : BufTy).Contents (Elt F) → (⟨S1048576, .i32⟩ : BufTy).Contents (Elt F)),
    StableHlo.binary main_v6 main_v7 main_v8 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 524800#32),
    StableHlo.unary main_c_3 main_v9 (broadcastInDim S1048576 ![] bcast_S_S1048576 : (⟨S_, .i32⟩ : BufTy).Contents (Elt F) → (⟨S1048576, .i32⟩ : BufTy).Contents (Elt F)),
    StableHlo.binary main_v6 main_v9 main_v10 (addi : (⟨S1048576, .i32⟩ : BufTy).Contents (Elt F) → (⟨S1048576, .i32⟩ : BufTy).Contents (Elt F) → (⟨S1048576, .i32⟩ : BufTy).Contents (Elt F)),
    StableHlo.ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v11 main_v12 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v13 (broadcastInDim S1048576 ![] bcast_S_S1048576 : (⟨S_, .i32⟩ : BufTy).Contents (Elt F) → (⟨S1048576, .i32⟩ : BufTy).Contents (Elt F)),
    StableHlo.ternary main_v5 main_v12 main_v13 main_v14 ((fun x i u => Host.scatter scatter_S524800_S1048576x1_S1048576_n_0_0_1 IntOp.addi x i u) : (⟨S524800, .i32⟩ : BufTy).Contents (Elt F) → (⟨S1048576x1, .i32⟩ : BufTy).Contents (Elt F) → (⟨S1048576, .i32⟩ : BufTy).Contents (Elt F) → (⟨S524800, .i32⟩ : BufTy).Contents (Elt F)) ]

/-- The buffers those operations write. -/
abbrev opsC_W : List (Ref sig .tc) :=
  [main_c, main_v5, main_c_1, main_call2.v0.ref, main_call2.v1.ref, main_call2.v2.ref, main_c_2, main_v7, main_v8, main_c_3, main_v9, main_v10, main_v11, main_v12, main_c_4, main_v13, main_v14]

theorem opsC_writes : (opsC : List (HloOp τ sig (Elt F))).Forall fun op =>
    op.writes ⊆ (opsC_W.map (Proc.devRef (τ := τ) .tc)).toFinset :=
  ⟨
    ws main_c rfl (by decide), ws main_v5 rfl (by decide), ws main_c_1 rfl (by decide), ws main_call2.v0.ref rfl (by decide),
    ws main_call2.v1.ref rfl (by decide), ws main_call2.v2.ref rfl (by decide), ws main_c_2 rfl (by decide), ws main_v7 rfl (by decide),
    ws main_v8 rfl (by decide), ws main_c_3 rfl (by decide), ws main_v9 rfl (by decide), ws main_v10 rfl (by decide),
    ws main_v11 rfl (by decide), ws main_v12 rfl (by decide), ws main_c_4 rfl (by decide), ws main_v13 rfl (by decide),
    ws main_v14 rfl (by decide)⟩

/-- A buffer those operations do not write keeps its contents through them. -/
theorem keepC (W : Valuation τ sig (Elt F)) (r : Ref sig .tc) (h : r ∉ opsC_W) :
    after opsC W (Proc.devRef .tc r) = W (Proc.devRef .tc r) :=
  after_of_writes_sub opsC W opsC_writes h

set_option maxRecDepth 8192 in
set_option maxHeartbeats 2000000 in
/-- From any contents, the operations leave the count of positions per running-count value in its buffer. -/
theorem stageC (W : Valuation τ sig (Elt F)) :
    after opsC W (Proc.devRef .tc main_v14) = refBin (refIdx (W (Proc.devRef .tc main_v4))) := by
  simp only [opsC]
  after_results_simp
  try simp only [cast_eq]
  all_goals rfl

/-- The operations computing the running sum of the counts. -/
abbrev opsD : List (HloOp τ sig (Elt F)) :=
  [
    StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S524800, .i32⟩) main_call3.call0.v0 main_call3.call0.v1 (fun x v => Host.reduceWindow IntOp.addi ![524800] ![1] ![524799] ![0] x v reduceWindows_S524800_S524800_w524800s1p524799_0 h_S_) ]

/-- The buffers those operations write. -/
abbrev opsD_W : List (Ref sig .tc) :=
  [main_call3.call0.c.ref, main_call3.call0.v0.ref, main_call3.call0.v1.ref]

theorem opsD_writes : (opsD : List (HloOp τ sig (Elt F))).Forall fun op =>
    op.writes ⊆ (opsD_W.map (Proc.devRef (τ := τ) .tc)).toFinset :=
  ⟨
    ws main_call3.call0.c.ref rfl (by decide), ws main_call3.call0.v0.ref rfl (by decide), ws main_call3.call0.v1.ref rfl (by decide)⟩

/-- A buffer those operations do not write keeps its contents through them. -/
theorem keepD (W : Valuation τ sig (Elt F)) (r : Ref sig .tc) (h : r ∉ opsD_W) :
    after opsD W (Proc.devRef .tc r) = W (Proc.devRef .tc r) :=
  after_of_writes_sub opsD W opsD_writes h

set_option maxRecDepth 8192 in
set_option maxHeartbeats 2000000 in
/-- From any contents, the operations leave the running sum of the counts in its buffer. -/
theorem stageD (W : Valuation τ sig (Elt F)) :
    after opsD W (Proc.devRef .tc main_v15) = refFlat (W (Proc.devRef .tc main_v14)) := by
  simp only [opsD]
  after_results_simp
  try simp only [cast_eq]
  all_goals rfl

/-- The operations computing the row numbers. -/
abbrev opsE : List (HloOp τ sig (Elt F)) :=
  [
    StableHlo.nullary main_c_5 (constantI S_ 32 1024#32),
    StableHlo.TRef.unary (.of main_c_5 : StableHlo.TRef sig ⟨S_, .i32⟩) main_call4.v0 (broadcastInDim S524800 ![] bcast_S_S524800),
    StableHlo.TRef.binary (.of main_v15 : StableHlo.TRef sig ⟨S524800, .i32⟩) main_call4.v0 main_call4.v1 Host.divsi,
    StableHlo.TRef.unary (.of main_v15 : StableHlo.TRef sig ⟨S524800, .i32⟩) main_call4.v2 signi,
    StableHlo.TRef.unary (.of main_c_5 : StableHlo.TRef sig ⟨S_, .i32⟩) main_call4.v3 signi,
    StableHlo.TRef.unary main_call4.v3 main_call4.v4 (broadcastInDim S524800 ![] bcast_S_S524800),
    StableHlo.TRef.binary main_call4.v2 main_call4.v4 main_call4.v5 (cmpi .ne),
    StableHlo.TRef.unary (.of main_c_5 : StableHlo.TRef sig ⟨S_, .i32⟩) main_call4.v6 (broadcastInDim S524800 ![] bcast_S_S524800),
    StableHlo.TRef.binary (.of main_v15 : StableHlo.TRef sig ⟨S524800, .i32⟩) main_call4.v6 main_call4.v7 Host.remsi,
    StableHlo.TRef.nullary main_call4.c (constantI S_ 32 0#32),
    StableHlo.TRef.unary main_call4.c main_call4.v8 (broadcastInDim S524800 ![] bcast_S_S524800),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S524800 ![] bcast_S_S524800),
    StableHlo.TRef.binary main_call4.v1 main_call4.v11 main_call4.v12 subi,
    StableHlo.TRef.ternary main_call4.v10 main_call4.v12 main_call4.v1 main_call4.call0.v0 select,
    StableHlo.nullary main_c_6 (constantI S_ 32 1024#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S524800 ![] bcast_S_S524800),
    StableHlo.TRef.binary (.of main_v16 : StableHlo.TRef sig ⟨S524800, .i32⟩) main_call5.v3 main_call5.v4 Host.remsi,
    StableHlo.TRef.nullary main_call5.c_1 (constantI S_ 32 0#32),
    StableHlo.TRef.unary main_call5.c_1 main_call5.v5 (broadcastInDim S524800 ![] bcast_S_S524800),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S524800 ![] bcast_S_S524800),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S524800 ![] bcast_S_S524800),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S524800 ![] bcast_S_S524800),
    StableHlo.TRef.binary main_call5.v4 main_call5.v13 main_call5.v14 addi,
    StableHlo.TRef.ternary main_call5.v12 main_call5.v14 main_call5.v4 main_call5.v15 select ]

/-- The buffers those operations write. -/
abbrev opsE_W : List (Ref sig .tc) :=
  [main_c_5, main_call4.v0.ref, main_call4.v1.ref, main_call4.v2.ref, main_call4.v3.ref, main_call4.v4.ref, main_call4.v5.ref, main_call4.v6.ref, main_call4.v7.ref, main_call4.c.ref, main_call4.v8.ref, main_call4.v9.ref, main_call4.v10.ref, main_call4.c_0.ref, main_call4.v11.ref, main_call4.v12.ref, main_call4.call0.v0.ref, main_c_6, main_call5.v0.ref, main_call5.c.ref, main_call5.v1.ref, main_call5.c_0.ref, main_call5.call0.v0.ref, main_call5.v3.ref, main_call5.v4.ref, main_call5.c_1.ref, main_call5.v5.ref, main_call5.v6.ref, main_call5.c_2.ref, main_call5.v7.ref, main_call5.v8.ref, main_call5.c_3.ref, main_call5.v9.ref, main_call5.v10.ref, main_call5.v11.ref, main_call5.v12.ref, main_call5.v13.ref, main_call5.v14.ref, main_call5.v15.ref]

theorem opsE_writes : (opsE : List (HloOp τ sig (Elt F))).Forall fun op =>
    op.writes ⊆ (opsE_W.map (Proc.devRef (τ := τ) .tc)).toFinset :=
  ⟨
    ws main_c_5 rfl (by decide), ws main_call4.v0.ref rfl (by decide), ws main_call4.v1.ref rfl (by decide), ws main_call4.v2.ref rfl (by decide),
    ws main_call4.v3.ref rfl (by decide), ws main_call4.v4.ref rfl (by decide), ws main_call4.v5.ref rfl (by decide), ws main_call4.v6.ref rfl (by decide),
    ws main_call4.v7.ref rfl (by decide), ws main_call4.c.ref rfl (by decide), ws main_call4.v8.ref rfl (by decide), ws main_call4.v9.ref rfl (by decide),
    ws main_call4.v10.ref rfl (by decide), ws main_call4.c_0.ref rfl (by decide), ws main_call4.v11.ref rfl (by decide), ws main_call4.v12.ref rfl (by decide),
    ws main_call4.call0.v0.ref rfl (by decide), ws main_c_6 rfl (by decide), ws main_call5.v0.ref rfl (by decide), ws main_call5.c.ref rfl (by decide),
    ws main_call5.v1.ref rfl (by decide), ws main_call5.c_0.ref rfl (by decide), ws main_call5.call0.v0.ref rfl (by decide), ws main_call5.v3.ref rfl (by decide),
    ws main_call5.v4.ref rfl (by decide), ws main_call5.c_1.ref rfl (by decide), ws main_call5.v5.ref rfl (by decide), ws main_call5.v6.ref rfl (by decide),
    ws main_call5.c_2.ref rfl (by decide), ws main_call5.v7.ref rfl (by decide), ws main_call5.v8.ref rfl (by decide), ws main_call5.c_3.ref rfl (by decide),
    ws main_call5.v9.ref rfl (by decide), ws main_call5.v10.ref rfl (by decide), ws main_call5.v11.ref rfl (by decide), ws main_call5.v12.ref rfl (by decide),
    ws main_call5.v13.ref rfl (by decide), ws main_call5.v14.ref rfl (by decide), ws main_call5.v15.ref rfl (by decide)⟩

/-- A buffer those operations do not write keeps its contents through them. -/
theorem keepE (W : Valuation τ sig (Elt F)) (r : Ref sig .tc) (h : r ∉ opsE_W) :
    after opsE W (Proc.devRef .tc r) = W (Proc.devRef .tc r) :=
  after_of_writes_sub opsE W opsE_writes h

set_option maxRecDepth 8192 in
set_option maxHeartbeats 2000000 in
/-- From any contents, the operations leave the row numbers in its buffer. -/
theorem stageE (W : Valuation τ sig (Elt F)) :
    after opsE W (Proc.devRef .tc main_v17) = refIu (W (Proc.devRef .tc main_v15)) := by
  simp only [opsE]
  after_results_simp
  try simp only [cast_eq]
  all_goals rfl

/-- The operations computing the column numbers. -/
abbrev opsF : List (HloOp τ sig (Elt F)) :=
  [
    StableHlo.nullary main_c_7 (constantI S_ 32 1#32),
    StableHlo.TRef.unary (.of main_c_7 : StableHlo.TRef sig ⟨S_, .i32⟩) main_call6.v0 (broadcastInDim S524800 ![] bcast_S_S524800),
    StableHlo.TRef.binary (.of main_v15 : StableHlo.TRef sig ⟨S524800, .i32⟩) main_call6.v0 main_call6.v1 Host.divsi,
    StableHlo.TRef.unary (.of main_v15 : StableHlo.TRef sig ⟨S524800, .i32⟩) main_call6.v2 signi,
    StableHlo.TRef.unary (.of main_c_7 : StableHlo.TRef sig ⟨S_, .i32⟩) main_call6.v3 signi,
    StableHlo.TRef.unary main_call6.v3 main_call6.v4 (broadcastInDim S524800 ![] bcast_S_S524800),
    StableHlo.TRef.binary main_call6.v2 main_call6.v4 main_call6.v5 (cmpi .ne),
    StableHlo.TRef.unary (.of main_c_7 : StableHlo.TRef sig ⟨S_, .i32⟩) main_call6.v6 (broadcastInDim S524800 ![] bcast_S_S524800),
    StableHlo.TRef.binary (.of main_v15 : StableHlo.TRef sig ⟨S524800, .i32⟩) main_call6.v6 main_call6.v7 Host.remsi,
    StableHlo.TRef.nullary main_call6.c (constantI S_ 32 0#32),
    StableHlo.TRef.unary main_call6.c main_call6.v8 (broadcastInDim S524800 ![] bcast_S_S524800),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S524800 ![] bcast_S_S524800),
    StableHlo.TRef.binary main_call6.v1 main_call6.v11 main_call6.v12 subi,
    StableHlo.TRef.ternary main_call6.v10 main_call6.v12 main_call6.v1 main_call6.call0.v0 select,
    StableHlo.nullary main_c_8 (constantI S_ 32 1024#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S524800 ![] bcast_S_S524800),
    StableHlo.TRef.binary (.of main_v18 : StableHlo.TRef sig ⟨S524800, .i32⟩) main_call7.v3 main_call7.v4 Host.remsi,
    StableHlo.TRef.nullary main_call7.c_1 (constantI S_ 32 0#32),
    StableHlo.TRef.unary main_call7.c_1 main_call7.v5 (broadcastInDim S524800 ![] bcast_S_S524800),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S524800 ![] bcast_S_S524800),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S524800 ![] bcast_S_S524800),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S524800 ![] bcast_S_S524800),
    StableHlo.TRef.binary main_call7.v4 main_call7.v13 main_call7.v14 addi,
    StableHlo.TRef.ternary main_call7.v12 main_call7.v14 main_call7.v4 main_call7.v15 select ]

/-- The buffers those operations write. -/
abbrev opsF_W : List (Ref sig .tc) :=
  [main_c_7, main_call6.v0.ref, main_call6.v1.ref, main_call6.v2.ref, main_call6.v3.ref, main_call6.v4.ref, main_call6.v5.ref, main_call6.v6.ref, main_call6.v7.ref, main_call6.c.ref, main_call6.v8.ref, main_call6.v9.ref, main_call6.v10.ref, main_call6.c_0.ref, main_call6.v11.ref, main_call6.v12.ref, main_call6.call0.v0.ref, main_c_8, main_call7.v0.ref, main_call7.c.ref, main_call7.v1.ref, main_call7.c_0.ref, main_call7.call0.v0.ref, main_call7.v3.ref, main_call7.v4.ref, main_call7.c_1.ref, main_call7.v5.ref, main_call7.v6.ref, main_call7.c_2.ref, main_call7.v7.ref, main_call7.v8.ref, main_call7.c_3.ref, main_call7.v9.ref, main_call7.v10.ref, main_call7.v11.ref, main_call7.v12.ref, main_call7.v13.ref, main_call7.v14.ref, main_call7.v15.ref]

theorem opsF_writes : (opsF : List (HloOp τ sig (Elt F))).Forall fun op =>
    op.writes ⊆ (opsF_W.map (Proc.devRef (τ := τ) .tc)).toFinset :=
  ⟨
    ws main_c_7 rfl (by decide), ws main_call6.v0.ref rfl (by decide), ws main_call6.v1.ref rfl (by decide), ws main_call6.v2.ref rfl (by decide),
    ws main_call6.v3.ref rfl (by decide), ws main_call6.v4.ref rfl (by decide), ws main_call6.v5.ref rfl (by decide), ws main_call6.v6.ref rfl (by decide),
    ws main_call6.v7.ref rfl (by decide), ws main_call6.c.ref rfl (by decide), ws main_call6.v8.ref rfl (by decide), ws main_call6.v9.ref rfl (by decide),
    ws main_call6.v10.ref rfl (by decide), ws main_call6.c_0.ref rfl (by decide), ws main_call6.v11.ref rfl (by decide), ws main_call6.v12.ref rfl (by decide),
    ws main_call6.call0.v0.ref rfl (by decide), ws main_c_8 rfl (by decide), ws main_call7.v0.ref rfl (by decide), ws main_call7.c.ref rfl (by decide),
    ws main_call7.v1.ref rfl (by decide), ws main_call7.c_0.ref rfl (by decide), ws main_call7.call0.v0.ref rfl (by decide), ws main_call7.v3.ref rfl (by decide),
    ws main_call7.v4.ref rfl (by decide), ws main_call7.c_1.ref rfl (by decide), ws main_call7.v5.ref rfl (by decide), ws main_call7.v6.ref rfl (by decide),
    ws main_call7.c_2.ref rfl (by decide), ws main_call7.v7.ref rfl (by decide), ws main_call7.v8.ref rfl (by decide), ws main_call7.c_3.ref rfl (by decide),
    ws main_call7.v9.ref rfl (by decide), ws main_call7.v10.ref rfl (by decide), ws main_call7.v11.ref rfl (by decide), ws main_call7.v12.ref rfl (by decide),
    ws main_call7.v13.ref rfl (by decide), ws main_call7.v14.ref rfl (by decide), ws main_call7.v15.ref rfl (by decide)⟩

/-- A buffer those operations do not write keeps its contents through them. -/
theorem keepF (W : Valuation τ sig (Elt F)) (r : Ref sig .tc) (h : r ∉ opsF_W) :
    after opsF W (Proc.devRef .tc r) = W (Proc.devRef .tc r) :=
  after_of_writes_sub opsF W opsF_writes h

set_option maxRecDepth 8192 in
set_option maxHeartbeats 2000000 in
/-- From any contents, the operations leave the column numbers in its buffer. -/
theorem stageF (W : Valuation τ sig (Elt F)) :
    after opsF W (Proc.devRef .tc main_v19) = refJu (W (Proc.devRef .tc main_v15)) := by
  simp only [opsF]
  after_results_simp
  try simp only [cast_eq]
  all_goals rfl

end Cert.ReferenceIdeal.Hand

end
-- ==== Proof.RefRunFloat.lean ====
/- The reference program's float stretch, stage by stage: the network on the gathered pairs, the matrix the values are
   scattered into, and the scaled product — for each the value its operations leave in its buffer, from any contents,
   as the whole-array function of what it reads. -/
import proofs.«163482_j91182155694480_1_alg».proof.Proof.RefFloatDefs
import proofs.«163482_j91182155694480_1_alg».proof.Proof.RefRunInt

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The operations computing the network's value on every pair. -/
abbrev opsG : List (HloOp τ sig (Elt F)) :=
  [
    StableHlo.nullary main_c_9 (constantI S_ 32 0#32),
    StableHlo.unary main_c_9 main_v20 (broadcastInDim S524800 ![] bcast_S_S524800 : (⟨S_, .i32⟩ : BufTy).Contents (Elt F) → (⟨S524800, .i32⟩ : BufTy).Contents (Elt F)),
    StableHlo.binary main_v17 main_v20 main_v21 (cmpi .slt : (⟨S524800, .i32⟩ : BufTy).Contents (Elt F) → (⟨S524800, .i32⟩ : BufTy).Contents (Elt F) → (⟨S524800, .i1⟩ : BufTy).Contents (Elt F)),
    StableHlo.nullary main_c_10 (constantI S_ 32 1024#32),
    StableHlo.unary main_c_10 main_v22 (broadcastInDim S524800 ![] bcast_S_S524800 : (⟨S_, .i32⟩ : BufTy).Contents (Elt F) → (⟨S524800, .i32⟩ : BufTy).Contents (Elt F)),
    StableHlo.binary main_v17 main_v22 main_v23 (addi : (⟨S524800, .i32⟩ : BufTy).Contents (Elt F) → (⟨S524800, .i32⟩ : BufTy).Contents (Elt F) → (⟨S524800, .i32⟩ : BufTy).Contents (Elt F)),
    StableHlo.ternary main_v21 main_v23 main_v17 main_v24 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.unary main_v24 main_v25 (broadcastInDim S524800x1 ![0] bcast_S524800_S524800x1_0 : (⟨S524800, .i32⟩ : BufTy).Contents (Elt F) → (⟨S524800x1, .i32⟩ : BufTy).Contents (Elt F)),
    StableHlo.binary main_arg0 main_v25 main_v26 ((fun x i => Host.gather gather_S1024_S524800x1_S524800_n_0_n_n_0_1_1 x i) : (⟨S1024, .f32⟩ : BufTy).Contents (Elt F) → (⟨S524800x1, .i32⟩ : BufTy).Contents (Elt F) → (⟨S524800, .f32⟩ : BufTy).Contents (Elt F)),
    StableHlo.nullary main_c_11 (constantI S_ 32 0#32),
    StableHlo.unary main_c_11 main_v27 (broadcastInDim S524800 ![] bcast_S_S524800 : (⟨S_, .i32⟩ : BufTy).Contents (Elt F) → (⟨S524800, .i32⟩ : BufTy).Contents (Elt F)),
    StableHlo.binary main_v19 main_v27 main_v28 (cmpi .slt : (⟨S524800, .i32⟩ : BufTy).Contents (Elt F) → (⟨S524800, .i32⟩ : BufTy).Contents (Elt F) → (⟨S524800, .i1⟩ : BufTy).Contents (Elt F)),
    StableHlo.nullary main_c_12 (constantI S_ 32 1024#32),
    StableHlo.unary main_c_12 main_v29 (broadcastInDim S524800 ![] bcast_S_S524800 : (⟨S_, .i32⟩ : BufTy).Contents (Elt F) → (⟨S524800, .i32⟩ : BufTy).Contents (Elt F)),
    StableHlo.binary main_v19 main_v29 main_v30 (addi : (⟨S524800, .i32⟩ : BufTy).Contents (Elt F) → (⟨S524800, .i32⟩ : BufTy).Contents (Elt F) → (⟨S524800, .i32⟩ : BufTy).Contents (Elt F)),
    StableHlo.ternary main_v28 main_v30 main_v19 main_v31 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.unary main_v31 main_v32 (broadcastInDim S524800x1 ![0] bcast_S524800_S524800x1_0 : (⟨S524800, .i32⟩ : BufTy).Contents (Elt F) → (⟨S524800x1, .i32⟩ : BufTy).Contents (Elt F)),
    StableHlo.binary main_arg0 main_v32 main_v33 ((fun x i => Host.gather gather_S1024_S524800x1_S524800_n_0_n_n_0_1_1 x i) : (⟨S1024, .f32⟩ : BufTy).Contents (Elt F) → (⟨S524800x1, .i32⟩ : BufTy).Contents (Elt F) → (⟨S524800, .f32⟩ : BufTy).Contents (Elt F)),
    StableHlo.unary main_v26 main_v34 (broadcastInDim S524800x1 ![0] bcast_S524800_S524800x1_0 : (⟨S524800, .f32⟩ : BufTy).Contents (Elt F) → (⟨S524800x1, .f32⟩ : BufTy).Contents (Elt F)),
    StableHlo.unary main_v33 main_v35 (broadcastInDim S524800x1 ![0] bcast_S524800_S524800x1_0 : (⟨S524800, .f32⟩ : BufTy).Contents (Elt F) → (⟨S524800x1, .f32⟩ : BufTy).Contents (Elt F)),
    StableHlo.binary main_v34 main_v35 main_v36 ((fun a b => concatenate S524800x2 1 [⟨S524800x1, a⟩, ⟨S524800x1, b⟩] concatenates_S524800x1_S524800x1_S524800x2_d1) : (⟨S524800x1, .f32⟩ : BufTy).Contents (Elt F) → (⟨S524800x1, .f32⟩ : BufTy).Contents (Elt F) → (⟨S524800x2, .f32⟩ : BufTy).Contents (Elt F)),
    StableHlo.unary main_arg1 main_v37 ((transpose S2x128 [1, 0] · transposes_S128x2_S2x128_1_0) : (⟨S128x2, .f32⟩ : BufTy).Contents (Elt F) → (⟨S2x128, .f32⟩ : BufTy).Contents (Elt F)),
    StableHlo.binary main_v36 main_v37 main_v38 ((fun l r => Host.dotGeneral dot_S524800x2_S2x128_S524800x128_1_0_0_1_n_n none l r) : (⟨S524800x2, .f32⟩ : BufTy).Contents (Elt F) → (⟨S2x128, .f32⟩ : BufTy).Contents (Elt F) → (⟨S524800x128, .f32⟩ : BufTy).Contents (Elt F)),
    StableHlo.unary main_arg2 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S524800x128 ![0, 1] bcast_S1x128_S524800x128_0_1 : (⟨S1x128, .f32⟩ : BufTy).Contents (Elt F) → (⟨S524800x128, .f32⟩ : BufTy).Contents (Elt F)),
    StableHlo.binary main_v38 main_v40 main_v41 (addf : (⟨S524800x128, .f32⟩ : BufTy).Contents (Elt F) → (⟨S524800x128, .f32⟩ : BufTy).Contents (Elt F) → (⟨S524800x128, .f32⟩ : BufTy).Contents (Elt F)),
    StableHlo.unary main_v41 main_v42 (Host.tanh : (⟨S524800x128, .f32⟩ : BufTy).Contents (Elt F) → (⟨S524800x128, .f32⟩ : BufTy).Contents (Elt F)),
    StableHlo.unary main_arg3 main_v43 ((transpose S128x32 [1, 0] · transposes_S32x128_S128x32_1_0) : (⟨S32x128, .f32⟩ : BufTy).Contents (Elt F) → (⟨S128x32, .f32⟩ : BufTy).Contents (Elt F)),
    StableHlo.binary main_v42 main_v43 main_v44 ((fun l r => Host.dotGeneral dot_S524800x128_S128x32_S524800x32_1_0_0_1_n_n none l r) : (⟨S524800x128, .f32⟩ : BufTy).Contents (Elt F) → (⟨S128x32, .f32⟩ : BufTy).Contents (Elt F) → (⟨S524800x32, .f32⟩ : BufTy).Contents (Elt F)),
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S524800x32 ![0, 1] bcast_S1x32_S524800x32_0_1 : (⟨S1x32, .f32⟩ : BufTy).Contents (Elt F) → (⟨S524800x32, .f32⟩ : BufTy).Contents (Elt F)),
    StableHlo.binary main_v44 main_v46 main_v47 (addf : (⟨S524800x32, .f32⟩ : BufTy).Contents (Elt F) → (⟨S524800x32, .f32⟩ : BufTy).Contents (Elt F) → (⟨S524800x32, .f32⟩ : BufTy).Contents (Elt F)),
    StableHlo.TRef.nullary main_call8.cst (constant S_ .f32 0x00000000#32),
    StableHlo.TRef.unary main_call8.cst main_call8.v0 (broadcastInDim S524800x32 ![] bcast_S_S524800x32),
    StableHlo.TRef.binary (.of main_v47 : StableHlo.TRef sig ⟨S524800x32, .f32⟩) main_call8.v0 main_call8.v1 maximumf,
    StableHlo.unary main_arg5 main_v49 ((transpose S32x1 [1, 0] · transposes_S1x32_S32x1_1_0) : (⟨S1x32, .f32⟩ : BufTy).Contents (Elt F) → (⟨S32x1, .f32⟩ : BufTy).Contents (Elt F)),
    StableHlo.binary main_v48 main_v49 main_v50 ((fun l r => Host.dotGeneral dot_S524800x32_S32x1_S524800x1_1_0_0_1_n_n none l r) : (⟨S524800x32, .f32⟩ : BufTy).Contents (Elt F) → (⟨S32x1, .f32⟩ : BufTy).Contents (Elt F) → (⟨S524800x1, .f32⟩ : BufTy).Contents (Elt F)),
    StableHlo.unary main_arg6 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S524800x1 ![0, 1] bcast_S1x1_S524800x1_0_1 : (⟨S1x1, .f32⟩ : BufTy).Contents (Elt F) → (⟨S524800x1, .f32⟩ : BufTy).Contents (Elt F)),
    StableHlo.binary main_v50 main_v52 main_v53 (addf : (⟨S524800x1, .f32⟩ : BufTy).Contents (Elt F) → (⟨S524800x1, .f32⟩ : BufTy).Contents (Elt F) → (⟨S524800x1, .f32⟩ : BufTy).Contents (Elt F)),
    StableHlo.reshape main_v53 main_v54 rfl shapeCasts_S524800x1_S524800 ]

/-- The buffers those operations write. -/
abbrev opsG_W : List (Ref sig .tc) :=
  [main_c_9, main_v20, main_v21, main_c_10, main_v22, main_v23, main_v24, main_v25, main_v26, main_c_11, main_v27, main_v28, main_c_12, main_v29, main_v30, main_v31, main_v32, main_v33, main_v34, main_v35, main_v36, main_v37, main_v38, main_v39, main_v40, main_v41, main_v42, main_v43, main_v44, main_v45, main_v46, main_v47, main_call8.cst.ref, main_call8.v0.ref, main_call8.v1.ref, main_v49, main_v50, main_v51, main_v52, main_v53, main_v54]

theorem opsG_writes : (opsG : List (HloOp τ sig (Elt F))).Forall fun op =>
    op.writes ⊆ (opsG_W.map (Proc.devRef (τ := τ) .tc)).toFinset :=
  ⟨
    ws main_c_9 rfl (by decide), ws main_v20 rfl (by decide), ws main_v21 rfl (by decide), ws main_c_10 rfl (by decide),
    ws main_v22 rfl (by decide), ws main_v23 rfl (by decide), ws main_v24 rfl (by decide), ws main_v25 rfl (by decide),
    ws main_v26 rfl (by decide), ws main_c_11 rfl (by decide), ws main_v27 rfl (by decide), ws main_v28 rfl (by decide),
    ws main_c_12 rfl (by decide), ws main_v29 rfl (by decide), ws main_v30 rfl (by decide), ws main_v31 rfl (by decide),
    ws main_v32 rfl (by decide), ws main_v33 rfl (by decide), ws main_v34 rfl (by decide), ws main_v35 rfl (by decide),
    ws main_v36 rfl (by decide), ws main_v37 rfl (by decide), ws main_v38 rfl (by decide), ws main_v39 rfl (by decide),
    ws main_v40 rfl (by decide), ws main_v41 rfl (by decide), ws main_v42 rfl (by decide), ws main_v43 rfl (by decide),
    ws main_v44 rfl (by decide), ws main_v45 rfl (by decide), ws main_v46 rfl (by decide), ws main_v47 rfl (by decide),
    ws main_call8.cst.ref rfl (by decide), ws main_call8.v0.ref rfl (by decide), ws main_call8.v1.ref rfl (by decide), ws main_v49 rfl (by decide),
    ws main_v50 rfl (by decide), ws main_v51 rfl (by decide), ws main_v52 rfl (by decide), ws main_v53 rfl (by decide),
    ws main_v54 rfl (by decide)⟩

/-- A buffer those operations do not write keeps its contents through them. -/
theorem keepG (W : Valuation τ sig (Elt F)) (r : Ref sig .tc) (h : r ∉ opsG_W) :
    after opsG W (Proc.devRef .tc r) = W (Proc.devRef .tc r) :=
  after_of_writes_sub opsG W opsG_writes h

set_option maxRecDepth 8192 in
set_option maxHeartbeats 2000000 in
/-- From any contents, the operations leave the network's value on every pair in its buffer. -/
theorem stageG (W : Valuation τ sig (Elt F)) :
    after opsG W (Proc.devRef .tc main_v54) = refV (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_v17)) (W (Proc.devRef .tc main_v19)) := by
  simp only [opsG]
  after_results_simp
  try simp only [cast_eq]
  all_goals rfl

/-- The operations computing the matrix the values are scattered into. -/
abbrev opsH : List (HloOp τ sig (Elt F)) :=
  [
    StableHlo.nullary main_v55 (iotaInDim S1024x1024 32 0),
    StableHlo.nullary main_v56 (iotaInDim S1024x1024 32 1),
    StableHlo.nullary main_c_13 (constantI S_ 32 0#32),
    StableHlo.unary main_c_13 main_v57 (broadcastInDim S1024x1024 ![] bcast_S_S1024x1024 : (⟨S_, .i32⟩ : BufTy).Contents (Elt F) → (⟨S1024x1024, .i32⟩ : BufTy).Contents (Elt F)),
    StableHlo.binary main_v55 main_v57 main_v58 (addi : (⟨S1024x1024, .i32⟩ : BufTy).Contents (Elt F) → (⟨S1024x1024, .i32⟩ : BufTy).Contents (Elt F) → (⟨S1024x1024, .i32⟩ : BufTy).Contents (Elt F)),
    StableHlo.binary main_v58 main_v56 main_v59 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v59 main_v60 (uitofp .f32 : (⟨S1024x1024, .i1⟩ : BufTy).Contents (Elt F) → (⟨S1024x1024, .f32⟩ : BufTy).Contents (Elt F)),
    StableHlo.binary main_v17 main_v19 main_v61 (cmpi .eq : (⟨S524800, .i32⟩ : BufTy).Contents (Elt F) → (⟨S524800, .i32⟩ : BufTy).Contents (Elt F) → (⟨S524800, .i1⟩ : BufTy).Contents (Elt F)),
    StableHlo.nullary main_cst_14 (constant S_ .f32 0x3F800000#32),
    StableHlo.TRef.unary (.of main_cst_14 : StableHlo.TRef sig ⟨S_, .f32⟩) main_call9.v0 id,
    StableHlo.TRef.unary main_call9.v0 main_call9.v1 (broadcastInDim S524800 ![] bcast_S_S524800),
    StableHlo.TRef.ternary (.of main_v61 : StableHlo.TRef sig ⟨S524800, .i1⟩) main_call9.v1 (.of main_v54 : StableHlo.TRef sig ⟨S524800, .f32⟩) main_call9.v2 select,
    StableHlo.nullary main_c_15 (constantI S_ 32 0#32),
    StableHlo.unary main_c_15 main_v63 (broadcastInDim S524800 ![] bcast_S_S524800 : (⟨S_, .i32⟩ : BufTy).Contents (Elt F) → (⟨S524800, .i32⟩ : BufTy).Contents (Elt F)),
    StableHlo.binary main_v17 main_v63 main_v64 (cmpi .slt : (⟨S524800, .i32⟩ : BufTy).Contents (Elt F) → (⟨S524800, .i32⟩ : BufTy).Contents (Elt F) → (⟨S524800, .i1⟩ : BufTy).Contents (Elt F)),
    StableHlo.nullary main_c_16 (constantI S_ 32 1024#32),
    StableHlo.unary main_c_16 main_v65 (broadcastInDim S524800 ![] bcast_S_S524800 : (⟨S_, .i32⟩ : BufTy).Contents (Elt F) → (⟨S524800, .i32⟩ : BufTy).Contents (Elt F)),
    StableHlo.binary main_v17 main_v65 main_v66 (addi : (⟨S524800, .i32⟩ : BufTy).Contents (Elt F) → (⟨S524800, .i32⟩ : BufTy).Contents (Elt F) → (⟨S524800, .i32⟩ : BufTy).Contents (Elt F)),
    StableHlo.ternary main_v64 main_v66 main_v17 main_v67 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.nullary main_c_17 (constantI S_ 32 0#32),
    StableHlo.unary main_c_17 main_v68 (broadcastInDim S524800 ![] bcast_S_S524800 : (⟨S_, .i32⟩ : BufTy).Contents (Elt F) → (⟨S524800, .i32⟩ : BufTy).Contents (Elt F)),
    StableHlo.binary main_v19 main_v68 main_v69 (cmpi .slt : (⟨S524800, .i32⟩ : BufTy).Contents (Elt F) → (⟨S524800, .i32⟩ : BufTy).Contents (Elt F) → (⟨S524800, .i1⟩ : BufTy).Contents (Elt F)),
    StableHlo.nullary main_c_18 (constantI S_ 32 1024#32),
    StableHlo.unary main_c_18 main_v70 (broadcastInDim S524800 ![] bcast_S_S524800 : (⟨S_, .i32⟩ : BufTy).Contents (Elt F) → (⟨S524800, .i32⟩ : BufTy).Contents (Elt F)),
    StableHlo.binary main_v19 main_v70 main_v71 (addi : (⟨S524800, .i32⟩ : BufTy).Contents (Elt F) → (⟨S524800, .i32⟩ : BufTy).Contents (Elt F) → (⟨S524800, .i32⟩ : BufTy).Contents (Elt F)),
    StableHlo.ternary main_v69 main_v71 main_v19 main_v72 (select : (⟨S524800, .i1⟩ : BufTy).Contents (Elt F) → (⟨S524800, .i32⟩ : BufTy).Contents (Elt F) → (⟨S524800, .i32⟩ : BufTy).Contents (Elt F) → (⟨S524800, .i32⟩ : BufTy).Contents (Elt F)),
    StableHlo.unary main_v67 main_v73 (broadcastInDim S524800x1 ![0] bcast_S524800_S524800x1_0 : (⟨S524800, .i32⟩ : BufTy).Contents (Elt F) → (⟨S524800x1, .i32⟩ : BufTy).Contents (Elt F)),
    StableHlo.unary main_v72 main_v74 (broadcastInDim S524800x1 ![0] bcast_S524800_S524800x1_0 : (⟨S524800, .i32⟩ : BufTy).Contents (Elt F) → (⟨S524800x1, .i32⟩ : BufTy).Contents (Elt F)),
    StableHlo.binary main_v73 main_v74 main_v75 ((fun a b => concatenate S524800x2 1 [⟨S524800x1, a⟩, ⟨S524800x1, b⟩] concatenates_S524800x1_S524800x1_S524800x2_d1) : (⟨S524800x1, .i32⟩ : BufTy).Contents (Elt F) → (⟨S524800x1, .i32⟩ : BufTy).Contents (Elt F) → (⟨S524800x2, .i32⟩ : BufTy).Contents (Elt F)),
    StableHlo.ternary main_v60 main_v75 main_v62 main_v76 ((fun x i u => Host.scatter scatter_S1024x1024_S524800x2_S524800_n_01_01_1 (fun _ b => b) x i u) : (⟨S1024x1024, .f32⟩ : BufTy).Contents (Elt F) → (⟨S524800x2, .i32⟩ : BufTy).Contents (Elt F) → (⟨S524800, .f32⟩ : BufTy).Contents (Elt F) → (⟨S1024x1024, .f32⟩ : BufTy).Contents (Elt F)) ]

/-- The buffers those operations write. -/
abbrev opsH_W : List (Ref sig .tc) :=
  [main_v55, main_v56, main_c_13, main_v57, main_v58, main_v59, main_v60, main_v61, main_cst_14, main_call9.v0.ref, main_call9.v1.ref, main_call9.v2.ref, main_c_15, main_v63, main_v64, main_c_16, main_v65, main_v66, main_v67, main_c_17, main_v68, main_v69, main_c_18, main_v70, main_v71, main_v72, main_v73, main_v74, main_v75, main_v76]

theorem opsH_writes : (opsH : List (HloOp τ sig (Elt F))).Forall fun op =>
    op.writes ⊆ (opsH_W.map (Proc.devRef (τ := τ) .tc)).toFinset :=
  ⟨
    ws main_v55 rfl (by decide), ws main_v56 rfl (by decide), ws main_c_13 rfl (by decide), ws main_v57 rfl (by decide),
    ws main_v58 rfl (by decide), ws main_v59 rfl (by decide), ws main_v60 rfl (by decide), ws main_v61 rfl (by decide),
    ws main_cst_14 rfl (by decide), ws main_call9.v0.ref rfl (by decide), ws main_call9.v1.ref rfl (by decide), ws main_call9.v2.ref rfl (by decide),
    ws main_c_15 rfl (by decide), ws main_v63 rfl (by decide), ws main_v64 rfl (by decide), ws main_c_16 rfl (by decide),
    ws main_v65 rfl (by decide), ws main_v66 rfl (by decide), ws main_v67 rfl (by decide), ws main_c_17 rfl (by decide),
    ws main_v68 rfl (by decide), ws main_v69 rfl (by decide), ws main_c_18 rfl (by decide), ws main_v70 rfl (by decide),
    ws main_v71 rfl (by decide), ws main_v72 rfl (by decide), ws main_v73 rfl (by decide), ws main_v74 rfl (by decide),
    ws main_v75 rfl (by decide), ws main_v76 rfl (by decide)⟩

/-- A buffer those operations do not write keeps its contents through them. -/
theorem keepH (W : Valuation τ sig (Elt F)) (r : Ref sig .tc) (h : r ∉ opsH_W) :
    after opsH W (Proc.devRef .tc r) = W (Proc.devRef .tc r) :=
  after_of_writes_sub opsH W opsH_writes h

set_option maxRecDepth 8192 in
set_option maxHeartbeats 2000000 in
/-- From any contents, the operations leave the matrix the values are scattered into in its buffer. -/
theorem stageH (W : Valuation τ sig (Elt F)) :
    after opsH W (Proc.devRef .tc main_v76) = refK (W (Proc.devRef .tc main_v54)) (W (Proc.devRef .tc main_v17)) (W (Proc.devRef .tc main_v19)) := by
  simp only [opsH]
  after_results_simp
  try simp only [cast_eq]
  all_goals rfl

/-- The operations computing the scaled product. -/
abbrev opsI : List (HloOp τ sig (Elt F)) :=
  [
    StableHlo.reshape main_arg7 main_v77 rfl shapeCasts_S1_S_,
    StableHlo.binary main_v77 main_v77 main_v78 (mulf : (⟨S_, .f32⟩ : BufTy).Contents (Elt F) → (⟨S_, .f32⟩ : BufTy).Contents (Elt F) → (⟨S_, .f32⟩ : BufTy).Contents (Elt F)),
    StableHlo.unary main_v76 main_v79 ((transpose S1024x1024 [1, 0] · transposes_S1024x1024_S1024x1024_1_0) : (⟨S1024x1024, .f32⟩ : BufTy).Contents (Elt F) → (⟨S1024x1024, .f32⟩ : BufTy).Contents (Elt F)),
    StableHlo.binary main_v79 main_v76 main_v80 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    StableHlo.unary main_v78 main_v81 (broadcastInDim S1024x1024 ![] bcast_S_S1024x1024 : (⟨S_, .f32⟩ : BufTy).Contents (Elt F) → (⟨S1024x1024, .f32⟩ : BufTy).Contents (Elt F)),
    StableHlo.binary main_v81 main_v80 main_v82 (mulf : (⟨S1024x1024, .f32⟩ : BufTy).Contents (Elt F) → (⟨S1024x1024, .f32⟩ : BufTy).Contents (Elt F) → (⟨S1024x1024, .f32⟩ : BufTy).Contents (Elt F)) ]

/-- The buffers those operations write. -/
abbrev opsI_W : List (Ref sig .tc) :=
  [main_v77, main_v78, main_v79, main_v80, main_v81, main_v82]

theorem opsI_writes : (opsI : List (HloOp τ sig (Elt F))).Forall fun op =>
    op.writes ⊆ (opsI_W.map (Proc.devRef (τ := τ) .tc)).toFinset :=
  ⟨
    ws main_v77 rfl (by decide), ws main_v78 rfl (by decide), ws main_v79 rfl (by decide), ws main_v80 rfl (by decide),
    ws main_v81 rfl (by decide), ws main_v82 rfl (by decide)⟩

/-- A buffer those operations do not write keeps its contents through them. -/
theorem keepI (W : Valuation τ sig (Elt F)) (r : Ref sig .tc) (h : r ∉ opsI_W) :
    after opsI W (Proc.devRef .tc r) = W (Proc.devRef .tc r) :=
  after_of_writes_sub opsI W opsI_writes h

set_option maxRecDepth 8192 in
set_option maxHeartbeats 2000000 in
/-- From any contents, the operations leave the scaled product in its buffer. -/
theorem stageI (W : Valuation τ sig (Elt F)) :
    after opsI W (Proc.devRef .tc main_v82) = refOut (W (Proc.devRef .tc main_v76)) (W (Proc.devRef .tc main_arg7)) := by
  simp only [opsI]
  after_results_simp
  try simp only [cast_eq]
  all_goals rfl

end Cert.ReferenceIdeal.Hand

end
-- ==== Proof.RefRunRes.lean ====
/- The reference program's result as a closed function of its arguments: the fold of @main's operations at the result
   buffer is the scaled product of the scattered matrix, the matrix that of the network's values on the row and column
   numbers, those the closed index pipeline's — each stretch's value read off its own operations and carried through
   the stretches that do not write its buffer. -/
import proofs.«163482_j91182155694480_1_alg».proof.Proof.RefRun
import proofs.«163482_j91182155694480_1_alg».proof.Proof.RefRunFloat

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
/-- The whole line is the nine stretches, one after the other. -/
theorem ops_stages :
    (ops : List (HloOp τ sig (Elt F)))
      = opsA ++ (opsB ++ (opsC ++ (opsD ++ (opsE ++ (opsF ++ (opsG ++ (opsH ++ opsI))))))) := rfl

/-- The result buffer after @main's operations, from any contents: the closed function of the eight arguments. -/
theorem res_eq (V : Valuation τ sig (Elt F)) :
    after ops V (Proc.devRef .tc main_v82)
      = refOut (refK (refV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (refIu (refFlat (refBin (refIdx (refCs (refMask (F := F))))))) (refJu (refFlat (refBin (refIdx (refCs (refMask (F := F)))))))) (refIu (refFlat (refBin (refIdx (refCs (refMask (F := F))))))) (refJu (refFlat (refBin (refIdx (refCs (refMask (F := F)))))))) (V (Proc.devRef .tc main_arg7)) := by
  rw [ops_stages]
  simp only [StableHlo.after_append]
  have e3 : after opsA V (Proc.devRef .tc main_v3) = (refMask (F := F)) := stageA V
  have e4 : after opsB (after opsA V) (Proc.devRef .tc main_v4) = (refCs (refMask (F := F))) := by rw [stageB, e3]
  have e14 : after opsC (after opsB (after opsA V)) (Proc.devRef .tc main_v14) = (refBin (refIdx (refCs (refMask (F := F))))) := by rw [stageC, e4]
  have e15 : after opsD (after opsC (after opsB (after opsA V))) (Proc.devRef .tc main_v15) = (refFlat (refBin (refIdx (refCs (refMask (F := F)))))) := by rw [stageD, e14]
  have e17 : after opsE (after opsD (after opsC (after opsB (after opsA V)))) (Proc.devRef .tc main_v17) = (refIu (refFlat (refBin (refIdx (refCs (refMask (F := F))))))) := by rw [stageE, e15]
  have e19 : after opsF (after opsE (after opsD (after opsC (after opsB (after opsA V))))) (Proc.devRef .tc main_v19) = (refJu (refFlat (refBin (refIdx (refCs (refMask (F := F))))))) := by
    rw [stageF, keepE _ main_v15 (by decide), e15]
  have e17F : after opsF (after opsE (after opsD (after opsC (after opsB (after opsA V))))) (Proc.devRef .tc main_v17) = (refIu (refFlat (refBin (refIdx (refCs (refMask (F := F))))))) := by
    rw [keepF _ main_v17 (by decide), e17]
  have a0 : after opsF (after opsE (after opsD (after opsC (after opsB (after opsA V))))) (Proc.devRef .tc main_arg0) = (V (Proc.devRef .tc main_arg0)) := by
    rw [keepF _ main_arg0 (by decide), keepE _ main_arg0 (by decide), keepD _ main_arg0 (by decide), keepC _ main_arg0 (by decide), keepB _ main_arg0 (by decide), keepA _ main_arg0 (by decide)]
  have a1 : after opsF (after opsE (after opsD (after opsC (after opsB (after opsA V))))) (Proc.devRef .tc main_arg1) = (V (Proc.devRef .tc main_arg1)) := by
    rw [keepF _ main_arg1 (by decide), keepE _ main_arg1 (by decide), keepD _ main_arg1 (by decide), keepC _ main_arg1 (by decide), keepB _ main_arg1 (by decide), keepA _ main_arg1 (by decide)]
  have a2 : after opsF (after opsE (after opsD (after opsC (after opsB (after opsA V))))) (Proc.devRef .tc main_arg2) = (V (Proc.devRef .tc main_arg2)) := by
    rw [keepF _ main_arg2 (by decide), keepE _ main_arg2 (by decide), keepD _ main_arg2 (by decide), keepC _ main_arg2 (by decide), keepB _ main_arg2 (by decide), keepA _ main_arg2 (by decide)]
  have a3 : after opsF (after opsE (after opsD (after opsC (after opsB (after opsA V))))) (Proc.devRef .tc main_arg3) = (V (Proc.devRef .tc main_arg3)) := by
    rw [keepF _ main_arg3 (by decide), keepE _ main_arg3 (by decide), keepD _ main_arg3 (by decide), keepC _ main_arg3 (by decide), keepB _ main_arg3 (by decide), keepA _ main_arg3 (by decide)]
  have a4 : after opsF (after opsE (after opsD (after opsC (after opsB (after opsA V))))) (Proc.devRef .tc main_arg4) = (V (Proc.devRef .tc main_arg4)) := by
    rw [keepF _ main_arg4 (by decide), keepE _ main_arg4 (by decide), keepD _ main_arg4 (by decide), keepC _ main_arg4 (by decide), keepB _ main_arg4 (by decide), keepA _ main_arg4 (by decide)]
  have a5 : after opsF (after opsE (after opsD (after opsC (after opsB (after opsA V))))) (Proc.devRef .tc main_arg5) = (V (Proc.devRef .tc main_arg5)) := by
    rw [keepF _ main_arg5 (by decide), keepE _ main_arg5 (by decide), keepD _ main_arg5 (by decide), keepC _ main_arg5 (by decide), keepB _ main_arg5 (by decide), keepA _ main_arg5 (by decide)]
  have a6 : after opsF (after opsE (after opsD (after opsC (after opsB (after opsA V))))) (Proc.devRef .tc main_arg6) = (V (Proc.devRef .tc main_arg6)) := by
    rw [keepF _ main_arg6 (by decide), keepE _ main_arg6 (by decide), keepD _ main_arg6 (by decide), keepC _ main_arg6 (by decide), keepB _ main_arg6 (by decide), keepA _ main_arg6 (by decide)]
  have e54 : after opsG (after opsF (after opsE (after opsD (after opsC (after opsB (after opsA V)))))) (Proc.devRef .tc main_v54) = (refV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (refIu (refFlat (refBin (refIdx (refCs (refMask (F := F))))))) (refJu (refFlat (refBin (refIdx (refCs (refMask (F := F)))))))) := by
    rw [stageG, a0, a1, a2, a3, a4, a5, a6, e17F, e19]
  have e17G : after opsG (after opsF (after opsE (after opsD (after opsC (after opsB (after opsA V)))))) (Proc.devRef .tc main_v17) = (refIu (refFlat (refBin (refIdx (refCs (refMask (F := F))))))) := by
    rw [keepG _ main_v17 (by decide), e17F]
  have e19G : after opsG (after opsF (after opsE (after opsD (after opsC (after opsB (after opsA V)))))) (Proc.devRef .tc main_v19) = (refJu (refFlat (refBin (refIdx (refCs (refMask (F := F))))))) := by
    rw [keepG _ main_v19 (by decide), e19]
  have a7 : after opsH (after opsG (after opsF (after opsE (after opsD (after opsC (after opsB (after opsA V))))))) (Proc.devRef .tc main_arg7) = (V (Proc.devRef .tc main_arg7)) := by
    rw [keepH _ main_arg7 (by decide), keepG _ main_arg7 (by decide), keepF _ main_arg7 (by decide), keepE _ main_arg7 (by decide), keepD _ main_arg7 (by decide), keepC _ main_arg7 (by decide), keepB _ main_arg7 (by decide), keepA _ main_arg7 (by decide)]
  have e76 : after opsH (after opsG (after opsF (after opsE (after opsD (after opsC (after opsB (after opsA V))))))) (Proc.devRef .tc main_v76) = (refK (refV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (refIu (refFlat (refBin (refIdx (refCs (refMask (F := F))))))) (refJu (refFlat (refBin (refIdx (refCs (refMask (F := F)))))))) (refIu (refFlat (refBin (refIdx (refCs (refMask (F := F))))))) (refJu (refFlat (refBin (refIdx (refCs (refMask (F := F)))))))) := by
    rw [stageH, e54, e17G, e19G]
  rw [stageI, e76, a7]

end Cert.ReferenceIdeal.Hand

end
-- ==== Proof.RefRunIdeal.lean ====
/- The reference program's result at the ideal instance, as the closed function `refResult` of its eight arguments. -/
import proofs.«163482_j91182155694480_1_alg».proof.Proof.RefRunRes
import proofs.«163482_j91182155694480_1_alg».proof.Proof.RefValue

noncomputable section

namespace Cert.ReferenceIdeal.Hand

open Cert.ReferenceIdeal Idealize.ShloMosaic Idealize.ShloMosaic.TcCoe Idealize.SL.Sem Idealize.ShloMosaic.StableHlo

variable [Facts]
open Facts₀ Facts

/-- At the ideal instance, from any contents: the result buffer after @main's operations is `refResult` of the eight
    argument buffers' contents. -/
theorem res_eq_ideal (V : Valuation τ sig (Elt Ideal)) :
    after ops V (Proc.devRef .tc main_v82)
      = refResult (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [refResult]
  exact res_eq (F := Ideal) V

end Cert.ReferenceIdeal.Hand

end
-- ==== Proof.lean ====
/-
  The certificate's five claims.

  Both programs compute, from a time vector x and the weights of a small pairwise network, the matrix
  K (one on the diagonal, the network's value v(x_i, x_j) strictly above it, zero below) and then σ² KᵀK.
  The kernel program forms σK tile by tile and multiplies (σK)ᵀ(σK), 512 x 512 blocks accumulated over the
  two halves of the contraction; the reference lists the upper-triangular pairs in row-major order at run
  time, evaluates the network on the list, writes the values into the identity matrix and multiplies
  (σ·σ)·(KᵀK). On the extended reals the two results agree entry by entry once every input is a real
  number — the one law used is that a real factor moves across a finite sum of reals — and the
  precondition says exactly that. The three frames are the runs with the value forgotten; the word-level
  kernel program is, line for line, the idealized one, so its run is the same proof at the other instance.
-/
import proofs.«163482_j91182155694480_1_alg».proof.Defs
import proofs.«163482_j91182155694480_1_alg».proof.Proof.Gen.Kernel
import proofs.«163482_j91182155694480_1_alg».proof.Proof.Gen.KernelIdeal
import proofs.«163482_j91182155694480_1_alg».proof.Proof.Gen.ReferenceIdeal
import proofs.«163482_j91182155694480_1_alg».proof.Proof.Gen.Pre_finite_inputs
import proofs.«163482_j91182155694480_1_alg».proof.Proof.Frames
import proofs.«163482_j91182155694480_1_alg».proof.Proof.Alg
import proofs.«163482_j91182155694480_1_alg».proof.Proof.RefRunIdeal

noncomputable section

namespace Cert.Proof

open Idealize.ShloMosaic Idealize.SL.Sem

/-- Entry by entry the kernel's result is Σₖ (σ K[k,m]) (σ K[k,n]) and the reference's (σ σ) Σₖ K[k,m] K[k,n], with one K
    of the agreeing arguments: the reference's result buffer is that closed function of its arguments. -/
theorem algebraic : @Cert.algebraic_KernelIdeal_ReferenceIdeal Cert.KernelIdeal.Gen.facts Cert.ReferenceIdeal.Gen.facts Cert.Pre_finite_inputs.Gen.facts :=
  Cert.Proof.algebraic_of (fun V => Cert.ReferenceIdeal.Hand.res_eq_ideal V)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
